-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S96x10 : Shape := ⟨2, ![96, 10]⟩
abbrev S10 : Shape := ⟨1, ![10]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S96x10 : S_.BroadcastsInDim S96x10 (![] : Fin 0 → Fin S96x10.rank)
  reducesTo_S96x10_S_d0_1 : S96x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S10 .f32) (main_v33 : IVec S_ 1) : IVec S_ 1 :=
  let main_v34 : FVec F S10 .f32 := Host.absf main_arg8
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg5 : FVec F S3x96 .f32) (main_arg6 : FVec F S3x96 .f32) (main_arg7 : FVec F S96x10 .f32) (main_arg8 : FVec F S10 .f32) (main_v13 : IVec S_ 1) (main_v16 : IVec S3x96 1) : IVec S_ 1 :=
  let main_c_5 : IVec S_ 1 := constantI S_ 1 1#1
  let main_v17 : IVec S_ 1 := (fun x v => Host.reduce IntOp.andi x v reducesTo_S3x96_S_d0_1 h_S_) main_v16 main_c_5
  let main_v18 : IVec S_ 1 := andi main_v13 main_v17
  let main_v19 : FVec F S3x96 .f32 := Host.absf main_arg5
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S3x96 .f32 := Host.absf main_arg6
  let main_cst_8 : FVec F S_ .f32 := constant S_ .f32 0x7F800000#32
  let main_v25 : FVec F S3x96 .f32 := broadcastInDim S3x96 ![] bcast_S_S3x96 main_cst_8
  let main_v26 : IVec S3x96 1 := cmpf .olt main_v24 main_v25
  let main_c_9 : IVec S_ 1 := constantI S_ 1 1#1
  let main_v27 : IVec S_ 1 := (fun x v => Host.reduce IntOp.andi x v reducesTo_S3x96_S_d0_1 h_S_) main_v26 main_c_9
  let main_v28 : IVec S_ 1 := andi main_v23 main_v27
  let main_v29 : FVec F S96x10 .f32 := Host.absf main_arg7
  let main_cst_10 : FVec F S_ .f32 := constant S_ .f32 0x7F800000#32
  let main_v30 : FVec F S96x10 .f32 := broadcastInDim S96x10 ![] bcast_S_S96x10 main_cst_10
  let main_v31 : IVec S96x10 1 := cmpf .olt main_v29 main_v30
  let main_c_11 : IVec S_ 1 := constantI S_ 1 1#1
  let main_v32 : IVec S_ 1 := (fun x v => Host.reduce IntOp.andi x v reducesTo_S96x10_S_d0_1 h_S_) main_v31 main_c_11
  let main_v33 : IVec S_ 1 := andi main_v28 main_v32
  fn_part2 (F := F) main_arg8 main_v33

def fn {F : FTy → Type} [FloatOps F] (main_arg0 : FVec F S50000x96 .f32) (main_arg1 : IVec S2x800000 32) (main_arg2 : FVec F S3x96x96 .f32) (main_arg3 : FVec F S3x96x96 .f32) (main_arg4 : FVec F S3x96 .f32) (main_arg5 : FVec F S3x96 .f32) (main_arg6 : FVec F S3x96 .f32) (main_arg7 : FVec F S96x10 .f32) (main_arg8 : FVec F S10 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S3x96x96 .f32 := Host.absf main_arg2
  let main_cst_0 : FVec F S_ .f32 := constant S_ .f32 0x7F800000#32
  let main_v5 : FVec F S3x96x96 .f32 := broadcastInDim S3x96x96 ![] bcast_S_S3x96x96 main_cst_0
  let main_v6 : IVec S3x96x96 1 := cmpf .olt main_v4 main_v5
  let main_c_1 : IVec S_ 1 := constantI S_ 1 1#1
  let main_v7 : IVec S_ 1 := (fun x v => Host.reduce IntOp.andi x v reducesTo_S3x96x96_S_d0_1_2 h_S_) main_v6 main_c_1
  let main_v8 : IVec S_ 1 := andi main_v3 main_v7
  let main_v9 : FVec F S3x96x96 .f32 := Host.absf main_arg3
  let main_cst_2 : FVec F S_ .f32 := constant S_ .f32 0x7F800000#32
  let main_v10 : FVec F S3x96x96 .f32 := broadcastInDim S3x96x96 ![] bcast_S_S3x96x96 main_cst_2
  let main_v11 : IVec S3x96x96 1 := cmpf .olt main_v9 main_v10
  let main_c_3 : IVec S_ 1 := constantI S_ 1 1#1
  let main_v12 : IVec S_ 1 := (fun x v => Host.reduce IntOp.andi x v reducesTo_S3x96x96_S_d0_1_2 h_S_) main_v11 main_c_3
  let main_v13 : IVec S_ 1 := andi main_v8 main_v12
  let main_v14 : FVec F S3x96 .f32 := Host.absf main_arg4
  let main_cst_4 : FVec F S_ .f32 := constant S_ .f32 0x7F800000#32
  let main_v15 : FVec F S3x96 .f32 := broadcastInDim S3x96 ![] bcast_S_S3x96 main_cst_4
  let main_v16 : IVec S3x96 1 := cmpf .olt main_v14 main_v15
  fn_part1 (F := F) main_arg5 main_arg6 main_arg7 main_arg8 main_v13 main_v16
-- ==== Kernel.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S1x96x96 : Shape := ⟨3, ![1, 96, 96]⟩
abbrev S96x96 : Shape := ⟨2, ![96, 96]⟩
abbrev S1x96 : Shape := ⟨2, ![1, 96]⟩
abbrev S96 : Shape := ⟨1, ![96]⟩
abbrev S80x96 : Shape := ⟨2, ![80, 96]⟩
abbrev S5000x96 : Shape := ⟨2, ![5000, 96]⟩
abbrev S5000x1 : Shape := ⟨2, ![5000, 1]⟩
abbrev S8x96 : Shape := ⟨2, ![8, 96]⟩
abbrev S50000x10 : Shape := ⟨2, ![50000, 10]⟩
abbrev S5000x10 : Shape := ⟨2, ![5000, 10]⟩
abbrev S1x10 : Shape := ⟨2, ![1, 10]⟩

abbrev nBuf : Space → Nat
  | .hbm => 152
  | .vmem => 71
  | .smem => 0
  | _ => 0

abbrev hbmTy0_0 (i : Nat) : BufTy := match i % 128 with
  | 0 => ⟨S50000x96, .f32⟩
  | 1 => ⟨S2x800000, .i32⟩
  | 2 => ⟨S3x96x96, .f32⟩
  | 3 => ⟨S3x96x96, .f32⟩
  | 4 => ⟨S3x96, .f32⟩
  | 5 => ⟨S3x96, .f32⟩
  | 6 => ⟨S3x96, .f32⟩
  | 7 => ⟨S96x10, .f32⟩
  | 8 => ⟨S10, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x96, .f32⟩
  | 35 => ⟨S_, .f32⟩
  | 36 => ⟨S50000x96, .f32⟩
  | 37 => ⟨S800000x1, .i32⟩
  | 38 => ⟨S50000x96, .f32⟩
  | 39 => ⟨S1x96x96, .f32⟩
  | 40 => ⟨S96x96, .f32⟩
  | 41 => ⟨S1x96x96, .f32⟩
  | 42 => ⟨S96x96, .f32⟩
  | 43 => ⟨S1x96, .f32⟩
  | 44 => ⟨S96, .f32⟩
  | 45 => ⟨S50000x96, .f32⟩
  | 46 => ⟨S80x96, .f32⟩
  | 47 => ⟨S80x96, .f32⟩
  | 48 => ⟨S_, .f32⟩
  | 49 => ⟨S96, .f32⟩
  | 50 => ⟨S_, .f32⟩
  | 51 => ⟨S96, .f32⟩
  | 52 => ⟨S96, .f32⟩
  | 53 => ⟨S_, .f32⟩
  | 54 => ⟨S96, .f32⟩
  | 55 => ⟨S_, .f32⟩
  | 56 => ⟨S96, .f32⟩
  | 57 => ⟨S96, .f32⟩
  | 58 => ⟨S96, .f32⟩
  | 59 => ⟨S96, .f32⟩
  | 60 => ⟨S_, .f32⟩
  | 61 => ⟨S96, .f32⟩
  | 62 => ⟨S96, .f32⟩
  | 63 => ⟨S1x96, .f32⟩
  | 64 => ⟨S96, .f32⟩
  | 65 => ⟨S1x96, .f32⟩
  | 66 => ⟨S96, .f32⟩
  | 67 => ⟨S50000x96, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x96, .f32⟩
  | 77 => ⟨S_, .f32⟩
  | 78 => ⟨S50000x96, .f32⟩
  | 79 => ⟨S800000x1, .i32⟩
  | 80 => ⟨S50000x96, .f32⟩
  | 81 => ⟨S1x96x96, .f32⟩
  | 82 => ⟨S96x96, .f32⟩
  | 83 => ⟨S1x96x96, .f32⟩
  | 84 => ⟨S96x96, .f32⟩
  | 85 => ⟨S1x96, .f32⟩
  | 86 => ⟨S96, .f32⟩
  | 87 => ⟨S50000x96, .f32⟩
  | 88 => ⟨S80x96, .f32⟩
  | 89 => ⟨S80x96, .f32⟩
  | 90 => ⟨S_, .f32⟩
  | 91 => ⟨S96, .f32⟩
  | 92 => ⟨S_, .f32⟩
  | 93 => ⟨S96, .f32⟩
  | 94 => ⟨S96, .f32⟩
  | 95 => ⟨S_, .f32⟩
  | 96 => ⟨S96, .f32⟩
  | 97 => ⟨S_, .f32⟩
  | 98 => ⟨S96, .f32⟩
  | 99 => ⟨S96, .f32⟩
  | 100 => ⟨S96, .f32⟩
  | 101 => ⟨S96, .f32⟩
  | 102 => ⟨S_, .f32⟩
  | 103 => ⟨S96, .f32⟩
  | 104 => ⟨S96, .f32⟩
  | 105 => ⟨S1x96, .f32⟩
  | 106 => ⟨S96, .f32⟩
  | 107 => ⟨S1x96, .f32⟩
  | 108 => ⟨S96, .f32⟩
  | 109 => ⟨S50000x96, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x96, .f32⟩
  | 119 => ⟨S_, .f32⟩
  | 120 => ⟨S50000x96, .f32⟩
  | 121 => ⟨S800000x1, .i32⟩
  | 122 => ⟨S50000x96, .f32⟩
  | 123 => ⟨S1x96x96, .f32⟩
  | 124 => ⟨S96x96, .f32⟩
  | 125 => ⟨S1x96x96, .f32⟩
  | 126 => ⟨S96x96, .f32⟩
  | 127 => ⟨S1x96, .f32⟩
  | _ => ⟨S50000x96, .f32⟩

abbrev hbmTy0_1 (i : Nat) : BufTy := match i % 128 with
  | 0 => ⟨S96, .f32⟩
  | 1 => ⟨S50000x96, .f32⟩
  | 2 => ⟨S80x96, .f32⟩
  | 3 => ⟨S80x96, .f32⟩
  | 4 => ⟨S_, .f32⟩
  | 5 => ⟨S96, .f32⟩
  | 6 => ⟨S_, .f32⟩
  | 7 => ⟨S96, .f32⟩
  | 8 => ⟨S96, .f32⟩
  | 9 => ⟨S_, .f32⟩
  | 10 => ⟨S96, .f32⟩
  | 11 => ⟨S_, .f32⟩
  | 12 => ⟨S96, .f32⟩
  | 13 => ⟨S96, .f32⟩
  | 14 => ⟨S96, .f32⟩
  | 15 => ⟨S96, .f32⟩
  | 16 => ⟨S_, .f32⟩
  | 17 => ⟨S96, .f32⟩
  | 18 => ⟨S96, .f32⟩
  | 19 => ⟨S1x96, .f32⟩
  | 20 => ⟨S96, .f32⟩
  | 21 => ⟨S1x96, .f32⟩
  | 22 => ⟨S96, .f32⟩
  | 23 => ⟨S50000x10, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S5000x1, .f32⟩
  | .local _ .vmem, ⟨5, _⟩ => ⟨S5000x1, .f32⟩
  | .local _ .vmem, ⟨6, _⟩ => ⟨S96x96, .f32⟩
  | .local _ .vmem, ⟨7, _⟩ => ⟨S96x96, .f32⟩
  | .local _ .vmem, ⟨8, _⟩ => ⟨S96, .f32⟩
  | .local _ .vmem, ⟨9, _⟩ => ⟨S5000x96, .f32⟩
  | .local _ .vmem, ⟨10, _⟩ => ⟨S5000x96, .f32⟩
  | .local _ .vmem, ⟨11, _⟩ => ⟨S8x96, .f32⟩
  | .local _ .vmem, ⟨12, _⟩ => ⟨S8x96, .f32⟩
  | .local _ .vmem, ⟨13, _⟩ => ⟨S8x96, .f32⟩
  | .local _ .vmem, ⟨14, _⟩ => ⟨S8x96, .f32⟩
  | .local _ .vmem, ⟨15, _⟩ => ⟨S5000x96, .f32⟩
  | .local _ .vmem, ⟨16, _⟩ => ⟨S5000x96, .f32⟩
  | .local _ .vmem, ⟨17, _⟩ => ⟨S96, .f32⟩
  | .local _ .vmem, ⟨18, _⟩ => ⟨S96, .f32⟩
  | .local _ .vmem, ⟨19, _⟩ => ⟨S96, .f32⟩
  | .local _ .vmem, ⟨20, _⟩ => ⟨S96, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S5000x1, .f32⟩
  | .local _ .vmem, ⟨28, _⟩ => ⟨S5000x1, .f32⟩
  | .local _ .vmem, ⟨29, _⟩ => ⟨S96x96, .f32⟩
  | .local _ .vmem, ⟨30, _⟩ => ⟨S96x96, .f32⟩
  | .local _ .vmem, ⟨31, _⟩ => ⟨S96, .f32⟩
  | .local _ .vmem, ⟨32, _⟩ => ⟨S5000x96, .f32⟩
  | .local _ .vmem, ⟨33, _⟩ => ⟨S5000x96, .f32⟩
  | .local _ .vmem, ⟨34, _⟩ => ⟨S8x96, .f32⟩
  | .local _ .vmem, ⟨35, _⟩ => ⟨S8x96, .f32⟩
  | .local _ .vmem, ⟨36, _⟩ => ⟨S8x96, .f32⟩
  | .local _ .vmem, ⟨37, _⟩ => ⟨S8x96, .f32⟩
  | .local _ .vmem, ⟨38, _⟩ => ⟨S5000x96, .f32⟩
  | .local _ .vmem, ⟨39, _⟩ => ⟨S5000x96, .f32⟩
  | .local _ .vmem, ⟨40, _⟩ => ⟨S96, .f32⟩
  | .local _ .vmem, ⟨41, _⟩ => ⟨S96, .f32⟩
  | .local _ .vmem, ⟨42, _⟩ => ⟨S96, .f32⟩
  | .local _ .vmem, ⟨43, _⟩ => ⟨S96, .f32⟩
  | .local _ .vmem, ⟨44, _⟩ => ⟨S5000x96, .f32⟩
  | .local _ .vmem, ⟨45, _⟩ => ⟨S5000x96, .f32⟩
  | .local _ .vmem, ⟨46, _⟩ => ⟨S5000x96, .f32⟩
  | .local _ .vmem, ⟨47, _⟩ => ⟨S5000x96, .f32⟩
  | .local _ .vmem, ⟨48, _⟩ => ⟨S5000x96, .f32⟩
  | .local _ .vmem, ⟨49, _⟩ => ⟨S5000x96, .f32⟩
  | .local _ .vmem, ⟨50, _⟩ => ⟨S5000x1, .f32⟩
  | .local _ .vmem, ⟨51, _⟩ => ⟨S5000x1, .f32⟩
  | .local _ .vmem, ⟨52, _⟩ => ⟨S96x96, .f32⟩
  | .local _ .vmem, ⟨53, _⟩ => ⟨S96x96, .f32⟩
  | .local _ .vmem, ⟨54, _⟩ => ⟨S96, .f32⟩
  | .local _ .vmem, ⟨55, _⟩ => ⟨S5000x96, .f32⟩
  | .local _ .vmem, ⟨56, _⟩ => ⟨S5000x96, .f32⟩
  | .local _ .vmem, ⟨57, _⟩ => ⟨S8x96, .f32⟩
  | .local _ .vmem, ⟨58, _⟩ => ⟨S8x96, .f32⟩
  | .local _ .vmem, ⟨59, _⟩ => ⟨S8x96, .f32⟩
  | .local _ .vmem, ⟨60, _⟩ => ⟨S8x96, .f32⟩
  | .local _ .vmem, ⟨61, _⟩ => ⟨S5000x96, .f32⟩
  | .local _ .vmem, ⟨62, _⟩ => ⟨S5000x96, .f32⟩
  | .local _ .vmem, ⟨63, _⟩ => ⟨S96, .f32⟩
  | .local _ .vmem, ⟨64, _⟩ => ⟨S96, .f32⟩
  | .local _ .vmem, ⟨65, _⟩ => ⟨S96, .f32⟩
  | .local _ .vmem, ⟨66, _⟩ => ⟨S96, .f32⟩
  | .local _ .vmem, ⟨67, _⟩ => ⟨S96x10, .f32⟩
  | .local _ .vmem, ⟨68, _⟩ => ⟨S10, .f32⟩
  | .local _ .vmem, ⟨69, _⟩ => ⟨S5000x10, .f32⟩
  | .local _ .vmem, ⟨70, _⟩ => ⟨S5000x10, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_cst_5 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61_0 : Ref sig .tc := ⟨.hbm, 87, rfl⟩
abbrev main_v61_1 : Ref sig .tc := ⟨.hbm, 88, rfl⟩
abbrev main_v61_2 : Ref sig .tc := ⟨.hbm, 89, rfl⟩
abbrev main_cst_13 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_cst_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_c_19 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_20 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93_0 : Ref sig .tc := ⟨.hbm, 129, rfl⟩
abbrev main_v93_1 : Ref sig .tc := ⟨.hbm, 130, rfl⟩
abbrev main_v93_2 : Ref sig .tc := ⟨.hbm, 131, rfl⟩
abbrev main_cst_21 : Ref sig .tc := ⟨.hbm, 132, rfl⟩
abbrev main_v94 : Ref sig .tc := ⟨.hbm, 133, rfl⟩
abbrev main_cst_22 : Ref sig .tc := ⟨.hbm, 134, rfl⟩
abbrev main_v95 : Ref sig .tc := ⟨.hbm, 135, rfl⟩
abbrev main_v96 : Ref sig .tc := ⟨.hbm, 136, rfl⟩
abbrev main_cst_23 : Ref sig .tc := ⟨.hbm, 137, rfl⟩
abbrev main_v97 : Ref sig .tc := ⟨.hbm, 138, rfl⟩
abbrev main_cst_24 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_25 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg6_1 : Ref sig .tc := ⟨.vmem, 56, rfl⟩
abbrev cc4_stg7_0 : Ref sig .tc := ⟨.vmem, 57, rfl⟩
abbrev cc4_stg7_1 : Ref sig .tc := ⟨.vmem, 58, rfl⟩
abbrev cc4_stg8_0 : Ref sig .tc := ⟨.vmem, 59, rfl⟩
abbrev cc4_stg8_1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc5_stg5_0 : Ref sig .tc := ⟨.vmem, 67, rfl⟩
abbrev cc5_stg6_0 : Ref sig .tc := ⟨.vmem, 68, rfl⟩
abbrev cc5_stg7_0 : Ref sig .tc := ⟨.vmem, 69, rfl⟩
abbrev cc5_stg7_1 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem6_1 : DmaSem sig := 56
abbrev cc4_sem7_0 : DmaSem sig := 57
abbrev cc4_sem7_1 : DmaSem sig := 58
abbrev cc4_sem8_0 : DmaSem sig := 59
abbrev cc4_sem8_1 : DmaSem sig := 60
abbrev cc5_sem0_0 : DmaSem sig := 61
abbrev cc5_sem0_1 : DmaSem sig := 62
abbrev cc5_sem1_0 : DmaSem sig := 63
abbrev cc5_sem2_0 : DmaSem sig := 64
abbrev cc5_sem3_0 : DmaSem sig := 65
abbrev cc5_sem4_0 : DmaSem sig := 66
abbrev cc5_sem5_0 : DmaSem sig := 67
abbrev cc5_sem6_0 : DmaSem sig := 68
abbrev cc5_sem7_0 : DmaSem sig := 69
abbrev cc5_sem7_1 : DmaSem sig := 70

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S96x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x96 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x96 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S96 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S96x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S96x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x96 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S8x96 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8x96 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S96x10 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S10 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x10 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x96 : S_.BroadcastsInDim S50000x96 (![] : Fin 0 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S96_S96_0 : ∀ a, (![0] : Fin 1 → Nat) a + S96.size a ≤ S96.size a
  h_S96 : 0 < S96.numel
  shapeCasts_S96_S96 : S96.ShapeCasts S96
  shapeCasts_S96_S1x96 : S96.ShapeCasts S1x96
  broadcasts_S1x96_S5000x96 : S1x96.Broadcasts S5000x96
  reduces_S5000x96_S96 : S5000x96.Reduces [0] S96
  inb_S8x96_S8x96_0_0 : ∀ a, (![0, 0] : Fin 2 → Nat) a + S8x96.size a ≤ S8x96.size a
  h_S8x96 : 0 < S8x96.numel
  inb_S8x96_S1x96_0_0 : ∀ a, (![0, 0] : Fin 2 → Nat) a + S1x96.size a ≤ S8x96.size a
  h_S1x96 : 0 < S1x96.numel
  reducesTo_S80x96_S96_d0 : S80x96.ReducesTo [0] S96
  h_S_ : 0 < S_.numel
  bcast_S_S96 : S_.BroadcastsInDim S96 (![] : Fin 0 → Fin S96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  inb_S96x10_S96x10_0_0 : ∀ a, (![0, 0] : Fin 2 → Nat) a + S96x10.size a ≤ S96x10.size a
  h_S96x10 : 0 < S96x10.numel
  inb_S10_S10_0 : ∀ a, (![0] : Fin 1 → Nat) a + S10.size a ≤ S10.size a
  h_S10 : 0 < S10.numel
  shapeCasts_S10_S1x10 : S10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x10_S5000x10_1_0_0_1_n_n_wf : DotDims.WF S5000x96 S96x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96.size a ≤ S96.size a
  hwx0_5 : ∀ i : grid0.Coords, EltTy.bits .f32 = 32 ∨ (Rect.block (s := S96) S96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x96.size a ≤ S80x96.size a
  hwx0_7 : ∀ i : grid0.Coords, EltTy.bits .f32 = 32 ∨ (Rect.block (s := S80x96) S8x96.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x96.size a ≤ S80x96.size a
  hwx0_8 : ∀ i : grid0.Coords, EltTy.bits .f32 = 32 ∨ (Rect.block (s := S80x96) S8x96.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96.size a ≤ S96.size a
  hwx1_1 : ∀ i : grid1.Coords, EltTy.bits .f32 = 32 ∨ (Rect.block (s := S96) S96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96.size a ≤ S96.size a
  hwx1_3 : ∀ i : grid1.Coords, EltTy.bits .f32 = 32 ∨ (Rect.block (s := S96) S96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96.size a ≤ S96.size a
  hwx1_4 : ∀ i : grid1.Coords, EltTy.bits .f32 = 32 ∨ (Rect.block (s := S96) S96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .f32 = 32 ∨ (Rect.block (s := S96x96) S96x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .f32 = 32 ∨ (Rect.block (s := S96x96) S96x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96.size a ≤ S96.size a
  hwx2_5 : ∀ i : grid2.Coords, EltTy.bits .f32 = 32 ∨ (Rect.block (s := S96) S96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x96.size a ≤ S50000x96.size a
  hwx2_6 : ∀ i : grid2.Coords, EltTy.bits .f32 = 32 ∨ (Rect.block (s := S50000x96) S5000x96.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x96.size a ≤ S80x96.size a
  hwx2_7 : ∀ i : grid2.Coords, EltTy.bits .f32 = 32 ∨ (Rect.block (s := S80x96) S8x96.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x96.size a ≤ S80x96.size a
  hwx2_8 : ∀ i : grid2.Coords, EltTy.bits .f32 = 32 ∨ (Rect.block (s := S80x96) S8x96.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96.size a ≤ S96.size a
  hwx3_1 : ∀ i : grid3.Coords, EltTy.bits .f32 = 32 ∨ (Rect.block (s := S96) S96.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S96.size a ≤ S96.size a
  hwx3_2 : ∀ i : grid3.Coords, EltTy.bits .f32 = 32 ∨ (Rect.block (s := S96) S96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S96.size a ≤ S96.size a
  hwx3_3 : ∀ i : grid3.Coords, EltTy.bits .f32 = 32 ∨ (Rect.block (s := S96) S96.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S96.size a ≤ S96.size a
  hwx3_4 : ∀ i : grid3.Coords, EltTy.bits .f32 = 32 ∨ (Rect.block (s := S96) S96.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x96.size a ≤ S50000x96.size a
  hwx3_5 : ∀ i : grid3.Coords, EltTy.bits .f32 = 32 ∨ (Rect.block (s := S50000x96) S5000x96.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x96.size a ≤ S50000x96.size a
  hwx4_1 : ∀ i : grid4.Coords, EltTy.bits .f32 = 32 ∨ (Rect.block (s := S50000x96) S5000x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S96x96.size a ≤ S96x96.size a
  hwx4_3 : ∀ i : grid4.Coords, EltTy.bits .f32 = 32 ∨ (Rect.block (s := S96x96) S96x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S96x96.size a ≤ S96x96.size a
  hwx4_4 : ∀ i : grid4.Coords, EltTy.bits .f32 = 32 ∨ (Rect.block (s := S96x96) S96x96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S96.size a ≤ S96.size a
  hwx4_5 : ∀ i : grid4.Coords, EltTy.bits .f32 = 32 ∨ (Rect.block (s := S96) S96.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x96.size a ≤ S50000x96.size a
  hwx4_6 : ∀ i : grid4.Coords, EltTy.bits .f32 = 32 ∨ (Rect.block (s := S50000x96) S5000x96.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x96.size a ≤ S80x96.size a
  hwx4_7 : ∀ i : grid4.Coords, EltTy.bits .f32 = 32 ∨ (Rect.block (s := S80x96) S8x96.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x96.size a ≤ S80x96.size a
  hwx4_8 : ∀ i : grid4.Coords, EltTy.bits .f32 = 32 ∨ (Rect.block (s := S80x96) S8x96.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S96.size a ≤ S96.size a
  hwx5_1 : ∀ i : grid5.Coords, EltTy.bits .f32 = 32 ∨ (Rect.block (s := S96) S96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S96.size a ≤ S96.size a
  hwx5_2 : ∀ i : grid5.Coords, EltTy.bits .f32 = 32 ∨ (Rect.block (s := S96) S96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S96.size a ≤ S96.size a
  hwx5_3 : ∀ i : grid5.Coords, EltTy.bits .f32 = 32 ∨ (Rect.block (s := S96) S96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S96.size a ≤ S96.size a
  hwx5_4 : ∀ i : grid5.Coords, EltTy.bits .f32 = 32 ∨ (Rect.block (s := S96) S96.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S96x10.size a ≤ S96x10.size a
  hwx5_5 : ∀ i : grid5.Coords, EltTy.bits .f32 = 32 ∨ (Rect.block (s := S96x10) S96x10.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S10.size a ≤ S10.size a
  hwx5_6 : ∀ i : grid5.Coords, EltTy.bits .f32 = 32 ∨ (Rect.block (s := S10) S10.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x10.size a ≤ S50000x10.size a
  hwx5_7 : ∀ i : grid5.Coords, EltTy.bits .f32 = 32 ∨ (Rect.block (s := S50000x10) S5000x10.size (cc5_transform_7 i) (hinb5_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x10_S5000x10_1_0_0_1_n_n : DotDims S5000x96 S96x10 S5000x10 where
  lhsContracting := [1]
  rhsContracting := [0]
  lhsNonContracting := [0]
  rhsNonContracting := [1]
  lhsBatch := []
  rhsBatch := []
  wf := dot_S5000x96_S96x10_S5000x10_1_0_0_1_n_n_wf

abbrev win0_0 : Pipeline.Window sig grid0 :=
  Pipeline.Window.ofSpec (Memref.whole main_v22) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S5000x96.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S8x96.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v29_2) S8x96.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v29_0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61_0) S5000x96.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v61_1) S8x96.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v61_2) S8x96.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v61_0) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S96.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S5000x96.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v86) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S5000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v88) S96x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v90) S96x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v92) S96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v93_0) S5000x96.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v93_1) S8x96.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v93_2) S8x96.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v93_0) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v103) S96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v107) S96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg7) S96x10.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg8) S10.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v108) S5000x10.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S3x96x96 : Shape := ⟨3, ![3, 96, 96]⟩
abbrev S3x96 : Shape := ⟨2, ![3, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S1x96x96 : Shape := ⟨3, ![1, 96, 96]⟩
abbrev S96x96 : Shape := ⟨2, ![96, 96]⟩
abbrev S1x96 : Shape := ⟨2, ![1, 96]⟩
abbrev S96 : Shape := ⟨1, ![96]⟩
abbrev S50000x10 : Shape := ⟨2, ![50000, 10]⟩
abbrev S1x10 : Shape := ⟨2, ![1, 10]⟩

abbrev nBuf : Space → Nat
  | .hbm => 264
  | .vmem => 0
  | .smem => 0
  | _ => 0

abbrev hbmTy0_0 (i : Nat) : BufTy := match i % 128 with
  | 0 => ⟨S50000x96, .f32⟩
  | 1 => ⟨S2x800000, .i32⟩
  | 2 => ⟨S3x96x96, .f32⟩
  | 3 => ⟨S3x96x96, .f32⟩
  | 4 => ⟨S3x96, .f32⟩
  | 5 => ⟨S3x96, .f32⟩
  | 6 => ⟨S3x96, .f32⟩
  | 7 => ⟨S96x10, .f32⟩
  | 8 => ⟨S10, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x96, .f32⟩
  | 35 => ⟨S_, .f32⟩
  | 36 => ⟨S50000x96, .f32⟩
  | 37 => ⟨S800000x1, .i32⟩
  | 38 => ⟨S50000x96, .f32⟩
  | 39 => ⟨S50000x96, .f32⟩
  | 40 => ⟨S50000x96, .f32⟩
  | 41 => ⟨S1x96x96, .f32⟩
  | 42 => ⟨S96x96, .f32⟩
  | 43 => ⟨S50000x96, .f32⟩
  | 44 => ⟨S1x96x96, .f32⟩
  | 45 => ⟨S96x96, .f32⟩
  | 46 => ⟨S50000x96, .f32⟩
  | 47 => ⟨S50000x96, .f32⟩
  | 48 => ⟨S1x96, .f32⟩
  | 49 => ⟨S96, .f32⟩
  | 50 => ⟨S1x96, .f32⟩
  | 51 => ⟨S50000x96, .f32⟩
  | 52 => ⟨S50000x96, .f32⟩
  | 53 => ⟨S_, .f32⟩
  | 54 => ⟨S96, .f32⟩
  | 55 => ⟨S_, .f32⟩
  | 56 => ⟨S96, .f32⟩
  | 57 => ⟨S96, .f32⟩
  | 58 => ⟨S_, .i32⟩
  | 59 => ⟨S_, .f32⟩
  | 60 => ⟨S96, .f32⟩
  | 61 => ⟨S1x96, .f32⟩
  | 62 => ⟨S_, .f32⟩
  | 63 => ⟨S1x96, .f32⟩
  | 64 => ⟨S1x96, .f32⟩
  | 65 => ⟨S50000x96, .f32⟩
  | 66 => ⟨S50000x96, .f32⟩
  | 67 => ⟨S50000x96, .f32⟩
  | 68 => ⟨S_, .f32⟩
  | 69 => ⟨S_, .f32⟩
  | 70 => ⟨S_, .f32⟩
  | 71 => ⟨S_, .f32⟩
  | 72 => ⟨S96, .f32⟩
  | 73 => ⟨S96, .f32⟩
  | 74 => ⟨S96, .f32⟩
  | 75 => ⟨S_, .f32⟩
  | 76 => ⟨S_, .i1⟩
  | 77 => ⟨S_, .f32⟩
  | 78 => ⟨S_, .f32⟩
  | 79 => ⟨S96, .f32⟩
  | 80 => ⟨S96, .f32⟩
  | 81 => ⟨S1x96, .f32⟩
  | 82 => ⟨S50000x96, .f32⟩
  | 83 => ⟨S50000x96, .f32⟩
  | 84 => ⟨S_, .f32⟩
  | 85 => ⟨S96, .f32⟩
  | 86 => ⟨S96, .f32⟩
  | 87 => ⟨S96, .f32⟩
  | 88 => ⟨S1x96, .f32⟩
  | 89 => ⟨S50000x96, .f32⟩
  | 90 => ⟨S50000x96, .f32⟩
  | 91 => ⟨S1x96, .f32⟩
  | 92 => ⟨S96, .f32⟩
  | 93 => ⟨S1x96, .f32⟩
  | 94 => ⟨S50000x96, .f32⟩
  | 95 => ⟨S50000x96, .f32⟩
  | 96 => ⟨S1x96, .f32⟩
  | 97 => ⟨S96, .f32⟩
  | 98 => ⟨S1x96, .f32⟩
  | 99 => ⟨S50000x96, .f32⟩
  | 100 => ⟨S50000x96, .f32⟩
  | 101 => ⟨S_, .f32⟩
  | 102 => ⟨S50000x96, .f32⟩
  | 103 => ⟨S50000x96, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x96, .f32⟩
  | 113 => ⟨S_, .f32⟩
  | 114 => ⟨S50000x96, .f32⟩
  | 115 => ⟨S800000x1, .i32⟩
  | 116 => ⟨S50000x96, .f32⟩
  | 117 => ⟨S50000x96, .f32⟩
  | 118 => ⟨S50000x96, .f32⟩
  | 119 => ⟨S1x96x96, .f32⟩
  | 120 => ⟨S96x96, .f32⟩
  | 121 => ⟨S50000x96, .f32⟩
  | 122 => ⟨S1x96x96, .f32⟩
  | 123 => ⟨S96x96, .f32⟩
  | 124 => ⟨S50000x96, .f32⟩
  | 125 => ⟨S50000x96, .f32⟩
  | 126 => ⟨S1x96, .f32⟩
  | 127 => ⟨S96, .f32⟩
  | _ => ⟨S50000x96, .f32⟩

abbrev hbmTy0_1 (i : Nat) : BufTy := match i % 128 with
  | 0 => ⟨S1x96, .f32⟩
  | 1 => ⟨S50000x96, .f32⟩
  | 2 => ⟨S50000x96, .f32⟩
  | 3 => ⟨S_, .f32⟩
  | 4 => ⟨S96, .f32⟩
  | 5 => ⟨S_, .f32⟩
  | 6 => ⟨S96, .f32⟩
  | 7 => ⟨S96, .f32⟩
  | 8 => ⟨S_, .i32⟩
  | 9 => ⟨S_, .f32⟩
  | 10 => ⟨S96, .f32⟩
  | 11 => ⟨S1x96, .f32⟩
  | 12 => ⟨S_, .f32⟩
  | 13 => ⟨S1x96, .f32⟩
  | 14 => ⟨S1x96, .f32⟩
  | 15 => ⟨S50000x96, .f32⟩
  | 16 => ⟨S50000x96, .f32⟩
  | 17 => ⟨S50000x96, .f32⟩
  | 18 => ⟨S_, .f32⟩
  | 19 => ⟨S_, .f32⟩
  | 20 => ⟨S_, .f32⟩
  | 21 => ⟨S_, .f32⟩
  | 22 => ⟨S96, .f32⟩
  | 23 => ⟨S96, .f32⟩
  | 24 => ⟨S96, .f32⟩
  | 25 => ⟨S_, .f32⟩
  | 26 => ⟨S_, .i1⟩
  | 27 => ⟨S_, .f32⟩
  | 28 => ⟨S_, .f32⟩
  | 29 => ⟨S96, .f32⟩
  | 30 => ⟨S96, .f32⟩
  | 31 => ⟨S1x96, .f32⟩
  | 32 => ⟨S50000x96, .f32⟩
  | 33 => ⟨S50000x96, .f32⟩
  | 34 => ⟨S_, .f32⟩
  | 35 => ⟨S96, .f32⟩
  | 36 => ⟨S96, .f32⟩
  | 37 => ⟨S96, .f32⟩
  | 38 => ⟨S1x96, .f32⟩
  | 39 => ⟨S50000x96, .f32⟩
  | 40 => ⟨S50000x96, .f32⟩
  | 41 => ⟨S1x96, .f32⟩
  | 42 => ⟨S96, .f32⟩
  | 43 => ⟨S1x96, .f32⟩
  | 44 => ⟨S50000x96, .f32⟩
  | 45 => ⟨S50000x96, .f32⟩
  | 46 => ⟨S1x96, .f32⟩
  | 47 => ⟨S96, .f32⟩
  | 48 => ⟨S1x96, .f32⟩
  | 49 => ⟨S50000x96, .f32⟩
  | 50 => ⟨S50000x96, .f32⟩
  | 51 => ⟨S_, .f32⟩
  | 52 => ⟨S50000x96, .f32⟩
  | 53 => ⟨S50000x96, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x96, .f32⟩
  | 63 => ⟨S_, .f32⟩
  | 64 => ⟨S50000x96, .f32⟩
  | 65 => ⟨S800000x1, .i32⟩
  | 66 => ⟨S50000x96, .f32⟩
  | 67 => ⟨S50000x96, .f32⟩
  | 68 => ⟨S50000x96, .f32⟩
  | 69 => ⟨S1x96x96, .f32⟩
  | 70 => ⟨S96x96, .f32⟩
  | 71 => ⟨S50000x96, .f32⟩
  | 72 => ⟨S1x96x96, .f32⟩
  | 73 => ⟨S96x96, .f32⟩
  | 74 => ⟨S50000x96, .f32⟩
  | 75 => ⟨S50000x96, .f32⟩
  | 76 => ⟨S1x96, .f32⟩
  | 77 => ⟨S96, .f32⟩
  | 78 => ⟨S1x96, .f32⟩
  | 79 => ⟨S50000x96, .f32⟩
  | 80 => ⟨S50000x96, .f32⟩
  | 81 => ⟨S_, .f32⟩
  | 82 => ⟨S96, .f32⟩
  | 83 => ⟨S_, .f32⟩
  | 84 => ⟨S96, .f32⟩
  | 85 => ⟨S96, .f32⟩
  | 86 => ⟨S_, .i32⟩
  | 87 => ⟨S_, .f32⟩
  | 88 => ⟨S96, .f32⟩
  | 89 => ⟨S1x96, .f32⟩
  | 90 => ⟨S_, .f32⟩
  | 91 => ⟨S1x96, .f32⟩
  | 92 => ⟨S1x96, .f32⟩
  | 93 => ⟨S50000x96, .f32⟩
  | 94 => ⟨S50000x96, .f32⟩
  | 95 => ⟨S50000x96, .f32⟩
  | 96 => ⟨S_, .f32⟩
  | 97 => ⟨S_, .f32⟩
  | 98 => ⟨S_, .f32⟩
  | 99 => ⟨S_, .f32⟩
  | 100 => ⟨S96, .f32⟩
  | 101 => ⟨S96, .f32⟩
  | 102 => ⟨S96, .f32⟩
  | 103 => ⟨S_, .f32⟩
  | 104 => ⟨S_, .i1⟩
  | 105 => ⟨S_, .f32⟩
  | 106 => ⟨S_, .f32⟩
  | 107 => ⟨S96, .f32⟩
  | 108 => ⟨S96, .f32⟩
  | 109 => ⟨S1x96, .f32⟩
  | 110 => ⟨S50000x96, .f32⟩
  | 111 => ⟨S50000x96, .f32⟩
  | 112 => ⟨S_, .f32⟩
  | 113 => ⟨S96, .f32⟩
  | 114 => ⟨S96, .f32⟩
  | 115 => ⟨S96, .f32⟩
  | 116 => ⟨S1x96, .f32⟩
  | 117 => ⟨S50000x96, .f32⟩
  | 118 => ⟨S50000x96, .f32⟩
  | 119 => ⟨S1x96, .f32⟩
  | 120 => ⟨S96, .f32⟩
  | 121 => ⟨S1x96, .f32⟩
  | 122 => ⟨S50000x96, .f32⟩
  | 123 => ⟨S50000x96, .f32⟩
  | 124 => ⟨S1x96, .f32⟩
  | 125 => ⟨S96, .f32⟩
  | 126 => ⟨S1x96, .f32⟩
  | 127 => ⟨S50000x96, .f32⟩
  | _ => ⟨S50000x96, .f32⟩

abbrev hbmTy0_2 (i : Nat) : BufTy := match i % 128 with
  | 0 => ⟨S50000x96, .f32⟩
  | 1 => ⟨S_, .f32⟩
  | 2 => ⟨S50000x96, .f32⟩
  | 3 => ⟨S50000x96, .f32⟩
  | 4 => ⟨S50000x10, .f32⟩
  | 5 => ⟨S1x10, .f32⟩
  | 6 => ⟨S50000x10, .f32⟩
  | 7 => ⟨S50000x10, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_cst_8 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_call1_cst : Ref sig .tc := ⟨.hbm, 101, rfl⟩
abbrev main_call1_v0 : Ref sig .tc := ⟨.hbm, 102, rfl⟩
abbrev main_v60 : Ref sig .tc := ⟨.hbm, 103, rfl⟩
abbrev main_c_9 : Ref sig .tc := ⟨.hbm, 104, rfl⟩
abbrev main_v61 : Ref sig .tc := ⟨.hbm, 105, rfl⟩
abbrev main_v62 : Ref sig .tc := ⟨.hbm, 106, rfl⟩
abbrev main_c_10 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_11 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_12 : Ref sig .tc := ⟨.hbm, 131, rfl⟩
abbrev main_v85 : Ref sig .tc := ⟨.hbm, 132, rfl⟩
abbrev main_cst_13 : Ref sig .tc := ⟨.hbm, 133, rfl⟩
abbrev main_v86 : Ref sig .tc := ⟨.hbm, 134, rfl⟩
abbrev main_v87 : Ref sig .tc := ⟨.hbm, 135, rfl⟩
abbrev main_c_14 : Ref sig .tc := ⟨.hbm, 136, rfl⟩
abbrev main_call2_cst : Ref sig .tc := ⟨.hbm, 137, rfl⟩
abbrev main_call2_v0 : Ref sig .tc := ⟨.hbm, 138, rfl⟩
abbrev main_call2_v1 : Ref sig .tc := ⟨.hbm, 139, rfl⟩
abbrev main_call2_cst_0 : Ref sig .tc := ⟨.hbm, 140, rfl⟩
abbrev main_call2_v2 : Ref sig .tc := ⟨.hbm, 141, rfl⟩
abbrev main_call2_v3 : Ref sig .tc := ⟨.hbm, 142, rfl⟩
abbrev main_call2_v4 : Ref sig .tc := ⟨.hbm, 143, rfl⟩
abbrev main_call2_v5 : Ref sig .tc := ⟨.hbm, 144, rfl⟩
abbrev main_call2_v6 : Ref sig .tc := ⟨.hbm, 145, rfl⟩
abbrev main_call2_v7 : Ref sig .tc := ⟨.hbm, 146, rfl⟩
abbrev main_call2_cst_1 : Ref sig .tc := ⟨.hbm, 147, rfl⟩
abbrev main_call2_v8 : Ref sig .tc := ⟨.hbm, 148, rfl⟩
abbrev main_call2_cst_2 : Ref sig .tc := ⟨.hbm, 149, rfl⟩
abbrev main_call2_v9 : Ref sig .tc := ⟨.hbm, 150, rfl⟩
abbrev main_call2_v10 : Ref sig .tc := ⟨.hbm, 151, rfl⟩
abbrev main_call2_v11 : Ref sig .tc := ⟨.hbm, 152, rfl⟩
abbrev main_call2_cst_3 : Ref sig .tc := ⟨.hbm, 153, rfl⟩
abbrev main_call2_v12 : Ref sig .tc := ⟨.hbm, 154, rfl⟩
abbrev main_call2_cst_4 : Ref sig .tc := ⟨.hbm, 155, rfl⟩
abbrev main_call2_call0_v0 : Ref sig .tc := ⟨.hbm, 156, rfl⟩
abbrev main_call2_call0_v1 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_cst_15 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_call3_cst : Ref sig .tc := ⟨.hbm, 179, rfl⟩
abbrev main_call3_v0 : Ref sig .tc := ⟨.hbm, 180, rfl⟩
abbrev main_v108 : Ref sig .tc := ⟨.hbm, 181, rfl⟩
abbrev main_c_16 : Ref sig .tc := ⟨.hbm, 182, rfl⟩
abbrev main_v109 : Ref sig .tc := ⟨.hbm, 183, rfl⟩
abbrev main_v110 : Ref sig .tc := ⟨.hbm, 184, rfl⟩
abbrev main_c_17 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_cst_18 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_cst_19 : Ref sig .tc := ⟨.hbm, 209, rfl⟩
abbrev main_v133 : Ref sig .tc := ⟨.hbm, 210, rfl⟩
abbrev main_cst_20 : Ref sig .tc := ⟨.hbm, 211, rfl⟩
abbrev main_v134 : Ref sig .tc := ⟨.hbm, 212, rfl⟩
abbrev main_v135 : Ref sig .tc := ⟨.hbm, 213, rfl⟩
abbrev main_c_21 : Ref sig .tc := ⟨.hbm, 214, rfl⟩
abbrev main_call4_cst : Ref sig .tc := ⟨.hbm, 215, rfl⟩
abbrev main_call4_v0 : Ref sig .tc := ⟨.hbm, 216, rfl⟩
abbrev main_call4_v1 : Ref sig .tc := ⟨.hbm, 217, rfl⟩
abbrev main_call4_cst_0 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_v6 : Ref sig .tc := ⟨.hbm, 223, rfl⟩
abbrev main_call4_v7 : Ref sig .tc := ⟨.hbm, 224, rfl⟩
abbrev main_call4_cst_1 : Ref sig .tc := ⟨.hbm, 225, rfl⟩
abbrev main_call4_v8 : Ref sig .tc := ⟨.hbm, 226, rfl⟩
abbrev main_call4_cst_2 : Ref sig .tc := ⟨.hbm, 227, rfl⟩
abbrev main_call4_v9 : Ref sig .tc := ⟨.hbm, 228, rfl⟩
abbrev main_call4_v10 : Ref sig .tc := ⟨.hbm, 229, rfl⟩
abbrev main_call4_v11 : Ref sig .tc := ⟨.hbm, 230, rfl⟩
abbrev main_call4_cst_3 : Ref sig .tc := ⟨.hbm, 231, rfl⟩
abbrev main_call4_v12 : Ref sig .tc := ⟨.hbm, 232, rfl⟩
abbrev main_call4_cst_4 : Ref sig .tc := ⟨.hbm, 233, rfl⟩
abbrev main_call4_call0_v0 : Ref sig .tc := ⟨.hbm, 234, rfl⟩
abbrev main_call4_call0_v1 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_cst_22 : Ref sig .tc := ⟨.hbm, 240, rfl⟩
abbrev main_v140 : Ref sig .tc := ⟨.hbm, 241, rfl⟩
abbrev main_v141 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_call5_cst : Ref sig .tc := ⟨.hbm, 257, rfl⟩
abbrev main_call5_v0 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x96 : S_.BroadcastsInDim S50000x96 (![] : Fin 0 → Fin S50000x96.rank)
  bcast_S50000x1_S50000x96_0_1 : S50000x1.BroadcastsInDim S50000x96 (![0, 1] : Fin 2 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  bcast_S_S1x96 : S_.BroadcastsInDim S1x96 (![] : Fin 0 → Fin S1x96.rank)
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x10_S50000x10_1_0_0_1_n_n_wf : DotDims.WF S50000x96 S96x10 S50000x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x10_S50000x10_1_0_0_1_n_n : DotDims S50000x96 S96x10 S50000x10 where
  lhsContracting := [1]
  rhsContracting := [0]
  lhsNonContracting := [0]
  rhsNonContracting := [1]
  lhsBatch := []
  rhsBatch := []
  wf := dot_S50000x96_S96x10_S50000x10_1_0_0_1_n_n_wf

class Facts : Prop extends Facts₀ where

variable [Facts]
-- ==== Proof.RefRunW.lean ====
/-
  An operation that writes one buffer writes inside any list of references that holds that buffer: the form in which
  the references a stretch of operations writes are collected, so that a reference outside the list is known to keep
  its contents through the stretch.
-/
import proofs.«122304_j8787503088149_2_alg».proof.Proof.Gen.ReferenceIdeal
import Idealize.ShloMosaic.Lib.StableHlo.Run

noncomputable section

namespace Cert.ReferenceIdeal.RefRun

open Cert.ReferenceIdeal Idealize.ShloMosaic Idealize.ShloMosaic.StableHlo

variable {F : FTy → Type} [FloatOps F]

/-- An operation whose one written buffer is `y` writes inside any list of references that holds `y`. -/
theorem writes_sub {op : HloOp τ sig (Elt F)} {y : Ref sig .tc} {W : List (Ref sig .tc)}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

end Cert.ReferenceIdeal.RefRun

end
-- ==== Proof.RefRunA.lean ====
/-
  The reference's @main as a list of host operations, the three outlined functions (the column variance, the select
  it ends with, the clamp at zero) written out at their six call sites over each call's own buffers. The list is cut
  into ten consecutive stretches, one per step of the three layers, so that what a stretch computes can be read
  from the buffers it starts from alone. For each stretch, one entry per operation: the operation touches TensorCore
  references only; the reference it writes is in the stretch's list of written references; it determines its result.
-/
import proofs.«122304_j8787503088149_2_alg».proof.Proof.RefRunW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 17 of 255: the two rows of the edge list as index vectors, the in-degree by a scatter-add of ones, and its clamped reciprocal as a column. -/
abbrev c0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (maximumf : (⟨S50000, .f32⟩ : BufTy).Contents (Elt F) → (⟨S50000, .f32⟩ : BufTy).Contents (Elt F) → (⟨S50000, .f32⟩ : BufTy).Contents (Elt F)),
    StableHlo.nullary main_cst_2 (constant S_ .f32 0x3F800000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v10 main_v9 main_v11 (Host.divf : (⟨S50000, .f32⟩ : BufTy).Contents (Elt F) → (⟨S50000, .f32⟩ : BufTy).Contents (Elt F) → (⟨S50000, .f32⟩ : BufTy).Contents (Elt F)),
    StableHlo.unary main_v11 main_v12 (broadcastInDim S50000x1 ![0] bcast_S50000_S50000x1_0 : (⟨S50000, .f32⟩ : BufTy).Contents (Elt F) → (⟨S50000x1, .f32⟩ : BufTy).Contents (Elt F)) ]

theorem c0_sub : (c0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub ..⟩

/-- The references stretch 0 writes. -/
abbrev c0_W : List (Ref sig .tc) := [main_v0, main_v1, main_v2, main_v3, main_cst, main_v4, main_cst_0, main_v5, main_v6, main_v7, main_cst_1, main_v8, main_v9, main_cst_2, main_v10, main_v11, main_v12]

theorem c0_writes : (c0 : List (HloOp τ sig (Elt F))).Forall fun op => op.writes ⊆ (c0_W.map (Proc.devRef (τ := τ) .tc)).toFinset :=
  ⟨writes_sub (y := main_v0) rfl (by decide),
   writes_sub (y := main_v1) rfl (by decide),
   writes_sub (y := main_v2) rfl (by decide),
   writes_sub (y := main_v3) rfl (by decide),
   writes_sub (y := main_cst) rfl (by decide),
   writes_sub (y := main_v4) rfl (by decide),
   writes_sub (y := main_cst_0) rfl (by decide),
   writes_sub (y := main_v5) rfl (by decide),
   writes_sub (y := main_v6) rfl (by decide),
   writes_sub (y := main_v7) rfl (by decide),
   writes_sub (y := main_cst_1) rfl (by decide),
   writes_sub (y := main_v8) rfl (by decide),
   writes_sub (y := main_v9) rfl (by decide),
   writes_sub (y := main_cst_2) rfl (by decide),
   writes_sub (y := main_v10) rfl (by decide),
   writes_sub (y := main_v11) rfl (by decide),
   writes_sub (y := main_v12) rfl (by decide)⟩

theorem c0_fresh : (c0 : List (HloOp τ sig (Elt F))).Forall fun op => op.fresh = ∅ :=
  ⟨rfl, rfl, rfl, rfl, rfl, rfl, rfl, rfl, rfl, rfl, rfl, rfl, rfl, rfl, rfl, rfl, rfl⟩

/-- Operations 18 … 44 of 255: layer 0 before normalisation: the gathered source rows summed into their destinations, scaled by the reciprocal degree, times the neighbour weights, plus the rows times the self weights, plus the bias. -/
abbrev c1 : List (HloOp τ sig (Elt F)) :=
  [ StableHlo.nullary main_c (constantI S_ 32 0#32),
    StableHlo.unary main_c main_v13 (broadcastInDim S800000 ![] bcast_S_S800000 : (⟨S_, .i32⟩ : BufTy).Contents (Elt F) → (⟨S800000, .i32⟩ : BufTy).Contents (Elt F)),
    StableHlo.binary main_v1 main_v13 main_v14 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v15 (broadcastInDim S800000 ![] bcast_S_S800000 : (⟨S_, .i32⟩ : BufTy).Contents (Elt F) → (⟨S800000, .i32⟩ : BufTy).Contents (Elt F)),
    StableHlo.binary main_v1 main_v15 main_v16 (addi : (⟨S800000, .i32⟩ : BufTy).Contents (Elt F) → (⟨S800000, .i32⟩ : BufTy).Contents (Elt F) → (⟨S800000, .i32⟩ : BufTy).Contents (Elt F)),
    StableHlo.ternary main_v14 main_v16 main_v1 main_v17 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v17 main_v18 (broadcastInDim S800000x1 ![0] bcast_S800000_S800000x1_0 : (⟨S800000, .i32⟩ : BufTy).Contents (Elt F) → (⟨S800000x1, .i32⟩ : BufTy).Contents (Elt F)),
    StableHlo.binary main_arg0 main_v18 main_v19 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_4 (constant S_ .f32 0x00000000#32),
    StableHlo.unary main_cst_4 main_v20 (broadcastInDim S50000x96 ![] bcast_S_S50000x96 : (⟨S_, .f32⟩ : BufTy).Contents (Elt F) → (⟨S50000x96, .f32⟩ : BufTy).Contents (Elt F)),
    StableHlo.unary main_v3 main_v21 (broadcastInDim S800000x1 ![0] bcast_S800000_S800000x1_0 : (⟨S800000, .i32⟩ : BufTy).Contents (Elt F) → (⟨S800000x1, .i32⟩ : BufTy).Contents (Elt F)),
    StableHlo.ternary main_v20 main_v21 main_v19 main_v22 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v12 main_v23 (broadcastInDim S50000x96 ![0, 1] bcast_S50000x1_S50000x96_0_1 : (⟨S50000x1, .f32⟩ : BufTy).Contents (Elt F) → (⟨S50000x96, .f32⟩ : BufTy).Contents (Elt F)),
    StableHlo.binary main_v22 main_v23 main_v24 (mulf : (⟨S50000x96, .f32⟩ : BufTy).Contents (Elt F) → (⟨S50000x96, .f32⟩ : BufTy).Contents (Elt F) → (⟨S50000x96, .f32⟩ : BufTy).Contents (Elt F)),
    StableHlo.unary main_arg2 main_v25 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v25 main_v26 rfl shapeCasts_S1x96x96_S96x96,
    StableHlo.binary main_v24 main_v26 main_v27 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg3 main_v28 ((extractStridedSlice S1x96x96 ![0, 0, 0] · slices_S3x96x96_S1x96x96_0_0_0) : (⟨S3x96x96, .f32⟩ : BufTy).Contents (Elt F) → (⟨S1x96x96, .f32⟩ : BufTy).Contents (Elt F)),
    StableHlo.reshape main_v28 main_v29 rfl shapeCasts_S1x96x96_S96x96,
    StableHlo.binary main_arg0 main_v29 main_v30 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v27 main_v30 main_v31 (addf : (⟨S50000x96, .f32⟩ : BufTy).Contents (Elt F) → (⟨S50000x96, .f32⟩ : BufTy).Contents (Elt F) → (⟨S50000x96, .f32⟩ : BufTy).Contents (Elt F)),
    StableHlo.unary main_arg4 main_v32 ((extractStridedSlice S1x96 ![0, 0] · slices_S3x96_S1x96_0_0) : (⟨S3x96, .f32⟩ : BufTy).Contents (Elt F) → (⟨S1x96, .f32⟩ : BufTy).Contents (Elt F)),
    StableHlo.reshape main_v32 main_v33 rfl shapeCasts_S1x96_S96,
    StableHlo.unary main_v33 main_v34 (broadcastInDim S1x96 ![1] bcast_S96_S1x96_1 : (⟨S96, .f32⟩ : BufTy).Contents (Elt F) → (⟨S1x96, .f32⟩ : BufTy).Contents (Elt F)),
    StableHlo.unary main_v34 main_v35 (broadcastInDim S50000x96 ![0, 1] bcast_S1x96_S50000x96_0_1 : (⟨S1x96, .f32⟩ : BufTy).Contents (Elt F) → (⟨S50000x96, .f32⟩ : BufTy).Contents (Elt F)),
    StableHlo.binary main_v31 main_v35 main_v36 (addf : (⟨S50000x96, .f32⟩ : BufTy).Contents (Elt F) → (⟨S50000x96, .f32⟩ : BufTy).Contents (Elt F) → (⟨S50000x96, .f32⟩ : BufTy).Contents (Elt F)) ]

theorem c1_sub : (c1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

/-- The references stretch 1 writes. -/
abbrev c1_W : List (Ref sig .tc) := [main_c, main_v13, main_v14, main_c_3, main_v15, main_v16, main_v17, main_v18, main_v19, main_cst_4, main_v20, main_v21, main_v22, main_v23, main_v24, main_v25, main_v26, main_v27, main_v28, main_v29, main_v30, main_v31, main_v32, main_v33, main_v34, main_v35, main_v36]

theorem c1_writes : (c1 : List (HloOp τ sig (Elt F))).Forall fun op => op.writes ⊆ (c1_W.map (Proc.devRef (τ := τ) .tc)).toFinset :=
  ⟨writes_sub (y := main_c) rfl (by decide),
   writes_sub (y := main_v13) rfl (by decide),
   writes_sub (y := main_v14) rfl (by decide),
   writes_sub (y := main_c_3) rfl (by decide),
   writes_sub (y := main_v15) rfl (by decide),
   writes_sub (y := main_v16) rfl (by decide),
   writes_sub (y := main_v17) rfl (by decide),
   writes_sub (y := main_v18) rfl (by decide),
   writes_sub (y := main_v19) rfl (by decide),
   writes_sub (y := main_cst_4) rfl (by decide),
   writes_sub (y := main_v20) rfl (by decide),
   writes_sub (y := main_v21) rfl (by decide),
   writes_sub (y := main_v22) rfl (by decide),
   writes_sub (y := main_v23) rfl (by decide),
   writes_sub (y := main_v24) rfl (by decide),
   writes_sub (y := main_v25) rfl (by decide),
   writes_sub (y := main_v26) rfl (by decide),
   writes_sub (y := main_v27) rfl (by decide),
   writes_sub (y := main_v28) rfl (by decide),
   writes_sub (y := main_v29) rfl (by decide),
   writes_sub (y := main_v30) rfl (by decide),
   writes_sub (y := main_v31) rfl (by decide),
   writes_sub (y := main_v32) rfl (by decide),
   writes_sub (y := main_v33) rfl (by decide),
   writes_sub (y := main_v34) rfl (by decide),
   writes_sub (y := main_v35) rfl (by decide),
   writes_sub (y := main_v36) rfl (by decide)⟩

theorem c1_fresh : (c1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- Operations 45 … 81 of 255: layer 0's column mean, its column variance (the outlined two-pass variance with its guarded quotient), the centred rows and the broadcast reciprocal root. -/
abbrev c2 : List (HloOp τ sig (Elt F)) :=
  [ StableHlo.nullary main_cst_5 (constant S_ .f32 0x00000000#32),
    StableHlo.binary main_v36 main_cst_5 main_v37 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_6 (constant S_ .f32 0x47435000#32),
    StableHlo.unary main_cst_6 main_v38 (broadcastInDim S96 ![] bcast_S_S96 : (⟨S_, .f32⟩ : BufTy).Contents (Elt F) → (⟨S96, .f32⟩ : BufTy).Contents (Elt F)),
    StableHlo.binary main_v37 main_v38 main_v39 (Host.divf : (⟨S96, .f32⟩ : BufTy).Contents (Elt F) → (⟨S96, .f32⟩ : BufTy).Contents (Elt F) → (⟨S96, .f32⟩ : BufTy).Contents (Elt F)),
    StableHlo.nullary main_c_7 (constantI S_ 32 0#32),
    StableHlo.TRef.nullary main_call0.cst (constant S_ .f32 0x00000000#32),
    StableHlo.TRef.binary ((.of main_v36) : StableHlo.TRef sig ⟨S50000x96, .f32⟩) main_call0.cst main_call0.v0 (fun x v => Host.reduceAdd x v reducesTo_S50000x96_S96_d0 h_S_),
    StableHlo.TRef.unary main_call0.v0 main_call0.v1 (broadcastInDim S1x96 ![1] bcast_S96_S1x96_1),
    StableHlo.TRef.nullary main_call0.cst_0 (constant S_ .f32 0x47435000#32),
    StableHlo.TRef.unary main_call0.cst_0 main_call0.v2 (broadcastInDim S1x96 ![] bcast_S_S1x96),
    StableHlo.TRef.binary main_call0.v1 main_call0.v2 main_call0.v3 Host.divf,
    StableHlo.TRef.unary main_call0.v3 main_call0.v4 (broadcastInDim S50000x96 ![0, 1] bcast_S1x96_S50000x96_0_1),
    StableHlo.TRef.binary ((.of main_v36) : StableHlo.TRef sig ⟨S50000x96, .f32⟩) main_call0.v4 main_call0.v5 subf,
    StableHlo.TRef.binary main_call0.v5 main_call0.v5 main_call0.v6 mulf,
    StableHlo.TRef.unary ((.of main_c_7) : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x96_S96_d0 h_S_),
    StableHlo.TRef.unary main_call0.v8 main_call0.v10 (broadcastInDim S96 ![] bcast_S_S96),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S96 ![] bcast_S_S96),
    StableHlo.TRef.ternary main_call0.v12 main_call0.v11 main_call0.call0.v1 main_call0.call0.v2 (fun p a b => select (broadcastInDim S96 ![] bcast_S_S96 p) a b),
    StableHlo.unary main_v39 main_v41 (broadcastInDim S1x96 ![1] bcast_S96_S1x96_1 : (⟨S96, .f32⟩ : BufTy).Contents (Elt F) → (⟨S1x96, .f32⟩ : BufTy).Contents (Elt F)),
    StableHlo.unary main_v41 main_v42 (broadcastInDim S50000x96 ![0, 1] bcast_S1x96_S50000x96_0_1 : (⟨S1x96, .f32⟩ : BufTy).Contents (Elt F) → (⟨S50000x96, .f32⟩ : BufTy).Contents (Elt F)),
    StableHlo.binary main_v36 main_v42 main_v43 (subf : (⟨S50000x96, .f32⟩ : BufTy).Contents (Elt F) → (⟨S50000x96, .f32⟩ : BufTy).Contents (Elt F) → (⟨S50000x96, .f32⟩ : BufTy).Contents (Elt F)),
    StableHlo.nullary main_cst_8 (constant S_ .f32 0x3727C5AC#32),
    StableHlo.unary main_cst_8 main_v44 (broadcastInDim S96 ![] bcast_S_S96 : (⟨S_, .f32⟩ : BufTy).Contents (Elt F) → (⟨S96, .f32⟩ : BufTy).Contents (Elt F)),
    StableHlo.binary main_v40 main_v44 main_v45 (addf : (⟨S96, .f32⟩ : BufTy).Contents (Elt F) → (⟨S96, .f32⟩ : BufTy).Contents (Elt F) → (⟨S96, .f32⟩ : BufTy).Contents (Elt F)),
    StableHlo.unary main_v45 main_v46 (Host.rsqrt : (⟨S96, .f32⟩ : BufTy).Contents (Elt F) → (⟨S96, .f32⟩ : BufTy).Contents (Elt F)),
    StableHlo.unary main_v46 main_v47 (broadcastInDim S1x96 ![1] bcast_S96_S1x96_1 : (⟨S96, .f32⟩ : BufTy).Contents (Elt F) → (⟨S1x96, .f32⟩ : BufTy).Contents (Elt F)),
    StableHlo.unary main_v47 main_v48 (broadcastInDim S50000x96 ![0, 1] bcast_S1x96_S50000x96_0_1 : (⟨S1x96, .f32⟩ : BufTy).Contents (Elt F) → (⟨S50000x96, .f32⟩ : BufTy).Contents (Elt F)) ]

theorem c2_sub : (c2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub ..⟩

/-- The references stretch 2 writes. -/
abbrev c2_W : List (Ref sig .tc) := [main_cst_5, main_v37, main_cst_6, main_v38, main_v39, main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v40, main_v41, main_v42, main_v43, main_cst_8, main_v44, main_v45, main_v46, main_v47, main_v48]

theorem c2_writes : (c2 : List (HloOp τ sig (Elt F))).Forall fun op => op.writes ⊆ (c2_W.map (Proc.devRef (τ := τ) .tc)).toFinset :=
  ⟨writes_sub (y := main_cst_5) rfl (by decide),
   writes_sub (y := main_v37) rfl (by decide),
   writes_sub (y := main_cst_6) rfl (by decide),
   writes_sub (y := main_v38) rfl (by decide),
   writes_sub (y := main_v39) rfl (by decide),
   writes_sub (y := main_c_7) rfl (by decide),
   writes_sub (y := main_call0_cst) rfl (by decide),
   writes_sub (y := main_call0_v0) rfl (by decide),
   writes_sub (y := main_call0_v1) rfl (by decide),
   writes_sub (y := main_call0_cst_0) rfl (by decide),
   writes_sub (y := main_call0_v2) rfl (by decide),
   writes_sub (y := main_call0_v3) rfl (by decide),
   writes_sub (y := main_call0_v4) rfl (by decide),
   writes_sub (y := main_call0_v5) rfl (by decide),
   writes_sub (y := main_call0_v6) rfl (by decide),
   writes_sub (y := main_call0_v7) rfl (by decide),
   writes_sub (y := main_call0_cst_1) rfl (by decide),
   writes_sub (y := main_call0_v8) rfl (by decide),
   writes_sub (y := main_call0_cst_2) rfl (by decide),
   writes_sub (y := main_call0_v9) rfl (by decide),
   writes_sub (y := main_call0_v10) rfl (by decide),
   writes_sub (y := main_call0_v11) rfl (by decide),
   writes_sub (y := main_call0_cst_3) rfl (by decide),
   writes_sub (y := main_call0_v12) rfl (by decide),
   writes_sub (y := main_call0_cst_4) rfl (by decide),
   writes_sub (y := main_call0_call0_v0) rfl (by decide),
   writes_sub (y := main_call0_call0_v1) rfl (by decide),
   writes_sub (y := main_v40) rfl (by decide),
   writes_sub (y := main_v41) rfl (by decide),
   writes_sub (y := main_v42) rfl (by decide),
   writes_sub (y := main_v43) rfl (by decide),
   writes_sub (y := main_cst_8) rfl (by decide),
   writes_sub (y := main_v44) rfl (by decide),
   writes_sub (y := main_v45) rfl (by decide),
   writes_sub (y := main_v46) rfl (by decide),
   writes_sub (y := main_v47) rfl (by decide),
   writes_sub (y := main_v48) rfl (by decide)⟩

theorem c2_fresh : (c2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 82 … 95 of 255: layer 0's output: centred rows times the reciprocal root, times the scale, plus the shift, clamped below at zero. -/
abbrev c3 : List (HloOp τ sig (Elt F)) :=
  [ StableHlo.binary main_v43 main_v48 main_v49 (mulf : (⟨S50000x96, .f32⟩ : BufTy).Contents (Elt F) → (⟨S50000x96, .f32⟩ : BufTy).Contents (Elt F) → (⟨S50000x96, .f32⟩ : BufTy).Contents (Elt F)),
    StableHlo.unary main_arg5 main_v50 ((extractStridedSlice S1x96 ![0, 0] · slices_S3x96_S1x96_0_0) : (⟨S3x96, .f32⟩ : BufTy).Contents (Elt F) → (⟨S1x96, .f32⟩ : BufTy).Contents (Elt F)),
    StableHlo.reshape main_v50 main_v51 rfl shapeCasts_S1x96_S96,
    StableHlo.unary main_v51 main_v52 (broadcastInDim S1x96 ![1] bcast_S96_S1x96_1 : (⟨S96, .f32⟩ : BufTy).Contents (Elt F) → (⟨S1x96, .f32⟩ : BufTy).Contents (Elt F)),
    StableHlo.unary main_v52 main_v53 (broadcastInDim S50000x96 ![0, 1] bcast_S1x96_S50000x96_0_1 : (⟨S1x96, .f32⟩ : BufTy).Contents (Elt F) → (⟨S50000x96, .f32⟩ : BufTy).Contents (Elt F)),
    StableHlo.binary main_v49 main_v53 main_v54 (mulf : (⟨S50000x96, .f32⟩ : BufTy).Contents (Elt F) → (⟨S50000x96, .f32⟩ : BufTy).Contents (Elt F) → (⟨S50000x96, .f32⟩ : BufTy).Contents (Elt F)),
    StableHlo.unary main_arg6 main_v55 ((extractStridedSlice S1x96 ![0, 0] · slices_S3x96_S1x96_0_0) : (⟨S3x96, .f32⟩ : BufTy).Contents (Elt F) → (⟨S1x96, .f32⟩ : BufTy).Contents (Elt F)),
    StableHlo.reshape main_v55 main_v56 rfl shapeCasts_S1x96_S96,
    StableHlo.unary main_v56 main_v57 (broadcastInDim S1x96 ![1] bcast_S96_S1x96_1 : (⟨S96, .f32⟩ : BufTy).Contents (Elt F) → (⟨S1x96, .f32⟩ : BufTy).Contents (Elt F)),
    StableHlo.unary main_v57 main_v58 (broadcastInDim S50000x96 ![0, 1] bcast_S1x96_S50000x96_0_1 : (⟨S1x96, .f32⟩ : BufTy).Contents (Elt F) → (⟨S50000x96, .f32⟩ : BufTy).Contents (Elt F)),
    StableHlo.binary main_v54 main_v58 main_v59 (addf : (⟨S50000x96, .f32⟩ : BufTy).Contents (Elt F) → (⟨S50000x96, .f32⟩ : BufTy).Contents (Elt F) → (⟨S50000x96, .f32⟩ : BufTy).Contents (Elt F)),
    StableHlo.TRef.nullary main_call1.cst (constant S_ .f32 0x00000000#32),
    StableHlo.TRef.unary main_call1.cst main_call1.v0 (broadcastInDim S50000x96 ![] bcast_S_S50000x96),
    StableHlo.TRef.binary ((.of main_v59) : StableHlo.TRef sig ⟨S50000x96, .f32⟩) main_call1.v0 main_call1.v1 maximumf ]

theorem c3_sub : (c3 : List (HloOp τ sig (Elt F))).Forall fun op => op.bufs ⊆ tcRefs τ sig :=
  ⟨binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- The references stretch 3 writes. -/
abbrev c3_W : List (Ref sig .tc) := [main_v49, main_v50, main_v51, main_v52, main_v53, main_v54, main_v55, main_v56, main_v57, main_v58, main_v59, main_call1_cst, main_call1_v0, main_v60]

theorem c3_writes : (c3 : List (HloOp τ sig (Elt F))).Forall fun op => op.writes ⊆ (c3_W.map (Proc.devRef (τ := τ) .tc)).toFinset :=
  ⟨writes_sub (y := main_v49) rfl (by decide),
   writes_sub (y := main_v50) rfl (by decide),
   writes_sub (y := main_v51) rfl (by decide),
   writes_sub (y := main_v52) rfl (by decide),
   writes_sub (y := main_v53) rfl (by decide),
   writes_sub (y := main_v54) rfl (by decide),
   writes_sub (y := main_v55) rfl (by decide),
   writes_sub (y := main_v56) rfl (by decide),
   writes_sub (y := main_v57) rfl (by decide),
   writes_sub (y := main_v58) rfl (by decide),
   writes_sub (y := main_v59) rfl (by decide),
   writes_sub (y := main_call1_cst) rfl (by decide),
   writes_sub (y := main_call1_v0) rfl (by decide),
   writes_sub (y := main_v60) rfl (by decide)⟩

theorem c3_fresh : (c3 : List (HloOp τ sig (Elt F))).Forall fun op => op.fresh = ∅ :=
  ⟨rfl, rfl, rfl, rfl, rfl, rfl, rfl, rfl, rfl, rfl, rfl, rfl, rfl, rfl⟩

/-- Operations 96 … 122 of 255: layer 1 before normalisation, from layer 0's output. -/
abbrev c4 : List (HloOp τ sig (Elt F)) :=
  [ StableHlo.nullary main_c_9 (constantI S_ 32 0#32),
    StableHlo.unary main_c_9 main_v61 (broadcastInDim S800000 ![] bcast_S_S800000 : (⟨S_, .i32⟩ : BufTy).Contents (Elt F) → (⟨S800000, .i32⟩ : BufTy).Contents (Elt F)),
    StableHlo.binary main_v1 main_v61 main_v62 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v63 (broadcastInDim S800000 ![] bcast_S_S800000 : (⟨S_, .i32⟩ : BufTy).Contents (Elt F) → (⟨S800000, .i32⟩ : BufTy).Contents (Elt F)),
    StableHlo.binary main_v1 main_v63 main_v64 (addi : (⟨S800000, .i32⟩ : BufTy).Contents (Elt F) → (⟨S800000, .i32⟩ : BufTy).Contents (Elt F) → (⟨S800000, .i32⟩ : BufTy).Contents (Elt F)),
    StableHlo.ternary main_v62 main_v64 main_v1 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v65 main_v66 (broadcastInDim S800000x1 ![0] bcast_S800000_S800000x1_0 : (⟨S800000, .i32⟩ : BufTy).Contents (Elt F) → (⟨S800000x1, .i32⟩ : BufTy).Contents (Elt F)),
    StableHlo.binary main_v60 main_v66 main_v67 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_11 (constant S_ .f32 0x00000000#32),
    StableHlo.unary main_cst_11 main_v68 (broadcastInDim S50000x96 ![] bcast_S_S50000x96 : (⟨S_, .f32⟩ : BufTy).Contents (Elt F) → (⟨S50000x96, .f32⟩ : BufTy).Contents (Elt F)),
    StableHlo.unary main_v3 main_v69 (broadcastInDim S800000x1 ![0] bcast_S800000_S800000x1_0 : (⟨S800000, .i32⟩ : BufTy).Contents (Elt F) → (⟨S800000x1, .i32⟩ : BufTy).Contents (Elt F)),
    StableHlo.ternary main_v68 main_v69 main_v67 main_v70 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v12 main_v71 (broadcastInDim S50000x96 ![0, 1] bcast_S50000x1_S50000x96_0_1 : (⟨S50000x1, .f32⟩ : BufTy).Contents (Elt F) → (⟨S50000x96, .f32⟩ : BufTy).Contents (Elt F)),
    StableHlo.binary main_v70 main_v71 main_v72 (mulf : (⟨S50000x96, .f32⟩ : BufTy).Contents (Elt F) → (⟨S50000x96, .f32⟩ : BufTy).Contents (Elt F) → (⟨S50000x96, .f32⟩ : BufTy).Contents (Elt F)),
    StableHlo.unary main_arg2 main_v73 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v73 main_v74 rfl shapeCasts_S1x96x96_S96x96,
    StableHlo.binary main_v72 main_v74 main_v75 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg3 main_v76 ((extractStridedSlice S1x96x96 ![1, 0, 0] · slices_S3x96x96_S1x96x96_1_0_0) : (⟨S3x96x96, .f32⟩ : BufTy).Contents (Elt F) → (⟨S1x96x96, .f32⟩ : BufTy).Contents (Elt F)),
    StableHlo.reshape main_v76 main_v77 rfl shapeCasts_S1x96x96_S96x96,
    StableHlo.binary main_v60 main_v77 main_v78 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v75 main_v78 main_v79 (addf : (⟨S50000x96, .f32⟩ : BufTy).Contents (Elt F) → (⟨S50000x96, .f32⟩ : BufTy).Contents (Elt F) → (⟨S50000x96, .f32⟩ : BufTy).Contents (Elt F)),
    StableHlo.unary main_arg4 main_v80 ((extractStridedSlice S1x96 ![1, 0] · slices_S3x96_S1x96_1_0) : (⟨S3x96, .f32⟩ : BufTy).Contents (Elt F) → (⟨S1x96, .f32⟩ : BufTy).Contents (Elt F)),
    StableHlo.reshape main_v80 main_v81 rfl shapeCasts_S1x96_S96,
    StableHlo.unary main_v81 main_v82 (broadcastInDim S1x96 ![1] bcast_S96_S1x96_1 : (⟨S96, .f32⟩ : BufTy).Contents (Elt F) → (⟨S1x96, .f32⟩ : BufTy).Contents (Elt F)),
    StableHlo.unary main_v82 main_v83 (broadcastInDim S50000x96 ![0, 1] bcast_S1x96_S50000x96_0_1 : (⟨S1x96, .f32⟩ : BufTy).Contents (Elt F) → (⟨S50000x96, .f32⟩ : BufTy).Contents (Elt F)),
    StableHlo.binary main_v79 main_v83 main_v84 (addf : (⟨S50000x96, .f32⟩ : BufTy).Contents (Elt F) → (⟨S50000x96, .f32⟩ : BufTy).Contents (Elt F) → (⟨S50000x96, .f32⟩ : BufTy).Contents (Elt F)) ]

theorem c4_sub : (c4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

/-- The references stretch 4 writes. -/
abbrev c4_W : List (Ref sig .tc) := [main_c_9, main_v61, main_v62, main_c_10, main_v63, main_v64, main_v65, main_v66, main_v67, main_cst_11, main_v68, main_v69, main_v70, main_v71, main_v72, main_v73, main_v74, main_v75, main_v76, main_v77, main_v78, main_v79, main_v80, main_v81, main_v82, main_v83, main_v84]

theorem c4_writes : (c4 : List (HloOp τ sig (Elt F))).Forall fun op => op.writes ⊆ (c4_W.map (Proc.devRef (τ := τ) .tc)).toFinset :=
  ⟨writes_sub (y := main_c_9) rfl (by decide),
   writes_sub (y := main_v61) rfl (by decide),
   writes_sub (y := main_v62) rfl (by decide),
   writes_sub (y := main_c_10) rfl (by decide),
   writes_sub (y := main_v63) rfl (by decide),
   writes_sub (y := main_v64) rfl (by decide),
   writes_sub (y := main_v65) rfl (by decide),
   writes_sub (y := main_v66) rfl (by decide),
   writes_sub (y := main_v67) rfl (by decide),
   writes_sub (y := main_cst_11) rfl (by decide),
   writes_sub (y := main_v68) rfl (by decide),
   writes_sub (y := main_v69) rfl (by decide),
   writes_sub (y := main_v70) rfl (by decide),
   writes_sub (y := main_v71) rfl (by decide),
   writes_sub (y := main_v72) rfl (by decide),
   writes_sub (y := main_v73) rfl (by decide),
   writes_sub (y := main_v74) rfl (by decide),
   writes_sub (y := main_v75) rfl (by decide),
   writes_sub (y := main_v76) rfl (by decide),
   writes_sub (y := main_v77) rfl (by decide),
   writes_sub (y := main_v78) rfl (by decide),
   writes_sub (y := main_v79) rfl (by decide),
   writes_sub (y := main_v80) rfl (by decide),
   writes_sub (y := main_v81) rfl (by decide),
   writes_sub (y := main_v82) rfl (by decide),
   writes_sub (y := main_v83) rfl (by decide),
   writes_sub (y := main_v84) rfl (by decide)⟩

theorem c4_fresh : (c4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- Operations 123 … 164 of 255: layer 1's column mean and variance, the centred rows times the reciprocal root, and the broadcast scale. -/
abbrev c5 : List (HloOp τ sig (Elt F)) :=
  [ StableHlo.nullary main_cst_12 (constant S_ .f32 0x00000000#32),
    StableHlo.binary main_v84 main_cst_12 main_v85 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_13 (constant S_ .f32 0x47435000#32),
    StableHlo.unary main_cst_13 main_v86 (broadcastInDim S96 ![] bcast_S_S96 : (⟨S_, .f32⟩ : BufTy).Contents (Elt F) → (⟨S96, .f32⟩ : BufTy).Contents (Elt F)),
    StableHlo.binary main_v85 main_v86 main_v87 (Host.divf : (⟨S96, .f32⟩ : BufTy).Contents (Elt F) → (⟨S96, .f32⟩ : BufTy).Contents (Elt F) → (⟨S96, .f32⟩ : BufTy).Contents (Elt F)),
    StableHlo.nullary main_c_14 (constantI S_ 32 0#32),
    StableHlo.TRef.nullary main_call2.cst (constant S_ .f32 0x00000000#32),
    StableHlo.TRef.binary ((.of main_v84) : StableHlo.TRef sig ⟨S50000x96, .f32⟩) main_call2.cst main_call2.v0 (fun x v => Host.reduceAdd x v reducesTo_S50000x96_S96_d0 h_S_),
    StableHlo.TRef.unary main_call2.v0 main_call2.v1 (broadcastInDim S1x96 ![1] bcast_S96_S1x96_1),
    StableHlo.TRef.nullary main_call2.cst_0 (constant S_ .f32 0x47435000#32),
    StableHlo.TRef.unary main_call2.cst_0 main_call2.v2 (broadcastInDim S1x96 ![] bcast_S_S1x96),
    StableHlo.TRef.binary main_call2.v1 main_call2.v2 main_call2.v3 Host.divf,
    StableHlo.TRef.unary main_call2.v3 main_call2.v4 (broadcastInDim S50000x96 ![0, 1] bcast_S1x96_S50000x96_0_1),
    StableHlo.TRef.binary ((.of main_v84) : StableHlo.TRef sig ⟨S50000x96, .f32⟩) main_call2.v4 main_call2.v5 subf,
    StableHlo.TRef.binary main_call2.v5 main_call2.v5 main_call2.v6 mulf,
    StableHlo.TRef.unary ((.of main_c_14) : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x96_S96_d0 h_S_),
    StableHlo.TRef.unary main_call2.v8 main_call2.v10 (broadcastInDim S96 ![] bcast_S_S96),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S96 ![] bcast_S_S96),
    StableHlo.TRef.ternary main_call2.v12 main_call2.v11 main_call2.call0.v1 main_call2.call0.v2 (fun p a b => select (broadcastInDim S96 ![] bcast_S_S96 p) a b),
    StableHlo.unary main_v87 main_v89 (broadcastInDim S1x96 ![1] bcast_S96_S1x96_1 : (⟨S96, .f32⟩ : BufTy).Contents (Elt F) → (⟨S1x96, .f32⟩ : BufTy).Contents (Elt F)),
    StableHlo.unary main_v89 main_v90 (broadcastInDim S50000x96 ![0, 1] bcast_S1x96_S50000x96_0_1 : (⟨S1x96, .f32⟩ : BufTy).Contents (Elt F) → (⟨S50000x96, .f32⟩ : BufTy).Contents (Elt F)),
    StableHlo.binary main_v84 main_v90 main_v91 (subf : (⟨S50000x96, .f32⟩ : BufTy).Contents (Elt F) → (⟨S50000x96, .f32⟩ : BufTy).Contents (Elt F) → (⟨S50000x96, .f32⟩ : BufTy).Contents (Elt F)),
    StableHlo.nullary main_cst_15 (constant S_ .f32 0x3727C5AC#32),
    StableHlo.unary main_cst_15 main_v92 (broadcastInDim S96 ![] bcast_S_S96 : (⟨S_, .f32⟩ : BufTy).Contents (Elt F) → (⟨S96, .f32⟩ : BufTy).Contents (Elt F)),
    StableHlo.binary main_v88 main_v92 main_v93 (addf : (⟨S96, .f32⟩ : BufTy).Contents (Elt F) → (⟨S96, .f32⟩ : BufTy).Contents (Elt F) → (⟨S96, .f32⟩ : BufTy).Contents (Elt F)),
    StableHlo.unary main_v93 main_v94 (Host.rsqrt : (⟨S96, .f32⟩ : BufTy).Contents (Elt F) → (⟨S96, .f32⟩ : BufTy).Contents (Elt F)),
    StableHlo.unary main_v94 main_v95 (broadcastInDim S1x96 ![1] bcast_S96_S1x96_1 : (⟨S96, .f32⟩ : BufTy).Contents (Elt F) → (⟨S1x96, .f32⟩ : BufTy).Contents (Elt F)),
    StableHlo.unary main_v95 main_v96 (broadcastInDim S50000x96 ![0, 1] bcast_S1x96_S50000x96_0_1 : (⟨S1x96, .f32⟩ : BufTy).Contents (Elt F) → (⟨S50000x96, .f32⟩ : BufTy).Contents (Elt F)),
    StableHlo.binary main_v91 main_v96 main_v97 (mulf : (⟨S50000x96, .f32⟩ : BufTy).Contents (Elt F) → (⟨S50000x96, .f32⟩ : BufTy).Contents (Elt F) → (⟨S50000x96, .f32⟩ : BufTy).Contents (Elt F)),
    StableHlo.unary main_arg5 main_v98 ((extractStridedSlice S1x96 ![1, 0] · slices_S3x96_S1x96_1_0) : (⟨S3x96, .f32⟩ : BufTy).Contents (Elt F) → (⟨S1x96, .f32⟩ : BufTy).Contents (Elt F)),
    StableHlo.reshape main_v98 main_v99 rfl shapeCasts_S1x96_S96,
    StableHlo.unary main_v99 main_v100 (broadcastInDim S1x96 ![1] bcast_S96_S1x96_1 : (⟨S96, .f32⟩ : BufTy).Contents (Elt F) → (⟨S1x96, .f32⟩ : BufTy).Contents (Elt F)),
    StableHlo.unary main_v100 main_v101 (broadcastInDim S50000x96 ![0, 1] bcast_S1x96_S50000x96_0_1 : (⟨S1x96, .f32⟩ : BufTy).Contents (Elt F) → (⟨S50000x96, .f32⟩ : BufTy).Contents (Elt F)) ]

theorem c5_sub : (c5 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub ..⟩

/-- The references stretch 5 writes. -/
abbrev c5_W : List (Ref sig .tc) := [main_cst_12, main_v85, main_cst_13, main_v86, main_v87, main_c_14, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v88, main_v89, main_v90, main_v91, main_cst_15, main_v92, main_v93, main_v94, main_v95, main_v96, main_v97, main_v98, main_v99, main_v100, main_v101]

theorem c5_writes : (c5 : List (HloOp τ sig (Elt F))).Forall fun op => op.writes ⊆ (c5_W.map (Proc.devRef (τ := τ) .tc)).toFinset :=
  ⟨writes_sub (y := main_cst_12) rfl (by decide),
   writes_sub (y := main_v85) rfl (by decide),
   writes_sub (y := main_cst_13) rfl (by decide),
   writes_sub (y := main_v86) rfl (by decide),
   writes_sub (y := main_v87) rfl (by decide),
   writes_sub (y := main_c_14) rfl (by decide),
   writes_sub (y := main_call2_cst) rfl (by decide),
   writes_sub (y := main_call2_v0) rfl (by decide),
   writes_sub (y := main_call2_v1) rfl (by decide),
   writes_sub (y := main_call2_cst_0) rfl (by decide),
   writes_sub (y := main_call2_v2) rfl (by decide),
   writes_sub (y := main_call2_v3) rfl (by decide),
   writes_sub (y := main_call2_v4) rfl (by decide),
   writes_sub (y := main_call2_v5) rfl (by decide),
   writes_sub (y := main_call2_v6) rfl (by decide),
   writes_sub (y := main_call2_v7) rfl (by decide),
   writes_sub (y := main_call2_cst_1) rfl (by decide),
   writes_sub (y := main_call2_v8) rfl (by decide),
   writes_sub (y := main_call2_cst_2) rfl (by decide),
   writes_sub (y := main_call2_v9) rfl (by decide),
   writes_sub (y := main_call2_v10) rfl (by decide),
   writes_sub (y := main_call2_v11) rfl (by decide),
   writes_sub (y := main_call2_cst_3) rfl (by decide),
   writes_sub (y := main_call2_v12) rfl (by decide),
   writes_sub (y := main_call2_cst_4) rfl (by decide),
   writes_sub (y := main_call2_call0_v0) rfl (by decide),
   writes_sub (y := main_call2_call0_v1) rfl (by decide),
   writes_sub (y := main_v88) rfl (by decide),
   writes_sub (y := main_v89) rfl (by decide),
   writes_sub (y := main_v90) rfl (by decide),
   writes_sub (y := main_v91) rfl (by decide),
   writes_sub (y := main_cst_15) rfl (by decide),
   writes_sub (y := main_v92) rfl (by decide),
   writes_sub (y := main_v93) rfl (by decide),
   writes_sub (y := main_v94) rfl (by decide),
   writes_sub (y := main_v95) rfl (by decide),
   writes_sub (y := main_v96) rfl (by decide),
   writes_sub (y := main_v97) rfl (by decide),
   writes_sub (y := main_v98) rfl (by decide),
   writes_sub (y := main_v99) rfl (by decide),
   writes_sub (y := main_v100) rfl (by decide),
   writes_sub (y := main_v101) rfl (by decide)⟩

theorem c5_fresh : (c5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 165 … 173 of 255: layer 1's output: times the scale, plus the shift, clamped below at zero. -/
abbrev c6 : List (HloOp τ sig (Elt F)) :=
  [ StableHlo.binary main_v97 main_v101 main_v102 (mulf : (⟨S50000x96, .f32⟩ : BufTy).Contents (Elt F) → (⟨S50000x96, .f32⟩ : BufTy).Contents (Elt F) → (⟨S50000x96, .f32⟩ : BufTy).Contents (Elt F)),
    StableHlo.unary main_arg6 main_v103 ((extractStridedSlice S1x96 ![1, 0] · slices_S3x96_S1x96_1_0) : (⟨S3x96, .f32⟩ : BufTy).Contents (Elt F) → (⟨S1x96, .f32⟩ : BufTy).Contents (Elt F)),
    StableHlo.reshape main_v103 main_v104 rfl shapeCasts_S1x96_S96,
    StableHlo.unary main_v104 main_v105 (broadcastInDim S1x96 ![1] bcast_S96_S1x96_1 : (⟨S96, .f32⟩ : BufTy).Contents (Elt F) → (⟨S1x96, .f32⟩ : BufTy).Contents (Elt F)),
    StableHlo.unary main_v105 main_v106 (broadcastInDim S50000x96 ![0, 1] bcast_S1x96_S50000x96_0_1 : (⟨S1x96, .f32⟩ : BufTy).Contents (Elt F) → (⟨S50000x96, .f32⟩ : BufTy).Contents (Elt F)),
    StableHlo.binary main_v102 main_v106 main_v107 (addf : (⟨S50000x96, .f32⟩ : BufTy).Contents (Elt F) → (⟨S50000x96, .f32⟩ : BufTy).Contents (Elt F) → (⟨S50000x96, .f32⟩ : BufTy).Contents (Elt F)),
    StableHlo.TRef.nullary main_call3.cst (constant S_ .f32 0x00000000#32),
    StableHlo.TRef.unary main_call3.cst main_call3.v0 (broadcastInDim S50000x96 ![] bcast_S_S50000x96),
    StableHlo.TRef.binary ((.of main_v107) : StableHlo.TRef sig ⟨S50000x96, .f32⟩) main_call3.v0 main_call3.v1 maximumf ]

theorem c6_sub : (c6 : List (HloOp τ sig (Elt F))).Forall fun op => op.bufs ⊆ tcRefs τ sig :=
  ⟨binary_bufs_sub .., unary_bufs_sub .., reshape_bufs_sub .., unary_bufs_sub .., unary_bufs_sub .., binary_bufs_sub .., nullary_bufs_sub .., unary_bufs_sub .., binary_bufs_sub ..⟩

/-- The references stretch 6 writes. -/
abbrev c6_W : List (Ref sig .tc) := [main_v102, main_v103, main_v104, main_v105, main_v106, main_v107, main_call3_cst, main_call3_v0, main_v108]

theorem c6_writes : (c6 : List (HloOp τ sig (Elt F))).Forall fun op => op.writes ⊆ (c6_W.map (Proc.devRef (τ := τ) .tc)).toFinset :=
  ⟨writes_sub (y := main_v102) rfl (by decide),
   writes_sub (y := main_v103) rfl (by decide),
   writes_sub (y := main_v104) rfl (by decide),
   writes_sub (y := main_v105) rfl (by decide),
   writes_sub (y := main_v106) rfl (by decide),
   writes_sub (y := main_v107) rfl (by decide),
   writes_sub (y := main_call3_cst) rfl (by decide),
   writes_sub (y := main_call3_v0) rfl (by decide),
   writes_sub (y := main_v108) rfl (by decide)⟩

theorem c6_fresh : (c6 : List (HloOp τ sig (Elt F))).Forall fun op => op.fresh = ∅ :=
  ⟨rfl, rfl, rfl, rfl, rfl, rfl, rfl, rfl, rfl⟩

/-- Operations 174 … 200 of 255: layer 2 before normalisation, from layer 1's output. -/
abbrev c7 : List (HloOp τ sig (Elt F)) :=
  [ StableHlo.nullary main_c_16 (constantI S_ 32 0#32),
    StableHlo.unary main_c_16 main_v109 (broadcastInDim S800000 ![] bcast_S_S800000 : (⟨S_, .i32⟩ : BufTy).Contents (Elt F) → (⟨S800000, .i32⟩ : BufTy).Contents (Elt F)),
    StableHlo.binary main_v1 main_v109 main_v110 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v111 (broadcastInDim S800000 ![] bcast_S_S800000 : (⟨S_, .i32⟩ : BufTy).Contents (Elt F) → (⟨S800000, .i32⟩ : BufTy).Contents (Elt F)),
    StableHlo.binary main_v1 main_v111 main_v112 (addi : (⟨S800000, .i32⟩ : BufTy).Contents (Elt F) → (⟨S800000, .i32⟩ : BufTy).Contents (Elt F) → (⟨S800000, .i32⟩ : BufTy).Contents (Elt F)),
    StableHlo.ternary main_v110 main_v112 main_v1 main_v113 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v113 main_v114 (broadcastInDim S800000x1 ![0] bcast_S800000_S800000x1_0 : (⟨S800000, .i32⟩ : BufTy).Contents (Elt F) → (⟨S800000x1, .i32⟩ : BufTy).Contents (Elt F)),
    StableHlo.binary main_v108 main_v114 main_v115 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    StableHlo.nullary main_cst_18 (constant S_ .f32 0x00000000#32),
    StableHlo.unary main_cst_18 main_v116 (broadcastInDim S50000x96 ![] bcast_S_S50000x96 : (⟨S_, .f32⟩ : BufTy).Contents (Elt F) → (⟨S50000x96, .f32⟩ : BufTy).Contents (Elt F)),
    StableHlo.unary main_v3 main_v117 (broadcastInDim S800000x1 ![0] bcast_S800000_S800000x1_0 : (⟨S800000, .i32⟩ : BufTy).Contents (Elt F) → (⟨S800000x1, .i32⟩ : BufTy).Contents (Elt F)),
    StableHlo.ternary main_v116 main_v117 main_v115 main_v118 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    StableHlo.unary main_v12 main_v119 (broadcastInDim S50000x96 ![0, 1] bcast_S50000x1_S50000x96_0_1 : (⟨S50000x1, .f32⟩ : BufTy).Contents (Elt F) → (⟨S50000x96, .f32⟩ : BufTy).Contents (Elt F)),
    StableHlo.binary main_v118 main_v119 main_v120 (mulf : (⟨S50000x96, .f32⟩ : BufTy).Contents (Elt F) → (⟨S50000x96, .f32⟩ : BufTy).Contents (Elt F) → (⟨S50000x96, .f32⟩ : BufTy).Contents (Elt F)),
    StableHlo.unary main_arg2 main_v121 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v121 main_v122 rfl shapeCasts_S1x96x96_S96x96,
    StableHlo.binary main_v120 main_v122 main_v123 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.unary main_arg3 main_v124 ((extractStridedSlice S1x96x96 ![2, 0, 0] · slices_S3x96x96_S1x96x96_2_0_0) : (⟨S3x96x96, .f32⟩ : BufTy).Contents (Elt F) → (⟨S1x96x96, .f32⟩ : BufTy).Contents (Elt F)),
    StableHlo.reshape main_v124 main_v125 rfl shapeCasts_S1x96x96_S96x96,
    StableHlo.binary main_v108 main_v125 main_v126 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    StableHlo.binary main_v123 main_v126 main_v127 (addf : (⟨S50000x96, .f32⟩ : BufTy).Contents (Elt F) → (⟨S50000x96, .f32⟩ : BufTy).Contents (Elt F) → (⟨S50000x96, .f32⟩ : BufTy).Contents (Elt F)),
    StableHlo.unary main_arg4 main_v128 ((extractStridedSlice S1x96 ![2, 0] · slices_S3x96_S1x96_2_0) : (⟨S3x96, .f32⟩ : BufTy).Contents (Elt F) → (⟨S1x96, .f32⟩ : BufTy).Contents (Elt F)),
    StableHlo.reshape main_v128 main_v129 rfl shapeCasts_S1x96_S96,
    StableHlo.unary main_v129 main_v130 (broadcastInDim S1x96 ![1] bcast_S96_S1x96_1 : (⟨S96, .f32⟩ : BufTy).Contents (Elt F) → (⟨S1x96, .f32⟩ : BufTy).Contents (Elt F)),
    StableHlo.unary main_v130 main_v131 (broadcastInDim S50000x96 ![0, 1] bcast_S1x96_S50000x96_0_1 : (⟨S1x96, .f32⟩ : BufTy).Contents (Elt F) → (⟨S50000x96, .f32⟩ : BufTy).Contents (Elt F)),
    StableHlo.binary main_v127 main_v131 main_v132 (addf : (⟨S50000x96, .f32⟩ : BufTy).Contents (Elt F) → (⟨S50000x96, .f32⟩ : BufTy).Contents (Elt F) → (⟨S50000x96, .f32⟩ : BufTy).Contents (Elt F)) ]

theorem c7_sub : (c7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., reshape_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

/-- The references stretch 7 writes. -/
abbrev c7_W : List (Ref sig .tc) := [main_c_16, main_v109, main_v110, main_c_17, main_v111, main_v112, main_v113, main_v114, main_v115, main_cst_18, main_v116, main_v117, main_v118, main_v119, main_v120, main_v121, main_v122, main_v123, main_v124, main_v125, main_v126, main_v127, main_v128, main_v129, main_v130, main_v131, main_v132]

theorem c7_writes : (c7 : List (HloOp τ sig (Elt F))).Forall fun op => op.writes ⊆ (c7_W.map (Proc.devRef (τ := τ) .tc)).toFinset :=
  ⟨writes_sub (y := main_c_16) rfl (by decide),
   writes_sub (y := main_v109) rfl (by decide),
   writes_sub (y := main_v110) rfl (by decide),
   writes_sub (y := main_c_17) rfl (by decide),
   writes_sub (y := main_v111) rfl (by decide),
   writes_sub (y := main_v112) rfl (by decide),
   writes_sub (y := main_v113) rfl (by decide),
   writes_sub (y := main_v114) rfl (by decide),
   writes_sub (y := main_v115) rfl (by decide),
   writes_sub (y := main_cst_18) rfl (by decide),
   writes_sub (y := main_v116) rfl (by decide),
   writes_sub (y := main_v117) rfl (by decide),
   writes_sub (y := main_v118) rfl (by decide),
   writes_sub (y := main_v119) rfl (by decide),
   writes_sub (y := main_v120) rfl (by decide),
   writes_sub (y := main_v121) rfl (by decide),
   writes_sub (y := main_v122) rfl (by decide),
   writes_sub (y := main_v123) rfl (by decide),
   writes_sub (y := main_v124) rfl (by decide),
   writes_sub (y := main_v125) rfl (by decide),
   writes_sub (y := main_v126) rfl (by decide),
   writes_sub (y := main_v127) rfl (by decide),
   writes_sub (y := main_v128) rfl (by decide),
   writes_sub (y := main_v129) rfl (by decide),
   writes_sub (y := main_v130) rfl (by decide),
   writes_sub (y := main_v131) rfl (by decide),
   writes_sub (y := main_v132) rfl (by decide)⟩

theorem c7_fresh : (c7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

/-- Operations 201 … 247 of 255: layer 2's column mean and variance, the centred rows times the reciprocal root and the scale, and the broadcast shift. -/
abbrev c8 : List (HloOp τ sig (Elt F)) :=
  [ StableHlo.nullary main_cst_19 (constant S_ .f32 0x00000000#32),
    StableHlo.binary main_v132 main_cst_19 main_v133 ((fun x v => Host.reduceAdd x v reducesTo_S50000x96_S96_d0 h_S_) : (⟨S50000x96, .f32⟩ : BufTy).Contents (Elt F) → (⟨S_, .f32⟩ : BufTy).Contents (Elt F) → (⟨S96, .f32⟩ : BufTy).Contents (Elt F)),
    StableHlo.nullary main_cst_20 (constant S_ .f32 0x47435000#32),
    StableHlo.unary main_cst_20 main_v134 (broadcastInDim S96 ![] bcast_S_S96 : (⟨S_, .f32⟩ : BufTy).Contents (Elt F) → (⟨S96, .f32⟩ : BufTy).Contents (Elt F)),
    StableHlo.binary main_v133 main_v134 main_v135 (Host.divf : (⟨S96, .f32⟩ : BufTy).Contents (Elt F) → (⟨S96, .f32⟩ : BufTy).Contents (Elt F) → (⟨S96, .f32⟩ : BufTy).Contents (Elt F)),
    StableHlo.nullary main_c_21 (constantI S_ 32 0#32),
    StableHlo.TRef.nullary main_call4.cst (constant S_ .f32 0x00000000#32),
    StableHlo.TRef.binary ((.of main_v132) : StableHlo.TRef sig ⟨S50000x96, .f32⟩) main_call4.cst main_call4.v0 (fun x v => Host.reduceAdd x v reducesTo_S50000x96_S96_d0 h_S_),
    StableHlo.TRef.unary main_call4.v0 main_call4.v1 (broadcastInDim S1x96 ![1] bcast_S96_S1x96_1),
    StableHlo.TRef.nullary main_call4.cst_0 (constant S_ .f32 0x47435000#32),
    StableHlo.TRef.unary main_call4.cst_0 main_call4.v2 (broadcastInDim S1x96 ![] bcast_S_S1x96),
    StableHlo.TRef.binary main_call4.v1 main_call4.v2 main_call4.v3 Host.divf,
    StableHlo.TRef.unary main_call4.v3 main_call4.v4 (broadcastInDim S50000x96 ![0, 1] bcast_S1x96_S50000x96_0_1),
    StableHlo.TRef.binary ((.of main_v132) : StableHlo.TRef sig ⟨S50000x96, .f32⟩) main_call4.v4 main_call4.v5 subf,
    StableHlo.TRef.binary main_call4.v5 main_call4.v5 main_call4.v6 mulf,
    StableHlo.TRef.unary ((.of main_c_21) : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x96_S96_d0 h_S_),
    StableHlo.TRef.unary main_call4.v8 main_call4.v10 (broadcastInDim S96 ![] bcast_S_S96),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S96 ![] bcast_S_S96),
    StableHlo.TRef.ternary main_call4.v12 main_call4.v11 main_call4.call0.v1 main_call4.call0.v2 (fun p a b => select (broadcastInDim S96 ![] bcast_S_S96 p) a b),
    StableHlo.unary main_v135 main_v137 (broadcastInDim S1x96 ![1] bcast_S96_S1x96_1 : (⟨S96, .f32⟩ : BufTy).Contents (Elt F) → (⟨S1x96, .f32⟩ : BufTy).Contents (Elt F)),
    StableHlo.unary main_v137 main_v138 (broadcastInDim S50000x96 ![0, 1] bcast_S1x96_S50000x96_0_1 : (⟨S1x96, .f32⟩ : BufTy).Contents (Elt F) → (⟨S50000x96, .f32⟩ : BufTy).Contents (Elt F)),
    StableHlo.binary main_v132 main_v138 main_v139 (subf : (⟨S50000x96, .f32⟩ : BufTy).Contents (Elt F) → (⟨S50000x96, .f32⟩ : BufTy).Contents (Elt F) → (⟨S50000x96, .f32⟩ : BufTy).Contents (Elt F)),
    StableHlo.nullary main_cst_22 (constant S_ .f32 0x3727C5AC#32),
    StableHlo.unary main_cst_22 main_v140 (broadcastInDim S96 ![] bcast_S_S96 : (⟨S_, .f32⟩ : BufTy).Contents (Elt F) → (⟨S96, .f32⟩ : BufTy).Contents (Elt F)),
    StableHlo.binary main_v136 main_v140 main_v141 (addf : (⟨S96, .f32⟩ : BufTy).Contents (Elt F) → (⟨S96, .f32⟩ : BufTy).Contents (Elt F) → (⟨S96, .f32⟩ : BufTy).Contents (Elt F)),
    StableHlo.unary main_v141 main_v142 (Host.rsqrt : (⟨S96, .f32⟩ : BufTy).Contents (Elt F) → (⟨S96, .f32⟩ : BufTy).Contents (Elt F)),
    StableHlo.unary main_v142 main_v143 (broadcastInDim S1x96 ![1] bcast_S96_S1x96_1 : (⟨S96, .f32⟩ : BufTy).Contents (Elt F) → (⟨S1x96, .f32⟩ : BufTy).Contents (Elt F)),
    StableHlo.unary main_v143 main_v144 (broadcastInDim S50000x96 ![0, 1] bcast_S1x96_S50000x96_0_1 : (⟨S1x96, .f32⟩ : BufTy).Contents (Elt F) → (⟨S50000x96, .f32⟩ : BufTy).Contents (Elt F)),
    StableHlo.binary main_v139 main_v144 main_v145 (mulf : (⟨S50000x96, .f32⟩ : BufTy).Contents (Elt F) → (⟨S50000x96, .f32⟩ : BufTy).Contents (Elt F) → (⟨S50000x96, .f32⟩ : BufTy).Contents (Elt F)),
    StableHlo.unary main_arg5 main_v146 ((extractStridedSlice S1x96 ![2, 0] · slices_S3x96_S1x96_2_0) : (⟨S3x96, .f32⟩ : BufTy).Contents (Elt F) → (⟨S1x96, .f32⟩ : BufTy).Contents (Elt F)),
    StableHlo.reshape main_v146 main_v147 rfl shapeCasts_S1x96_S96,
    StableHlo.unary main_v147 main_v148 (broadcastInDim S1x96 ![1] bcast_S96_S1x96_1 : (⟨S96, .f32⟩ : BufTy).Contents (Elt F) → (⟨S1x96, .f32⟩ : BufTy).Contents (Elt F)),
    StableHlo.unary main_v148 main_v149 (broadcastInDim S50000x96 ![0, 1] bcast_S1x96_S50000x96_0_1 : (⟨S1x96, .f32⟩ : BufTy).Contents (Elt F) → (⟨S50000x96, .f32⟩ : BufTy).Contents (Elt F)),
    StableHlo.binary main_v145 main_v149 main_v150 (mulf : (⟨S50000x96, .f32⟩ : BufTy).Contents (Elt F) → (⟨S50000x96, .f32⟩ : BufTy).Contents (Elt F) → (⟨S50000x96, .f32⟩ : BufTy).Contents (Elt F)),
    StableHlo.unary main_arg6 main_v151 ((extractStridedSlice S1x96 ![2, 0] · slices_S3x96_S1x96_2_0) : (⟨S3x96, .f32⟩ : BufTy).Contents (Elt F) → (⟨S1x96, .f32⟩ : BufTy).Contents (Elt F)),
    StableHlo.reshape main_v151 main_v152 rfl shapeCasts_S1x96_S96,
    StableHlo.unary main_v152 main_v153 (broadcastInDim S1x96 ![1] bcast_S96_S1x96_1 : (⟨S96, .f32⟩ : BufTy).Contents (Elt F) → (⟨S1x96, .f32⟩ : BufTy).Contents (Elt F)),
    StableHlo.unary main_v153 main_v154 (broadcastInDim S50000x96 ![0, 1] bcast_S1x96_S50000x96_0_1 : (⟨S1x96, .f32⟩ : BufTy).Contents (Elt F) → (⟨S50000x96, .f32⟩ : BufTy).Contents (Elt F)) ]

theorem c8_sub : (c8 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub ..⟩

/-- The references stretch 8 writes. -/
abbrev c8_W : List (Ref sig .tc) := [main_cst_19, main_v133, main_cst_20, main_v134, main_v135, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v136, main_v137, main_v138, main_v139, main_cst_22, main_v140, main_v141, main_v142, main_v143, main_v144, main_v145, main_v146, main_v147, main_v148, main_v149, main_v150, main_v151, main_v152, main_v153, main_v154]

theorem c8_writes : (c8 : List (HloOp τ sig (Elt F))).Forall fun op => op.writes ⊆ (c8_W.map (Proc.devRef (τ := τ) .tc)).toFinset :=
  ⟨writes_sub (y := main_cst_19) rfl (by decide),
   writes_sub (y := main_v133) rfl (by decide),
   writes_sub (y := main_cst_20) rfl (by decide),
   writes_sub (y := main_v134) rfl (by decide),
   writes_sub (y := main_v135) rfl (by decide),
   writes_sub (y := main_c_21) rfl (by decide),
   writes_sub (y := main_call4_cst) rfl (by decide),
   writes_sub (y := main_call4_v0) rfl (by decide),
   writes_sub (y := main_call4_v1) rfl (by decide),
   writes_sub (y := main_call4_cst_0) rfl (by decide),
   writes_sub (y := main_call4_v2) rfl (by decide),
   writes_sub (y := main_call4_v3) rfl (by decide),
   writes_sub (y := main_call4_v4) rfl (by decide),
   writes_sub (y := main_call4_v5) rfl (by decide),
   writes_sub (y := main_call4_v6) rfl (by decide),
   writes_sub (y := main_call4_v7) rfl (by decide),
   writes_sub (y := main_call4_cst_1) rfl (by decide),
   writes_sub (y := main_call4_v8) rfl (by decide),
   writes_sub (y := main_call4_cst_2) rfl (by decide),
   writes_sub (y := main_call4_v9) rfl (by decide),
   writes_sub (y := main_call4_v10) rfl (by decide),
   writes_sub (y := main_call4_v11) rfl (by decide),
   writes_sub (y := main_call4_cst_3) rfl (by decide),
   writes_sub (y := main_call4_v12) rfl (by decide),
   writes_sub (y := main_call4_cst_4) rfl (by decide),
   writes_sub (y := main_call4_call0_v0) rfl (by decide),
   writes_sub (y := main_call4_call0_v1) rfl (by decide),
   writes_sub (y := main_v136) rfl (by decide),
   writes_sub (y := main_v137) rfl (by decide),
   writes_sub (y := main_v138) rfl (by decide),
   writes_sub (y := main_v139) rfl (by decide),
   writes_sub (y := main_cst_22) rfl (by decide),
   writes_sub (y := main_v140) rfl (by decide),
   writes_sub (y := main_v141) rfl (by decide),
   writes_sub (y := main_v142) rfl (by decide),
   writes_sub (y := main_v143) rfl (by decide),
   writes_sub (y := main_v144) rfl (by decide),
   writes_sub (y := main_v145) rfl (by decide),
   writes_sub (y := main_v146) rfl (by decide),
   writes_sub (y := main_v147) rfl (by decide),
   writes_sub (y := main_v148) rfl (by decide),
   writes_sub (y := main_v149) rfl (by decide),
   writes_sub (y := main_v150) rfl (by decide),
   writes_sub (y := main_v151) rfl (by decide),
   writes_sub (y := main_v152) rfl (by decide),
   writes_sub (y := main_v153) rfl (by decide),
   writes_sub (y := main_v154) rfl (by decide)⟩

theorem c8_fresh : (c8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations 248 … 255 of 255: layer 2's output and the classifier: the shift added, the clamp at zero, the product with the classifier weights plus its bias. -/
abbrev c9 : List (HloOp τ sig (Elt F)) :=
  [ StableHlo.binary main_v150 main_v154 main_v155 (addf : (⟨S50000x96, .f32⟩ : BufTy).Contents (Elt F) → (⟨S50000x96, .f32⟩ : BufTy).Contents (Elt F) → (⟨S50000x96, .f32⟩ : BufTy).Contents (Elt F)),
    StableHlo.TRef.nullary main_call5.cst (constant S_ .f32 0x00000000#32),
    StableHlo.TRef.unary main_call5.cst main_call5.v0 (broadcastInDim S50000x96 ![] bcast_S_S50000x96),
    StableHlo.TRef.binary ((.of main_v155) : StableHlo.TRef sig ⟨S50000x96, .f32⟩) main_call5.v0 main_call5.v1 maximumf,
    StableHlo.binary main_v156 main_arg7 main_v157 ((fun l r => Host.dotGeneral dot_S50000x96_S96x10_S50000x10_1_0_0_1_n_n none l r) : (⟨S50000x96, .f32⟩ : BufTy).Contents (Elt F) → (⟨S96x10, .f32⟩ : BufTy).Contents (Elt F) → (⟨S50000x10, .f32⟩ : BufTy).Contents (Elt F)),
    StableHlo.unary main_arg8 main_v158 (broadcastInDim S1x10 ![1] bcast_S10_S1x10_1 : (⟨S10, .f32⟩ : BufTy).Contents (Elt F) → (⟨S1x10, .f32⟩ : BufTy).Contents (Elt F)),
    StableHlo.unary main_v158 main_v159 (broadcastInDim S50000x10 ![0, 1] bcast_S1x10_S50000x10_0_1 : (⟨S1x10, .f32⟩ : BufTy).Contents (Elt F) → (⟨S50000x10, .f32⟩ : BufTy).Contents (Elt F)),
    StableHlo.binary main_v157 main_v159 main_v160 (addf : (⟨S50000x10, .f32⟩ : BufTy).Contents (Elt F) → (⟨S50000x10, .f32⟩ : BufTy).Contents (Elt F) → (⟨S50000x10, .f32⟩ : BufTy).Contents (Elt F)) ]

theorem c9_sub : (c9 : List (HloOp τ sig (Elt F))).Forall fun op => op.bufs ⊆ tcRefs τ sig :=
  ⟨binary_bufs_sub .., nullary_bufs_sub .., unary_bufs_sub .., binary_bufs_sub .., binary_bufs_sub .., unary_bufs_sub .., unary_bufs_sub .., binary_bufs_sub ..⟩

/-- The references stretch 9 writes. -/
abbrev c9_W : List (Ref sig .tc) := [main_v155, main_call5_cst, main_call5_v0, main_v156, main_v157, main_v158, main_v159, main_v160]

theorem c9_writes : (c9 : List (HloOp τ sig (Elt F))).Forall fun op => op.writes ⊆ (c9_W.map (Proc.devRef (τ := τ) .tc)).toFinset :=
  ⟨writes_sub (y := main_v155) rfl (by decide),
   writes_sub (y := main_call5_cst) rfl (by decide),
   writes_sub (y := main_call5_v0) rfl (by decide),
   writes_sub (y := main_v156) rfl (by decide),
   writes_sub (y := main_v157) rfl (by decide),
   writes_sub (y := main_v158) rfl (by decide),
   writes_sub (y := main_v159) rfl (by decide),
   writes_sub (y := main_v160) rfl (by decide)⟩

theorem c9_fresh : (c9 : List (HloOp τ sig (Elt F))).Forall fun op => op.fresh = ∅ :=
  ⟨rfl, rfl, rfl, rfl, rfl, rfl, rfl, rfl⟩

end Cert.ReferenceIdeal.RefRun

end
-- ==== Proof.LibAfter.lean ====
/-
  The buffers after two lines of host operations run one after the other are the buffers after the second line
  from what the first line leaves: the fold over a concatenation is the composition of the folds.
-/
import Idealize.ShloMosaic.Lib.StableHlo.Run

noncomputable section

namespace Idealize.ShloMosaic.StableHlo

variable {τ : Topo} {sig : RefSig} {Val : EltTy → Type}

/-- The contents after `l₁ ++ l₂` from `V` are the contents after `l₂` from the contents after `l₁` from `V`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo

end
-- ==== Proof.RefRun.lean ====
/-
  The reference's run. @main is the straight line of its operations (each window of the printed program is the
  concatenation of its stretches, the outlined functions unfolded at their calls), so every weakly fair execution
  terminates with each TensorCore buffer at the fold of the operations over the launch contents. The result buffer
  is left as that fold; an argument is written by no operation and keeps its launch contents.
-/
import proofs.«122304_j8787503088149_2_alg».proof.Proof.RefRunA
import proofs.«122304_j8787503088149_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A reference stretch 0 does not write keeps its contents through it. -/
theorem keep0 (V : Valuation τ sig (Elt F)) (r : Ref sig .tc) (h : r ∉ c0_W) :
    after c0 V (Proc.devRef .tc r) = V (Proc.devRef .tc r) :=
  after_of_writes_sub c0 V c0_writes h

/-- A reference stretch 1 does not write keeps its contents through it. -/
theorem keep1 (V : Valuation τ sig (Elt F)) (r : Ref sig .tc) (h : r ∉ c1_W) :
    after c1 V (Proc.devRef .tc r) = V (Proc.devRef .tc r) :=
  after_of_writes_sub c1 V c1_writes h

/-- A reference stretch 2 does not write keeps its contents through it. -/
theorem keep2 (V : Valuation τ sig (Elt F)) (r : Ref sig .tc) (h : r ∉ c2_W) :
    after c2 V (Proc.devRef .tc r) = V (Proc.devRef .tc r) :=
  after_of_writes_sub c2 V c2_writes h

/-- A reference stretch 3 does not write keeps its contents through it. -/
theorem keep3 (V : Valuation τ sig (Elt F)) (r : Ref sig .tc) (h : r ∉ c3_W) :
    after c3 V (Proc.devRef .tc r) = V (Proc.devRef .tc r) :=
  after_of_writes_sub c3 V c3_writes h

/-- A reference stretch 4 does not write keeps its contents through it. -/
theorem keep4 (V : Valuation τ sig (Elt F)) (r : Ref sig .tc) (h : r ∉ c4_W) :
    after c4 V (Proc.devRef .tc r) = V (Proc.devRef .tc r) :=
  after_of_writes_sub c4 V c4_writes h

/-- A reference stretch 5 does not write keeps its contents through it. -/
theorem keep5 (V : Valuation τ sig (Elt F)) (r : Ref sig .tc) (h : r ∉ c5_W) :
    after c5 V (Proc.devRef .tc r) = V (Proc.devRef .tc r) :=
  after_of_writes_sub c5 V c5_writes h

/-- A reference stretch 6 does not write keeps its contents through it. -/
theorem keep6 (V : Valuation τ sig (Elt F)) (r : Ref sig .tc) (h : r ∉ c6_W) :
    after c6 V (Proc.devRef .tc r) = V (Proc.devRef .tc r) :=
  after_of_writes_sub c6 V c6_writes h

/-- A reference stretch 7 does not write keeps its contents through it. -/
theorem keep7 (V : Valuation τ sig (Elt F)) (r : Ref sig .tc) (h : r ∉ c7_W) :
    after c7 V (Proc.devRef .tc r) = V (Proc.devRef .tc r) :=
  after_of_writes_sub c7 V c7_writes h

/-- A reference stretch 8 does not write keeps its contents through it. -/
theorem keep8 (V : Valuation τ sig (Elt F)) (r : Ref sig .tc) (h : r ∉ c8_W) :
    after c8 V (Proc.devRef .tc r) = V (Proc.devRef .tc r) :=
  after_of_writes_sub c8 V c8_writes h

/-- A reference stretch 9 does not write keeps its contents through it. -/
theorem keep9 (V : Valuation τ sig (Elt F)) (r : Ref sig .tc) (h : r ∉ c9_W) :
    after c9 V (Proc.devRef .tc r) = V (Proc.devRef .tc r) :=
  after_of_writes_sub c9 V c9_writes h

/-- @main's 255 operations, in order. -/
abbrev ops : List (HloOp τ sig (Elt F)) :=
  c0 ++ (c1 ++ (c2 ++ (c3 ++ (c4 ++ (c5 ++ (c6 ++ (c7 ++ (c8 ++ (c9)))))))))

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    exacts [List.forall_iff_forall_mem.mp c0_sub op h, List.forall_iff_forall_mem.mp c1_sub op h, List.forall_iff_forall_mem.mp c2_sub op h, List.forall_iff_forall_mem.mp c3_sub op h, List.forall_iff_forall_mem.mp c4_sub op h, List.forall_iff_forall_mem.mp c5_sub op h, List.forall_iff_forall_mem.mp c6_sub op h, List.forall_iff_forall_mem.mp c7_sub op h, List.forall_iff_forall_mem.mp c8_sub op h, List.forall_iff_forall_mem.mp c9_sub op h]

/-- Every operation determines its results. -/
theorem ops_fresh : ∀ op ∈ (ops : List (HloOp τ sig (Elt F))), op.fresh = ∅ := fun op h => by
  simp only [ops, List.mem_append] at h
  rcases h with h | h | h | h | h | h | h | h | h | h
  exacts [List.forall_iff_forall_mem.mp c0_fresh op h, List.forall_iff_forall_mem.mp c1_fresh op h, List.forall_iff_forall_mem.mp c2_fresh op h, List.forall_iff_forall_mem.mp c3_fresh op h, List.forall_iff_forall_mem.mp c4_fresh op h, List.forall_iff_forall_mem.mp c5_fresh op h, List.forall_iff_forall_mem.mp c6_fresh op h, List.forall_iff_forall_mem.mp c7_fresh op h, List.forall_iff_forall_mem.mp c8_fresh op h, List.forall_iff_forall_mem.mp c9_fresh op h]

set_option maxRecDepth 8192 in
/-- Window 0 of the printed @main is its stretches run one after the other. -/
theorem main_part0_eq (c : Dev nD) : main_part0 (F := F) c = seq (c0 ++ (c1 ++ (c2))) := by
  simp only [main_part0, fn_var.body, fn_where.body, fn_relu.body, seq, bind_assoc, pure_bind, List.cons_append, List.nil_append]
  rfl

set_option maxRecDepth 8192 in
/-- Window 1 of the printed @main is its stretches run one after the other. -/
theorem main_part1_eq (c : Dev nD) : main_part1 (F := F) c = seq (c3 ++ (c4 ++ (c5))) := by
  simp only [main_part1, fn_var.body, fn_where.body, fn_relu.body, seq, bind_assoc, pure_bind, List.cons_append, List.nil_append]
  rfl

set_option maxRecDepth 8192 in
/-- Window 2 of the printed @main is its stretches run one after the other. -/
theorem main_part2_eq (c : Dev nD) : main_part2 (F := F) c = seq (c6 ++ (c7 ++ (c8))) := by
  simp only [main_part2, fn_var.body, fn_where.body, fn_relu.body, seq, bind_assoc, pure_bind, List.cons_append, List.nil_append]
  rfl

set_option maxRecDepth 8192 in
/-- Window 3 of the printed @main is its stretches run one after the other. -/
theorem main_part3_eq (c : Dev nD) : main_part3 (F := F) c = seq (c9) := by
  simp only [main_part3, fn_var.body, fn_where.body, fn_relu.body, seq, bind_assoc, pure_bind, List.cons_append, List.nil_append]

/-- @main is the straight line of its operations. -/
theorem main_eq (c : Dev nD) : main (F := F) c = seq ops := by
  have e : (ops : List (HloOp τ sig (Elt F)))
      = (c0 ++ (c1 ++ (c2))) ++ ((c3 ++ (c4 ++ (c5))) ++ ((c6 ++ (c7 ++ (c8))) ++ c9)) := by
    simp only [ops, List.append_assoc]
  rw [e, seq_append (c0 ++ (c1 ++ (c2))) _, seq_append (c3 ++ (c4 ++ (c5))) _, seq_append (c6 ++ (c7 ++ (c8))) c9,
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- A reference no stretch writes keeps its contents through the whole line. -/
theorem keep_ops (V : Valuation τ sig (Elt F)) (r : Ref sig .tc)
    (h0 : r ∉ c0_W) (h1 : r ∉ c1_W) (h2 : r ∉ c2_W) (h3 : r ∉ c3_W) (h4 : r ∉ c4_W) (h5 : r ∉ c5_W) (h6 : r ∉ c6_W) (h7 : r ∉ c7_W) (h8 : r ∉ c8_W) (h9 : r ∉ c9_W) :
    after ops V (Proc.devRef .tc r) = V (Proc.devRef .tc r) := by
  simp only [ops, after_append]
  rw [keep9 _ r h9, keep8 _ r h8, keep7 _ r h7, keep6 _ r h6, keep5 _ r h5, keep4 _ r h4, keep3 _ r h3, keep2 _ r h2, keep1 _ r h1, keep0 _ r h0]

/-- The contents of buffer `b` of device `c` once @main has run from the memory `m`: the fold of the operations. -/
abbrev val (m : (ℓ : Loc nD τ sig) → Buf (Elt F) ℓ) (c : Dev nD) (b : Ref sig .tc) : (Proc.devRef (τ := τ) .tc b).ty.Contents (Elt F) :=
  after ops (launchContents m c) (Proc.devRef .tc b)

/-- On every device, for any float values, from any memory with zero counters: every weakly fair execution of
    @main terminates with the result buffer at the fold of the operations over the launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v160) = after ops (launchContents m c) (Proc.devRef .tc main_v160)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v160,
      (h c main_arg0).trans (keep_ops _ main_arg0 (by decide) (by decide) (by decide) (by decide) (by decide) (by decide) (by decide) (by decide) (by decide) (by decide)),
      (h c main_arg1).trans (keep_ops _ main_arg1 (by decide) (by decide) (by decide) (by decide) (by decide) (by decide) (by decide) (by decide) (by decide) (by decide)),
      (h c main_arg2).trans (keep_ops _ main_arg2 (by decide) (by decide) (by decide) (by decide) (by decide) (by decide) (by decide) (by decide) (by decide) (by decide)),
      (h c main_arg3).trans (keep_ops _ main_arg3 (by decide) (by decide) (by decide) (by decide) (by decide) (by decide) (by decide) (by decide) (by decide) (by decide)),
      (h c main_arg4).trans (keep_ops _ main_arg4 (by decide) (by decide) (by decide) (by decide) (by decide) (by decide) (by decide) (by decide) (by decide) (by decide)),
      (h c main_arg5).trans (keep_ops _ main_arg5 (by decide) (by decide) (by decide) (by decide) (by decide) (by decide) (by decide) (by decide) (by decide) (by decide)),
      (h c main_arg6).trans (keep_ops _ main_arg6 (by decide) (by decide) (by decide) (by decide) (by decide) (by decide) (by decide) (by decide) (by decide) (by decide)),
      (h c main_arg7).trans (keep_ops _ main_arg7 (by decide) (by decide) (by decide) (by decide) (by decide) (by decide) (by decide) (by decide) (by decide) (by decide)),
      (h c main_arg8).trans (keep_ops _ main_arg8 (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.KRun.lean ====
/-
  The idealized kernel program's run with its result named.

  @main is six kernel regions among stretches of host operations.  Every weakly fair execution from a memory
  with zero counters terminates without a fault; the result array then holds what the last region's write-backs
  leave in it — the fold `W12` through all twelve segments, read at the result buffer — and the nine argument
  arrays are as launched: the launch over the twelve segments, then the last thread state, which holds every
  unscoped buffer at `W12`, read against the final memory at the result buffer and at each argument.
-/
import proofs.«122304_j8787503088149_2_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result array at the last boundary's contents and the
    arguments unchanged. -/
theorem run_result : θ_run defs (onTc (τ := τ) (main (F := F))) ⟨m, fun _ => 0, ρ⟩ (fun r => ∀ c : Dev nD,
      r.2.mem ((c.tc : Thread nD τ).loc main_v108) = W12 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v108 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.KRun

end
-- ==== Proof.Spec.lean ====
/-
  The network both programs compute, written once over plain index functions into the extended reals.

  A GraphSAGE layer takes the node features `h` (50000 nodes, 96 features), the neighbour sums `agg h` (the
  rows of `h` gathered along the edges' sources and summed into the edges' targets), and the reciprocal
  in-degrees `inv`; it forms the affine map `(agg h · inv) · Wn + h · Ws + b`, normalises every feature column
  by its mean and variance over the nodes, scales by `gamma`, shifts by `beta` and clips below at zero.  After
  three layers a last affine map gives ten scores per node.

  The two programs differ in the normalisation only: one takes the variance as the mean of the squares minus the
  square of the mean (kept at least zero) and folds mean, variance, `gamma` and `beta` into one scale and one
  shift; the other takes the mean of the squared deviations and normalises in the textbook order.  Both forms are
  stated here (`varK`/`bnK` and `varR`/`bnR`); they agree wherever every entry is a real number.
  The neighbour sum `agg` and the reciprocal degrees `inv` are parameters: both programs compute them by the
  same operations.
-/
import Idealize.ShloMosaic.PureOps.Ideal
import Idealize.ShloMosaic.Lib.ValueIdx

noncomputable section

namespace Cert.Sage

open Idealize.ShloMosaic

/-- A matrix and a row of extended reals over literal extents. -/
abbrev Mat (a b : Nat) := Fin a → Fin b → EReal
abbrev Row (b : Nat) := Fin b → EReal

/-- The float words the programs spell: zero, the node count 50000, and the variance's guard 1e-5 (as f32). -/
abbrev w0 : EReal := Ideal.ofBits .f32 0x00000000#32
abbrev wN : EReal := Ideal.ofBits .f32 0x47435000#32
abbrev wEps : EReal := Ideal.ofBits .f32 0x3727C5AC#32

/-- The affine part of a layer: `(agg · inv) · Wn + h · Ws + b`, entry `(p, q)`. -/
def pre (agg h : Mat 50000 96) (inv : Fin 50000 → EReal) (wn ws : Mat 96 96) (b : Row 96) : Mat 50000 96 :=
  fun p q => (∑ k : Fin 96, (agg p k * inv p) * wn k q) + (∑ k : Fin 96, h p k * ws k q) + b q

/-- A column's sum over the nodes, from the zero word. -/
def colsum (x : Mat 50000 96) : Row 96 := fun q => w0 + ∑ p : Fin 50000, x p q
/-- A column's sum of squares over the nodes, from the zero word. -/
def colsumsq (x : Mat 50000 96) : Row 96 := fun q => w0 + ∑ p : Fin 50000, x p q * x p q
/-- A column's mean. -/
def mean (x : Mat 50000 96) : Row 96 := fun q => Ideal.div (colsum x q) wN
/-- The variance as the mean of squares minus the squared mean, kept at least zero. -/
def varK (x : Mat 50000 96) : Row 96 := fun q => max (Ideal.div (colsumsq x q) wN - mean x q * mean x q) w0
/-- The variance as the mean of the squared deviations from the mean. -/
def varR (x : Mat 50000 96) : Row 96 :=
  fun q => Ideal.div (w0 + ∑ p : Fin 50000, (x p q - mean x q) * (x p q - mean x q)) wN
/-- Normalise, scale, shift and clip, with scale and shift folded first. -/
def bnK (x : Mat 50000 96) (mu var gamma beta : Row 96) : Mat 50000 96 := fun p q =>
  max (x p q * (Ideal.rsqrt (var q + wEps) * gamma q) + (beta q - mu q * (Ideal.rsqrt (var q + wEps) * gamma q))) w0
/-- Normalise, scale, shift and clip, in the textbook order. -/
def bnR (x : Mat 50000 96) (mu var gamma beta : Row 96) : Mat 50000 96 := fun p q =>
  max ((x p q - mu q) * Ideal.rsqrt (var q + wEps) * gamma q + beta q) w0
/-- The last affine map: ten scores per node. -/
def clf (h : Mat 50000 96) (w : Mat 96 10) (b : Row 10) : Mat 50000 10 :=
  fun p c => (∑ k : Fin 96, h p k * w k c) + b c

/-- One layer in each form, from the features `h`. -/
def layerK (agg : Mat 50000 96 → Mat 50000 96) (inv : Fin 50000 → EReal) (wn ws : Mat 96 96) (b g be : Row 96)
    (h : Mat 50000 96) : Mat 50000 96 :=
  bnK (pre (agg h) h inv wn ws b) (mean (pre (agg h) h inv wn ws b)) (varK (pre (agg h) h inv wn ws b)) g be
def layerR (agg : Mat 50000 96 → Mat 50000 96) (inv : Fin 50000 → EReal) (wn ws : Mat 96 96) (b g be : Row 96)
    (h : Mat 50000 96) : Mat 50000 96 :=
  bnR (pre (agg h) h inv wn ws b) (mean (pre (agg h) h inv wn ws b)) (varR (pre (agg h) h inv wn ws b)) g be

/-- The whole network in each form: three layers with their own weights, then the scores. -/
def netK (agg : Mat 50000 96 → Mat 50000 96) (inv : Fin 50000 → EReal) (wn ws : Fin 3 → Mat 96 96)
    (b g be : Fin 3 → Row 96) (cw : Mat 96 10) (cb : Row 10) (x : Mat 50000 96) : Mat 50000 10 :=
  clf (layerK agg inv (wn 2) (ws 2) (b 2) (g 2) (be 2)
        (layerK agg inv (wn 1) (ws 1) (b 1) (g 1) (be 1)
          (layerK agg inv (wn 0) (ws 0) (b 0) (g 0) (be 0) x))) cw cb
def netR (agg : Mat 50000 96 → Mat 50000 96) (inv : Fin 50000 → EReal) (wn ws : Fin 3 → Mat 96 96)
    (b g be : Fin 3 → Row 96) (cw : Mat 96 10) (cb : Row 10) (x : Mat 50000 96) : Mat 50000 10 :=
  clf (layerR agg inv (wn 2) (ws 2) (b 2) (g 2) (be 2)
        (layerR agg inv (wn 1) (ws 1) (b 1) (g 1) (be 1)
          (layerR agg inv (wn 0) (ws 0) (b 0) (g 0) (be 0) x))) cw cb

/-- An extended real that is a real number. -/
def IsR (a : EReal) : Prop := ∃ r : ℝ, a = (r : EReal)

end Cert.Sage

end
-- ==== Proof.Reals.lean ====
/-
  The algebra of the network over the real numbers.

  Where every entry is a real number, the two forms of the column normalisation agree: the mean of the squares
  minus the squared mean is the mean of the squared deviations (the divisor is the number of rows), it is never
  negative, so keeping it at least zero changes nothing; its guarded reciprocal root is a positive real; and
  scale-then-shift with folded constants is the textbook order by the ring laws.  Real entries stay real through
  every layer, so the two networks agree.  The last part regroups sums taken tile by tile.
-/
import proofs.«122304_j8787503088149_2_alg».proof.Proof.Spec

noncomputable section
namespace Cert.Sage
open Idealize.ShloMosaic

/-- The words the programs spell, as real numbers. -/
theorem w0_eq : w0 = 0 := by
  simp [w0, Ideal.ofBits, Ideal.ieee]

theorem wN_eq : wN = ((50000 : ℝ) : EReal) := by
  simp [wN, Ideal.ofBits, Ideal.ieee, -EReal.coe_mul]; norm_num

theorem wEps_pos : ∃ e : ℝ, 0 < e ∧ wEps = (e : EReal) := by
  simp [wEps, Ideal.ofBits, Ideal.ieee, -EReal.coe_mul]

/-- The real numbers are closed under the operations of the network. -/
theorem IsR.zero : IsR 0 := ⟨0, rfl⟩
theorem IsR.coe (r : ℝ) : IsR (r : EReal) := ⟨r, rfl⟩
theorem IsR.add {a b : EReal} : IsR a → IsR b → IsR (a + b) := by
  rintro ⟨x, rfl⟩ ⟨y, rfl⟩; exact ⟨x + y, (EReal.coe_add x y).symm⟩
theorem IsR.mul {a b : EReal} : IsR a → IsR b → IsR (a * b) := by
  rintro ⟨x, rfl⟩ ⟨y, rfl⟩; exact ⟨x * y, (EReal.coe_mul x y).symm⟩
theorem IsR.sub {a b : EReal} : IsR a → IsR b → IsR (a - b) := by
  rintro ⟨x, rfl⟩ ⟨y, rfl⟩; exact ⟨x - y, (EReal.coe_sub x y).symm⟩
theorem coe_max (x y : ℝ) : ((Max.max x y : ℝ) : EReal) = Max.max (x : EReal) (y : EReal) :=
  EReal.coe_strictMono.monotone.map_max
theorem IsR.max {a b : EReal} : IsR a → IsR b → IsR (Max.max a b) := by
  rintro ⟨x, rfl⟩ ⟨y, rfl⟩; exact ⟨Max.max x y, (coe_max x y).symm⟩
theorem IsR.sum {ι : Type*} (s : Finset ι) (f : ι → EReal) : (∀ i ∈ s, IsR (f i)) → IsR (∑ i ∈ s, f i) := by
  classical
  induction s using Finset.induction_on with
  | empty => intro _; simpa using IsR.zero
  | insert a s ha ih =>
    intro h
    rw [Finset.sum_insert ha]
    exact IsR.add (h a (Finset.mem_insert_self a s)) (ih fun i hi => h i (Finset.mem_insert_of_mem hi))
theorem IsR.div_of_pos {a : EReal} {y : ℝ} : IsR a → 0 < y → IsR (Ideal.div a (y : EReal)) := by
  rintro ⟨x, rfl⟩ hy
  rw [Ideal.div_coe hy.ne']
  exact IsR.mul (IsR.coe x) (IsR.coe _)

/-- The word for one. -/
theorem one_eq : Ideal.ofBits .f32 0x3F800000#32 = ((1 : ℝ) : EReal) := by
  simp [Ideal.ofBits, Ideal.ieee, -EReal.coe_mul]; norm_num

/-- The reciprocal of a count kept at least one is a real. -/
theorem IsR.one_div_max (a : EReal) : IsR a → IsR (Ideal.div (Ideal.ofBits .f32 0x3F800000#32) (Max.max a (Ideal.ofBits .f32 0x3F800000#32))) := by
  rintro ⟨x, rfl⟩
  rw [one_eq, ← coe_max]
  exact IsR.div_of_pos (IsR.coe 1) (lt_of_lt_of_le one_pos (le_max_right x 1))

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every entry of a matrix, or of a row, is a real number. -/
def MatR {a b : Nat} (x : Mat a b) : Prop := ∀ p q, IsR (x p q)
def RowR {b : Nat} (x : Row b) : Prop := ∀ q, IsR (x q)

theorem IsR.w0 : IsR w0 := by rw [w0_eq]; exact IsR.zero

/-- Adding the zero word changes nothing. -/
theorem w0_add (a : EReal) : w0 + a = a := by rw [w0_eq, zero_add]

/-- Dividing a real by the node count. -/
theorem div_wN (a : ℝ) : Ideal.div (a : EReal) wN = ((a / 50000 : ℝ) : EReal) := by
  rw [wN_eq, Ideal.div_coe (by norm_num), ← EReal.coe_mul]; congr 1; ring

/-- The maximum with the zero word. -/
theorem max_w0 (a : ℝ) : Max.max (a : EReal) w0 = ((Max.max a 0 : ℝ) : EReal) := by
  rw [w0_eq, ← EReal.coe_zero, ← coe_max]

theorem isR_pre {agg h : Mat 50000 96} {inv : Fin 50000 → EReal} {wn ws : Mat 96 96} {b : Row 96} :
    MatR agg → MatR h → (∀ p, IsR (inv p)) → MatR wn → MatR ws → RowR b → MatR (pre agg h inv wn ws b) := by
  intro hagg hh hinv hwn hws hb p q
  unfold pre
  exact IsR.add (IsR.add (IsR.sum _ _ fun k _ => IsR.mul (IsR.mul (hagg p k) (hinv p)) (hwn k q))
    (IsR.sum _ _ fun k _ => IsR.mul (hh p k) (hws k q))) (hb q)

/-- A matrix of reals, seen in the extended reals. -/
abbrev up (xr : Fin 50000 → Fin 96 → ℝ) : Mat 50000 96 := fun p q => (xr p q : EReal)

theorem MatR.eq_up {x : Mat 50000 96} (hx : MatR x) : ∃ xr : Fin 50000 → Fin 96 → ℝ, x = up xr := by
  choose xr hxr using hx
  exact ⟨xr, funext fun p => funext fun q => hxr p q⟩

theorem mean_up (xr : Fin 50000 → Fin 96 → ℝ) (q : Fin 96) :
    mean (up xr) q = (((∑ p, xr p q) / 50000 : ℝ) : EReal) := by
  simp only [mean, colsum, w0_add, ← coe_sum, div_wN]

theorem varK_up (xr : Fin 50000 → Fin 96 → ℝ) (q : Fin 96) :
    varK (up xr) q = ((Max.max ((∑ p, xr p q * xr p q) / 50000
      - (∑ p, xr p q) / 50000 * ((∑ p, xr p q) / 50000)) 0 : ℝ) : EReal) := by
  simp only [varK, colsumsq, mean_up, w0_add, ← EReal.coe_mul, ← coe_sum, div_wN, ← EReal.coe_sub, max_w0]

theorem varR_up (xr : Fin 50000 → Fin 96 → ℝ) (q : Fin 96) :
    varR (up xr) q = (((∑ p, (xr p q - (∑ p, xr p q) / 50000) * (xr p q - (∑ p, xr p q) / 50000)) / 50000 : ℝ) : EReal) := by
  simp only [varR, mean_up, w0_add, ← EReal.coe_sub, ← EReal.coe_mul, ← coe_sum, div_wN]

/-- The mean of the squared deviations is the mean of the squares minus the squared mean, when the divisor is
    the number of terms. -/
theorem real_var {ι : Type*} [Fintype ι] (f : ι → ℝ) (n : ℝ) (hn : (Fintype.card ι : ℝ) = n) (hn0 : n ≠ 0) :
    (∑ i, (f i - (∑ j, f j) / n) * (f i - (∑ j, f j) / n)) / n
      = (∑ i, f i * f i) / n - (∑ j, f j) / n * ((∑ j, f j) / n) := by
  set m := (∑ j, f j) / n with hm
  have hS : ∑ j, f j = m * n := by rw [hm]; field_simp
  have h1 : ∀ i, (f i - m) * (f i - m) = f i * f i - 2 * m * f i + m * m := fun i => by ring
  simp only [h1]
  rw [Finset.sum_add_distrib, Finset.sum_sub_distrib, ← Finset.mul_sum, Finset.sum_const, Finset.card_univ,
    nsmul_eq_mul, hn, hS]
  field_simp
  ring

theorem real_var_nonneg {ι : Type*} [Fintype ι] (f : ι → ℝ) (m n : ℝ) (hn : 0 < n) :
    0 ≤ (∑ i, (f i - m) * (f i - m)) / n :=
  div_nonneg (Finset.sum_nonneg fun i _ => mul_self_nonneg _) hn.le

theorem varK_eq_varR {x : Mat 50000 96} (hx : MatR x) : varK x = varR x := by
  obtain ⟨xr, rfl⟩ := hx.eq_up
  funext q
  rw [varK_up, varR_up]
  congr 1
  have hc : ((Fintype.card (Fin 50000) : ℕ) : ℝ) = 50000 := by simp
  rw [← real_var (fun p => xr p q) 50000 hc (by norm_num)]
  exact max_eq_left (real_var_nonneg _ _ _ (by norm_num))

/-- The variance is a nonnegative real. -/
theorem varR_nonneg {x : Mat 50000 96} (hx : MatR x) (q : Fin 96) : ∃ v : ℝ, 0 ≤ v ∧ varR x q = (v : EReal) := by
  obtain ⟨xr, rfl⟩ := hx.eq_up
  exact ⟨_, real_var_nonneg _ _ _ (by norm_num), varR_up xr q⟩

/-- The reciprocal root of the guarded variance is a real. -/
theorem isR_rsqrt_var {x : Mat 50000 96} (hx : MatR x) (q : Fin 96) : IsR (Ideal.rsqrt (varR x q + wEps)) := by
  obtain ⟨v, hv, hvq⟩ := varR_nonneg hx q
  obtain ⟨e, he, hee⟩ := wEps_pos
  have hpos : 0 < v + e := by linarith
  rw [hvq, hee, ← EReal.coe_add, Ideal.rsqrt_coe, if_neg (not_lt.mpr hpos.le), if_neg hpos.ne']
  exact IsR.coe _

theorem isR_mean {x : Mat 50000 96} (hx : MatR x) (q : Fin 96) : IsR (mean x q) := by
  obtain ⟨xr, rfl⟩ := hx.eq_up
  rw [mean_up]; exact IsR.coe _

theorem bnK_eq_bnR {x : Mat 50000 96} {g be : Row 96} (hx : MatR x) (hg : RowR g) (hbe : RowR be) :
    bnK x (mean x) (varK x) g be = bnR x (mean x) (varR x) g be := by
  rw [varK_eq_varR hx]
  funext p q
  obtain ⟨r, hr⟩ := isR_rsqrt_var hx q
  obtain ⟨m, hm⟩ := isR_mean hx q
  obtain ⟨a, ha⟩ := hx p q
  obtain ⟨c, hc⟩ := hg q
  obtain ⟨d, hd⟩ := hbe q
  simp only [bnK, bnR, hr, hm, ha, hc, hd, ← EReal.coe_mul, ← EReal.coe_sub, ← EReal.coe_add]
  congr 2
  ring

theorem isR_bnR {x : Mat 50000 96} {g be : Row 96} (hx : MatR x) (hg : RowR g) (hbe : RowR be) :
    MatR (bnR x (mean x) (varR x) g be) := by
  intro p q
  unfold bnR
  exact IsR.max (IsR.add (IsR.mul (IsR.mul (IsR.sub (hx p q) (isR_mean hx q)) (isR_rsqrt_var hx q)) (hg q)) (hbe q)) IsR.w0

theorem layer_eq {agg : Mat 50000 96 → Mat 50000 96} {inv : Fin 50000 → EReal} {wn ws : Mat 96 96} {b g be : Row 96} {h : Mat 50000 96}
    (hagg : MatR (agg h)) (hh : MatR h) (hinv : ∀ p, IsR (inv p)) (hwn : MatR wn) (hws : MatR ws) (hb : RowR b) (hg : RowR g) (hbe : RowR be) :
    layerK agg inv wn ws b g be h = layerR agg inv wn ws b g be h ∧ MatR (layerR agg inv wn ws b g be h) := by
  have hP : MatR (pre (agg h) h inv wn ws b) := isR_pre hagg hh hinv hwn hws hb
  exact ⟨bnK_eq_bnR hP hg hbe, isR_bnR hP hg hbe⟩

theorem net_eq {agg : Mat 50000 96 → Mat 50000 96} {inv : Fin 50000 → EReal} {wn ws : Fin 3 → Mat 96 96} {b g be : Fin 3 → Row 96}
    (cw : Mat 96 10) (cb : Row 10) {x : Mat 50000 96}
    (hagg : ∀ h, MatR h → MatR (agg h)) (hinv : ∀ p, IsR (inv p)) (hwn : ∀ l, MatR (wn l)) (hws : ∀ l, MatR (ws l))
    (hb : ∀ l, RowR (b l)) (hg : ∀ l, RowR (g l)) (hbe : ∀ l, RowR (be l)) (hx : MatR x) :
    netK agg inv wn ws b g be cw cb x = netR agg inv wn ws b g be cw cb x := by
  obtain ⟨e0, r0⟩ := layer_eq (agg := agg) (hagg x hx) hx hinv (hwn 0) (hws 0) (hb 0) (hg 0) (hbe 0)
  obtain ⟨e1, r1⟩ := layer_eq (agg := agg) (hagg _ r0) r0 hinv (hwn 1) (hws 1) (hb 1) (hg 1) (hbe 1)
  obtain ⟨e2, _⟩ := layer_eq (agg := agg) (hagg _ r1) r1 hinv (hwn 2) (hws 2) (hb 2) (hg 2) (hbe 2)
  unfold netK netR
  rw [e0, e1, e2]

/-- Ten tiles of five thousand rows are the fifty thousand rows. -/
def tileEquiv : Fin 10 × Fin 5000 ≃ Fin 50000 := finProdFinEquiv.trans (finCongr (by norm_num))

theorem tileEquiv_val (t : Fin 10) (i : Fin 5000) : (tileEquiv (t, i)).val = 5000 * t.val + i.val := by
  simp [tileEquiv, finProdFinEquiv]; omega

theorem sum_tiles (f : Fin 50000 → EReal) :
    ∑ t : Fin 10, ∑ i : Fin 5000, f ⟨5000 * t.val + i.val, by omega⟩ = ∑ p : Fin 50000, f p := by
  rw [← Fintype.sum_prod_type']
  exact Fintype.sum_equiv tileEquiv _ _ fun ⟨t, i⟩ => congrArg f (Fin.ext (tileEquiv_val t i).symm)

/-- Ten blocks of eight rows are the eighty rows. -/
def rowEquiv : Fin 10 × Fin 8 ≃ Fin 80 := finProdFinEquiv.trans (finCongr (by norm_num))

theorem rowEquiv_val (t : Fin 10) (j : Fin 8) : (rowEquiv (t, j)).val = 8 * t.val + j.val := by
  simp [rowEquiv, finProdFinEquiv]; omega

theorem sum_rows8 (g : Fin 10 → EReal) :
    ∑ r : Fin 80, (if r.val % 8 = 0 then g ⟨r.val / 8, by omega⟩ else 0) = ∑ t : Fin 10, g t := by
  rw [← Fintype.sum_equiv rowEquiv (fun x : Fin 10 × Fin 8 => if x.2.val = 0 then g x.1 else 0) _ ?_]
  · rw [Fintype.sum_prod_type]
    refine Finset.sum_congr rfl fun t _ => ?_
    simp [Fin.sum_univ_succ]
  · rintro ⟨t, j⟩
    have h1 : (rowEquiv (t, j)).val % 8 = j.val := by rw [rowEquiv_val]; omega
    have h2 : (rowEquiv (t, j)).val / 8 = t.val := by rw [rowEquiv_val]; omega
    simp only [h1]
    split_ifs
    · exact congrArg g (Fin.ext h2.symm)
    · rfl

/-- The column sums and sums of squares of real entries are real. -/
theorem isR_colsum {x : Mat 50000 96} (hx : MatR x) (q : Fin 96) : IsR (colsum x q) :=
  IsR.add IsR.w0 (IsR.sum _ _ fun p _ => hx p q)
theorem isR_colsumsq {x : Mat 50000 96} (hx : MatR x) (q : Fin 96) : IsR (colsumsq x q) :=
  IsR.add IsR.w0 (IsR.sum _ _ fun p _ => IsR.mul (hx p q) (hx p q))

/-- The eighty partial rows (one sum per tile in the first row of each block of eight, zero elsewhere) add up
    to the column sum, so dividing by the node count gives the mean. -/
theorem mean_of_tiles (x : Mat 50000 96) (q : Fin 96) :
    Ideal.div (w0 + ∑ r : Fin 80, (if r.val % 8 = 0 then
      w0 + ∑ i : Fin 5000, x ⟨5000 * (r.val / 8) + i.val, by omega⟩ q else w0)) wN = mean x q := by
  simp only [mean, colsum, w0_add]
  rw [w0_eq]
  refine congrArg (fun s => Ideal.div s wN) ?_
  rw [← sum_tiles (fun p => x p q)]
  exact sum_rows8 (fun t => ∑ i : Fin 5000, x ⟨5000 * t.val + i.val, by omega⟩ q)

/-- The same for the squares. -/
theorem meansq_of_tiles (x : Mat 50000 96) (q : Fin 96) :
    Ideal.div (w0 + ∑ r : Fin 80, (if r.val % 8 = 0 then
      w0 + ∑ i : Fin 5000, x ⟨5000 * (r.val / 8) + i.val, by omega⟩ q * x ⟨5000 * (r.val / 8) + i.val, by omega⟩ q
        else w0)) wN = Ideal.div (colsumsq x q) wN := by
  simp only [colsumsq, w0_add]
  rw [w0_eq]
  refine congrArg (fun s => Ideal.div s wN) ?_
  rw [← sum_tiles (fun p => x p q * x p q)]
  exact sum_rows8 (fun t => ∑ i : Fin 5000,
    x ⟨5000 * t.val + i.val, by omega⟩ q * x ⟨5000 * t.val + i.val, by omega⟩ q)

end Cert.Sage
end
-- ==== Proof.KCarry.lean ====
/-
  What the later segments of the idealized kernel program find in the buffers the earlier ones computed.

  @main's twelve segments alternate host stretches and kernel regions.  A host stretch leaves every buffer it does
  not write as it found it; a region leaves every buffer that is not one of its output arrays as it found it (an
  input array is read, never written back).  So the two rows of the edge list, the reciprocal in-degrees and the
  parameter arrays, once computed or launched, are found unchanged wherever they are read again.
-/
import proofs.«122304_j8787503088149_2_alg».proof.Proof.Gen.KernelIdeal.Frame

set_option maxRecDepth 16384

noncomputable section

namespace Cert.KernelIdeal.KCarry

open Cert.KernelIdeal Cert.KernelIdeal.Gen
open Idealize.ShloMosaic Idealize.ShloMosaic.TcCoe Idealize.ShloMosaic.Tactic Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-! ## The edge rows (computed by the first stretch, read again by the third and the fifth) -/
theorem v1_at4 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W1 m ρ c (Proc.devRef .tc main_v1) := W2_of_ne m ρ c main_v1 (by decide)

theorem v1_at8 : W8 m ρ c (Proc.devRef .tc main_v1) = W4 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem v3_at4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W1 m ρ c (Proc.devRef .tc main_v3) := W2_of_ne m ρ c main_v3 (by decide)

theorem v3_at8 : W8 m ρ c (Proc.devRef .tc main_v3) = W4 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-! ## The reciprocal in-degrees (an input array of the first, third and fifth regions) -/
theorem v12_at5 : W5 m ρ c (Proc.devRef .tc main_v12) = W1 m ρ c (Proc.devRef .tc main_v12) :=
  calc W5 m ρ c (Proc.devRef .tc main_v12)
    _ = W4 m ρ c (Proc.devRef .tc main_v12) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W3 m ρ c (Proc.devRef .tc main_v12) := W4_of_ne m ρ c main_v12 (by decide)
    _ = W2 m ρ c (Proc.devRef .tc main_v12) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W1 m ρ c (Proc.devRef .tc main_v12) := (W2_arr m ρ c 2).trans (((dat0 (V1 m ρ) c).arrAt_in 2 rfl _).trans (A_eq0 (V1 m ρ) c 2))

theorem v12_at9 : W9 m ρ c (Proc.devRef .tc main_v12) = W5 m ρ c (Proc.devRef .tc main_v12) :=
  calc W9 m ρ c (Proc.devRef .tc main_v12)
    _ = W8 m ρ c (Proc.devRef .tc main_v12) := StableHlo.after_of_forall_not_mem _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W7 m ρ c (Proc.devRef .tc main_v12) := W8_of_ne m ρ c main_v12 (by decide)
    _ = W6 m ρ c (Proc.devRef .tc main_v12) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W5 m ρ c (Proc.devRef .tc main_v12) := (W6_arr m ρ c 2).trans (((dat2 (V5 m ρ) c).arrAt_in 2 rfl _).trans (A_eq2 (V5 m ρ) c 2))

/-! ## The parameter arrays -/
theorem arg2_at4 : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg2_at8 : W8 m ρ c (Proc.devRef .tc main_arg2) = W4 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg3_at4 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg3_at8 : W8 m ρ c (Proc.devRef .tc main_arg3) = W4 m ρ c (Proc.devRef .tc main_arg3) :=
  calc W8 m ρ c (Proc.devRef .tc main_arg3)
    _ = W7 m ρ c (Proc.devRef .tc main_arg3) := W8_of_ne m ρ c main_arg3 (by decide)
    _ = W6 m ρ c (Proc.devRef .tc main_arg3) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg4_at4 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg4_at8 : W8 m ρ c (Proc.devRef .tc main_arg4) = W4 m ρ c (Proc.devRef .tc main_arg4) :=
  calc W8 m ρ c (Proc.devRef .tc main_arg4)
    _ = W7 m ρ c (Proc.devRef .tc main_arg4) := W8_of_ne m ρ c main_arg4 (by decide)
    _ = W6 m ρ c (Proc.devRef .tc main_arg4) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg5_at2 : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg5_at6 : W6 m ρ c (Proc.devRef .tc main_arg5) = W2 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg5_at10 : W10 m ρ c (Proc.devRef .tc main_arg5) = W6 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := StableHlo.after_of_forall_not_mem _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W7 m ρ c (Proc.devRef .tc main_arg5) := W8_of_ne m ρ c main_arg5 (by decide)
    _ = W6 m ρ c (Proc.devRef .tc main_arg5) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg6_at2 : W2 m ρ c (Proc.devRef .tc main_arg6) = W0 m ρ c (Proc.devRef .tc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem _ _ (List.forall_iff_forall_mem.mp (by
      simp only [hostOps0, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg6_at6 : W6 m ρ c (Proc.devRef .tc main_arg6) = W2 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem _ _ (List.forall_iff_forall_mem.mp (by
      simp only [hostOps2, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

theorem arg6_at10 : W10 m ρ c (Proc.devRef .tc main_arg6) = W6 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := StableHlo.after_of_forall_not_mem _ _ (List.forall_iff_forall_mem.mp (by
      simp only [hostOps4, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))
    _ = W7 m ρ c (Proc.devRef .tc main_arg6) := W8_of_ne m ρ c main_arg6 (by decide)
    _ = W6 m ρ c (Proc.devRef .tc main_arg6) := StableHlo.after_of_forall_not_mem _ _ (List.forall_iff_forall_mem.mp (by
      simp only [hostOps3, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide)))

/-- The classifier's two arrays are input arrays of the last region: what it finds is what the run ends with,
    which is the launch contents. -/
theorem arg7_at11 : W11 m ρ c (Proc.devRef .tc main_arg7) = m ((c : Thread nD τ).loc main_arg7) :=
  ((W12_arr m ρ c 5).trans (((dat5 (V11 m ρ) c).arrAt_in 5 rfl _).trans (A_eq5 (V11 m ρ) c 5))).symm.trans (W12_main_arg7 m ρ c)
theorem arg8_at11 : W11 m ρ c (Proc.devRef .tc main_arg8) = m ((c : Thread nD τ).loc main_arg8) :=
  ((W12_arr m ρ c 6).trans (((dat5 (V11 m ρ) c).arrAt_in 6 rfl _).trans (A_eq5 (V11 m ρ) c 6))).symm.trans (W12_main_arg8 m ρ c)

end Cert.KernelIdeal.KCarry

end
-- ==== Proof.KHostDefs.lean ====
/-
  The host arithmetic between the kernel regions, as functions of what it reads.

  The edge list is a 2 × 800000 array of node numbers: row 0 the edges' sources, row 1 their targets.
  `invV` is the reciprocal in-degree column: ones are summed into a zero vector at the targets, the count is kept
  at least one, and one is divided by it.  `aggRows` is the neighbour sum of a feature matrix `h`: a negative
  source is wrapped by adding the node count, the rows of `h` at the sources are gathered, and they are summed
  into a zero matrix at the targets.
-/
import proofs.«122304_j8787503088149_2_alg».proof.Proof.Gen.KernelIdeal.Launch
import Idealize.ShloMosaic.Lib.StableHlo.Run
import Idealize.ShloMosaic.PureOps.Ideal

noncomputable section

namespace Cert.KernelIdeal.KHost

open Cert.KernelIdeal Cert.KernelIdeal.Gen Idealize.ShloMosaic Idealize.ShloMosaic.TcCoe Idealize.SL.Sem Idealize.ShloMosaic.StableHlo

/-- Row 0 of the edge list: the edges' sources. -/
def srcRow (e : IVec S2x800000 32) : IVec S800000 32 :=
  shapeCast S800000 (extractStridedSlice S1x800000 ![0, 0] e slices_S2x800000_S1x800000_0_0) shapeCasts_S1x800000_S800000

/-- Row 1 of the edge list: the edges' targets. -/
def dstRow (e : IVec S2x800000 32) : IVec S800000 32 :=
  shapeCast S800000 (extractStridedSlice S1x800000 ![1, 0] e slices_S2x800000_S1x800000_1_0) shapeCasts_S1x800000_S800000

/-- The reciprocal in-degrees as a column: `1 / max (number of edges into the node) 1`. -/
def invV (dst : IVec S800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf
        (Host.scatterAdd scatter_S50000_S800000x1_S800000_n_0_0_1
          (broadcastInDim S50000 ![] bcast_S_S50000 (constant (F := Ideal) S_ .f32 0x00000000#32))
          (broadcastInDim S800000x1 ![0] bcast_S800000_S800000x1_0 dst)
          (broadcastInDim S800000 ![] bcast_S_S800000 (constant (F := Ideal) S_ .f32 0x3F800000#32)))
        (broadcastInDim S50000 ![] bcast_S_S50000 (constant (F := Ideal) S_ .f32 0x3F800000#32))))

/-- The neighbour sum: the rows of `h` at the (wrapped) sources, summed into a zero matrix at the targets. -/
def aggRows (src dst : IVec S800000 32) (h : FVec Ideal S50000x96 .f32) : FVec Ideal S50000x96 .f32 :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (Host.gather gather_S50000x96_S800000x1_S800000x96_1_0_n_n_0_1_196 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32)))
          src)))

end Cert.KernelIdeal.KHost

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.KStats.lean ====
/-
  The host's arithmetic between the two kernels of a layer, read at an index.

  From the eighty partial rows of column sums and of column sums of squares the host forms, per column, the sum
  from the zero word, divides by the node count to get the mean and the mean of squares, subtracts the squared
  mean and keeps the difference at least zero.  Each layer's weights and rows are cut out of a stack of three:
  entry `(k, j)` of layer `l`'s matrix is entry `(l, k, j)` of the stack.
-/
import proofs.«122304_j8787503088149_2_alg».proof.KernelIdeal
import proofs.«122304_j8787503088149_2_alg».proof.Proof.Spec
import proofs.«122304_j8787503088149_2_alg».proof.Proof.Reals
import proofs.«122304_j8787503088149_2_alg».proof.Proof.LibRowOps
import Idealize.ShloMosaic.Lib.IdealHost
import Idealize.ShloMosaic.Lib.ValueLayout
import Idealize.ShloMosaic.Lib.Pipeline.Value
import Idealize.ShloMosaic.PureOps.Ideal.Laws

noncomputable section
namespace Cert.KernelIdeal.KStats
open Cert.KernelIdeal Idealize.ShloMosaic Idealize.ShloMosaic.ValueIdx Cert.Sage

variable [Facts]
open Facts₀ Facts

/-- The index a reduction along the first axis lifts `(q)` and the position `r` to is `(r, q)`. -/
theorem lift_col {a b : ℕ} (h : (⟨2, ![a, b]⟩ : Shape).Reduces [0] ⟨1, ![b]⟩) (q : Fin b) (r : Fin a) :
    h.lift (ix1 q) r = ix2 r q := by
  funext c
  apply Fin.ext
  show h.liftVal (ix1 q) r.val c = (ix2 r q c).val
  match c with
  | ⟨0, _⟩ => simp [Shape.Reduces.liftVal]
  | ⟨1, _⟩ => simp [Shape.Reduces.liftVal]

/-- The host's sum of an `a × b` array along its columns, at column `q`: the initial value plus the sum of the
    column's entries. -/
theorem hostReduceAdd_col_apply {a b : ℕ} (h' : (⟨2, ![a, b]⟩ : Shape).ReducesTo [0] ⟨1, ![b]⟩)
    (h : (⟨2, ![a, b]⟩ : Shape).Reduces [0] ⟨1, ![b]⟩) (x : (⟨2, ![a, b]⟩ : Shape).Idx → EReal) (init : EReal) (q : Fin b) :
    Ideal.hostReduceAdd h' x init (ix1 q) = init + ∑ r : Fin a, x (ix2 r q) :=
  (Ideal.hostReduceAdd_single h' h x init (ix1 q)).trans
    (congrArg (init + ·) (Finset.sum_congr rfl fun r _ => congrArg x (lift_col h q r)))

/-- The column mean the host computes from the eighty partial rows. -/
def muV (s : FVec Ideal S80x96 .f32) : FVec Ideal S96 .f32 :=
  Host.divf (Host.reduceAdd s (constant S_ .f32 0x00000000#32) reducesTo_S80x96_S96_d0 h_S_)
    (broadcastInDim S96 ![] bcast_S_S96 (constant S_ .f32 0x47435000#32))

/-- The column variance the host computes from the partial sums and sums of squares. -/
def varV (s ss : FVec Ideal S80x96 .f32) : FVec Ideal S96 .f32 :=
  maximumf (subf (Host.divf (Host.reduceAdd ss (constant S_ .f32 0x00000000#32) reducesTo_S80x96_S96_d0 h_S_)
    (broadcastInDim S96 ![] bcast_S_S96 (constant S_ .f32 0x47435000#32))) (mulf (muV s) (muV s)))
    (broadcastInDim S96 ![] bcast_S_S96 (constant S_ .f32 0x00000000#32))

theorem reduces_S80x96_S96 : S80x96.Reduces [0] S96 := by decide

/-- A partial-row sum divided by the node count, at a column. -/
theorem divsum_apply (s : FVec Ideal S80x96 .f32) (q : Fin 96) :
    Host.divf (Host.reduceAdd s (constant (F := Ideal) S_ .f32 0x00000000#32) reducesTo_S80x96_S96_d0 h_S_)
      (broadcastInDim S96 ![] bcast_S_S96 (constant (F := Ideal) S_ .f32 0x47435000#32)) (ix1 q)
      = Ideal.div (w0 + ∑ r : Fin 80, s (ix2 r q)) wN := by
  rw [hostDivf_apply, hostReduceAdd_apply, ValueIdx.broadcastInDim_scalar_apply, constant_apply, constant_apply,
    hostReduceAdd_col_apply _ reduces_S80x96_S96]

theorem muV_apply (s : FVec Ideal S80x96 .f32) (q : Fin 96) :
    muV s (ix1 q) = Ideal.div (w0 + ∑ r : Fin 80, s (ix2 r q)) wN := divsum_apply s q

theorem varV_apply (s ss : FVec Ideal S80x96 .f32) (q : Fin 96) :
    varV s ss (ix1 q) = max (Ideal.div (w0 + ∑ r : Fin 80, ss (ix2 r q)) wN - muV s (ix1 q) * muV s (ix1 q)) w0 := by
  unfold varV
  rw [maximumf_apply, subf_apply, mulf_apply, divsum_apply, ValueIdx.broadcastInDim_scalar_apply, constant_apply]

/-- A rank-3 array cut along its first axis from `o` reads, at `(u, k, j)`, the source at `(l, k, j)` with `l = o + u`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (u : Fin m) (k : Fin n1) (j : Fin n2) (l : Fin n0) (hl : l.val = o + u.val) :
    extractStridedSlice ⟨3, ![m, n1, n2]⟩ ![o, 0, 0] X h (ix3 u k j) = X (ix3 l k j) :=
  extractStridedSlice_apply _ _ _ _ _ (fun ax => by
    match ax with
    | ⟨0, _⟩ => exact hl
    | ⟨1, _⟩ => exact (Nat.zero_add _).symm
    | ⟨2, _⟩ => exact (Nat.zero_add _).symm)

/-- Layer `l`'s weight matrix out of the stack of three. -/
def sliceW0 (a : FVec Ideal S3x96x96 .f32) : FVec Ideal S96x96 .f32 :=
  shapeCast S96x96 (extractStridedSlice S1x96x96 ![0, 0, 0] a slices_S3x96x96_S1x96x96_0_0_0) shapeCasts_S1x96x96_S96x96
def sliceW1 (a : FVec Ideal S3x96x96 .f32) : FVec Ideal S96x96 .f32 :=
  shapeCast S96x96 (extractStridedSlice S1x96x96 ![1, 0, 0] a slices_S3x96x96_S1x96x96_1_0_0) shapeCasts_S1x96x96_S96x96
def sliceW2 (a : FVec Ideal S3x96x96 .f32) : FVec Ideal S96x96 .f32 :=
  shapeCast S96x96 (extractStridedSlice S1x96x96 ![2, 0, 0] a slices_S3x96x96_S1x96x96_2_0_0) shapeCasts_S1x96x96_S96x96

/-- Layer `l`'s row out of the stack of three. -/
def sliceB0 (a : FVec Ideal S3x96 .f32) : FVec Ideal S96 .f32 :=
  shapeCast S96 (extractStridedSlice S1x96 ![0, 0] a slices_S3x96_S1x96_0_0) shapeCasts_S1x96_S96
def sliceB1 (a : FVec Ideal S3x96 .f32) : FVec Ideal S96 .f32 :=
  shapeCast S96 (extractStridedSlice S1x96 ![1, 0] a slices_S3x96_S1x96_1_0) shapeCasts_S1x96_S96
def sliceB2 (a : FVec Ideal S3x96 .f32) : FVec Ideal S96 .f32 :=
  shapeCast S96 (extractStridedSlice S1x96 ![2, 0] a slices_S3x96_S1x96_2_0) shapeCasts_S1x96_S96

theorem sliceW0_apply (a : FVec Ideal S3x96x96 .f32) (k j : Fin 96) : sliceW0 a (ix2 k j) = a (ix3 (0 : Fin 3) k j) := by
  unfold sliceW0
  rw [shapeCast_1ab_ab_apply]
  exact slice3_axis0_apply 0 a _ (0 : Fin 1) k j (0 : Fin 3) rfl
theorem sliceW1_apply (a : FVec Ideal S3x96x96 .f32) (k j : Fin 96) : sliceW1 a (ix2 k j) = a (ix3 (1 : Fin 3) k j) := by
  unfold sliceW1
  rw [shapeCast_1ab_ab_apply]
  exact slice3_axis0_apply 1 a _ (0 : Fin 1) k j (1 : Fin 3) rfl
theorem sliceW2_apply (a : FVec Ideal S3x96x96 .f32) (k j : Fin 96) : sliceW2 a (ix2 k j) = a (ix3 (2 : Fin 3) k j) := by
  unfold sliceW2
  rw [shapeCast_1ab_ab_apply]
  exact slice3_axis0_apply 2 a _ (0 : Fin 1) k j (2 : Fin 3) rfl

theorem sliceB0_apply (a : FVec Ideal S3x96 .f32) (j : Fin 96) : sliceB0 a (ix1 j) = a (ix2 (0 : Fin 3) j) := by
  unfold sliceB0
  rw [shapeCast_1a_a_apply]
  exact slice2_axis0_apply 0 a _ (0 : Fin 1) j (0 : Fin 3) rfl
theorem sliceB1_apply (a : FVec Ideal S3x96 .f32) (j : Fin 96) : sliceB1 a (ix1 j) = a (ix2 (1 : Fin 3) j) := by
  unfold sliceB1
  rw [shapeCast_1a_a_apply]
  exact slice2_axis0_apply 1 a _ (0 : Fin 1) j (1 : Fin 3) rfl
theorem sliceB2_apply (a : FVec Ideal S3x96 .f32) (j : Fin 96) : sliceB2 a (ix1 j) = a (ix2 (2 : Fin 3) j) := by
  unfold sliceB2
  rw [shapeCast_1a_a_apply]
  exact slice2_axis0_apply 2 a _ (0 : Fin 1) j (2 : Fin 3) rfl

end Cert.KernelIdeal.KStats
end
-- ==== Proof.KHost4.lean ====
/-
  Stretch 4: the neighbour sum of layer 1's output, and layer 2's weights and bias.
  Every equation is for an arbitrary assignment `W` of contents to the buffers the stretch finds.
-/
import proofs.«122304_j8787503088149_2_alg».proof.Proof.KHostDefs
import proofs.«122304_j8787503088149_2_alg».proof.Proof.KStats

noncomputable section

namespace Cert.KernelIdeal.KHost

open Cert.KernelIdeal Cert.KernelIdeal.Gen Idealize.ShloMosaic Idealize.ShloMosaic.TcCoe Idealize.SL.Sem Idealize.ShloMosaic.StableHlo

variable (W : Valuation τ sig (Elt Ideal))

/-! ## What the stretch computes -/

/-- The neighbour sum of layer 1's output. -/
theorem ops4_v86 : StableHlo.after (hostOps4 (F := Ideal)) W (Proc.devRef .tc main_v86)
    = aggRows (W (Proc.devRef .tc main_v1)) (W (Proc.devRef .tc main_v3)) (W (Proc.devRef .tc main_v76)) := by
  after_results_simp
  rfl

section
variable [Facts]

/-- Layer 2's neighbour weights. -/
theorem ops4_v88 : StableHlo.after (hostOps4 (F := Ideal)) W (Proc.devRef .tc main_v88)
    = KStats.sliceW2 (W (Proc.devRef .tc main_arg2)) := by
  after_results_simp
  rfl

/-- Layer 2's self weights. -/
theorem ops4_v90 : StableHlo.after (hostOps4 (F := Ideal)) W (Proc.devRef .tc main_v90)
    = KStats.sliceW2 (W (Proc.devRef .tc main_arg3)) := by
  after_results_simp
  rfl

/-- Layer 2's bias. -/
theorem ops4_v92 : StableHlo.after (hostOps4 (F := Ideal)) W (Proc.devRef .tc main_v92)
    = KStats.sliceB2 (W (Proc.devRef .tc main_arg4)) := by
  after_results_simp
  rfl

end

/-! ## What the stretch leaves as it was -/

theorem keep4_main_v76 : StableHlo.after (hostOps4 (F := Ideal)) W (Proc.devRef .tc main_v76) = W (Proc.devRef .tc main_v76) := by
  after_results_simp

theorem keep4_main_v12 : StableHlo.after (hostOps4 (F := Ideal)) W (Proc.devRef .tc main_v12) = W (Proc.devRef .tc main_v12) := by
  after_results_simp

theorem keep4_main_v1 : StableHlo.after (hostOps4 (F := Ideal)) W (Proc.devRef .tc main_v1) = W (Proc.devRef .tc main_v1) := by
  after_results_simp

theorem keep4_main_v3 : StableHlo.after (hostOps4 (F := Ideal)) W (Proc.devRef .tc main_v3) = W (Proc.devRef .tc main_v3) := by
  after_results_simp

theorem keep4_main_arg2 : StableHlo.after (hostOps4 (F := Ideal)) W (Proc.devRef .tc main_arg2) = W (Proc.devRef .tc main_arg2) := by
  after_results_simp

theorem keep4_main_arg3 : StableHlo.after (hostOps4 (F := Ideal)) W (Proc.devRef .tc main_arg3) = W (Proc.devRef .tc main_arg3) := by
  after_results_simp

theorem keep4_main_arg4 : StableHlo.after (hostOps4 (F := Ideal)) W (Proc.devRef .tc main_arg4) = W (Proc.devRef .tc main_arg4) := by
  after_results_simp

theorem keep4_main_arg5 : StableHlo.after (hostOps4 (F := Ideal)) W (Proc.devRef .tc main_arg5) = W (Proc.devRef .tc main_arg5) := by
  after_results_simp

theorem keep4_main_arg6 : StableHlo.after (hostOps4 (F := Ideal)) W (Proc.devRef .tc main_arg6) = W (Proc.devRef .tc main_arg6) := by
  after_results_simp

theorem keep4_main_arg7 : StableHlo.after (hostOps4 (F := Ideal)) W (Proc.devRef .tc main_arg7) = W (Proc.devRef .tc main_arg7) := by
  after_results_simp

theorem keep4_main_arg8 : StableHlo.after (hostOps4 (F := Ideal)) W (Proc.devRef .tc main_arg8) = W (Proc.devRef .tc main_arg8) := by
  after_results_simp

end Cert.KernelIdeal.KHost

end
-- ==== Proof.KHost5.lean ====
/-
  Stretch 5: layer 2's column mean and variance, and its `gamma` and `beta` rows.
  Every equation is for an arbitrary assignment `W` of contents to the buffers the stretch finds.
-/
import proofs.«122304_j8787503088149_2_alg».proof.Proof.KHostDefs
import proofs.«122304_j8787503088149_2_alg».proof.Proof.KStats

noncomputable section

namespace Cert.KernelIdeal.KHost

open Cert.KernelIdeal Cert.KernelIdeal.Gen Idealize.ShloMosaic Idealize.ShloMosaic.TcCoe Idealize.SL.Sem Idealize.ShloMosaic.StableHlo

variable (W : Valuation τ sig (Elt Ideal))

/-! ## What the stretch computes -/

section
variable [Facts]

/-- The column means. -/
theorem ops5_v96 : StableHlo.after (hostOps5 (F := Ideal)) W (Proc.devRef .tc main_v96)
    = KStats.muV (W (Proc.devRef .tc main_v93_1)) := by
  after_results_simp
  rfl

/-- The column variances. -/
theorem ops5_v103 : StableHlo.after (hostOps5 (F := Ideal)) W (Proc.devRef .tc main_v103)
    = KStats.varV (W (Proc.devRef .tc main_v93_1)) (W (Proc.devRef .tc main_v93_2)) := by
  after_results_simp
  rfl

/-- Layer 2's gamma. -/
theorem ops5_v105 : StableHlo.after (hostOps5 (F := Ideal)) W (Proc.devRef .tc main_v105)
    = KStats.sliceB2 (W (Proc.devRef .tc main_arg5)) := by
  after_results_simp
  rfl

/-- Layer 2's beta. -/
theorem ops5_v107 : StableHlo.after (hostOps5 (F := Ideal)) W (Proc.devRef .tc main_v107)
    = KStats.sliceB2 (W (Proc.devRef .tc main_arg6)) := by
  after_results_simp
  rfl

end

/-! ## What the stretch leaves as it was -/

theorem keep5_main_v93_0 : StableHlo.after (hostOps5 (F := Ideal)) W (Proc.devRef .tc main_v93_0) = W (Proc.devRef .tc main_v93_0) := by
  after_results_simp

theorem keep5_main_arg7 : StableHlo.after (hostOps5 (F := Ideal)) W (Proc.devRef .tc main_arg7) = W (Proc.devRef .tc main_arg7) := by
  after_results_simp

theorem keep5_main_arg8 : StableHlo.after (hostOps5 (F := Ideal)) W (Proc.devRef .tc main_arg8) = W (Proc.devRef .tc main_arg8) := by
  after_results_simp

end Cert.KernelIdeal.KHost

end
-- ==== Proof.LibScatterAddRows.lean ====
/-
  THE HOST'S ACCUMULATING FLOAT SCATTER OF WHOLE ROWS, READ AT AN ELEMENT (ideal instance).

  An operand `x : [N, D]`, scatter indices `idx : [M, 1]` (integers, one start index per update row) and updates
  `upd : [M, D]`, under the dimension numbers update_window_dims = [1], inserted_window_dims = [0],
  scatter_dims_to_operand_dims = [0], index_vector_dim = 1: update row `m` is added, whole, to the operand row whose
  number is `idx[m, 0]` read as a SIGNED integer; a row whose start index is negative or at least `N` is dropped.
  At the ideal instance the colliding updates add exactly, so at every element `(p, q)`

      scatterAdd x idx upd (p, q) = x (p, q) + ∑ m : Fin M, if (idx (m, 0)).toInt = p then upd (m, q) else 0.

  The reason, axis by axis of `ScatterDims.resultIdx?`: on operand axis 0 the start is `idx[j₀, 0]` and the window
  coordinate is 0 (the axis is inserted); on operand axis 1 the start is 0 (the map does not name the axis) and the
  window coordinate is `j₁ < D`. So update element `(j₀, j₁)` lands at `(p, q)` exactly when
  `(idx (j₀, 0)).toInt = p` and `j₁ = q` (`resultIdx?_eq_some_iff`), the in-range condition on axis 0 following from
  `p < N` and the one on axis 1 always holding. Summing the updates over that set and splitting the rank-2 sum into
  its two coordinates leaves the sum over `m` alone. Nothing here enumerates an index set: `N`, `M`, `D` are arbitrary.

  Statements (all at `F := Ideal`):
    • `rowDims N M D wf`              the dimension numbers above as a record, their conditions `wf` a hypothesis;
    • `resultIdx?_eq_some_iff`        where an update element lands;
    • `rowDims_scatterAdd_apply`      the displayed equation for `rowDims`;
    • `scatterAdd_rows_apply`         the same for ANY record `d` whose four fields are those lists (four equations,
                                      each `rfl` for a record written with the literal fields);
    • `scatterAdd_rows_apply_idx`     the same at an arbitrary index `i` (coordinates `i 0`, `i 1`);
    • `scatterAdd_rows_apply_filter`  the same with the sum over the rows `m` whose start index is `p`.
-/
import Idealize.ShloMosaic.Lib.ValueIdx
import Idealize.ShloMosaic.PureOps.Contract

noncomputable section

open scoped BigOperators

namespace Idealize.ShloMosaic.ScatterAddRows

open Idealize.ShloMosaic Idealize.ShloMosaic.ValueIdx

/-- The dimension numbers of a scatter of whole rows: operand `[N, D]`, scatter indices `[M, 1]`, updates `[M, D]`;
    the updates' axis 1 is the window axis, the operand's axis 0 is inserted and is the one the start index names,
    the index vector lies along the scatter indices' axis 1. -/
abbrev rowDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section Literal

variable {N M D w : Nat} (wf : ScatterDims.WF ⟨2, ![N, D]⟩ ⟨2, ![M, 1]⟩ ⟨2, ![M, D]⟩ [1] [0] [0] 1)

/-- On operand axis 0 the window of update element `j` starts at `idx[j₀, 0]`, read signed. -/
theorem start0 (j : (⟨2, ![M, D]⟩ : Shape).Idx) (idx : IVec ⟨2, ![M, 1]⟩ w) :
    (rowDims N M D wf).start j idx 0 = (idx (ix2 (j 0) 0)).toInt := by
  unfold ScatterDims.start
  rw [dif_pos (show (0 : Fin 2) ∈ (rowDims N M D wf).scatterDimsToOperandDims from List.mem_singleton.mpr rfl)]
  congr 2
  funext b
  refine Fin.ext ?_
  match b with
  | ⟨0, _⟩ => rfl
  | ⟨1, _⟩ => rfl

/-- On operand axis 1, which the start-index map does not name, the window starts at 0. -/
theorem start1 (j : (⟨2, ![M, D]⟩ : Shape).Idx) (idx : IVec ⟨2, ![M, 1]⟩ w) :
    (rowDims N M D wf).start j idx 1 = 0 := by
  unfold ScatterDims.start
  rw [dif_neg (by show (1 : Fin 2) ∉ [(0 : Fin 2)]; decide)]

/-- Operand axis 0 is inserted: the window coordinate on it is 0. -/
theorem window0 (j : (⟨2, ![M, D]⟩ : Shape).Idx) :
    (rowDims N M D wf).window j 0 = 0 := by
  unfold ScatterDims.window
  rw [dif_neg (by show (0 : Fin 2) ∉ (List.finRange 2).filter (· ∉ [(0 : Fin 2)]); decide)]

/-- Operand axis 1 is the one kept axis: the window coordinate on it is the update's coordinate on its window axis. -/
theorem window1 (j : (⟨2, ![M, D]⟩ : Shape).Idx) :
    (rowDims N M D wf).window j 1 = (j 1).val := by
  unfold ScatterDims.window
  rw [dif_pos (by show (1 : Fin 2) ∈ (List.finRange 2).filter (· ∉ [(0 : Fin 2)]); decide)]
  rfl

/-- WHERE AN UPDATE ELEMENT LANDS: update element `j = (j₀, j₁)` lands at operand element `(p, q)` exactly when its
    row's start index, read signed, is `p`, and `j₁ = q`. (A start index outside `[0, N)` lands nowhere, and is
    no `p`.) -/
theorem resultIdx?_eq_some_iff (j : (⟨2, ![M, D]⟩ : Shape).Idx) (idx : IVec ⟨2, ![M, 1]⟩ w) (p : Fin N) (q : Fin D) :
    (rowDims N M D wf).resultIdx? j idx = some (ix2 p q) ↔
      (idx (ix2 (j 0) 0)).toInt = (p.val : ℤ) ∧ j 1 = q := by
  have hp : p.val < N := p.isLt
  have hj1 : (j 1).val < D := idx2_lt1 j
  unfold ScatterDims.resultIdx?
  split_ifs with h
  · rw [Option.some.injEq]
    have h0' : 0 ≤ (rowDims N M D wf).start j idx 0 + ((rowDims N M D wf).window j 0 : ℤ) ∧
        (rowDims N M D wf).start j idx 0 + ((rowDims N M D wf).window j 0 : ℤ) < (N : ℤ) := h 0
    rw [start0, window0] at h0'
    constructor
    · intro he
      have h0 : ((rowDims N M D wf).start j idx 0 + ((rowDims N M D wf).window j 0 : ℤ)).toNat = p.val :=
        congrArg (fun f => (f 0).val) he
      have h1 : ((rowDims N M D wf).start j idx 1 + ((rowDims N M D wf).window j 1 : ℤ)).toNat = q.val :=
        congrArg (fun f => (f 1).val) he
      rw [start0, window0] at h0
      rw [start1, window1] at h1
      refine ⟨?_, Fin.ext ?_⟩
      · omega
      · omega
    · rintro ⟨h0, h1⟩
      funext a
      refine Fin.ext ?_
      match a with
      | ⟨0, _⟩ =>
        show ((rowDims N M D wf).start j idx 0 + ((rowDims N M D wf).window j 0 : ℤ)).toNat = p.val
        rw [start0, window0, h0]; omega
      | ⟨1, _⟩ =>
        show ((rowDims N M D wf).start j idx 1 + ((rowDims N M D wf).window j 1 : ℤ)).toNat = q.val
        rw [start1, window1, ← h1]; omega
  · constructor
    · intro he; cases he
    · rintro ⟨h0, h1⟩
      exfalso
      apply h
      intro a
      match a with
      | ⟨0, _⟩ =>
        show 0 ≤ (rowDims N M D wf).start j idx 0 + ((rowDims N M D wf).window j 0 : ℤ) ∧
          (rowDims N M D wf).start j idx 0 + ((rowDims N M D wf).window j 0 : ℤ) < (N : ℤ)
        rw [start0, window0, h0]; omega
      | ⟨1, _⟩ =>
        show 0 ≤ (rowDims N M D wf).start j idx 1 + ((rowDims N M D wf).window j 1 : ℤ) ∧
          (rowDims N M D wf).start j idx 1 + ((rowDims N M D wf).window j 1 : ℤ) < (D : ℤ)
        rw [start1, window1]; omega

/-- THE SCATTER OF ROWS READ AT `(p, q)`, for the record `rowDims`: the operand's element plus the sum, over the
    update rows `m` whose start index (read signed) is `p`, of the update's element `(m, q)`. -/
theorem rowDims_scatterAdd_apply {φ : FTy} (x : FVec Ideal ⟨2, ![N, D]⟩ φ) (idx : IVec ⟨2, ![M, 1]⟩ w)
    (upd : FVec Ideal ⟨2, ![M, D]⟩ φ) (p : Fin N) (q : Fin D) :
    Host.scatterAdd (F := Ideal) (rowDims N M D wf) x idx upd (ix2 p q)
      = x (ix2 p q) + ∑ m : Fin M, if (idx (ix2 m 0)).toInt = (p.val : ℤ) then upd (ix2 m q) else 0 := by
  unfold Host.scatterAdd
  rw [Ideal.hostScatterAdd_def]
  unfold Ideal.hostScatterAdd
  congr 1
  rw [Finset.sum_filter, sum_idx2]
  refine Finset.sum_congr rfl fun m _ => ?_
  have key : ∀ b : Fin D, ((rowDims N M D wf).resultIdx? (ix2 m b) idx = some (ix2 p q)) ↔
      ((idx (ix2 m 0)).toInt = (p.val : ℤ) ∧ b = q) := fun b => resultIdx?_eq_some_iff wf (ix2 m b) idx p q
  refine (Finset.sum_congr rfl fun b _ => if_congr (key b) rfl rfl).trans ?_
  by_cases hm : (idx (ix2 m 0)).toInt = (p.val : ℤ)
  · rw [if_pos hm]; simp [hm]
  · rw [if_neg hm]; simp [hm]

end Literal

variable {N M D w : Nat} {φ : FTy}

/-- THE SCATTER OF ROWS READ AT `(p, q)`, for any dimension-number record with the four lists of a scatter of whole
    rows (each hypothesis is `rfl` for a record written with those literal fields, whatever proves its `wf`). -/
theorem scatterAdd_rows_apply (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (p : Fin N) (q : Fin D) :
    Host.scatterAdd (F := Ideal) d x idx upd (ix2 p q)
      = x (ix2 p q) + ∑ m : Fin M, if (idx (ix2 m 0)).toInt = (p.val : ℤ) then upd (ix2 m q) else 0 := by
  obtain ⟨uw, iw, sd, iv, wf⟩ := d
  dsimp only at huw hiw hsd hiv
  subst huw hiw hsd hiv
  exact rowDims_scatterAdd_apply wf x idx upd p q

/-- The same at an arbitrary operand index `i`, by its coordinates. -/
theorem scatterAdd_rows_apply_idx (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (i : (⟨2, ![N, D]⟩ : Shape).Idx) :
    Host.scatterAdd (F := Ideal) d x idx upd i
      = x i + ∑ m : Fin M, if (idx (ix2 m 0)).toInt = (((i 0).val : ℕ) : ℤ) then upd (ix2 m (i 1)) else 0 := by
  obtain ⟨p, q, rfl⟩ : ∃ (p : Fin N) (q : Fin D), i = ix2 p q := ⟨i 0, i 1, eq_ix2 i⟩
  exact scatterAdd_rows_apply d huw hiw hsd hiv x idx upd p q

/-- The same with the sum taken over the update rows whose start index is `p`. -/
theorem scatterAdd_rows_apply_filter (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ φ) (idx : IVec ⟨2, ![M, 1]⟩ w) (upd : FVec Ideal ⟨2, ![M, D]⟩ φ)
    (p : Fin N) (q : Fin D) :
    Host.scatterAdd (F := Ideal) d x idx upd (ix2 p q)
      = x (ix2 p q) + ∑ m ∈ Finset.univ.filter (fun m : Fin M => (idx (ix2 m 0)).toInt = (p.val : ℤ)), upd (ix2 m q) := by
  rw [scatterAdd_rows_apply d huw hiw hsd hiv, Finset.sum_filter]

end Idealize.ShloMosaic.ScatterAddRows

end
-- ==== Proof.LibScatterAddFlat.lean ====
/-
  THE HOST'S ACCUMULATING FLOAT SCATTER INTO A FLAT ARRAY, READ AT AN ELEMENT (ideal instance).

  An operand `x : [N]`, scatter indices `idx : [M, 1]` (integers, one start index per update) and updates
  `upd : [M]`, under the dimension numbers update_window_dims = [], inserted_window_dims = [0],
  scatter_dims_to_operand_dims = [0], index_vector_dim = 1 (what a segment sum of a vector lowers to): update `m` is
  added to the operand element whose number is `idx[m, 0]` read as a SIGNED integer; an update whose start index is
  negative or at least `N` is dropped. At the ideal instance the colliding updates add exactly, so at every `p`

      scatterAdd x idx upd p = x p + ∑ m : Fin M, if (idx (m, 0)).toInt = p then upd m else 0.

  The one operand axis is inserted (window coordinate 0) and is the axis the start index names, so update `j` lands
  at `p` exactly when `(idx (j, 0)).toInt = p`; the in-range condition follows from `p < N`. Nothing here enumerates
  an index set: `N` and `M` are arbitrary.
-/
import Idealize.ShloMosaic.Lib.ValueIdx
import Idealize.ShloMosaic.PureOps.Contract

noncomputable section

open scoped BigOperators

namespace Idealize.ShloMosaic.ScatterAddFlat

open Idealize.ShloMosaic Idealize.ShloMosaic.ValueIdx

/-- The dimension numbers of a scatter into a flat array: operand `[N]`, scatter indices `[M, 1]`, updates `[M]`;
    no window axis, the operand's one axis inserted and named by the start index, the index vector along the scatter
    indices' axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A sum over a rank-1 index set is the sum over its coordinate. -/
theorem sum_idx1 {A : Type*} [AddCommMonoid A] {n : Nat} (f : (⟨1, ![n]⟩ : Shape).Idx → A) :
    ∑ j, f j = ∑ a : Fin n, f (ix1 a) := by
  refine (Equiv.sum_comp (⟨fun a => ix1 a, fun j => j 0, fun _ => rfl, fun j => (eq_ix1 j).symm⟩ :
    Fin n ≃ (⟨1, ![n]⟩ : Shape).Idx) f).symm

section Literal

variable {N M w : Nat} (wf : ScatterDims.WF ⟨1, ![N]⟩ ⟨2, ![M, 1]⟩ ⟨1, ![M]⟩ [] [0] [0] 1)

/-- On the operand's axis the window of update `j` starts at `idx[j, 0]`, read signed. -/
theorem start0 (j : (⟨1, ![M]⟩ : Shape).Idx) (idx : IVec ⟨2, ![M, 1]⟩ w) :
    (flatDims N M wf).start j idx 0 = (idx (ix2 (j 0) 0)).toInt := by
  unfold ScatterDims.start
  rw [dif_pos (show (0 : Fin 1) ∈ (flatDims N M wf).scatterDimsToOperandDims from List.mem_singleton.mpr rfl)]
  congr 2
  funext b
  refine Fin.ext ?_
  match b with
  | ⟨0, _⟩ => rfl
  | ⟨1, _⟩ => rfl

/-- The operand's axis is inserted: the window coordinate on it is 0. -/
theorem window0 (j : (⟨1, ![M]⟩ : Shape).Idx) :
    (flatDims N M wf).window j 0 = 0 := by
  unfold ScatterDims.window
  rw [dif_neg (by show (0 : Fin 1) ∉ (List.finRange 1).filter (· ∉ [(0 : Fin 1)]); decide)]

/-- WHERE AN UPDATE LANDS: update `j` lands at operand element `p` exactly when its start index, read signed, is
    `p`. (A start index outside `[0, N)` lands nowhere, and is no `p`.) -/
theorem resultIdx?_eq_some_iff (j : (⟨1, ![M]⟩ : Shape).Idx) (idx : IVec ⟨2, ![M, 1]⟩ w) (p : Fin N) :
    (flatDims N M wf).resultIdx? j idx = some (ix1 p) ↔ (idx (ix2 (j 0) 0)).toInt = (p.val : ℤ) := by
  have hp : p.val < N := p.isLt
  unfold ScatterDims.resultIdx?
  split_ifs with h
  · rw [Option.some.injEq]
    have h0' : 0 ≤ (flatDims N M wf).start j idx 0 + ((flatDims N M wf).window j 0 : ℤ) ∧
        (flatDims N M wf).start j idx 0 + ((flatDims N M wf).window j 0 : ℤ) < (N : ℤ) := h 0
    rw [start0, window0] at h0'
    constructor
    · intro he
      have h0 : ((flatDims N M wf).start j idx 0 + ((flatDims N M wf).window j 0 : ℤ)).toNat = p.val :=
        congrArg (fun f => (f 0).val) he
      rw [start0, window0] at h0
      omega
    · intro h0
      funext a
      refine Fin.ext ?_
      match a with
      | ⟨0, _⟩ =>
        show ((flatDims N M wf).start j idx 0 + ((flatDims N M wf).window j 0 : ℤ)).toNat = p.val
        rw [start0, window0, h0]; omega
  · constructor
    · intro he; cases he
    · intro h0
      exfalso
      apply h
      intro a
      match a with
      | ⟨0, _⟩ =>
        show 0 ≤ (flatDims N M wf).start j idx 0 + ((flatDims N M wf).window j 0 : ℤ) ∧
          (flatDims N M wf).start j idx 0 + ((flatDims N M wf).window j 0 : ℤ) < (N : ℤ)
        rw [start0, window0, h0]; omega

/-- THE FLAT SCATTER READ AT `p`, for the record `flatDims`: the operand's element plus the sum, over the updates
    `m` whose start index (read signed) is `p`, of the update `m`. -/
theorem flatDims_scatterAdd_apply {φ : FTy} (x : FVec Ideal ⟨1, ![N]⟩ φ) (idx : IVec ⟨2, ![M, 1]⟩ w)
    (upd : FVec Ideal ⟨1, ![M]⟩ φ) (p : Fin N) :
    Host.scatterAdd (F := Ideal) (flatDims N M wf) x idx upd (ix1 p)
      = x (ix1 p) + ∑ m : Fin M, if (idx (ix2 m 0)).toInt = (p.val : ℤ) then upd (ix1 m) else 0 := by
  unfold Host.scatterAdd
  rw [Ideal.hostScatterAdd_def]
  unfold Ideal.hostScatterAdd
  congr 1
  rw [Finset.sum_filter, sum_idx1]
  refine Finset.sum_congr rfl fun m _ => ?_
  exact if_congr (resultIdx?_eq_some_iff wf (ix1 m) idx p) rfl rfl

end Literal

variable {N M w : Nat} {φ : FTy}

/-- THE FLAT SCATTER READ AT `p`, for any dimension-number record with the four lists of a scatter into a flat
    array (each hypothesis is `rfl` for a record written with those literal fields, whatever proves its `wf`). -/
theorem scatterAdd_flat_apply (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ φ) (idx : IVec ⟨2, ![M, 1]⟩ w) (upd : FVec Ideal ⟨1, ![M]⟩ φ) (p : Fin N) :
    Host.scatterAdd (F := Ideal) d x idx upd (ix1 p)
      = x (ix1 p) + ∑ m : Fin M, if (idx (ix2 m 0)).toInt = (p.val : ℤ) then upd (ix1 m) else 0 := by
  obtain ⟨uw, iw, sd, iv, wf⟩ := d
  dsimp only at huw hiw hsd hiv
  subst huw hiw hsd hiv
  exact flatDims_scatterAdd_apply wf x idx upd p

end Idealize.ShloMosaic.ScatterAddFlat

end
-- ==== Proof.AggReal.lean ====
/-
  Real entries through the host's gather and scatter-add.

  A gather reads its operand at some index; a scatter-add with an add body leaves, at each index, the operand's
  entry plus a finite sum of update entries.  So arrays of real numbers go to arrays of real numbers.
-/
import proofs.«122304_j8787503088149_2_alg».proof.Proof.Spec
import proofs.«122304_j8787503088149_2_alg».proof.Proof.Reals
import proofs.«122304_j8787503088149_2_alg».proof.Proof.LibScatterAddRows
import proofs.«122304_j8787503088149_2_alg».proof.Proof.LibScatterAddFlat
import Idealize.ShloMosaic.Lib.ValueIdx

noncomputable section
namespace Cert.Sage
open Idealize.ShloMosaic Idealize.ShloMosaic.ValueIdx

/-- A gather reads the operand at some index, so real operands give real results. -/
theorem isR_gather {so si sr : Shape} (g : GatherDims so si sr) (x : so.Idx → EReal) {w : Nat} (idx : IVec si w)
    (hx : ∀ i, IsR (x i)) (y : sr.Idx) : IsR (Host.gather g x idx y) := hx _

/-- A scatter-add of whole rows adds to each entry finitely many update entries: reals stay real. -/
theorem isR_scatterAdd_rows {N M D w : Nat} (d : ScatterDims ⟨2, ![N, D]⟩ ⟨2, ![M, 1]⟩ ⟨2, ![M, D]⟩)
    (huw : d.updateWindowDims = [1]) (hiw : d.insertedWindowDims = [0])
    (hsd : d.scatterDimsToOperandDims = [0]) (hiv : d.indexVectorDim = 1)
    (x : FVec Ideal ⟨2, ![N, D]⟩ .f32) (idx : IVec ⟨2, ![M, 1]⟩ w) (upd : FVec Ideal ⟨2, ![M, D]⟩ .f32)
    (hx : ∀ i, IsR (x i)) (hu : ∀ i, IsR (upd i)) (i : (⟨2, ![N, D]⟩ : Shape).Idx) :
    IsR (Host.scatterAdd (F := Ideal) d x idx upd i) := by
  rw [ScatterAddRows.scatterAdd_rows_apply_idx d huw hiw hsd hiv]
  refine IsR.add (hx i) (IsR.sum _ _ fun m _ => ?_)
  split
  · exact hu _
  · exact IsR.zero

/-- The same for a scatter-add into a flat array. -/
theorem isR_scatterAdd_flat {N M w : Nat} (d : ScatterDims ⟨1, ![N]⟩ ⟨2, ![M, 1]⟩ ⟨1, ![M]⟩)
    (huw : d.updateWindowDims = []) (hiw : d.insertedWindowDims = [0])
    (hsd : d.scatterDimsToOperandDims = [0]) (hiv : d.indexVectorDim = 1)
    (x : FVec Ideal ⟨1, ![N]⟩ .f32) (idx : IVec ⟨2, ![M, 1]⟩ w) (upd : FVec Ideal ⟨1, ![M]⟩ .f32)
    (hx : ∀ i, IsR (x i)) (hu : ∀ i, IsR (upd i)) (i : (⟨1, ![N]⟩ : Shape).Idx) :
    IsR (Host.scatterAdd (F := Ideal) d x idx upd i) := by
  obtain ⟨p, rfl⟩ : ∃ p : Fin N, i = ix1 p := ⟨i 0, eq_ix1 i⟩
  rw [ScatterAddFlat.scatterAdd_flat_apply d huw hiw hsd hiv]
  refine IsR.add (hx _) (IsR.sum _ _ fun m _ => ?_)
  split
  · exact hu _
  · exact IsR.zero

/-- The words for zero and one are real numbers. -/
theorem isR_ofBits_zero : IsR (Ideal.ofBits .f32 0x00000000#32) := IsR.w0
theorem isR_ofBits_one : IsR (Ideal.ofBits .f32 0x3F800000#32) := by rw [one_eq]; exact IsR.coe 1

end Cert.Sage
end
-- ==== Proof.KAggReal.lean ====
/-
  The neighbour sum and the reciprocal in-degrees are real-valued.

  The neighbour sum is a scatter-add of gathered rows into a zero matrix, and the reciprocal in-degree is one
  over a count of ones kept at least one; both send real numbers to real numbers.  They are restated as the
  matrix-valued parameters the network takes.
-/
import proofs.«122304_j8787503088149_2_alg».proof.Proof.KHostDefs
import proofs.«122304_j8787503088149_2_alg».proof.Proof.AggReal
import proofs.«122304_j8787503088149_2_alg».proof.Proof.Reals
import proofs.«122304_j8787503088149_2_alg».proof.Proof.LibRowOps
import Idealize.ShloMosaic.Lib.IdealHost

noncomputable section

namespace Cert.KernelIdeal.KHost

open Cert.KernelIdeal Cert.KernelIdeal.Gen Idealize.ShloMosaic Idealize.ShloMosaic.ValueIdx Cert.Sage

/-- The neighbour sum of a matrix of real numbers is a matrix of real numbers. -/
theorem isR_aggRows (src dst : IVec S800000 32) (h : FVec Ideal S50000x96 .f32) (hh : ∀ i, IsR (h i)) (i : S50000x96.Idx) :
    IsR (aggRows src dst h i) := by
  unfold aggRows
  exact isR_scatterAdd_rows _ rfl rfl rfl rfl _ _ _
    (fun j => by rw [Cert.LibRowOps.broadcastInDim_scalar_apply, constant_apply]; exact isR_ofBits_zero)
    (fun j => isR_gather _ _ _ hh j) i

/-- The reciprocal in-degrees are real numbers: a count of ones from zero is real, and one over a count kept at
    least one is real. -/
theorem isR_invV (dst : IVec S800000 32) (i : S50000x1.Idx) : IsR (invV dst i) := by
  obtain ⟨p, u, rfl⟩ : ∃ (p : Fin 50000) (u : Fin 1), i = ix2 p u := ⟨i 0, i 1, eq_ix2 i⟩
  unfold invV
  rw [Cert.LibRowOps.broadcastInDim_a_a1_apply, hostDivf_apply, maximumf_apply,
    Cert.LibRowOps.broadcastInDim_scalar_apply, constant_apply]
  exact IsR.one_div_max _ (isR_scatterAdd_flat _ rfl rfl rfl rfl _ _ _
    (fun j => by rw [Cert.LibRowOps.broadcastInDim_scalar_apply, constant_apply]; exact isR_ofBits_zero)
    (fun j => by rw [Cert.LibRowOps.broadcastInDim_scalar_apply, constant_apply]; exact isR_ofBits_one) _)

/-- A 50000 × 96 array as a matrix, and back. -/
def toMat (v : FVec Ideal S50000x96 .f32) : Cert.Sage.Mat 50000 96 := fun i k => v (ValueIdx.ix2 i k)
def ofMat (x : Cert.Sage.Mat 50000 96) : FVec Ideal S50000x96 .f32 := fun j => x (j 0) (j 1)

theorem ofMat_toMat (v : FVec Ideal S50000x96 .f32) : ofMat (toMat v) = v :=
  funext fun j => congrArg v (eq_ix2 j).symm
theorem toMat_ofMat (x : Cert.Sage.Mat 50000 96) : toMat (ofMat x) = x := rfl

/-- The neighbour sum and the reciprocal in-degrees in the matrix form. -/
def aggM (src dst : IVec S800000 32) : Cert.Sage.Mat 50000 96 → Cert.Sage.Mat 50000 96 :=
  fun h => toMat (aggRows src dst (ofMat h))
def invM (dst : IVec S800000 32) : Fin 50000 → EReal := fun p => invV dst (ValueIdx.ix2 p (0 : Fin 1))

theorem aggM_real (src dst : IVec S800000 32) (h : Cert.Sage.Mat 50000 96) (hh : Cert.Sage.MatR h) :
    Cert.Sage.MatR (aggM src dst h) :=
  fun p q => isR_aggRows src dst (ofMat h) (fun j => hh (j 0) (j 1)) (ix2 p q)
theorem invM_real (dst : IVec S800000 32) (p : Fin 50000) : Cert.Sage.IsR (invM dst p) := isR_invV dst _

end Cert.KernelIdeal.KHost

end
-- ==== Proof.KValDefs.lean ====
/-
  The launch contents of the idealized kernel program by name, and the network's parameters as plain index functions.
-/
import proofs.«122304_j8787503088149_2_alg».proof.Proof.Gen.KernelIdeal.Frame
import proofs.«122304_j8787503088149_2_alg».proof.Proof.Spec
import proofs.«122304_j8787503088149_2_alg».proof.Proof.KAggReal

noncomputable section

namespace Cert.KernelIdeal.KVal

open Cert.KernelIdeal Cert.KernelIdeal.Gen Idealize.ShloMosaic Idealize.ShloMosaic.TcCoe Idealize.ShloMosaic.ValueIdx Idealize.SL.Sem Cert.Sage
open Cert.KernelIdeal.KHost

variable (m : (ℓ : Loc nD τ sig) → Buf (Elt Ideal) ℓ) (c : Dev nD)

/-- The nine argument arrays as launched on core `c`. -/
abbrev aX : FVec Ideal S50000x96 .f32 := m ((c : Thread nD τ).loc main_arg0)
abbrev aE : IVec S2x800000 32 := m ((c : Thread nD τ).loc main_arg1)
abbrev aWN : FVec Ideal S3x96x96 .f32 := m ((c : Thread nD τ).loc main_arg2)
abbrev aWS : FVec Ideal S3x96x96 .f32 := m ((c : Thread nD τ).loc main_arg3)
abbrev aB : FVec Ideal S3x96 .f32 := m ((c : Thread nD τ).loc main_arg4)
abbrev aG : FVec Ideal S3x96 .f32 := m ((c : Thread nD τ).loc main_arg5)
abbrev aBE : FVec Ideal S3x96 .f32 := m ((c : Thread nD τ).loc main_arg6)
abbrev aCW : FVec Ideal S96x10 .f32 := m ((c : Thread nD τ).loc main_arg7)
abbrev aCB : FVec Ideal S10 .f32 := m ((c : Thread nD τ).loc main_arg8)

/-- The edges' sources and targets. -/
abbrev src : IVec S800000 32 := srcRow (aE m c)
abbrev dst : IVec S800000 32 := dstRow (aE m c)

/-- The three layers' weights, biases, scales and shifts, and the classifier's, as index functions. -/
def pWN : Fin 3 → Mat 96 96 := fun l k j => aWN m c (ix3 l k j)
def pWS : Fin 3 → Mat 96 96 := fun l k j => aWS m c (ix3 l k j)
def pB : Fin 3 → Row 96 := fun l j => aB m c (ix2 l j)
def pG : Fin 3 → Row 96 := fun l j => aG m c (ix2 l j)
def pBE : Fin 3 → Row 96 := fun l j => aBE m c (ix2 l j)
def pCW : Mat 96 10 := fun j k => aCW m c (ix2 j k)
def pCB : Row 10 := fun k => aCB m c (ix1 k)

/-- The features after each layer, in the kernel's form. -/
def H0 : Mat 50000 96 := toMat (aX m c)
def H1 : Mat 50000 96 := layerK (aggM (src m c) (dst m c)) (invM (dst m c)) (pWN m c 0) (pWS m c 0) (pB m c 0) (pG m c 0) (pBE m c 0) (H0 m c)
def H2 : Mat 50000 96 := layerK (aggM (src m c) (dst m c)) (invM (dst m c)) (pWN m c 1) (pWS m c 1) (pB m c 1) (pG m c 1) (pBE m c 1) (H1 m c)
def H3 : Mat 50000 96 := layerK (aggM (src m c) (dst m c)) (invM (dst m c)) (pWN m c 2) (pWS m c 2) (pB m c 2) (pG m c 2) (pBE m c 2) (H2 m c)

/-- The affine part of a layer from the features `h` with the parameters of layer `l`. -/
def preOf (l : Fin 3) (h : Mat 50000 96) : Mat 50000 96 :=
  pre (aggM (src m c) (dst m c) h) h (invM (dst m c)) (pWN m c l) (pWS m c l) (pB m c l)

theorem layerK_preOf (l : Fin 3) (h : Mat 50000 96) :
    layerK (aggM (src m c) (dst m c)) (invM (dst m c)) (pWN m c l) (pWS m c l) (pB m c l) (pG m c l) (pBE m c l) h
      = bnK (preOf m c l h) (mean (preOf m c l h)) (varK (preOf m c l h)) (pG m c l) (pBE m c l) := rfl

end Cert.KernelIdeal.KVal

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«122304_j8787503088149_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibCanonUnit.lean ====
/-
  Reading, at one index, the contents a list of stores leaves when the NEWEST store went through a unit-stride
  rectangle `[off, off + size)`: an index inside the rectangle reads that store's payload at the index minus the
  offsets; an index that misses the rectangle on some axis reads what the earlier stores left. Two general lemmas over
  `View.canon` (the contents as a function of the pieces alone), for any shape, element type and value family.
-/
import Idealize.ShloMosaic.Lib.Pipeline.Value

noncomputable section

namespace Idealize.ShloMosaic.View

variable {Val : EltTy → Type} {S : Shape} {e : EltTy}

/-- An index `y` at position `x` of the newest piece's unit-stride rectangle (`y a = off a + x a` on every axis)
    reads that piece's payload at `x`, whatever the earlier pieces are. -/
theorem canon_cons_unit_of_mem [∀ e, Nonempty (Val e)] {off size : Fin S.rank → Nat}
    (inb : ∀ a, off a + size a ≤ S.size a) (w : (Rect.unit off size inb).shape.Idx → Val e)
    (L : List (Piece Val S e)) (y : S.Idx) (x : (Rect.unit off size inb).shape.Idx)
    (hx : ∀ a, (y a).val = off a + (x a).val) :
    View.canon ((⟨Rect.unit off size inb, w⟩ : Piece Val S e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` reads what the earlier pieces left. -/
theorem canon_cons_unit_of_not_mem [∀ e, Nonempty (Val e)] {off size : Fin S.rank → Nat}
    (inb : ∀ a, off a + size a ≤ S.size a) (w : (Rect.unit off size inb).shape.Idx → Val e)
    (L : List (Piece Val S e)) (y : S.Idx) (a : Fin S.rank)
    (ha : (y a).val < off a ∨ off a + size a ≤ (y a).val) :
    View.canon ((⟨Rect.unit off size inb, w⟩ : Piece Val S e) :: L) y = View.canon L y :=
  View.canon_cons_of_not_mem _ L (fun h => by
    have h' : y ∈ (Rect.unit off size inb).set := h
    have := (Rect.mem_set_unit.mp h') a
    omega)

end Idealize.ShloMosaic.View

end
-- ==== Proof.KSageLib.lean ====
/-
  The arithmetic of the affine kernel, read at an index at the ideal values.

  The kernel forms, from a block of neighbour sums `a`, a block of features `h`, a column of reciprocal degrees `d`,
  two weight matrices `wn`, `ws` and a bias row `b`, the block `(a · d) · wn + h · ws + b`; then the column sums of that
  block and of its squares, which it leaves in row 0 of two eight-row blocks it has first filled with zeros.  Each is
  read here entry by entry: the products are exact sums over the shared coordinate, the changes of format are the
  identity, a column repeated along the rows and a row repeated along the columns read their one entry, and a sum
  down a column is the sum of the column's entries.
-/
import proofs.«122304_j8787503088149_2_alg».proof.Proof.Gen.KernelIdeal.Skeleton
import proofs.«122304_j8787503088149_2_alg».proof.Proof.Spec
import proofs.«122304_j8787503088149_2_alg».proof.Proof.LibMatmulRows
import proofs.«122304_j8787503088149_2_alg».proof.Proof.LibColumn
import proofs.«122304_j8787503088149_2_alg».proof.Proof.LibCanonUnit
import Idealize.ShloMosaic.Lib.ValueLayout
import Idealize.ShloMosaic.Lib.Pipeline.Value

noncomputable section

namespace Cert.KernelIdeal.RegionVal

open Cert.KernelIdeal Cert.KernelIdeal.Gen Idealize.ShloMosaic Idealize.ShloMosaic.ValueIdx Cert.Sage

theorem hz2 : (![0, 0] : Fin 2 → Nat) = fun _ => 0 := funext fun a => by fin_cases a <;> rfl
theorem hz1 : (![0] : Fin 1 → Nat) = fun _ => 0 := funext fun a => by fin_cases a; rfl

/-- The index a reduction down the columns lifts `(q)` and the position `k` to is `(k, q)`. -/
theorem lift_col {a b : ℕ} (h : (⟨2, ![a, b]⟩ : Shape).Reduces [0] ⟨1, ![b]⟩) (q : Fin b) (k : Fin a) :
    h.lift (ix1 q) k = ix2 k q := by
  funext c
  apply Fin.ext
  show h.liftVal (ix1 q) k.val c = (ix2 k q c).val
  match c with
  | ⟨0, _⟩ => simp [Shape.Reduces.liftVal]
  | ⟨1, _⟩ => simp [Shape.Reduces.liftVal]

/-- A sum down the columns of an `a × b` block, at column `q`: the sum of the column's entries. -/
theorem multiReduction_col_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- What two stores leave in an eight-row block, the later one over row 0 only: row 0 reads the later store's row,
    every other row the earlier store's. -/
theorem stat_canon_apply {Val : EltTy → Type} [∀ e, Nonempty (Val e)] {e : EltTy}
    (w1 : S1x96.Idx → Val e) (w8 : S8x96.Idx → Val e) (r : Fin 8) (q : Fin 96) :
    View.canon [(⟨Rect.unit (s := S8x96) ![0, 0] S1x96.size inb_S8x96_S1x96_0_0, w1⟩ : View.Piece Val S8x96 e),
        ⟨Rect.unit (s := S8x96) ![0, 0] S8x96.size inb_S8x96_S8x96_0_0, w8⟩] (ix2 r q)
      = if r.val = 0 then w1 (ix2 (0 : Fin 1) q) else w8 (ix2 r q) := by
  by_cases hr : r.val = 0
  · rw [if_pos hr]
    refine View.canon_cons_unit_of_mem inb_S8x96_S1x96_0_0 w1 _ (ix2 r q) (ix2 (0 : Fin 1) q) fun a => ?_
    match a with
    | ⟨0, _⟩ => show r.val = 0 + 0; omega
    | ⟨1, _⟩ => show q.val = 0 + q.val; omega
  · rw [if_neg hr]
    refine (View.canon_cons_unit_of_not_mem inb_S8x96_S1x96_0_0 w1 _ (ix2 r q) (0 : Fin 2) (.inr ?_)).trans ?_
    · show 0 + 1 ≤ r.val; omega
    · rw [View.canon_unit_zero hz2]

/-- The affine form over plain blocks: entry `(p, q)` of `(a · d) · wn + h · ws + b`. -/
def lin (a h : Vec Ideal S5000x96 .f32) (d : Vec Ideal S5000x1 .f32) (wn ws : Vec Ideal S96x96 .f32) (b : Vec Ideal S96 .f32)
    (p : Fin 5000) (q : Fin 96) : EReal :=
  (∑ k : Fin 96, (a (ix2 p k) * d (ix2 p (0 : Fin 1))) * wn (ix2 k q)) + (∑ k : Fin 96, h (ix2 p k) * ws (ix2 k q)) + b (ix1 q)

/-- Region 0's block of affine values, entry by entry. -/
theorem k0_pay2_apply (v0 : Vec Ideal S5000x96 .f32) (v2 : Vec Ideal S5000x1 .f32) (v8 : Vec Ideal S5000x96 .f32)
    (v10 v13 : Vec Ideal S96x96 .f32) (v19 : Vec Ideal S96 .f32) (p : Fin 5000) (q : Fin 96) :
    k0_pay2 (F := Ideal) v0 v2 v8 v10 v13 v19 (ix2 p q) = lin v0 v8 v2 v10 v13 v19 p q := by
  unfold k0_pay2 lin
  simp only [shapeCast_self]
  refine congrArg₂ (· + ·) (congrArg₂ (· + ·) ?_ ?_) ?_
  · refine (Cert.LibMatmulRows.matmul_rows_apply dot_S5000x96_S96x96_S5000x96_1_0_0_1_n_n rfl rfl rfl rfl rfl rfl _ _ p q).trans ?_
    refine Finset.sum_congr rfl fun k _ => ?_
    refine congrArg₂ (· * ·) ?_ rfl
    show v0 (ix2 p k) * broadcastTo S5000x96 v2 broadcasts_S5000x1_S5000x96 (ix2 p k) = _
    refine congrArg (v0 (ix2 p k) * ·) ?_
    exact Cert.LibColumn.broadcastTo_a1_ab_apply v2 broadcasts_S5000x1_S5000x96 p k
  · exact Cert.LibMatmulRows.matmul_rows_apply dot_S5000x96_S96x96_S5000x96_1_0_0_1_n_n rfl rfl rfl rfl rfl rfl _ _ p q
  · refine (broadcastTo_1b_ab_apply _ broadcasts_S1x96_S5000x96 p q).trans ?_
    exact shapeCast_a_1a_apply v19 shapeCasts_S96_S1x96 (0 : Fin 1) q

/-- Region 0's row of column sums: the sum of the block's column. -/
theorem k0_pay3_apply (v0 : Vec Ideal S5000x96 .f32) (v2 : Vec Ideal S5000x1 .f32) (v8 : Vec Ideal S5000x96 .f32)
    (v10 v13 : Vec Ideal S96x96 .f32) (v19 : Vec Ideal S96 .f32) (u : Fin 1) (q : Fin 96) :
    k0_pay3 (F := Ideal) v0 v2 v8 v10 v13 v19 (ix2 u q) = ∑ i : Fin 5000, lin v0 v8 v2 v10 v13 v19 i q := by
  unfold k0_pay3
  refine (shapeCast_a_1a_apply _ shapeCasts_S96_S1x96 u q).trans ?_
  refine (multiReduction_col_apply _ _ reduces_S5000x96_S96 (.inl rfl) rfl q).trans ?_
  exact Finset.sum_congr rfl fun i _ => k0_pay2_apply v0 v2 v8 v10 v13 v19 i q

/-- Region 0's row of column sums of squares. -/
theorem k0_pay4_apply (v0 : Vec Ideal S5000x96 .f32) (v2 : Vec Ideal S5000x1 .f32) (v8 : Vec Ideal S5000x96 .f32)
    (v10 v13 : Vec Ideal S96x96 .f32) (v19 : Vec Ideal S96 .f32) (u : Fin 1) (q : Fin 96) :
    k0_pay4 (F := Ideal) v0 v2 v8 v10 v13 v19 (ix2 u q)
      = ∑ i : Fin 5000, lin v0 v8 v2 v10 v13 v19 i q * lin v0 v8 v2 v10 v13 v19 i q := by
  unfold k0_pay4
  refine (shapeCast_a_1a_apply _ shapeCasts_S96_S1x96 u q).trans ?_
  refine (multiReduction_col_apply _ _ reduces_S5000x96_S96 (.inl rfl) rfl q).trans ?_
  refine Finset.sum_congr rfl fun i _ => ?_
  show k0_pay2 (F := Ideal) v0 v2 v8 v10 v13 v19 (ix2 i q) * k0_pay2 (F := Ideal) v0 v2 v8 v10 v13 v19 (ix2 i q) = _
  rw [k0_pay2_apply]

/-- The zero blocks region 0 first fills its two statistics blocks with. -/
theorem k0_pay5_apply (r : Fin 8) (q : Fin 96) : k0_pay5 (F := Ideal) (ix2 r q) = w0 := rfl
theorem k0_pay1_apply (r : Fin 8) (q : Fin 96) : k0_pay1 (F := Ideal) (FloatOps.ofBits .f32 0x00000000#32) (ix2 r q) = w0 := rfl

/-- Region 2's block of affine values, entry by entry. -/
theorem k2_pay2_apply (v0 : Vec Ideal S5000x96 .f32) (v2 : Vec Ideal S5000x1 .f32) (v8 : Vec Ideal S5000x96 .f32)
    (v10 v13 : Vec Ideal S96x96 .f32) (v19 : Vec Ideal S96 .f32) (p : Fin 5000) (q : Fin 96) :
    k2_pay2 (F := Ideal) v0 v2 v8 v10 v13 v19 (ix2 p q) = lin v0 v8 v2 v10 v13 v19 p q := by
  unfold k2_pay2 lin
  simp only [shapeCast_self]
  refine congrArg₂ (· + ·) (congrArg₂ (· + ·) ?_ ?_) ?_
  · refine (Cert.LibMatmulRows.matmul_rows_apply dot_S5000x96_S96x96_S5000x96_1_0_0_1_n_n rfl rfl rfl rfl rfl rfl _ _ p q).trans ?_
    refine Finset.sum_congr rfl fun k _ => ?_
    refine congrArg₂ (· * ·) ?_ rfl
    show v0 (ix2 p k) * broadcastTo S5000x96 v2 broadcasts_S5000x1_S5000x96 (ix2 p k) = _
    refine congrArg (v0 (ix2 p k) * ·) ?_
    exact Cert.LibColumn.broadcastTo_a1_ab_apply v2 broadcasts_S5000x1_S5000x96 p k
  · exact Cert.LibMatmulRows.matmul_rows_apply dot_S5000x96_S96x96_S5000x96_1_0_0_1_n_n rfl rfl rfl rfl rfl rfl _ _ p q
  · refine (broadcastTo_1b_ab_apply _ broadcasts_S1x96_S5000x96 p q).trans ?_
    exact shapeCast_a_1a_apply v19 shapeCasts_S96_S1x96 (0 : Fin 1) q

/-- Region 2's row of column sums: the sum of the block's column. -/
theorem k2_pay3_apply (v0 : Vec Ideal S5000x96 .f32) (v2 : Vec Ideal S5000x1 .f32) (v8 : Vec Ideal S5000x96 .f32)
    (v10 v13 : Vec Ideal S96x96 .f32) (v19 : Vec Ideal S96 .f32) (u : Fin 1) (q : Fin 96) :
    k2_pay3 (F := Ideal) v0 v2 v8 v10 v13 v19 (ix2 u q) = ∑ i : Fin 5000, lin v0 v8 v2 v10 v13 v19 i q := by
  unfold k2_pay3
  refine (shapeCast_a_1a_apply _ shapeCasts_S96_S1x96 u q).trans ?_
  refine (multiReduction_col_apply _ _ reduces_S5000x96_S96 (.inl rfl) rfl q).trans ?_
  exact Finset.sum_congr rfl fun i _ => k2_pay2_apply v0 v2 v8 v10 v13 v19 i q

/-- Region 2's row of column sums of squares. -/
theorem k2_pay4_apply (v0 : Vec Ideal S5000x96 .f32) (v2 : Vec Ideal S5000x1 .f32) (v8 : Vec Ideal S5000x96 .f32)
    (v10 v13 : Vec Ideal S96x96 .f32) (v19 : Vec Ideal S96 .f32) (u : Fin 1) (q : Fin 96) :
    k2_pay4 (F := Ideal) v0 v2 v8 v10 v13 v19 (ix2 u q)
      = ∑ i : Fin 5000, lin v0 v8 v2 v10 v13 v19 i q * lin v0 v8 v2 v10 v13 v19 i q := by
  unfold k2_pay4
  refine (shapeCast_a_1a_apply _ shapeCasts_S96_S1x96 u q).trans ?_
  refine (multiReduction_col_apply _ _ reduces_S5000x96_S96 (.inl rfl) rfl q).trans ?_
  refine Finset.sum_congr rfl fun i _ => ?_
  show k2_pay2 (F := Ideal) v0 v2 v8 v10 v13 v19 (ix2 i q) * k2_pay2 (F := Ideal) v0 v2 v8 v10 v13 v19 (ix2 i q) = _
  rw [k2_pay2_apply]

/-- The zero blocks region 2 first fills its two statistics blocks with. -/
theorem k2_pay5_apply (r : Fin 8) (q : Fin 96) : k2_pay5 (F := Ideal) (ix2 r q) = w0 := rfl
theorem k2_pay1_apply (r : Fin 8) (q : Fin 96) : k2_pay1 (F := Ideal) (ix2 r q) = w0 := rfl

/-- Region 4's block of affine values, entry by entry. -/
theorem k4_pay2_apply (v0 : Vec Ideal S5000x96 .f32) (v2 : Vec Ideal S5000x1 .f32) (v8 : Vec Ideal S5000x96 .f32)
    (v10 v13 : Vec Ideal S96x96 .f32) (v19 : Vec Ideal S96 .f32) (p : Fin 5000) (q : Fin 96) :
    k4_pay2 (F := Ideal) v0 v2 v8 v10 v13 v19 (ix2 p q) = lin v0 v8 v2 v10 v13 v19 p q := by
  unfold k4_pay2 lin
  simp only [shapeCast_self]
  refine congrArg₂ (· + ·) (congrArg₂ (· + ·) ?_ ?_) ?_
  · refine (Cert.LibMatmulRows.matmul_rows_apply dot_S5000x96_S96x96_S5000x96_1_0_0_1_n_n rfl rfl rfl rfl rfl rfl _ _ p q).trans ?_
    refine Finset.sum_congr rfl fun k _ => ?_
    refine congrArg₂ (· * ·) ?_ rfl
    show v0 (ix2 p k) * broadcastTo S5000x96 v2 broadcasts_S5000x1_S5000x96 (ix2 p k) = _
    refine congrArg (v0 (ix2 p k) * ·) ?_
    exact Cert.LibColumn.broadcastTo_a1_ab_apply v2 broadcasts_S5000x1_S5000x96 p k
  · exact Cert.LibMatmulRows.matmul_rows_apply dot_S5000x96_S96x96_S5000x96_1_0_0_1_n_n rfl rfl rfl rfl rfl rfl _ _ p q
  · refine (broadcastTo_1b_ab_apply _ broadcasts_S1x96_S5000x96 p q).trans ?_
    exact shapeCast_a_1a_apply v19 shapeCasts_S96_S1x96 (0 : Fin 1) q

/-- Region 4's row of column sums: the sum of the block's column. -/
theorem k4_pay3_apply (v0 : Vec Ideal S5000x96 .f32) (v2 : Vec Ideal S5000x1 .f32) (v8 : Vec Ideal S5000x96 .f32)
    (v10 v13 : Vec Ideal S96x96 .f32) (v19 : Vec Ideal S96 .f32) (u : Fin 1) (q : Fin 96) :
    k4_pay3 (F := Ideal) v0 v2 v8 v10 v13 v19 (ix2 u q) = ∑ i : Fin 5000, lin v0 v8 v2 v10 v13 v19 i q := by
  unfold k4_pay3
  refine (shapeCast_a_1a_apply _ shapeCasts_S96_S1x96 u q).trans ?_
  refine (multiReduction_col_apply _ _ reduces_S5000x96_S96 (.inl rfl) rfl q).trans ?_
  exact Finset.sum_congr rfl fun i _ => k4_pay2_apply v0 v2 v8 v10 v13 v19 i q

/-- Region 4's row of column sums of squares. -/
theorem k4_pay4_apply (v0 : Vec Ideal S5000x96 .f32) (v2 : Vec Ideal S5000x1 .f32) (v8 : Vec Ideal S5000x96 .f32)
    (v10 v13 : Vec Ideal S96x96 .f32) (v19 : Vec Ideal S96 .f32) (u : Fin 1) (q : Fin 96) :
    k4_pay4 (F := Ideal) v0 v2 v8 v10 v13 v19 (ix2 u q)
      = ∑ i : Fin 5000, lin v0 v8 v2 v10 v13 v19 i q * lin v0 v8 v2 v10 v13 v19 i q := by
  unfold k4_pay4
  refine (shapeCast_a_1a_apply _ shapeCasts_S96_S1x96 u q).trans ?_
  refine (multiReduction_col_apply _ _ reduces_S5000x96_S96 (.inl rfl) rfl q).trans ?_
  refine Finset.sum_congr rfl fun i _ => ?_
  show k4_pay2 (F := Ideal) v0 v2 v8 v10 v13 v19 (ix2 i q) * k4_pay2 (F := Ideal) v0 v2 v8 v10 v13 v19 (ix2 i q) = _
  rw [k4_pay2_apply]

/-- The zero blocks region 4 first fills its two statistics blocks with. -/
theorem k4_pay5_apply (r : Fin 8) (q : Fin 96) : k4_pay5 (F := Ideal) (ix2 r q) = w0 := rfl
theorem k4_pay1_apply (r : Fin 8) (q : Fin 96) : k4_pay1 (F := Ideal) (ix2 r q) = w0 := rfl

end Cert.KernelIdeal.RegionVal

end
-- ==== Proof.KSage4.lean ====
/-
  What the affine kernel of layer 3 leaves in its three output arrays, read at an index, at the ideal values, from
  whatever contents `V` the region finds in its six input arrays.

  The grid has ten points; point `t` reads rows `5000 t … 5000 t + 4999` of the neighbour sums, the features and the
  reciprocal degrees and the whole of the two weight matrices and the bias, and writes the same rows of the affine
  values `(agg · inv) · Wn + h · Ws + b` and block `t` (rows `8 t … 8 t + 7`) of the two statistics arrays: row
  `8 t` holds the column sums (of the values, of their squares) over the point's 5000 rows, the other seven rows the
  zero word.  Every row of every output lies in exactly the block of one point, so the arrays end holding these
  values everywhere.
-/
import proofs.«122304_j8787503088149_2_alg».proof.Proof.Gen.KernelIdeal.Frame
import proofs.«122304_j8787503088149_2_alg».proof.Proof.KSageLib
import Idealize.ShloMosaic.Lib.Pipeline.Value
import Idealize.ShloMosaic.Lib.Tactic

set_option maxRecDepth 16384

noncomputable section

namespace Cert.KernelIdeal.RegionVal

open Cert.KernelIdeal Cert.KernelIdeal.Gen Idealize.ShloMosaic Idealize.ShloMosaic.ValueIdx Idealize.ShloMosaic.TcCoe
open Idealize.SL.Sem Cert.Sage
open Idealize.ShloMosaic.Pipeline (Dat)

/-! ## What one run of the body leaves in each output block -/

section Pieces

variable {F : FTy → Type} [FloatOps F]

/-- The block of affine values: the one store's payload over the six loaded blocks. -/
theorem out4_6_eq (c : Dev nD) (i : grid4.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out4_A_6 c i a1 h1 a2 h2 a3 h3 a4 h4 a5 h5 a6 h6 a7 h7 a8 h8 a9 h9 x0 x1 x2 x3 x4 x5 = k4_pay2 x0 x2 x1 x3 x4 x5 := by
  unfold out4_A_6
  rw [View.read_writes_eq_canon _ _ _ (cover4_A_6 c i a1 h1 a2 h2 a3 h3 a4 h4 a5 h5 a6 h6 a7 h7 a8 h8 a9 h9 x0 x1 x2 x3 x4 x5)]
  unfold kernelRun4_A
  dsimp only
  sl_unfold_words
  rw [View.canon_unit_zero hz2]
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

/-- The block of column sums: two stores, the zero block and then the sums over row 0. -/
theorem out4_7_eq (c : Dev nD) (i : grid4.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out4_A_7 c i a1 h1 a2 h2 a3 h3 a4 h4 a5 h5 a6 h6 a7 h7 a8 h8 a9 h9 x0 x1 x2 x3 x4 x5
      = View.canon [(⟨Rect.unit (s := S8x96) ![0, 0] S1x96.size inb_S8x96_S1x96_0_0, k4_pay3 x0 x2 x1 x3 x4 x5⟩ : View.Piece (Elt F) S8x96 .f32),
          ⟨Rect.unit (s := S8x96) ![0, 0] S8x96.size inb_S8x96_S8x96_0_0, k4_pay5⟩] := by
  unfold out4_A_7
  rw [View.read_writes_eq_canon _ _ _ (cover4_A_7 c i a1 h1 a2 h2 a3 h3 a4 h4 a5 h5 a6 h6 a7 h7 a8 h8 a9 h9 x0 x1 x2 x3 x4 x5)]
  unfold kernelRun4_A
  dsimp only
  sl_unfold_words
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

/-- The block of column sums of squares: two stores, the zero block and then the sums over row 0. -/
theorem out4_8_eq (c : Dev nD) (i : grid4.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out4_A_8 c i a1 h1 a2 h2 a3 h3 a4 h4 a5 h5 a6 h6 a7 h7 a8 h8 a9 h9 x0 x1 x2 x3 x4 x5
      = View.canon [(⟨Rect.unit (s := S8x96) ![0, 0] S1x96.size inb_S8x96_S1x96_0_0, k4_pay4 x0 x2 x1 x3 x4 x5⟩ : View.Piece (Elt F) S8x96 .f32),
          ⟨Rect.unit (s := S8x96) ![0, 0] S8x96.size inb_S8x96_S8x96_0_0, k4_pay1⟩] := by
  unfold out4_A_8
  rw [View.read_writes_eq_canon _ _ _ (cover4_A_8 c i a1 h1 a2 h2 a3 h3 a4 h4 a5 h5 a6 h6 a7 h7 a8 h8 a9 h9 x0 x1 x2 x3 x4 x5)]
  unfold kernelRun4_A
  dsimp only
  sl_unfold_words
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

end Pieces

/-! ## The blocks the points read -/

variable (V : (c : Dev nD) → (b : Ref sig .tc) → Buf (Elt Ideal) ((c : Thread nD τ).loc b)) (c : Dev nD)

/-- The region's affine values as a function of its six input arrays, read as plain index functions. -/
abbrev X4 : Mat 50000 96 := Sage.pre (fun i k => V c (Pipeline.arrRef spec4 0) (ix2 i k)) (fun i k => V c (Pipeline.arrRef spec4 1) (ix2 i k))
    (fun i => V c (Pipeline.arrRef spec4 2) (ix2 i (0 : Fin 1))) (fun k j => V c (Pipeline.arrRef spec4 3) (ix2 k j))
    (fun k j => V c (Pipeline.arrRef spec4 4) (ix2 k j)) (fun j => V c (Pipeline.arrRef spec4 5) (ix1 j))

/-- The printed index maps over the grid: the row-tiled windows sit at block `t`, the weights and the bias at block 0. -/
theorem widx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

theorem iblk4_0_apply (t : Fin cfg4.N) (r : Fin 5000) (k : Fin 96) (P : Fin 50000) (hP : P.val = 5000 * t.val + r.val) :
    iblk4 V c 0 t (ix2 r k) = V c (Pipeline.arrRef spec4 0) (ix2 P k) := by
  obtain ⟨e00, e01, e10, e11, e20, e21, e30, e31, e40, e41, e50, e60, e61, e70, e71, e80, e81⟩ := widx4 t
  unfold iblk4
  rw [View.read_apply]
  refine congrArg (V c (Pipeline.arrRef spec4 0)) ?_
  funext a; apply Fin.ext
  match a with
  | ⟨0, _⟩ => show win4_0.index t (0 : Fin 2) * 5000 + 1 * r.val = P.val; rw [e00, hP]; omega
  | ⟨1, _⟩ => show win4_0.index t (1 : Fin 2) * 96 + 1 * k.val = k.val; rw [e01]; omega

theorem iblk4_1_apply (t : Fin cfg4.N) (r : Fin 5000) (k : Fin 96) (P : Fin 50000) (hP : P.val = 5000 * t.val + r.val) :
    iblk4 V c 1 t (ix2 r k) = V c (Pipeline.arrRef spec4 1) (ix2 P k) := by
  obtain ⟨e00, e01, e10, e11, e20, e21, e30, e31, e40, e41, e50, e60, e61, e70, e71, e80, e81⟩ := widx4 t
  unfold iblk4
  rw [View.read_apply]
  refine congrArg (V c (Pipeline.arrRef spec4 1)) ?_
  funext a; apply Fin.ext
  match a with
  | ⟨0, _⟩ => show win4_1.index t (0 : Fin 2) * 5000 + 1 * r.val = P.val; rw [e10, hP]; omega
  | ⟨1, _⟩ => show win4_1.index t (1 : Fin 2) * 96 + 1 * k.val = k.val; rw [e11]; omega

theorem iblk4_2_apply (t : Fin cfg4.N) (r : Fin 5000) (P : Fin 50000) (hP : P.val = 5000 * t.val + r.val) :
    iblk4 V c 2 t (ix2 r (0 : Fin 1)) = V c (Pipeline.arrRef spec4 2) (ix2 P (0 : Fin 1)) := by
  obtain ⟨e00, e01, e10, e11, e20, e21, e30, e31, e40, e41, e50, e60, e61, e70, e71, e80, e81⟩ := widx4 t
  unfold iblk4
  rw [View.read_apply]
  refine congrArg (V c (Pipeline.arrRef spec4 2)) ?_
  funext a; apply Fin.ext
  match a with
  | ⟨0, _⟩ => show win4_2.index t (0 : Fin 2) * 5000 + 1 * r.val = P.val; rw [e20, hP]; omega
  | ⟨1, _⟩ => show win4_2.index t (1 : Fin 2) * 1 + 1 * 0 = 0; rw [e21]

theorem iblk4_3_apply (t : Fin cfg4.N) (k : Fin 96) (q : Fin 96) :
    iblk4 V c 3 t (ix2 k q) = V c (Pipeline.arrRef spec4 3) (ix2 k q) := by
  obtain ⟨e00, e01, e10, e11, e20, e21, e30, e31, e40, e41, e50, e60, e61, e70, e71, e80, e81⟩ := widx4 t
  unfold iblk4
  rw [View.read_apply]
  refine congrArg (V c (Pipeline.arrRef spec4 3)) ?_
  funext a; apply Fin.ext
  match a with
  | ⟨0, _⟩ => show win4_3.index t (0 : Fin 2) * 96 + 1 * k.val = k.val; rw [e30]; omega
  | ⟨1, _⟩ => show win4_3.index t (1 : Fin 2) * 96 + 1 * q.val = q.val; rw [e31]; omega

theorem iblk4_4_apply (t : Fin cfg4.N) (k : Fin 96) (q : Fin 96) :
    iblk4 V c 4 t (ix2 k q) = V c (Pipeline.arrRef spec4 4) (ix2 k q) := by
  obtain ⟨e00, e01, e10, e11, e20, e21, e30, e31, e40, e41, e50, e60, e61, e70, e71, e80, e81⟩ := widx4 t
  unfold iblk4
  rw [View.read_apply]
  refine congrArg (V c (Pipeline.arrRef spec4 4)) ?_
  funext a; apply Fin.ext
  match a with
  | ⟨0, _⟩ => show win4_4.index t (0 : Fin 2) * 96 + 1 * k.val = k.val; rw [e40]; omega
  | ⟨1, _⟩ => show win4_4.index t (1 : Fin 2) * 96 + 1 * q.val = q.val; rw [e41]; omega

theorem iblk4_5_apply (t : Fin cfg4.N) (q : Fin 96) :
    iblk4 V c 5 t (ix1 q) = V c (Pipeline.arrRef spec4 5) (ix1 q) := by
  obtain ⟨e00, e01, e10, e11, e20, e21, e30, e31, e40, e41, e50, e60, e61, e70, e71, e80, e81⟩ := widx4 t
  unfold iblk4
  rw [View.read_apply]
  refine congrArg (V c (Pipeline.arrRef spec4 5)) ?_
  funext a; apply Fin.ext
  match a with
  | ⟨0, _⟩ => show win4_5.index t (0 : Fin 1) * 96 + 1 * q.val = q.val; rw [e50]; omega

/-- The affine values of point `t`'s blocks are the array's at the rows the point reads. -/
theorem lin_blk4 (t : Fin cfg4.N) (r : Fin 5000) (q : Fin 96) (P : Fin 50000) (Q : Fin 96)
    (hP : P.val = 5000 * t.val + r.val) (hQ : Q.val = q.val) :
    lin (iblk4 V c 0 t) (iblk4 V c 1 t) (iblk4 V c 2 t) (iblk4 V c 3 t) (iblk4 V c 4 t) (iblk4 V c 5 t) r q = X4 V c P Q := by
  obtain rfl : Q = q := Fin.ext hQ
  unfold lin
  show _ = Sage.pre _ _ _ _ _ _ P Q
  unfold Sage.pre
  refine congrArg₂ (· + ·) (congrArg₂ (· + ·) (Finset.sum_congr rfl fun k _ => ?_) (Finset.sum_congr rfl fun k _ => ?_)) ?_
  · rw [iblk4_0_apply V c t r k P hP, iblk4_2_apply V c t r P hP, iblk4_3_apply V c t k Q]
  · rw [iblk4_1_apply V c t r k P hP, iblk4_4_apply V c t k Q]
  · exact iblk4_5_apply V c t Q

/-! ## The affine values: output window 6 -/

/-- What the array of affine values ends holding. -/
abbrev G4_6 : S50000x96.Idx → EReal := fun i => X4 V c ⟨(i 0).val, idx2_lt0 i⟩ ⟨(i 1).val, idx2_lt1 i⟩

/-- What point `t` writes back is block `t` of it. -/
theorem flushed4_6 (t : Fin cfg4.N) :
    (dat4 V c).flushed 6 t = ((cfg4.win 6).blk t).view.read (Elt Ideal) (G4_6 V c) := by
  obtain ⟨e00, e01, e10, e11, e20, e21, e30, e31, e40, e41, e50, e60, e61, e70, e71, e80, e81⟩ := widx4 t
  show (cfg4.win 6).cut (grid4.coords t) ((dat4 V c).after 6 t) = _
  rw [after4_6]
  unfold outsAt4
  dsimp only
  rw [out4_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t)]
  funext y
  rw [View.read_apply]
  have h0 : (y 0).val < 5000 := (y 0).isLt
  have h1 : (y 1).val < 96 := (y 1).isLt
  have hxy : (cfg4.win 6).xinj (grid4.coords t) y = ix2 (⟨(y 0).val, h0⟩ : Fin 5000) (⟨(y 1).val, h1⟩ : Fin 96) :=
    funext fun a => by match a with | ⟨0, _⟩ => rfl | ⟨1, _⟩ => rfl
  show k4_pay2 (F := Ideal) (iblk4 V c 0 t) (iblk4 V c 2 t) (iblk4 V c 1 t) (iblk4 V c 3 t) (iblk4 V c 4 t) (iblk4 V c 5 t) ((cfg4.win 6).xinj (grid4.coords t) y) = G4_6 V c (((cfg4.win 6).blk t).view.emb y)
  rw [hxy]
  refine (k4_pay2_apply (iblk4 V c 0 t) (iblk4 V c 2 t) (iblk4 V c 1 t) (iblk4 V c 3 t) (iblk4 V c 4 t) (iblk4 V c 5 t) ⟨(y 0).val, h0⟩ ⟨(y 1).val, h1⟩).trans ?_
  refine lin_blk4 V c t ⟨(y 0).val, h0⟩ ⟨(y 1).val, h1⟩ _ _ ?_ ?_
  · show win4_6.index t (0 : Fin 2) * 5000 + 1 * (y 0).val = 5000 * t.val + (y 0).val
    rw [e60]; omega
  · show win4_6.index t (1 : Fin 2) * 96 + 1 * (y 1).val = (y 1).val
    rw [e61]; omega

/-- An index of the array is in point `t`'s block iff each coordinate is in the block's range on its axis. -/
theorem mem_blk4_6 (t : Fin cfg4.N) (i : S50000x96.Idx) :
    i ∈ ((cfg4.win 6).blk t).view.set ↔ ∀ a : Fin 2, win4_6.index t a * S5000x96.size a ≤ (i a).val ∧ (i a).val < win4_6.index t a * S5000x96.size a + S5000x96.size a := by
  show i ∈ ((View.whole main_v93_0).slice (win4_6.rect t)).set ↔ _
  rw [View.set_slice_whole, Rect.mem_set_unit]
  exact Iff.rfl

/-- Row `p` lies in the block of point `p / 5000`. -/
theorem cover4_6 (i : S50000x96.Idx) : ∃ t : Fin cfg4.N, (cfg4.win 6).flush t = true ∧ i ∈ ((cfg4.win 6).blk t).view.set := by
  have hi0 : (i 0).val < 50000 := (i 0).isLt
  have hi1 : (i 1).val < 96 := (i 1).isLt
  have hN : cfg4.N = 10 := N_4
  have ht : (i 0).val / 5000 < cfg4.N := by rw [hN]; omega
  obtain ⟨e00, e01, e10, e11, e20, e21, e30, e31, e40, e41, e50, e60, e61, e70, e71, e80, e81⟩ := widx4 ⟨(i 0).val / 5000, ht⟩
  refine ⟨⟨(i 0).val / 5000, ht⟩, flush4_6 _, ?_⟩
  rw [mem_blk4_6]
  intro a
  match a with
  | ⟨0, _⟩ =>
    show win4_6.index ⟨(i 0).val / 5000, ht⟩ (0 : Fin 2) * 5000 ≤ (i 0).val ∧ (i 0).val < win4_6.index ⟨(i 0).val / 5000, ht⟩ (0 : Fin 2) * 5000 + 5000
    rw [e60]; dsimp only; omega
  | ⟨1, _⟩ =>
    show win4_6.index ⟨(i 0).val / 5000, ht⟩ (1 : Fin 2) * 96 ≤ (i 1).val ∧ (i 1).val < win4_6.index ⟨(i 0).val / 5000, ht⟩ (1 : Fin 2) * 96 + 96
    rw [e61]; omega

/-- So the array ends holding it everywhere. -/
theorem final4_6 : (dat4 V c).arrAt 6 cfg4.N = G4_6 V c :=
  (dat4 V c).arrAt_eq_of_cover 6 (G4_6 V c) (fun t _ => flushed4_6 V c t) (cover4_6)

/-- THE AFFINE VALUES: entry `(p, q)` of the first output array. -/
theorem out4_pre (p : Fin 50000) (q : Fin 96) : (dat4 (F := Ideal) V c).arrAt 6 cfg4.N (ix2 p q) = X4 V c p q :=
  congrFun (final4_6 V c) (ix2 p q)

/-! ## The column sums: output window 7 -/

/-- What the array ends holding: row `8 t` the sums over rows `5000 t …` of the affine values, the other rows zero. -/
abbrev G4_7 : S80x96.Idx → EReal := fun i =>
  if (i 0).val % 8 = 0 then
    w0 + ∑ j : Fin 5000, X4 V c ⟨5000 * ((i 0).val / 8) + j.val, by have := idx2_lt0 i; omega⟩ ⟨(i 1).val, idx2_lt1 i⟩
  else w0

/-- Inside point `t`'s block it is the point's sums in row 0 and zero below. -/
theorem G4_7_blk (t : Fin cfg4.N) (i : S80x96.Idx) (r : Fin 8) (q : Fin 96) (h0 : (i 0).val = 8 * t.val + r.val) (h1 : (i 1).val = q.val) :
    G4_7 V c i = if r.val = 0 then ∑ j : Fin 5000, lin (iblk4 V c 0 t) (iblk4 V c 1 t) (iblk4 V c 2 t) (iblk4 V c 3 t) (iblk4 V c 4 t) (iblk4 V c 5 t) j q else w0 := by
  show (if (i 0).val % 8 = 0 then _ else _) = _
  by_cases hr : r.val = 0
  · rw [if_pos hr, if_pos (by omega), show (w0 : EReal) = 0 from Ideal.ofBits_zero_f32, zero_add]
    refine Finset.sum_congr rfl fun j _ => ?_
    rw [lin_blk4 V c t j q ⟨5000 * ((i 0).val / 8) + j.val, by have := idx2_lt0 i; omega⟩ ⟨(i 1).val, idx2_lt1 i⟩ (by show 5000 * ((i 0).val / 8) + j.val = _; omega) h1]
  · rw [if_neg hr, if_neg (by omega)]

/-- What point `t` writes back is block `t` of it. -/
theorem flushed4_7 (t : Fin cfg4.N) :
    (dat4 V c).flushed 7 t = ((cfg4.win 7).blk t).view.read (Elt Ideal) (G4_7 V c) := by
  obtain ⟨e00, e01, e10, e11, e20, e21, e30, e31, e40, e41, e50, e60, e61, e70, e71, e80, e81⟩ := widx4 t
  show (cfg4.win 7).cut (grid4.coords t) ((dat4 V c).after 7 t) = _
  rw [after4_7]
  unfold outsAt4
  dsimp only
  rw [out4_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t)]
  funext y
  rw [View.read_apply]
  have h0 : (y 0).val < 8 := (y 0).isLt
  have h1 : (y 1).val < 96 := (y 1).isLt
  have hxy : (cfg4.win 7).xinj (grid4.coords t) y = ix2 (⟨(y 0).val, h0⟩ : Fin 8) (⟨(y 1).val, h1⟩ : Fin 96) :=
    funext fun a => by match a with | ⟨0, _⟩ => rfl | ⟨1, _⟩ => rfl
  show View.canon (Val := Elt Ideal) (s := S8x96) (e := .f32) _ ((cfg4.win 7).xinj (grid4.coords t) y) = G4_7 V c (((cfg4.win 7).blk t).view.emb y)
  rw [hxy]
  refine (stat_canon_apply _ _ ⟨(y 0).val, h0⟩ ⟨(y 1).val, h1⟩).trans ?_
  refine Eq.trans ?_ (G4_7_blk V c t _ ⟨(y 0).val, h0⟩ ⟨(y 1).val, h1⟩ ?_ ?_).symm
  · exact ite_congr rfl (fun _ => k4_pay3_apply (iblk4 V c 0 t) (iblk4 V c 2 t) (iblk4 V c 1 t) (iblk4 V c 3 t) (iblk4 V c 4 t) (iblk4 V c 5 t) (0 : Fin 1) ⟨(y 1).val, h1⟩) (fun _ => k4_pay5_apply ⟨(y 0).val, h0⟩ ⟨(y 1).val, h1⟩)
  · show win4_7.index t (0 : Fin 2) * 8 + 1 * (y 0).val = 8 * t.val + (y 0).val
    rw [e70]; omega
  · show win4_7.index t (1 : Fin 2) * 96 + 1 * (y 1).val = (y 1).val
    rw [e71]; omega

/-- An index of the array is in point `t`'s block iff each coordinate is in the block's range on its axis. -/
theorem mem_blk4_7 (t : Fin cfg4.N) (i : S80x96.Idx) :
    i ∈ ((cfg4.win 7).blk t).view.set ↔ ∀ a : Fin 2, win4_7.index t a * S8x96.size a ≤ (i a).val ∧ (i a).val < win4_7.index t a * S8x96.size a + S8x96.size a := by
  show i ∈ ((View.whole main_v93_1).slice (win4_7.rect t)).set ↔ _
  rw [View.set_slice_whole, Rect.mem_set_unit]
  exact Iff.rfl

/-- Row `p` lies in the block of point `p / 8`. -/
theorem cover4_7 (i : S80x96.Idx) : ∃ t : Fin cfg4.N, (cfg4.win 7).flush t = true ∧ i ∈ ((cfg4.win 7).blk t).view.set := by
  have hi0 : (i 0).val < 80 := (i 0).isLt
  have hi1 : (i 1).val < 96 := (i 1).isLt
  have hN : cfg4.N = 10 := N_4
  have ht : (i 0).val / 8 < cfg4.N := by rw [hN]; omega
  obtain ⟨e00, e01, e10, e11, e20, e21, e30, e31, e40, e41, e50, e60, e61, e70, e71, e80, e81⟩ := widx4 ⟨(i 0).val / 8, ht⟩
  refine ⟨⟨(i 0).val / 8, ht⟩, flush4_7 _, ?_⟩
  rw [mem_blk4_7]
  intro a
  match a with
  | ⟨0, _⟩ =>
    show win4_7.index ⟨(i 0).val / 8, ht⟩ (0 : Fin 2) * 8 ≤ (i 0).val ∧ (i 0).val < win4_7.index ⟨(i 0).val / 8, ht⟩ (0 : Fin 2) * 8 + 8
    rw [e70]; dsimp only; omega
  | ⟨1, _⟩ =>
    show win4_7.index ⟨(i 0).val / 8, ht⟩ (1 : Fin 2) * 96 ≤ (i 1).val ∧ (i 1).val < win4_7.index ⟨(i 0).val / 8, ht⟩ (1 : Fin 2) * 96 + 96
    rw [e71]; omega

/-- So the array ends holding it everywhere. -/
theorem final4_7 : (dat4 V c).arrAt 7 cfg4.N = G4_7 V c :=
  (dat4 V c).arrAt_eq_of_cover 7 (G4_7 V c) (fun t _ => flushed4_7 V c t) (cover4_7)

/-- THE COLUMN SUMS: entry `(r, q)` of the second output array. -/
theorem out4_sum (r : Fin 80) (q : Fin 96) : (dat4 (F := Ideal) V c).arrAt 7 cfg4.N (ix2 r q)
    = if r.val % 8 = 0 then w0 + ∑ i : Fin 5000, X4 V c ⟨5000 * (r.val / 8) + i.val, by omega⟩ q else w0 :=
  congrFun (final4_7 V c) (ix2 r q)

/-! ## The column sums of squares: output window 8 -/

/-- What the array ends holding: row `8 t` the sums over rows `5000 t …` of the affine values' squares, the other rows zero. -/
abbrev G4_8 : S80x96.Idx → EReal := fun i =>
  if (i 0).val % 8 = 0 then
    w0 + ∑ j : Fin 5000, X4 V c ⟨5000 * ((i 0).val / 8) + j.val, by have := idx2_lt0 i; omega⟩ ⟨(i 1).val, idx2_lt1 i⟩ * X4 V c ⟨5000 * ((i 0).val / 8) + j.val, by have := idx2_lt0 i; omega⟩ ⟨(i 1).val, idx2_lt1 i⟩
  else w0

/-- Inside point `t`'s block it is the point's sums in row 0 and zero below. -/
theorem G4_8_blk (t : Fin cfg4.N) (i : S80x96.Idx) (r : Fin 8) (q : Fin 96) (h0 : (i 0).val = 8 * t.val + r.val) (h1 : (i 1).val = q.val) :
    G4_8 V c i = if r.val = 0 then ∑ j : Fin 5000, lin (iblk4 V c 0 t) (iblk4 V c 1 t) (iblk4 V c 2 t) (iblk4 V c 3 t) (iblk4 V c 4 t) (iblk4 V c 5 t) j q * lin (iblk4 V c 0 t) (iblk4 V c 1 t) (iblk4 V c 2 t) (iblk4 V c 3 t) (iblk4 V c 4 t) (iblk4 V c 5 t) j q else w0 := by
  show (if (i 0).val % 8 = 0 then _ else _) = _
  by_cases hr : r.val = 0
  · rw [if_pos hr, if_pos (by omega), show (w0 : EReal) = 0 from Ideal.ofBits_zero_f32, zero_add]
    refine Finset.sum_congr rfl fun j _ => ?_
    rw [lin_blk4 V c t j q ⟨5000 * ((i 0).val / 8) + j.val, by have := idx2_lt0 i; omega⟩ ⟨(i 1).val, idx2_lt1 i⟩ (by show 5000 * ((i 0).val / 8) + j.val = _; omega) h1]
  · rw [if_neg hr, if_neg (by omega)]

/-- What point `t` writes back is block `t` of it. -/
theorem flushed4_8 (t : Fin cfg4.N) :
    (dat4 V c).flushed 8 t = ((cfg4.win 8).blk t).view.read (Elt Ideal) (G4_8 V c) := by
  obtain ⟨e00, e01, e10, e11, e20, e21, e30, e31, e40, e41, e50, e60, e61, e70, e71, e80, e81⟩ := widx4 t
  show (cfg4.win 8).cut (grid4.coords t) ((dat4 V c).after 8 t) = _
  rw [after4_8]
  unfold outsAt4
  dsimp only
  rw [out4_8_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (iblk4 V c 0 t) (iblk4 V c 1 t) (iblk4 V c 2 t) (iblk4 V c 3 t) (iblk4 V c 4 t) (iblk4 V c 5 t)]
  funext y
  rw [View.read_apply]
  have h0 : (y 0).val < 8 := (y 0).isLt
  have h1 : (y 1).val < 96 := (y 1).isLt
  have hxy : (cfg4.win 8).xinj (grid4.coords t) y = ix2 (⟨(y 0).val, h0⟩ : Fin 8) (⟨(y 1).val, h1⟩ : Fin 96) :=
    funext fun a => by match a with | ⟨0, _⟩ => rfl | ⟨1, _⟩ => rfl
  show View.canon (Val := Elt Ideal) (s := S8x96) (e := .f32) _ ((cfg4.win 8).xinj (grid4.coords t) y) = G4_8 V c (((cfg4.win 8).blk t).view.emb y)
  rw [hxy]
  refine (stat_canon_apply _ _ ⟨(y 0).val, h0⟩ ⟨(y 1).val, h1⟩).trans ?_
  refine Eq.trans ?_ (G4_8_blk V c t _ ⟨(y 0).val, h0⟩ ⟨(y 1).val, h1⟩ ?_ ?_).symm
  · exact ite_congr rfl (fun _ => k4_pay4_apply (iblk4 V c 0 t) (iblk4 V c 2 t) (iblk4 V c 1 t) (iblk4 V c 3 t) (iblk4 V c 4 t) (iblk4 V c 5 t) (0 : Fin 1) ⟨(y 1).val, h1⟩) (fun _ => k4_pay1_apply ⟨(y 0).val, h0⟩ ⟨(y 1).val, h1⟩)
  · show win4_8.index t (0 : Fin 2) * 8 + 1 * (y 0).val = 8 * t.val + (y 0).val
    rw [e80]; omega
  · show win4_8.index t (1 : Fin 2) * 96 + 1 * (y 1).val = (y 1).val
    rw [e81]; omega

/-- An index of the array is in point `t`'s block iff each coordinate is in the block's range on its axis. -/
theorem mem_blk4_8 (t : Fin cfg4.N) (i : S80x96.Idx) :
    i ∈ ((cfg4.win 8).blk t).view.set ↔ ∀ a : Fin 2, win4_8.index t a * S8x96.size a ≤ (i a).val ∧ (i a).val < win4_8.index t a * S8x96.size a + S8x96.size a := by
  show i ∈ ((View.whole main_v93_2).slice (win4_8.rect t)).set ↔ _
  rw [View.set_slice_whole, Rect.mem_set_unit]
  exact Iff.rfl

/-- Row `p` lies in the block of point `p / 8`. -/
theorem cover4_8 (i : S80x96.Idx) : ∃ t : Fin cfg4.N, (cfg4.win 8).flush t = true ∧ i ∈ ((cfg4.win 8).blk t).view.set := by
  have hi0 : (i 0).val < 80 := (i 0).isLt
  have hi1 : (i 1).val < 96 := (i 1).isLt
  have hN : cfg4.N = 10 := N_4
  have ht : (i 0).val / 8 < cfg4.N := by rw [hN]; omega
  obtain ⟨e00, e01, e10, e11, e20, e21, e30, e31, e40, e41, e50, e60, e61, e70, e71, e80, e81⟩ := widx4 ⟨(i 0).val / 8, ht⟩
  refine ⟨⟨(i 0).val / 8, ht⟩, flush4_8 _, ?_⟩
  rw [mem_blk4_8]
  intro a
  match a with
  | ⟨0, _⟩ =>
    show win4_8.index ⟨(i 0).val / 8, ht⟩ (0 : Fin 2) * 8 ≤ (i 0).val ∧ (i 0).val < win4_8.index ⟨(i 0).val / 8, ht⟩ (0 : Fin 2) * 8 + 8
    rw [e80]; dsimp only; omega
  | ⟨1, _⟩ =>
    show win4_8.index ⟨(i 0).val / 8, ht⟩ (1 : Fin 2) * 96 ≤ (i 1).val ∧ (i 1).val < win4_8.index ⟨(i 0).val / 8, ht⟩ (1 : Fin 2) * 96 + 96
    rw [e81]; omega

/-- So the array ends holding it everywhere. -/
theorem final4_8 : (dat4 V c).arrAt 8 cfg4.N = G4_8 V c :=
  (dat4 V c).arrAt_eq_of_cover 8 (G4_8 V c) (fun t _ => flushed4_8 V c t) (cover4_8)

/-- THE COLUMN SUMS OF SQUARES: entry `(r, q)` of the third output array. -/
theorem out4_sumsq (r : Fin 80) (q : Fin 96) : (dat4 (F := Ideal) V c).arrAt 8 cfg4.N (ix2 r q)
    = if r.val % 8 = 0 then w0 + ∑ i : Fin 5000, X4 V c ⟨5000 * (r.val / 8) + i.val, by omega⟩ q * X4 V c ⟨5000 * (r.val / 8) + i.val, by omega⟩ q else w0 :=
  congrFun (final4_8 V c) (ix2 r q)

end Cert.KernelIdeal.RegionVal

end
-- ==== Proof.KBn5.lean ====
/-
  What the last kernel — normalise, clip, then the ten scores per node — leaves in its output array, entry by
  entry.

  The kernel walks the 50000 rows in ten blocks of 5000.  At each block it reads the block of the third affine
  layer's output `x`, the four rows `mu`, `var`, `gamma`, `beta`, the 96 × 10 weights `w` and the ten biases
  `b` (whole, at every block); it forms `h = max (x * scale + shift) 0` with `scale = rsqrt (var + eps) * gamma`
  and `shift = beta - mu * scale`, multiplies the block of `h` by `w` from a zero accumulator (the change of float
  format on the way in is the identity on extended reals) and adds the bias row to every row.  Row `p` of the
  array lies in block `p / 5000` at inner row `p % 5000`, and every block is written once with the same function
  of the arrays, so the array ends holding that function at every entry.
-/
import proofs.«122304_j8787503088149_2_alg».proof.Proof.Gen.KernelIdeal.Frame
import proofs.«122304_j8787503088149_2_alg».proof.Proof.Spec
import proofs.«122304_j8787503088149_2_alg».proof.Proof.LibMatmulRows
import Idealize.ShloMosaic.Lib.Pipeline.Value
import Idealize.ShloMosaic.Lib.ValueIdx
import Idealize.ShloMosaic.Lib.ValueLayout

noncomputable section

namespace Cert.KernelIdeal.RegionVal

open Cert.KernelIdeal Cert.KernelIdeal.Gen Idealize.ShloMosaic Idealize.ShloMosaic.ValueIdx Cert.Sage
open Idealize.ShloMosaic.TcCoe Idealize.SL.Sem
open Idealize.ShloMosaic.Pipeline (Dat)

/-! ## The body's arithmetic at one entry of a block -/

/-- Entry `(r, k)` of what the body stores: row `r` of the normalised and clipped block against column `k` of the
    weights, plus bias `k`. -/
theorem pay5_apply (x0 : Vec Ideal S5000x96 .f32) (va ga be mu : Vec Ideal S96 .f32) (W : Vec Ideal S96x10 .f32)
    (cb : Vec Ideal S10 .f32) (r : Fin 5000) (k : Fin 10) :
    k5_pay1 x0 va ga be mu W cb (ix2 r k)
      = (∑ j : Fin 96, max (x0 (ix2 r j) * (Ideal.rsqrt (va (ix1 j) + wEps) * ga (ix1 j))
          + (be (ix1 j) - mu (ix1 j) * (Ideal.rsqrt (va (ix1 j) + wEps) * ga (ix1 j)))) w0 * W (ix2 j k)) + cb (ix1 k) := by
  unfold k5_pay1
  simp only [shapeCast_self]
  rw [addf_apply, broadcastTo_1b_ab_apply, shapeCast_a_1a_apply]
  refine congrArg (· + cb (ix1 k)) ?_
  refine (Cert.LibMatmulRows.matmul_rows_apply dot_S5000x96_S96x10_S5000x10_1_0_0_1_n_n rfl rfl rfl rfl rfl rfl _ _ r k).trans ?_
  refine Finset.sum_congr rfl fun j _ => ?_
  rw [truncf_apply, truncf_apply, maximumf_apply, addf_apply, mulf_apply, broadcastTo_1b_ab_apply,
    broadcastTo_1b_ab_apply, shapeCast_a_1a_apply, shapeCast_a_1a_apply]
  rfl

/-! ## The blocks the body reads, as entries of the arrays -/

theorem hz2_5 : (![0, 0] : Fin 2 → Nat) = fun _ => 0 := funext fun a => by fin_cases a <;> rfl
theorem hz1_5 : (![0] : Fin 1 → Nat) = fun _ => 0 := funext fun a => by fin_cases a; rfl

/-- The block indices at grid point `t`: the two tall matrices move down the rows with `t`, the rest stay. -/
theorem idx5 : ∀ t : Fin cfg5.N, win5_0.index t (0 : Fin 2) = t.val ∧ win5_0.index t (1 : Fin 2) = 0
    ∧ win5_7.index t (0 : Fin 2) = t.val ∧ win5_7.index t (1 : Fin 2) = 0
    ∧ win5_1.index t (0 : Fin 1) = 0 ∧ win5_2.index t (0 : Fin 1) = 0
    ∧ win5_3.index t (0 : Fin 1) = 0 ∧ win5_4.index t (0 : Fin 1) = 0
    ∧ win5_5.index t (0 : Fin 2) = 0 ∧ win5_5.index t (1 : Fin 2) = 0 ∧ win5_6.index t (0 : Fin 1) = 0 :=
  (by decide +kernel : ∀ t : Fin grid5.N, _)

variable (V : (c : Dev nD) → (b : Ref sig .tc) → Buf (Elt Ideal) ((c : Thread nD τ).loc b)) (c : Dev nD)

/-- Entry `(r, q)` of the matrix block at point `t` is entry `(5000 t + r, q)` of the matrix. -/
theorem iblk5_0_apply (t : Fin cfg5.N) (r : Fin 5000) (q : Fin 96) (p : Fin 50000) (hp : p.val = t.val * 5000 + r.val) :
    (iblk5 V c 0 t : Vec Ideal S5000x96 .f32) (ix2 r q) = V c (Pipeline.arrRef spec5 0) (ix2 p q) := by
  obtain ⟨e0, e1, -⟩ := idx5 t
  unfold iblk5
  rw [View.read_apply]
  show V c (Pipeline.arrRef spec5 0) _ = V c (Pipeline.arrRef spec5 0) _
  refine congrArg (V c (Pipeline.arrRef spec5 0)) (funext fun a => Fin.ext ?_)
  match a with
  | ⟨0, _⟩ => show win5_0.index t (0 : Fin 2) * 5000 + 1 * r.val = p.val; rw [e0, hp]; omega
  | ⟨1, _⟩ => show win5_0.index t (1 : Fin 2) * 96 + 1 * q.val = q.val; rw [e1]; omega

/-- Each row block is the whole row, at every point. -/
theorem iblk5_1_apply (t : Fin cfg5.N) (q : Fin 96) :
    (iblk5 V c 1 t : Vec Ideal S96 .f32) (ix1 q) = V c (Pipeline.arrRef spec5 1) (ix1 q) := by
  obtain ⟨-, -, -, -, e, -⟩ := idx5 t
  unfold iblk5
  rw [View.read_apply]
  show V c (Pipeline.arrRef spec5 1) _ = V c (Pipeline.arrRef spec5 1) _
  refine congrArg (V c (Pipeline.arrRef spec5 1)) (funext fun a => Fin.ext ?_)
  match a with
  | ⟨0, _⟩ => show win5_1.index t (0 : Fin 1) * 96 + 1 * q.val = q.val; rw [e]; omega
theorem iblk5_2_apply (t : Fin cfg5.N) (q : Fin 96) :
    (iblk5 V c 2 t : Vec Ideal S96 .f32) (ix1 q) = V c (Pipeline.arrRef spec5 2) (ix1 q) := by
  obtain ⟨-, -, -, -, -, e, -⟩ := idx5 t
  unfold iblk5
  rw [View.read_apply]
  show V c (Pipeline.arrRef spec5 2) _ = V c (Pipeline.arrRef spec5 2) _
  refine congrArg (V c (Pipeline.arrRef spec5 2)) (funext fun a => Fin.ext ?_)
  match a with
  | ⟨0, _⟩ => show win5_2.index t (0 : Fin 1) * 96 + 1 * q.val = q.val; rw [e]; omega
theorem iblk5_3_apply (t : Fin cfg5.N) (q : Fin 96) :
    (iblk5 V c 3 t : Vec Ideal S96 .f32) (ix1 q) = V c (Pipeline.arrRef spec5 3) (ix1 q) := by
  obtain ⟨-, -, -, -, -, -, e, -⟩ := idx5 t
  unfold iblk5
  rw [View.read_apply]
  show V c (Pipeline.arrRef spec5 3) _ = V c (Pipeline.arrRef spec5 3) _
  refine congrArg (V c (Pipeline.arrRef spec5 3)) (funext fun a => Fin.ext ?_)
  match a with
  | ⟨0, _⟩ => show win5_3.index t (0 : Fin 1) * 96 + 1 * q.val = q.val; rw [e]; omega
theorem iblk5_4_apply (t : Fin cfg5.N) (q : Fin 96) :
    (iblk5 V c 4 t : Vec Ideal S96 .f32) (ix1 q) = V c (Pipeline.arrRef spec5 4) (ix1 q) := by
  obtain ⟨-, -, -, -, -, -, -, e, -⟩ := idx5 t
  unfold iblk5
  rw [View.read_apply]
  show V c (Pipeline.arrRef spec5 4) _ = V c (Pipeline.arrRef spec5 4) _
  refine congrArg (V c (Pipeline.arrRef spec5 4)) (funext fun a => Fin.ext ?_)
  match a with
  | ⟨0, _⟩ => show win5_4.index t (0 : Fin 1) * 96 + 1 * q.val = q.val; rw [e]; omega
/-- The weights' block is the whole 96 × 10 matrix, at every point. -/
theorem iblk5_5_apply (t : Fin cfg5.N) (j : Fin 96) (k : Fin 10) :
    (iblk5 V c 5 t : Vec Ideal S96x10 .f32) (ix2 j k) = V c (Pipeline.arrRef spec5 5) (ix2 j k) := by
  obtain ⟨-, -, -, -, -, -, -, -, e0, e1, -⟩ := idx5 t
  unfold iblk5
  rw [View.read_apply]
  show V c (Pipeline.arrRef spec5 5) _ = V c (Pipeline.arrRef spec5 5) _
  refine congrArg (V c (Pipeline.arrRef spec5 5)) (funext fun a => Fin.ext ?_)
  match a with
  | ⟨0, _⟩ => show win5_5.index t (0 : Fin 2) * 96 + 1 * j.val = j.val; rw [e0]; omega
  | ⟨1, _⟩ => show win5_5.index t (1 : Fin 2) * 10 + 1 * k.val = k.val; rw [e1]; omega
/-- The biases' block is the whole row of ten, at every point. -/
theorem iblk5_6_apply (t : Fin cfg5.N) (k : Fin 10) :
    (iblk5 V c 6 t : Vec Ideal S10 .f32) (ix1 k) = V c (Pipeline.arrRef spec5 6) (ix1 k) := by
  obtain ⟨-, -, -, -, -, -, -, -, -, -, e⟩ := idx5 t
  unfold iblk5
  rw [View.read_apply]
  show V c (Pipeline.arrRef spec5 6) _ = V c (Pipeline.arrRef spec5 6) _
  refine congrArg (V c (Pipeline.arrRef spec5 6)) (funext fun a => Fin.ext ?_)
  match a with
  | ⟨0, _⟩ => show win5_6.index t (0 : Fin 1) * 10 + 1 * k.val = k.val; rw [e]; omega

/-! ## From blocks to the array -/

/-- The function the output array ends holding: the ten scores of the normalised and clipped features. -/
def G5 : S50000x10.Idx → EReal := fun i =>
  Sage.clf (Sage.bnK (fun i j => V c (Pipeline.arrRef spec5 0) (ix2 i j)) (fun j => V c (Pipeline.arrRef spec5 1) (ix1 j))
      (fun j => V c (Pipeline.arrRef spec5 2) (ix1 j)) (fun j => V c (Pipeline.arrRef spec5 3) (ix1 j))
      (fun j => V c (Pipeline.arrRef spec5 4) (ix1 j)))
    (fun j k => V c (Pipeline.arrRef spec5 5) (ix2 j k)) (fun k => V c (Pipeline.arrRef spec5 6) (ix1 k)) (i 0) (i 1)

/-- What the body stores at point `t`, entry `(r, k)`, is that function at row `5000 t + r`. -/
theorem body5_apply (t : Fin cfg5.N) (r : Fin 5000) (k : Fin 10) (p : Fin 50000) (hp : p.val = t.val * 5000 + r.val) :
    k5_pay1 (iblk5 V c 0 t) (iblk5 V c 2 t) (iblk5 V c 3 t) (iblk5 V c 4 t) (iblk5 V c 1 t) (iblk5 V c 5 t) (iblk5 V c 6 t) (ix2 r k)
      = G5 V c (ix2 p k) := by
  refine (pay5_apply (iblk5 V c 0 t) (iblk5 V c 2 t) (iblk5 V c 3 t) (iblk5 V c 4 t) (iblk5 V c 1 t) (iblk5 V c 5 t) (iblk5 V c 6 t) r k).trans ?_
  rw [iblk5_6_apply V c t k]
  refine congrArg (· + V c (Pipeline.arrRef spec5 6) (ix1 k)) (Finset.sum_congr rfl fun j _ => ?_)
  rw [iblk5_0_apply V c t r j p hp, iblk5_1_apply V c t j, iblk5_2_apply V c t j, iblk5_3_apply V c t j,
    iblk5_4_apply V c t j, iblk5_5_apply V c t j k]
  rfl

/-- A block of 5000 rows whose entries are a whole-array function's at rows `5000 t + r` is that function read
    through the output window's block at point `t`. -/
theorem cut_eq_read5 (t : Fin cfg5.N) (X : Vec Ideal S5000x10 .f32) (G : S50000x10.Idx → EReal)
    (h : ∀ (r : Fin 5000) (k : Fin 10) (p : Fin 50000), p.val = t.val * 5000 + r.val → X (ix2 r k) = G (ix2 p k)) :
    (cfg5.win 7).cut (grid5.coords t) X = ((cfg5.win 7).blk t).view.read (Elt Ideal) G := by
  obtain ⟨-, -, e0, e1, -⟩ := idx5 t
  have hN : t.val < 10 := Nat.lt_of_lt_of_eq t.isLt N_5
  funext j
  have h0 : (j 0).val < 5000 := (j 0).isLt
  have h1 : (j 1).val < 10 := (j 1).isLt
  have e := h ⟨(j 0).val, h0⟩ ⟨(j 1).val, h1⟩ ⟨t.val * 5000 + (j 0).val, by omega⟩ rfl
  show X _ = G (((cfg5.win 7).blk t).view.emb j)
  refine Eq.trans (congrArg X (funext fun a => ?_)) (e.trans (congrArg G (funext fun a => Fin.ext ?_)))
  · match a with
    | ⟨0, _⟩ => rfl
    | ⟨1, _⟩ => rfl
  · match a with
    | ⟨0, _⟩ => show t.val * 5000 + (j 0).val = win5_7.index t (0 : Fin 2) * 5000 + 1 * (j 0).val; rw [e0]; omega
    | ⟨1, _⟩ => show (j 1).val = win5_7.index t (1 : Fin 2) * 10 + 1 * (j 1).val; rw [e1]; omega

/-- What point `t` writes back is block `t` of that function. -/
theorem flushed5_eq (t : Fin cfg5.N) :
    (dat5 V c).flushed 7 t = ((cfg5.win 7).blk t).view.read (Elt Ideal) (G5 V c) := by
  show (cfg5.win 7).cut (grid5.coords t) ((dat5 V c).after 7 t) = _
  rw [after5_7]
  unfold out5_7
  rw [View.canon_unit_zero hz2_5]
  simp only [View.ld_unit_zero (S := S5000x96) hz2_5, View.ld_unit_zero (S := S96) hz1_5,
    View.ld_unit_zero (S := S96x10) hz2_5, View.ld_unit_zero (S := S10) hz1_5]
  exact cut_eq_read5 t _ (G5 V c) (body5_apply V c t)

/-- An entry of the array is in point `t`'s block iff each coordinate is in the block's range on its axis. -/
theorem mem_blk5 (t : Fin cfg5.N) (i : S50000x10.Idx) :
    i ∈ ((cfg5.win 7).blk t).view.set ↔ ∀ a : Fin 2, win5_7.index t a * S5000x10.size a ≤ (i a).val ∧ (i a).val < win5_7.index t a * S5000x10.size a + S5000x10.size a := by
  show i ∈ ((View.whole main_v108).slice (win5_7.rect t)).set ↔ _
  rw [View.set_slice_whole, Rect.mem_set_unit]
  exact Iff.rfl

/-- Row `p` lies in the block of point `p / 5000`: the ten blocks cover the array. -/
theorem rows_cover5 (i : S50000x10.Idx) :
    ∃ t : Fin cfg5.N, (cfg5.win 7).flush t = true ∧ i ∈ ((cfg5.win 7).blk t).view.set := by
  have hi0 : (i 0).val < 50000 := (i 0).isLt
  have hi1 : (i 1).val < 10 := (i 1).isLt
  have hN : cfg5.N = 10 := N_5
  have ht : (i 0).val / 5000 < cfg5.N := by rw [hN]; omega
  obtain ⟨-, -, e0, e1, -⟩ := idx5 ⟨(i 0).val / 5000, ht⟩
  have e0' : win5_7.index ⟨(i 0).val / 5000, ht⟩ (0 : Fin 2) = (i 0).val / 5000 := e0
  refine ⟨⟨(i 0).val / 5000, ht⟩, flush5_7 _, ?_⟩
  rw [mem_blk5]
  intro a
  match a with
  | ⟨0, _⟩ =>
    show win5_7.index ⟨(i 0).val / 5000, ht⟩ (0 : Fin 2) * 5000 ≤ (i 0).val ∧ (i 0).val < win5_7.index ⟨(i 0).val / 5000, ht⟩ (0 : Fin 2) * 5000 + 5000
    rw [e0']; omega
  | ⟨1, _⟩ =>
    show win5_7.index ⟨(i 0).val / 5000, ht⟩ (1 : Fin 2) * 10 ≤ (i 1).val ∧ (i 1).val < win5_7.index ⟨(i 0).val / 5000, ht⟩ (1 : Fin 2) * 10 + 10
    rw [e1]; omega

/-- The output array after the region's run is that function. -/
theorem out5_arr : (dat5 (F := Ideal) V c).arrAt 7 cfg5.N = G5 V c :=
  (dat5 V c).arrAt_eq_of_cover 7 (G5 V c) (fun t _ => flushed5_eq V c t) (rows_cover5)

/-- THE OUTPUT ARRAY OF THE REGION, entry `(p, k)`: score `k` of node `p`'s normalised and clipped features, from
    the arrays as the region finds them. -/
theorem out5_clf (p : Fin 50000) (k : Fin 10) : (dat5 (F := Ideal) V c).arrAt 7 cfg5.N (ix2 p k)
      = Sage.clf (Sage.bnK (fun i j => V c (Pipeline.arrRef spec5 0) (ix2 i j)) (fun j => V c (Pipeline.arrRef spec5 1) (ix1 j)) (fun j => V c (Pipeline.arrRef spec5 2) (ix1 j))
          (fun j => V c (Pipeline.arrRef spec5 3) (ix1 j)) (fun j => V c (Pipeline.arrRef spec5 4) (ix1 j)))
          (fun j k => V c (Pipeline.arrRef spec5 5) (ix2 j k)) (fun k => V c (Pipeline.arrRef spec5 6) (ix1 k)) p k :=
  congrFun (out5_arr V c) (ix2 p k)

end Cert.KernelIdeal.RegionVal

end
-- ==== Proof.KHost0.lean ====
/-
  Stretch 0 of the host operations: the two rows of the edge list, the reciprocal in-degrees, the neighbour sum of
  the input features, and layer 0's weights and bias out of their stacks.  No argument is written.
  Every equation is for an arbitrary assignment `W` of contents to the buffers the stretch finds.
-/
import proofs.«122304_j8787503088149_2_alg».proof.Proof.KHostDefs
import proofs.«122304_j8787503088149_2_alg».proof.Proof.KStats

noncomputable section

namespace Cert.KernelIdeal.KHost

open Cert.KernelIdeal Cert.KernelIdeal.Gen Idealize.ShloMosaic Idealize.ShloMosaic.TcCoe Idealize.SL.Sem Idealize.ShloMosaic.StableHlo

variable (W : Valuation τ sig (Elt Ideal))

/-! ## What the stretch computes -/

/-- The edges' sources. -/
theorem ops0_v1 : StableHlo.after (hostOps0 (F := Ideal)) W (Proc.devRef .tc main_v1)
    = srcRow (W (Proc.devRef .tc main_arg1)) := by
  after_results_simp
  rfl

/-- The edges' targets. -/
theorem ops0_v3 : StableHlo.after (hostOps0 (F := Ideal)) W (Proc.devRef .tc main_v3)
    = dstRow (W (Proc.devRef .tc main_arg1)) := by
  after_results_simp
  rfl

/-- The reciprocal in-degrees. -/
theorem ops0_v12 : StableHlo.after (hostOps0 (F := Ideal)) W (Proc.devRef .tc main_v12)
    = invV (dstRow (W (Proc.devRef .tc main_arg1))) := by
  after_results_simp
  rfl

/-- The neighbour sum of the input features. -/
theorem ops0_v22 : StableHlo.after (hostOps0 (F := Ideal)) W (Proc.devRef .tc main_v22)
    = aggRows (srcRow (W (Proc.devRef .tc main_arg1))) (dstRow (W (Proc.devRef .tc main_arg1))) (W (Proc.devRef .tc main_arg0)) := by
  after_results_simp
  rfl

section
variable [Facts]

/-- Layer 0's neighbour weights. -/
theorem ops0_v24 : StableHlo.after (hostOps0 (F := Ideal)) W (Proc.devRef .tc main_v24)
    = KStats.sliceW0 (W (Proc.devRef .tc main_arg2)) := by
  after_results_simp
  rfl

/-- Layer 0's self weights. -/
theorem ops0_v26 : StableHlo.after (hostOps0 (F := Ideal)) W (Proc.devRef .tc main_v26)
    = KStats.sliceW0 (W (Proc.devRef .tc main_arg3)) := by
  after_results_simp
  rfl

/-- Layer 0's bias. -/
theorem ops0_v28 : StableHlo.after (hostOps0 (F := Ideal)) W (Proc.devRef .tc main_v28)
    = KStats.sliceB0 (W (Proc.devRef .tc main_arg4)) := by
  after_results_simp
  rfl

end

/-! ## What the stretch leaves as it was -/

theorem keep0_main_arg0 : StableHlo.after (hostOps0 (F := Ideal)) W (Proc.devRef .tc main_arg0) = W (Proc.devRef .tc main_arg0) := by
  after_results_simp

theorem keep0_main_arg1 : StableHlo.after (hostOps0 (F := Ideal)) W (Proc.devRef .tc main_arg1) = W (Proc.devRef .tc main_arg1) := by
  after_results_simp

theorem keep0_main_arg2 : StableHlo.after (hostOps0 (F := Ideal)) W (Proc.devRef .tc main_arg2) = W (Proc.devRef .tc main_arg2) := by
  after_results_simp

theorem keep0_main_arg3 : StableHlo.after (hostOps0 (F := Ideal)) W (Proc.devRef .tc main_arg3) = W (Proc.devRef .tc main_arg3) := by
  after_results_simp

theorem keep0_main_arg4 : StableHlo.after (hostOps0 (F := Ideal)) W (Proc.devRef .tc main_arg4) = W (Proc.devRef .tc main_arg4) := by
  after_results_simp

theorem keep0_main_arg5 : StableHlo.after (hostOps0 (F := Ideal)) W (Proc.devRef .tc main_arg5) = W (Proc.devRef .tc main_arg5) := by
  after_results_simp

theorem keep0_main_arg6 : StableHlo.after (hostOps0 (F := Ideal)) W (Proc.devRef .tc main_arg6) = W (Proc.devRef .tc main_arg6) := by
  after_results_simp

theorem keep0_main_arg7 : StableHlo.after (hostOps0 (F := Ideal)) W (Proc.devRef .tc main_arg7) = W (Proc.devRef .tc main_arg7) := by
  after_results_simp

theorem keep0_main_arg8 : StableHlo.after (hostOps0 (F := Ideal)) W (Proc.devRef .tc main_arg8) = W (Proc.devRef .tc main_arg8) := by
  after_results_simp

end Cert.KernelIdeal.KHost

end
-- ==== Proof.KHost2.lean ====
/-
  Stretch 2: the neighbour sum of layer 0's output, and layer 1's weights and bias.
  Every equation is for an arbitrary assignment `W` of contents to the buffers the stretch finds.
-/
import proofs.«122304_j8787503088149_2_alg».proof.Proof.KHostDefs
import proofs.«122304_j8787503088149_2_alg».proof.Proof.KStats

noncomputable section

namespace Cert.KernelIdeal.KHost

open Cert.KernelIdeal Cert.KernelIdeal.Gen Idealize.ShloMosaic Idealize.ShloMosaic.TcCoe Idealize.SL.Sem Idealize.ShloMosaic.StableHlo

variable (W : Valuation τ sig (Elt Ideal))

/-! ## What the stretch computes -/

/-- The neighbour sum of layer 0's output. -/
theorem ops2_v54 : StableHlo.after (hostOps2 (F := Ideal)) W (Proc.devRef .tc main_v54)
    = aggRows (W (Proc.devRef .tc main_v1)) (W (Proc.devRef .tc main_v3)) (W (Proc.devRef .tc main_v44)) := by
  after_results_simp
  rfl

section
variable [Facts]

/-- Layer 1's neighbour weights. -/
theorem ops2_v56 : StableHlo.after (hostOps2 (F := Ideal)) W (Proc.devRef .tc main_v56)
    = KStats.sliceW1 (W (Proc.devRef .tc main_arg2)) := by
  after_results_simp
  rfl

/-- Layer 1's self weights. -/
theorem ops2_v58 : StableHlo.after (hostOps2 (F := Ideal)) W (Proc.devRef .tc main_v58)
    = KStats.sliceW1 (W (Proc.devRef .tc main_arg3)) := by
  after_results_simp
  rfl

/-- Layer 1's bias. -/
theorem ops2_v60 : StableHlo.after (hostOps2 (F := Ideal)) W (Proc.devRef .tc main_v60)
    = KStats.sliceB1 (W (Proc.devRef .tc main_arg4)) := by
  after_results_simp
  rfl

end

/-! ## What the stretch leaves as it was -/

theorem keep2_main_v44 : StableHlo.after (hostOps2 (F := Ideal)) W (Proc.devRef .tc main_v44) = W (Proc.devRef .tc main_v44) := by
  after_results_simp

theorem keep2_main_v12 : StableHlo.after (hostOps2 (F := Ideal)) W (Proc.devRef .tc main_v12) = W (Proc.devRef .tc main_v12) := by
  after_results_simp

theorem keep2_main_v1 : StableHlo.after (hostOps2 (F := Ideal)) W (Proc.devRef .tc main_v1) = W (Proc.devRef .tc main_v1) := by
  after_results_simp

theorem keep2_main_v3 : StableHlo.after (hostOps2 (F := Ideal)) W (Proc.devRef .tc main_v3) = W (Proc.devRef .tc main_v3) := by
  after_results_simp

theorem keep2_main_arg2 : StableHlo.after (hostOps2 (F := Ideal)) W (Proc.devRef .tc main_arg2) = W (Proc.devRef .tc main_arg2) := by
  after_results_simp

theorem keep2_main_arg3 : StableHlo.after (hostOps2 (F := Ideal)) W (Proc.devRef .tc main_arg3) = W (Proc.devRef .tc main_arg3) := by
  after_results_simp

theorem keep2_main_arg4 : StableHlo.after (hostOps2 (F := Ideal)) W (Proc.devRef .tc main_arg4) = W (Proc.devRef .tc main_arg4) := by
  after_results_simp

theorem keep2_main_arg5 : StableHlo.after (hostOps2 (F := Ideal)) W (Proc.devRef .tc main_arg5) = W (Proc.devRef .tc main_arg5) := by
  after_results_simp

theorem keep2_main_arg6 : StableHlo.after (hostOps2 (F := Ideal)) W (Proc.devRef .tc main_arg6) = W (Proc.devRef .tc main_arg6) := by
  after_results_simp

theorem keep2_main_arg7 : StableHlo.after (hostOps2 (F := Ideal)) W (Proc.devRef .tc main_arg7) = W (Proc.devRef .tc main_arg7) := by
  after_results_simp

theorem keep2_main_arg8 : StableHlo.after (hostOps2 (F := Ideal)) W (Proc.devRef .tc main_arg8) = W (Proc.devRef .tc main_arg8) := by
  after_results_simp

end Cert.KernelIdeal.KHost

end
-- ==== Proof.KHost3.lean ====
/-
  Stretch 3: layer 1's column mean and variance, and its `gamma` and `beta` rows.
  Every equation is for an arbitrary assignment `W` of contents to the buffers the stretch finds.
-/
import proofs.«122304_j8787503088149_2_alg».proof.Proof.KHostDefs
import proofs.«122304_j8787503088149_2_alg».proof.Proof.KStats

noncomputable section

namespace Cert.KernelIdeal.KHost

open Cert.KernelIdeal Cert.KernelIdeal.Gen Idealize.ShloMosaic Idealize.ShloMosaic.TcCoe Idealize.SL.Sem Idealize.ShloMosaic.StableHlo

variable (W : Valuation τ sig (Elt Ideal))

/-! ## What the stretch computes -/

section
variable [Facts]

/-- The column means. -/
theorem ops3_v64 : StableHlo.after (hostOps3 (F := Ideal)) W (Proc.devRef .tc main_v64)
    = KStats.muV (W (Proc.devRef .tc main_v61_1)) := by
  after_results_simp
  rfl

/-- The column variances. -/
theorem ops3_v71 : StableHlo.after (hostOps3 (F := Ideal)) W (Proc.devRef .tc main_v71)
    = KStats.varV (W (Proc.devRef .tc main_v61_1)) (W (Proc.devRef .tc main_v61_2)) := by
  after_results_simp
  rfl

/-- Layer 1's gamma. -/
theorem ops3_v73 : StableHlo.after (hostOps3 (F := Ideal)) W (Proc.devRef .tc main_v73)
    = KStats.sliceB1 (W (Proc.devRef .tc main_arg5)) := by
  after_results_simp
  rfl

/-- Layer 1's beta. -/
theorem ops3_v75 : StableHlo.after (hostOps3 (F := Ideal)) W (Proc.devRef .tc main_v75)
    = KStats.sliceB1 (W (Proc.devRef .tc main_arg6)) := by
  after_results_simp
  rfl

end

/-! ## What the stretch leaves as it was -/

theorem keep3_main_v61_0 : StableHlo.after (hostOps3 (F := Ideal)) W (Proc.devRef .tc main_v61_0) = W (Proc.devRef .tc main_v61_0) := by
  after_results_simp

theorem keep3_main_v1 : StableHlo.after (hostOps3 (F := Ideal)) W (Proc.devRef .tc main_v1) = W (Proc.devRef .tc main_v1) := by
  after_results_simp

theorem keep3_main_v3 : StableHlo.after (hostOps3 (F := Ideal)) W (Proc.devRef .tc main_v3) = W (Proc.devRef .tc main_v3) := by
  after_results_simp

theorem keep3_main_v12 : StableHlo.after (hostOps3 (F := Ideal)) W (Proc.devRef .tc main_v12) = W (Proc.devRef .tc main_v12) := by
  after_results_simp

theorem keep3_main_arg2 : StableHlo.after (hostOps3 (F := Ideal)) W (Proc.devRef .tc main_arg2) = W (Proc.devRef .tc main_arg2) := by
  after_results_simp

theorem keep3_main_arg3 : StableHlo.after (hostOps3 (F := Ideal)) W (Proc.devRef .tc main_arg3) = W (Proc.devRef .tc main_arg3) := by
  after_results_simp

theorem keep3_main_arg4 : StableHlo.after (hostOps3 (F := Ideal)) W (Proc.devRef .tc main_arg4) = W (Proc.devRef .tc main_arg4) := by
  after_results_simp

theorem keep3_main_arg5 : StableHlo.after (hostOps3 (F := Ideal)) W (Proc.devRef .tc main_arg5) = W (Proc.devRef .tc main_arg5) := by
  after_results_simp

theorem keep3_main_arg6 : StableHlo.after (hostOps3 (F := Ideal)) W (Proc.devRef .tc main_arg6) = W (Proc.devRef .tc main_arg6) := by
  after_results_simp

theorem keep3_main_arg7 : StableHlo.after (hostOps3 (F := Ideal)) W (Proc.devRef .tc main_arg7) = W (Proc.devRef .tc main_arg7) := by
  after_results_simp

theorem keep3_main_arg8 : StableHlo.after (hostOps3 (F := Ideal)) W (Proc.devRef .tc main_arg8) = W (Proc.devRef .tc main_arg8) := by
  after_results_simp

end Cert.KernelIdeal.KHost

end
-- ==== Proof.KSage2.lean ====
/-
  What the affine kernel of layer 2 leaves in its three output arrays, read at an index, at the ideal values, from
  whatever contents `V` the region finds in its six input arrays.

  The grid has ten points; point `t` reads rows `5000 t … 5000 t + 4999` of the neighbour sums, the features and the
  reciprocal degrees and the whole of the two weight matrices and the bias, and writes the same rows of the affine
  values `(agg · inv) · Wn + h · Ws + b` and block `t` (rows `8 t … 8 t + 7`) of the two statistics arrays: row
  `8 t` holds the column sums (of the values, of their squares) over the point's 5000 rows, the other seven rows the
  zero word.  Every row of every output lies in exactly the block of one point, so the arrays end holding these
  values everywhere.
-/
import proofs.«122304_j8787503088149_2_alg».proof.Proof.Gen.KernelIdeal.Frame
import proofs.«122304_j8787503088149_2_alg».proof.Proof.KSageLib
import Idealize.ShloMosaic.Lib.Pipeline.Value
import Idealize.ShloMosaic.Lib.Tactic

set_option maxRecDepth 16384

noncomputable section

namespace Cert.KernelIdeal.RegionVal

open Cert.KernelIdeal Cert.KernelIdeal.Gen Idealize.ShloMosaic Idealize.ShloMosaic.ValueIdx Idealize.ShloMosaic.TcCoe
open Idealize.SL.Sem Cert.Sage
open Idealize.ShloMosaic.Pipeline (Dat)

/-! ## What one run of the body leaves in each output block -/

section Pieces

variable {F : FTy → Type} [FloatOps F]

/-- The block of affine values: the one store's payload over the six loaded blocks. -/
theorem out2_6_eq (c : Dev nD) (i : grid2.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out2_A_6 c i a1 h1 a2 h2 a3 h3 a4 h4 a5 h5 a6 h6 a7 h7 a8 h8 a9 h9 x0 x1 x2 x3 x4 x5 = k2_pay2 x0 x2 x1 x3 x4 x5 := by
  unfold out2_A_6
  rw [View.read_writes_eq_canon _ _ _ (cover2_A_6 c i a1 h1 a2 h2 a3 h3 a4 h4 a5 h5 a6 h6 a7 h7 a8 h8 a9 h9 x0 x1 x2 x3 x4 x5)]
  unfold kernelRun2_A
  dsimp only
  sl_unfold_words
  rw [View.canon_unit_zero hz2]
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

/-- The block of column sums: two stores, the zero block and then the sums over row 0. -/
theorem out2_7_eq (c : Dev nD) (i : grid2.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out2_A_7 c i a1 h1 a2 h2 a3 h3 a4 h4 a5 h5 a6 h6 a7 h7 a8 h8 a9 h9 x0 x1 x2 x3 x4 x5
      = View.canon [(⟨Rect.unit (s := S8x96) ![0, 0] S1x96.size inb_S8x96_S1x96_0_0, k2_pay3 x0 x2 x1 x3 x4 x5⟩ : View.Piece (Elt F) S8x96 .f32),
          ⟨Rect.unit (s := S8x96) ![0, 0] S8x96.size inb_S8x96_S8x96_0_0, k2_pay5⟩] := by
  unfold out2_A_7
  rw [View.read_writes_eq_canon _ _ _ (cover2_A_7 c i a1 h1 a2 h2 a3 h3 a4 h4 a5 h5 a6 h6 a7 h7 a8 h8 a9 h9 x0 x1 x2 x3 x4 x5)]
  unfold kernelRun2_A
  dsimp only
  sl_unfold_words
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

/-- The block of column sums of squares: two stores, the zero block and then the sums over row 0. -/
theorem out2_8_eq (c : Dev nD) (i : grid2.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out2_A_8 c i a1 h1 a2 h2 a3 h3 a4 h4 a5 h5 a6 h6 a7 h7 a8 h8 a9 h9 x0 x1 x2 x3 x4 x5
      = View.canon [(⟨Rect.unit (s := S8x96) ![0, 0] S1x96.size inb_S8x96_S1x96_0_0, k2_pay4 x0 x2 x1 x3 x4 x5⟩ : View.Piece (Elt F) S8x96 .f32),
          ⟨Rect.unit (s := S8x96) ![0, 0] S8x96.size inb_S8x96_S8x96_0_0, k2_pay1⟩] := by
  unfold out2_A_8
  rw [View.read_writes_eq_canon _ _ _ (cover2_A_8 c i a1 h1 a2 h2 a3 h3 a4 h4 a5 h5 a6 h6 a7 h7 a8 h8 a9 h9 x0 x1 x2 x3 x4 x5)]
  unfold kernelRun2_A
  dsimp only
  sl_unfold_words
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

end Pieces

/-! ## The blocks the points read -/

variable (V : (c : Dev nD) → (b : Ref sig .tc) → Buf (Elt Ideal) ((c : Thread nD τ).loc b)) (c : Dev nD)

/-- The region's affine values as a function of its six input arrays, read as plain index functions. -/
abbrev X2 : Mat 50000 96 := Sage.pre (fun i k => V c (Pipeline.arrRef spec2 0) (ix2 i k)) (fun i k => V c (Pipeline.arrRef spec2 1) (ix2 i k))
    (fun i => V c (Pipeline.arrRef spec2 2) (ix2 i (0 : Fin 1))) (fun k j => V c (Pipeline.arrRef spec2 3) (ix2 k j))
    (fun k j => V c (Pipeline.arrRef spec2 4) (ix2 k j)) (fun j => V c (Pipeline.arrRef spec2 5) (ix1 j))

/-- The printed index maps over the grid: the row-tiled windows sit at block `t`, the weights and the bias at block 0. -/
theorem widx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

theorem iblk2_0_apply (t : Fin cfg2.N) (r : Fin 5000) (k : Fin 96) (P : Fin 50000) (hP : P.val = 5000 * t.val + r.val) :
    iblk2 V c 0 t (ix2 r k) = V c (Pipeline.arrRef spec2 0) (ix2 P k) := by
  obtain ⟨e00, e01, e10, e11, e20, e21, e30, e31, e40, e41, e50, e60, e61, e70, e71, e80, e81⟩ := widx2 t
  unfold iblk2
  rw [View.read_apply]
  refine congrArg (V c (Pipeline.arrRef spec2 0)) ?_
  funext a; apply Fin.ext
  match a with
  | ⟨0, _⟩ => show win2_0.index t (0 : Fin 2) * 5000 + 1 * r.val = P.val; rw [e00, hP]; omega
  | ⟨1, _⟩ => show win2_0.index t (1 : Fin 2) * 96 + 1 * k.val = k.val; rw [e01]; omega

theorem iblk2_1_apply (t : Fin cfg2.N) (r : Fin 5000) (k : Fin 96) (P : Fin 50000) (hP : P.val = 5000 * t.val + r.val) :
    iblk2 V c 1 t (ix2 r k) = V c (Pipeline.arrRef spec2 1) (ix2 P k) := by
  obtain ⟨e00, e01, e10, e11, e20, e21, e30, e31, e40, e41, e50, e60, e61, e70, e71, e80, e81⟩ := widx2 t
  unfold iblk2
  rw [View.read_apply]
  refine congrArg (V c (Pipeline.arrRef spec2 1)) ?_
  funext a; apply Fin.ext
  match a with
  | ⟨0, _⟩ => show win2_1.index t (0 : Fin 2) * 5000 + 1 * r.val = P.val; rw [e10, hP]; omega
  | ⟨1, _⟩ => show win2_1.index t (1 : Fin 2) * 96 + 1 * k.val = k.val; rw [e11]; omega

theorem iblk2_2_apply (t : Fin cfg2.N) (r : Fin 5000) (P : Fin 50000) (hP : P.val = 5000 * t.val + r.val) :
    iblk2 V c 2 t (ix2 r (0 : Fin 1)) = V c (Pipeline.arrRef spec2 2) (ix2 P (0 : Fin 1)) := by
  obtain ⟨e00, e01, e10, e11, e20, e21, e30, e31, e40, e41, e50, e60, e61, e70, e71, e80, e81⟩ := widx2 t
  unfold iblk2
  rw [View.read_apply]
  refine congrArg (V c (Pipeline.arrRef spec2 2)) ?_
  funext a; apply Fin.ext
  match a with
  | ⟨0, _⟩ => show win2_2.index t (0 : Fin 2) * 5000 + 1 * r.val = P.val; rw [e20, hP]; omega
  | ⟨1, _⟩ => show win2_2.index t (1 : Fin 2) * 1 + 1 * 0 = 0; rw [e21]

theorem iblk2_3_apply (t : Fin cfg2.N) (k : Fin 96) (q : Fin 96) :
    iblk2 V c 3 t (ix2 k q) = V c (Pipeline.arrRef spec2 3) (ix2 k q) := by
  obtain ⟨e00, e01, e10, e11, e20, e21, e30, e31, e40, e41, e50, e60, e61, e70, e71, e80, e81⟩ := widx2 t
  unfold iblk2
  rw [View.read_apply]
  refine congrArg (V c (Pipeline.arrRef spec2 3)) ?_
  funext a; apply Fin.ext
  match a with
  | ⟨0, _⟩ => show win2_3.index t (0 : Fin 2) * 96 + 1 * k.val = k.val; rw [e30]; omega
  | ⟨1, _⟩ => show win2_3.index t (1 : Fin 2) * 96 + 1 * q.val = q.val; rw [e31]; omega

theorem iblk2_4_apply (t : Fin cfg2.N) (k : Fin 96) (q : Fin 96) :
    iblk2 V c 4 t (ix2 k q) = V c (Pipeline.arrRef spec2 4) (ix2 k q) := by
  obtain ⟨e00, e01, e10, e11, e20, e21, e30, e31, e40, e41, e50, e60, e61, e70, e71, e80, e81⟩ := widx2 t
  unfold iblk2
  rw [View.read_apply]
  refine congrArg (V c (Pipeline.arrRef spec2 4)) ?_
  funext a; apply Fin.ext
  match a with
  | ⟨0, _⟩ => show win2_4.index t (0 : Fin 2) * 96 + 1 * k.val = k.val; rw [e40]; omega
  | ⟨1, _⟩ => show win2_4.index t (1 : Fin 2) * 96 + 1 * q.val = q.val; rw [e41]; omega

theorem iblk2_5_apply (t : Fin cfg2.N) (q : Fin 96) :
    iblk2 V c 5 t (ix1 q) = V c (Pipeline.arrRef spec2 5) (ix1 q) := by
  obtain ⟨e00, e01, e10, e11, e20, e21, e30, e31, e40, e41, e50, e60, e61, e70, e71, e80, e81⟩ := widx2 t
  unfold iblk2
  rw [View.read_apply]
  refine congrArg (V c (Pipeline.arrRef spec2 5)) ?_
  funext a; apply Fin.ext
  match a with
  | ⟨0, _⟩ => show win2_5.index t (0 : Fin 1) * 96 + 1 * q.val = q.val; rw [e50]; omega

/-- The affine values of point `t`'s blocks are the array's at the rows the point reads. -/
theorem lin_blk2 (t : Fin cfg2.N) (r : Fin 5000) (q : Fin 96) (P : Fin 50000) (Q : Fin 96)
    (hP : P.val = 5000 * t.val + r.val) (hQ : Q.val = q.val) :
    lin (iblk2 V c 0 t) (iblk2 V c 1 t) (iblk2 V c 2 t) (iblk2 V c 3 t) (iblk2 V c 4 t) (iblk2 V c 5 t) r q = X2 V c P Q := by
  obtain rfl : Q = q := Fin.ext hQ
  unfold lin
  show _ = Sage.pre _ _ _ _ _ _ P Q
  unfold Sage.pre
  refine congrArg₂ (· + ·) (congrArg₂ (· + ·) (Finset.sum_congr rfl fun k _ => ?_) (Finset.sum_congr rfl fun k _ => ?_)) ?_
  · rw [iblk2_0_apply V c t r k P hP, iblk2_2_apply V c t r P hP, iblk2_3_apply V c t k Q]
  · rw [iblk2_1_apply V c t r k P hP, iblk2_4_apply V c t k Q]
  · exact iblk2_5_apply V c t Q

/-! ## The affine values: output window 6 -/

/-- What the array of affine values ends holding. -/
abbrev G2_6 : S50000x96.Idx → EReal := fun i => X2 V c ⟨(i 0).val, idx2_lt0 i⟩ ⟨(i 1).val, idx2_lt1 i⟩

/-- What point `t` writes back is block `t` of it. -/
theorem flushed2_6 (t : Fin cfg2.N) :
    (dat2 V c).flushed 6 t = ((cfg2.win 6).blk t).view.read (Elt Ideal) (G2_6 V c) := by
  obtain ⟨e00, e01, e10, e11, e20, e21, e30, e31, e40, e41, e50, e60, e61, e70, e71, e80, e81⟩ := widx2 t
  show (cfg2.win 6).cut (grid2.coords t) ((dat2 V c).after 6 t) = _
  rw [after2_6]
  unfold outsAt2
  dsimp only
  rw [out2_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t)]
  funext y
  rw [View.read_apply]
  have h0 : (y 0).val < 5000 := (y 0).isLt
  have h1 : (y 1).val < 96 := (y 1).isLt
  have hxy : (cfg2.win 6).xinj (grid2.coords t) y = ix2 (⟨(y 0).val, h0⟩ : Fin 5000) (⟨(y 1).val, h1⟩ : Fin 96) :=
    funext fun a => by match a with | ⟨0, _⟩ => rfl | ⟨1, _⟩ => rfl
  show k2_pay2 (F := Ideal) (iblk2 V c 0 t) (iblk2 V c 2 t) (iblk2 V c 1 t) (iblk2 V c 3 t) (iblk2 V c 4 t) (iblk2 V c 5 t) ((cfg2.win 6).xinj (grid2.coords t) y) = G2_6 V c (((cfg2.win 6).blk t).view.emb y)
  rw [hxy]
  refine (k2_pay2_apply (iblk2 V c 0 t) (iblk2 V c 2 t) (iblk2 V c 1 t) (iblk2 V c 3 t) (iblk2 V c 4 t) (iblk2 V c 5 t) ⟨(y 0).val, h0⟩ ⟨(y 1).val, h1⟩).trans ?_
  refine lin_blk2 V c t ⟨(y 0).val, h0⟩ ⟨(y 1).val, h1⟩ _ _ ?_ ?_
  · show win2_6.index t (0 : Fin 2) * 5000 + 1 * (y 0).val = 5000 * t.val + (y 0).val
    rw [e60]; omega
  · show win2_6.index t (1 : Fin 2) * 96 + 1 * (y 1).val = (y 1).val
    rw [e61]; omega

/-- An index of the array is in point `t`'s block iff each coordinate is in the block's range on its axis. -/
theorem mem_blk2_6 (t : Fin cfg2.N) (i : S50000x96.Idx) :
    i ∈ ((cfg2.win 6).blk t).view.set ↔ ∀ a : Fin 2, win2_6.index t a * S5000x96.size a ≤ (i a).val ∧ (i a).val < win2_6.index t a * S5000x96.size a + S5000x96.size a := by
  show i ∈ ((View.whole main_v61_0).slice (win2_6.rect t)).set ↔ _
  rw [View.set_slice_whole, Rect.mem_set_unit]
  exact Iff.rfl

/-- Row `p` lies in the block of point `p / 5000`. -/
theorem cover2_6 (i : S50000x96.Idx) : ∃ t : Fin cfg2.N, (cfg2.win 6).flush t = true ∧ i ∈ ((cfg2.win 6).blk t).view.set := by
  have hi0 : (i 0).val < 50000 := (i 0).isLt
  have hi1 : (i 1).val < 96 := (i 1).isLt
  have hN : cfg2.N = 10 := N_2
  have ht : (i 0).val / 5000 < cfg2.N := by rw [hN]; omega
  obtain ⟨e00, e01, e10, e11, e20, e21, e30, e31, e40, e41, e50, e60, e61, e70, e71, e80, e81⟩ := widx2 ⟨(i 0).val / 5000, ht⟩
  refine ⟨⟨(i 0).val / 5000, ht⟩, flush2_6 _, ?_⟩
  rw [mem_blk2_6]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e60]; dsimp only; omega
  | ⟨1, _⟩ =>
    show win2_6.index ⟨(i 0).val / 5000, ht⟩ (1 : Fin 2) * 96 ≤ (i 1).val ∧ (i 1).val < win2_6.index ⟨(i 0).val / 5000, ht⟩ (1 : Fin 2) * 96 + 96
    rw [e61]; omega

/-- So the array ends holding it everywhere. -/
theorem final2_6 : (dat2 V c).arrAt 6 cfg2.N = G2_6 V c :=
  (dat2 V c).arrAt_eq_of_cover 6 (G2_6 V c) (fun t _ => flushed2_6 V c t) (cover2_6)

/-- THE AFFINE VALUES: entry `(p, q)` of the first output array. -/
theorem out2_pre (p : Fin 50000) (q : Fin 96) : (dat2 (F := Ideal) V c).arrAt 6 cfg2.N (ix2 p q) = X2 V c p q :=
  congrFun (final2_6 V c) (ix2 p q)

/-! ## The column sums: output window 7 -/

/-- What the array ends holding: row `8 t` the sums over rows `5000 t …` of the affine values, the other rows zero. -/
abbrev G2_7 : S80x96.Idx → EReal := fun i =>
  if (i 0).val % 8 = 0 then
    w0 + ∑ j : Fin 5000, X2 V c ⟨5000 * ((i 0).val / 8) + j.val, by have := idx2_lt0 i; omega⟩ ⟨(i 1).val, idx2_lt1 i⟩
  else w0

/-- Inside point `t`'s block it is the point's sums in row 0 and zero below. -/
theorem G2_7_blk (t : Fin cfg2.N) (i : S80x96.Idx) (r : Fin 8) (q : Fin 96) (h0 : (i 0).val = 8 * t.val + r.val) (h1 : (i 1).val = q.val) :
    G2_7 V c i = if r.val = 0 then ∑ j : Fin 5000, lin (iblk2 V c 0 t) (iblk2 V c 1 t) (iblk2 V c 2 t) (iblk2 V c 3 t) (iblk2 V c 4 t) (iblk2 V c 5 t) j q else w0 := by
  show (if (i 0).val % 8 = 0 then _ else _) = _
  by_cases hr : r.val = 0
  · rw [if_pos hr, if_pos (by omega), show (w0 : EReal) = 0 from Ideal.ofBits_zero_f32, zero_add]
    refine Finset.sum_congr rfl fun j _ => ?_
    rw [lin_blk2 V c t j q ⟨5000 * ((i 0).val / 8) + j.val, by have := idx2_lt0 i; omega⟩ ⟨(i 1).val, idx2_lt1 i⟩ (by show 5000 * ((i 0).val / 8) + j.val = _; omega) h1]
  · rw [if_neg hr, if_neg (by omega)]

/-- What point `t` writes back is block `t` of it. -/
theorem flushed2_7 (t : Fin cfg2.N) :
    (dat2 V c).flushed 7 t = ((cfg2.win 7).blk t).view.read (Elt Ideal) (G2_7 V c) := by
  obtain ⟨e00, e01, e10, e11, e20, e21, e30, e31, e40, e41, e50, e60, e61, e70, e71, e80, e81⟩ := widx2 t
  show (cfg2.win 7).cut (grid2.coords t) ((dat2 V c).after 7 t) = _
  rw [after2_7]
  unfold outsAt2
  dsimp only
  rw [out2_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t)]
  funext y
  rw [View.read_apply]
  have h0 : (y 0).val < 8 := (y 0).isLt
  have h1 : (y 1).val < 96 := (y 1).isLt
  have hxy : (cfg2.win 7).xinj (grid2.coords t) y = ix2 (⟨(y 0).val, h0⟩ : Fin 8) (⟨(y 1).val, h1⟩ : Fin 96) :=
    funext fun a => by match a with | ⟨0, _⟩ => rfl | ⟨1, _⟩ => rfl
  show View.canon (Val := Elt Ideal) (s := S8x96) (e := .f32) _ ((cfg2.win 7).xinj (grid2.coords t) y) = G2_7 V c (((cfg2.win 7).blk t).view.emb y)
  rw [hxy]
  refine (stat_canon_apply _ _ ⟨(y 0).val, h0⟩ ⟨(y 1).val, h1⟩).trans ?_
  refine Eq.trans ?_ (G2_7_blk V c t _ ⟨(y 0).val, h0⟩ ⟨(y 1).val, h1⟩ ?_ ?_).symm
  · exact ite_congr rfl (fun _ => k2_pay3_apply (iblk2 V c 0 t) (iblk2 V c 2 t) (iblk2 V c 1 t) (iblk2 V c 3 t) (iblk2 V c 4 t) (iblk2 V c 5 t) (0 : Fin 1) ⟨(y 1).val, h1⟩) (fun _ => k2_pay5_apply ⟨(y 0).val, h0⟩ ⟨(y 1).val, h1⟩)
  · show win2_7.index t (0 : Fin 2) * 8 + 1 * (y 0).val = 8 * t.val + (y 0).val
    rw [e70]; omega
  · show win2_7.index t (1 : Fin 2) * 96 + 1 * (y 1).val = (y 1).val
    rw [e71]; omega

/-- An index of the array is in point `t`'s block iff each coordinate is in the block's range on its axis. -/
theorem mem_blk2_7 (t : Fin cfg2.N) (i : S80x96.Idx) :
    i ∈ ((cfg2.win 7).blk t).view.set ↔ ∀ a : Fin 2, win2_7.index t a * S8x96.size a ≤ (i a).val ∧ (i a).val < win2_7.index t a * S8x96.size a + S8x96.size a := by
  show i ∈ ((View.whole main_v61_1).slice (win2_7.rect t)).set ↔ _
  rw [View.set_slice_whole, Rect.mem_set_unit]
  exact Iff.rfl

/-- Row `p` lies in the block of point `p / 8`. -/
theorem cover2_7 (i : S80x96.Idx) : ∃ t : Fin cfg2.N, (cfg2.win 7).flush t = true ∧ i ∈ ((cfg2.win 7).blk t).view.set := by
  have hi0 : (i 0).val < 80 := (i 0).isLt
  have hi1 : (i 1).val < 96 := (i 1).isLt
  have hN : cfg2.N = 10 := N_2
  have ht : (i 0).val / 8 < cfg2.N := by rw [hN]; omega
  obtain ⟨e00, e01, e10, e11, e20, e21, e30, e31, e40, e41, e50, e60, e61, e70, e71, e80, e81⟩ := widx2 ⟨(i 0).val / 8, ht⟩
  refine ⟨⟨(i 0).val / 8, ht⟩, flush2_7 _, ?_⟩
  rw [mem_blk2_7]
  intro a
  match a with
  | ⟨0, _⟩ =>
    show win2_7.index ⟨(i 0).val / 8, ht⟩ (0 : Fin 2) * 8 ≤ (i 0).val ∧ (i 0).val < win2_7.index ⟨(i 0).val / 8, ht⟩ (0 : Fin 2) * 8 + 8
    rw [e70]; dsimp only; omega
  | ⟨1, _⟩ =>
    show win2_7.index ⟨(i 0).val / 8, ht⟩ (1 : Fin 2) * 96 ≤ (i 1).val ∧ (i 1).val < win2_7.index ⟨(i 0).val / 8, ht⟩ (1 : Fin 2) * 96 + 96
    rw [e71]; omega

/-- So the array ends holding it everywhere. -/
theorem final2_7 : (dat2 V c).arrAt 7 cfg2.N = G2_7 V c :=
  (dat2 V c).arrAt_eq_of_cover 7 (G2_7 V c) (fun t _ => flushed2_7 V c t) (cover2_7)

/-- THE COLUMN SUMS: entry `(r, q)` of the second output array. -/
theorem out2_sum (r : Fin 80) (q : Fin 96) : (dat2 (F := Ideal) V c).arrAt 7 cfg2.N (ix2 r q)
    = if r.val % 8 = 0 then w0 + ∑ i : Fin 5000, X2 V c ⟨5000 * (r.val / 8) + i.val, by omega⟩ q else w0 :=
  congrFun (final2_7 V c) (ix2 r q)

/-! ## The column sums of squares: output window 8 -/

/-- What the array ends holding: row `8 t` the sums over rows `5000 t …` of the affine values' squares, the other rows zero. -/
abbrev G2_8 : S80x96.Idx → EReal := fun i =>
  if (i 0).val % 8 = 0 then
    w0 + ∑ j : Fin 5000, X2 V c ⟨5000 * ((i 0).val / 8) + j.val, by have := idx2_lt0 i; omega⟩ ⟨(i 1).val, idx2_lt1 i⟩ * X2 V c ⟨5000 * ((i 0).val / 8) + j.val, by have := idx2_lt0 i; omega⟩ ⟨(i 1).val, idx2_lt1 i⟩
  else w0

/-- Inside point `t`'s block it is the point's sums in row 0 and zero below. -/
theorem G2_8_blk (t : Fin cfg2.N) (i : S80x96.Idx) (r : Fin 8) (q : Fin 96) (h0 : (i 0).val = 8 * t.val + r.val) (h1 : (i 1).val = q.val) :
    G2_8 V c i = if r.val = 0 then ∑ j : Fin 5000, lin (iblk2 V c 0 t) (iblk2 V c 1 t) (iblk2 V c 2 t) (iblk2 V c 3 t) (iblk2 V c 4 t) (iblk2 V c 5 t) j q * lin (iblk2 V c 0 t) (iblk2 V c 1 t) (iblk2 V c 2 t) (iblk2 V c 3 t) (iblk2 V c 4 t) (iblk2 V c 5 t) j q else w0 := by
  show (if (i 0).val % 8 = 0 then _ else _) = _
  by_cases hr : r.val = 0
  · rw [if_pos hr, if_pos (by omega), show (w0 : EReal) = 0 from Ideal.ofBits_zero_f32, zero_add]
    refine Finset.sum_congr rfl fun j _ => ?_
    rw [lin_blk2 V c t j q ⟨5000 * ((i 0).val / 8) + j.val, by have := idx2_lt0 i; omega⟩ ⟨(i 1).val, idx2_lt1 i⟩ (by show 5000 * ((i 0).val / 8) + j.val = _; omega) h1]
  · rw [if_neg hr, if_neg (by omega)]

/-- What point `t` writes back is block `t` of it. -/
theorem flushed2_8 (t : Fin cfg2.N) :
    (dat2 V c).flushed 8 t = ((cfg2.win 8).blk t).view.read (Elt Ideal) (G2_8 V c) := by
  obtain ⟨e00, e01, e10, e11, e20, e21, e30, e31, e40, e41, e50, e60, e61, e70, e71, e80, e81⟩ := widx2 t
  show (cfg2.win 8).cut (grid2.coords t) ((dat2 V c).after 8 t) = _
  rw [after2_8]
  unfold outsAt2
  dsimp only
  rw [out2_8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (iblk2 V c 0 t) (iblk2 V c 1 t) (iblk2 V c 2 t) (iblk2 V c 3 t) (iblk2 V c 4 t) (iblk2 V c 5 t)]
  funext y
  rw [View.read_apply]
  have h0 : (y 0).val < 8 := (y 0).isLt
  have h1 : (y 1).val < 96 := (y 1).isLt
  have hxy : (cfg2.win 8).xinj (grid2.coords t) y = ix2 (⟨(y 0).val, h0⟩ : Fin 8) (⟨(y 1).val, h1⟩ : Fin 96) :=
    funext fun a => by match a with | ⟨0, _⟩ => rfl | ⟨1, _⟩ => rfl
  show View.canon (Val := Elt Ideal) (s := S8x96) (e := .f32) _ ((cfg2.win 8).xinj (grid2.coords t) y) = G2_8 V c (((cfg2.win 8).blk t).view.emb y)
  rw [hxy]
  refine (stat_canon_apply _ _ ⟨(y 0).val, h0⟩ ⟨(y 1).val, h1⟩).trans ?_
  refine Eq.trans ?_ (G2_8_blk V c t _ ⟨(y 0).val, h0⟩ ⟨(y 1).val, h1⟩ ?_ ?_).symm
  · exact ite_congr rfl (fun _ => k2_pay4_apply (iblk2 V c 0 t) (iblk2 V c 2 t) (iblk2 V c 1 t) (iblk2 V c 3 t) (iblk2 V c 4 t) (iblk2 V c 5 t) (0 : Fin 1) ⟨(y 1).val, h1⟩) (fun _ => k2_pay1_apply ⟨(y 0).val, h0⟩ ⟨(y 1).val, h1⟩)
  · show win2_8.index t (0 : Fin 2) * 8 + 1 * (y 0).val = 8 * t.val + (y 0).val
    rw [e80]; omega
  · show win2_8.index t (1 : Fin 2) * 96 + 1 * (y 1).val = (y 1).val
    rw [e81]; omega

/-- An index of the array is in point `t`'s block iff each coordinate is in the block's range on its axis. -/
theorem mem_blk2_8 (t : Fin cfg2.N) (i : S80x96.Idx) :
    i ∈ ((cfg2.win 8).blk t).view.set ↔ ∀ a : Fin 2, win2_8.index t a * S8x96.size a ≤ (i a).val ∧ (i a).val < win2_8.index t a * S8x96.size a + S8x96.size a := by
  show i ∈ ((View.whole main_v61_2).slice (win2_8.rect t)).set ↔ _
  rw [View.set_slice_whole, Rect.mem_set_unit]
  exact Iff.rfl

/-- Row `p` lies in the block of point `p / 8`. -/
theorem cover2_8 (i : S80x96.Idx) : ∃ t : Fin cfg2.N, (cfg2.win 8).flush t = true ∧ i ∈ ((cfg2.win 8).blk t).view.set := by
  have hi0 : (i 0).val < 80 := (i 0).isLt
  have hi1 : (i 1).val < 96 := (i 1).isLt
  have hN : cfg2.N = 10 := N_2
  have ht : (i 0).val / 8 < cfg2.N := by rw [hN]; omega
  obtain ⟨e00, e01, e10, e11, e20, e21, e30, e31, e40, e41, e50, e60, e61, e70, e71, e80, e81⟩ := widx2 ⟨(i 0).val / 8, ht⟩
  refine ⟨⟨(i 0).val / 8, ht⟩, flush2_8 _, ?_⟩
  rw [mem_blk2_8]
  intro a
  match a with
  | ⟨0, _⟩ =>
    show win2_8.index ⟨(i 0).val / 8, ht⟩ (0 : Fin 2) * 8 ≤ (i 0).val ∧ (i 0).val < win2_8.index ⟨(i 0).val / 8, ht⟩ (0 : Fin 2) * 8 + 8
    rw [e80]; dsimp only; omega
  | ⟨1, _⟩ =>
    show win2_8.index ⟨(i 0).val / 8, ht⟩ (1 : Fin 2) * 96 ≤ (i 1).val ∧ (i 1).val < win2_8.index ⟨(i 0).val / 8, ht⟩ (1 : Fin 2) * 96 + 96
    rw [e81]; omega

/-- So the array ends holding it everywhere. -/
theorem final2_8 : (dat2 V c).arrAt 8 cfg2.N = G2_8 V c :=
  (dat2 V c).arrAt_eq_of_cover 8 (G2_8 V c) (fun t _ => flushed2_8 V c t) (cover2_8)

/-- THE COLUMN SUMS OF SQUARES: entry `(r, q)` of the third output array. -/
theorem out2_sumsq (r : Fin 80) (q : Fin 96) : (dat2 (F := Ideal) V c).arrAt 8 cfg2.N (ix2 r q)
    = if r.val % 8 = 0 then w0 + ∑ i : Fin 5000, X2 V c ⟨5000 * (r.val / 8) + i.val, by omega⟩ q * X2 V c ⟨5000 * (r.val / 8) + i.val, by omega⟩ q else w0 :=
  congrFun (final2_8 V c) (ix2 r q)

end Cert.KernelIdeal.RegionVal

end
-- ==== Proof.KBn3.lean ====
/-
  What the normalise-and-clip kernel after the second affine layer leaves in its output array, entry by entry.

  The kernel walks the 50000 rows in ten blocks of 5000.  At each block it reads the block of the affine layer's
  output `x` and the four rows `mu`, `var`, `gamma`, `beta` (whole, at every block), forms
  `scale = rsqrt (var + eps) * gamma` and `shift = beta - mu * scale`, and stores `max (x * scale + shift) 0`.
  Row `p` of the array lies in block `p / 5000` at inner row `p % 5000`, and every block is written once with
  the same function of the arrays, so the array ends holding that function at every entry.
-/
import proofs.«122304_j8787503088149_2_alg».proof.Proof.Gen.KernelIdeal.Frame
import proofs.«122304_j8787503088149_2_alg».proof.Proof.Spec
import Idealize.ShloMosaic.Lib.Pipeline.Value
import Idealize.ShloMosaic.Lib.ValueIdx
import Idealize.ShloMosaic.Lib.ValueLayout

noncomputable section

namespace Cert.KernelIdeal.RegionVal

open Cert.KernelIdeal Cert.KernelIdeal.Gen Idealize.ShloMosaic Idealize.ShloMosaic.ValueIdx Cert.Sage
open Idealize.ShloMosaic.TcCoe Idealize.SL.Sem
open Idealize.ShloMosaic.Pipeline (Dat)

/-! ## The body's arithmetic at one entry of a block -/

/-- Entry `(r, q)` of what the body stores: the block's entry scaled and shifted by column `q`'s folded scale and
    shift, clipped below at zero. -/
theorem pay3_apply (x0 : Vec Ideal S5000x96 .f32) (va ga be mu : Vec Ideal S96 .f32) (r : Fin 5000) (q : Fin 96) :
    k3_pay1 x0 va ga be mu (ix2 r q)
      = max (x0 (ix2 r q) * (Ideal.rsqrt (va (ix1 q) + wEps) * ga (ix1 q))
          + (be (ix1 q) - mu (ix1 q) * (Ideal.rsqrt (va (ix1 q) + wEps) * ga (ix1 q)))) w0 := by
  unfold k3_pay1
  simp only [shapeCast_self]
  rw [maximumf_apply, addf_apply, mulf_apply, broadcastTo_1b_ab_apply, broadcastTo_1b_ab_apply,
    shapeCast_a_1a_apply, shapeCast_a_1a_apply]
  rfl

/-! ## The blocks the body reads, as entries of the arrays -/

theorem hz2_3 : (![0, 0] : Fin 2 → Nat) = fun _ => 0 := funext fun a => by fin_cases a <;> rfl
theorem hz1_3 : (![0] : Fin 1 → Nat) = fun _ => 0 := funext fun a => by fin_cases a; rfl

/-- The block indices at grid point `t`: the two matrices move down the rows with `t`, the four rows stay. -/
theorem idx3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

variable (V : (c : Dev nD) → (b : Ref sig .tc) → Buf (Elt Ideal) ((c : Thread nD τ).loc b)) (c : Dev nD)

/-- Entry `(r, q)` of the matrix block at point `t` is entry `(5000 t + r, q)` of the matrix. -/
theorem iblk3_0_apply (t : Fin cfg3.N) (r : Fin 5000) (q : Fin 96) (p : Fin 50000) (hp : p.val = t.val * 5000 + r.val) :
    (iblk3 V c 0 t : Vec Ideal S5000x96 .f32) (ix2 r q) = V c (Pipeline.arrRef spec3 0) (ix2 p q) := by
  obtain ⟨e0, e1, -⟩ := idx3 t
  unfold iblk3
  rw [View.read_apply]
  show V c (Pipeline.arrRef spec3 0) _ = V c (Pipeline.arrRef spec3 0) _
  refine congrArg (V c (Pipeline.arrRef spec3 0)) (funext fun a => Fin.ext ?_)
  match a with
  | ⟨0, _⟩ => show win3_0.index t (0 : Fin 2) * 5000 + 1 * r.val = p.val; rw [e0, hp]; omega
  | ⟨1, _⟩ => show win3_0.index t (1 : Fin 2) * 96 + 1 * q.val = q.val; rw [e1]; omega

/-- Each row block is the whole row, at every point. -/
theorem iblk3_1_apply (t : Fin cfg3.N) (q : Fin 96) :
    (iblk3 V c 1 t : Vec Ideal S96 .f32) (ix1 q) = V c (Pipeline.arrRef spec3 1) (ix1 q) := by
  obtain ⟨-, -, -, -, e, -⟩ := idx3 t
  unfold iblk3
  rw [View.read_apply]
  show V c (Pipeline.arrRef spec3 1) _ = V c (Pipeline.arrRef spec3 1) _
  refine congrArg (V c (Pipeline.arrRef spec3 1)) (funext fun a => Fin.ext ?_)
  match a with
  | ⟨0, _⟩ => show win3_1.index t (0 : Fin 1) * 96 + 1 * q.val = q.val; rw [e]; omega
theorem iblk3_2_apply (t : Fin cfg3.N) (q : Fin 96) :
    (iblk3 V c 2 t : Vec Ideal S96 .f32) (ix1 q) = V c (Pipeline.arrRef spec3 2) (ix1 q) := by
  obtain ⟨-, -, -, -, -, e, -⟩ := idx3 t
  unfold iblk3
  rw [View.read_apply]
  show V c (Pipeline.arrRef spec3 2) _ = V c (Pipeline.arrRef spec3 2) _
  refine congrArg (V c (Pipeline.arrRef spec3 2)) (funext fun a => Fin.ext ?_)
  match a with
  | ⟨0, _⟩ => show win3_2.index t (0 : Fin 1) * 96 + 1 * q.val = q.val; rw [e]; omega
theorem iblk3_3_apply (t : Fin cfg3.N) (q : Fin 96) :
    (iblk3 V c 3 t : Vec Ideal S96 .f32) (ix1 q) = V c (Pipeline.arrRef spec3 3) (ix1 q) := by
  obtain ⟨-, -, -, -, -, -, e, -⟩ := idx3 t
  unfold iblk3
  rw [View.read_apply]
  show V c (Pipeline.arrRef spec3 3) _ = V c (Pipeline.arrRef spec3 3) _
  refine congrArg (V c (Pipeline.arrRef spec3 3)) (funext fun a => Fin.ext ?_)
  match a with
  | ⟨0, _⟩ => show win3_3.index t (0 : Fin 1) * 96 + 1 * q.val = q.val; rw [e]; omega
theorem iblk3_4_apply (t : Fin cfg3.N) (q : Fin 96) :
    (iblk3 V c 4 t : Vec Ideal S96 .f32) (ix1 q) = V c (Pipeline.arrRef spec3 4) (ix1 q) := by
  obtain ⟨-, -, -, -, -, -, -, e⟩ := idx3 t
  unfold iblk3
  rw [View.read_apply]
  show V c (Pipeline.arrRef spec3 4) _ = V c (Pipeline.arrRef spec3 4) _
  refine congrArg (V c (Pipeline.arrRef spec3 4)) (funext fun a => Fin.ext ?_)
  match a with
  | ⟨0, _⟩ => show win3_4.index t (0 : Fin 1) * 96 + 1 * q.val = q.val; rw [e]; omega

/-! ## From blocks to the array -/

/-- The function the output array ends holding: the normalised, scaled, shifted and clipped entries. -/
def G3 : S50000x96.Idx → EReal := fun i =>
  Sage.bnK (fun i k => V c (Pipeline.arrRef spec3 0) (ix2 i k)) (fun j => V c (Pipeline.arrRef spec3 1) (ix1 j))
    (fun j => V c (Pipeline.arrRef spec3 2) (ix1 j)) (fun j => V c (Pipeline.arrRef spec3 3) (ix1 j))
    (fun j => V c (Pipeline.arrRef spec3 4) (ix1 j)) (i 0) (i 1)

/-- What the body stores at point `t`, entry `(r, q)`, is that function at row `5000 t + r`. -/
theorem body3_apply (t : Fin cfg3.N) (r : Fin 5000) (q : Fin 96) (p : Fin 50000) (hp : p.val = t.val * 5000 + r.val) :
    k3_pay1 (iblk3 V c 0 t) (iblk3 V c 2 t) (iblk3 V c 3 t) (iblk3 V c 4 t) (iblk3 V c 1 t) (ix2 r q) = G3 V c (ix2 p q) := by
  refine (pay3_apply (iblk3 V c 0 t) (iblk3 V c 2 t) (iblk3 V c 3 t) (iblk3 V c 4 t) (iblk3 V c 1 t) r q).trans ?_
  rw [iblk3_0_apply V c t r q p hp, iblk3_1_apply V c t q, iblk3_2_apply V c t q, iblk3_3_apply V c t q, iblk3_4_apply V c t q]
  rfl

/-- A block of 5000 rows whose entries are a whole-array function's at rows `5000 t + r` is that function read
    through the output window's block at point `t`. -/
theorem cut_eq_read3 (t : Fin cfg3.N) (X : Vec Ideal S5000x96 .f32) (G : S50000x96.Idx → EReal)
    (h : ∀ (r : Fin 5000) (q : Fin 96) (p : Fin 50000), p.val = t.val * 5000 + r.val → X (ix2 r q) = G (ix2 p q)) :
    (cfg3.win 5).cut (grid3.coords t) X = ((cfg3.win 5).blk t).view.read (Elt Ideal) G := by
  obtain ⟨-, -, e0, e1, -⟩ := idx3 t
  have hN : t.val < 10 := Nat.lt_of_lt_of_eq t.isLt N_3
  funext j
  have h0 : (j 0).val < 5000 := (j 0).isLt
  have h1 : (j 1).val < 96 := (j 1).isLt
  have e := h ⟨(j 0).val, h0⟩ ⟨(j 1).val, h1⟩ ⟨t.val * 5000 + (j 0).val, by omega⟩ rfl
  show X _ = G (((cfg3.win 5).blk t).view.emb j)
  refine Eq.trans (congrArg X (funext fun a => ?_)) (e.trans (congrArg G (funext fun a => Fin.ext ?_)))
  · match a with
    | ⟨0, _⟩ => rfl
    | ⟨1, _⟩ => rfl
  · match a with
    | ⟨0, _⟩ => show t.val * 5000 + (j 0).val = win3_5.index t (0 : Fin 2) * 5000 + 1 * (j 0).val; rw [e0]; omega
    | ⟨1, _⟩ => show (j 1).val = win3_5.index t (1 : Fin 2) * 96 + 1 * (j 1).val; rw [e1]; omega

/-- What point `t` writes back is block `t` of that function. -/
theorem flushed3_eq (t : Fin cfg3.N) :
    (dat3 V c).flushed 5 t = ((cfg3.win 5).blk t).view.read (Elt Ideal) (G3 V c) := by
  show (cfg3.win 5).cut (grid3.coords t) ((dat3 V c).after 5 t) = _
  rw [after3_5]
  unfold out3_5
  rw [View.canon_unit_zero hz2_3]
  simp only [View.ld_unit_zero (S := S5000x96) hz2_3, View.ld_unit_zero (S := S96) hz1_3]
  exact cut_eq_read3 t _ (G3 V c) (body3_apply V c t)

/-- An entry of the array is in point `t`'s block iff each coordinate is in the block's range on its axis. -/
theorem mem_blk3 (t : Fin cfg3.N) (i : S50000x96.Idx) :
    i ∈ ((cfg3.win 5).blk t).view.set ↔ ∀ a : Fin 2, win3_5.index t a * S5000x96.size a ≤ (i a).val ∧ (i a).val < win3_5.index t a * S5000x96.size a + S5000x96.size a := by
  show i ∈ ((View.whole main_v76).slice (win3_5.rect t)).set ↔ _
  rw [View.set_slice_whole, Rect.mem_set_unit]
  exact Iff.rfl

/-- Row `p` lies in the block of point `p / 5000`: the ten blocks cover the array. -/
theorem rows_cover3 (i : S50000x96.Idx) :
    ∃ t : Fin cfg3.N, (cfg3.win 5).flush t = true ∧ i ∈ ((cfg3.win 5).blk t).view.set := by
  have hi0 : (i 0).val < 50000 := (i 0).isLt
  have hi1 : (i 1).val < 96 := (i 1).isLt
  have hN : cfg3.N = 10 := N_3
  have ht : (i 0).val / 5000 < cfg3.N := by rw [hN]; omega
  obtain ⟨-, -, e0, e1, -⟩ := idx3 ⟨(i 0).val / 5000, ht⟩
  have e0' : win3_5.index ⟨(i 0).val / 5000, ht⟩ (0 : Fin 2) = (i 0).val / 5000 := e0
  refine ⟨⟨(i 0).val / 5000, ht⟩, flush3_5 _, ?_⟩
  rw [mem_blk3]
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e0']; omega
  | ⟨1, _⟩ =>
    show win3_5.index ⟨(i 0).val / 5000, ht⟩ (1 : Fin 2) * 96 ≤ (i 1).val ∧ (i 1).val < win3_5.index ⟨(i 0).val / 5000, ht⟩ (1 : Fin 2) * 96 + 96
    rw [e1]; omega

/-- The output array after the region's run is that function. -/
theorem out3_arr : (dat3 (F := Ideal) V c).arrAt 5 cfg3.N = G3 V c :=
  (dat3 V c).arrAt_eq_of_cover 5 (G3 V c) (fun t _ => flushed3_eq V c t) (rows_cover3)

/-- THE OUTPUT ARRAY OF THE REGION, entry `(p, q)`: the normalised, scaled, shifted and clipped entry of the
    arrays as the region finds them. -/
theorem out3_bn (p : Fin 50000) (q : Fin 96) : (dat3 (F := Ideal) V c).arrAt 5 cfg3.N (ix2 p q)
      = Sage.bnK (fun i k => V c (Pipeline.arrRef spec3 0) (ix2 i k)) (fun j => V c (Pipeline.arrRef spec3 1) (ix1 j)) (fun j => V c (Pipeline.arrRef spec3 2) (ix1 j))
          (fun j => V c (Pipeline.arrRef spec3 3) (ix1 j)) (fun j => V c (Pipeline.arrRef spec3 4) (ix1 j)) p q :=
  congrFun (out3_arr V c) (ix2 p q)

end Cert.KernelIdeal.RegionVal

end
-- ==== Proof.KHost1.lean ====
/-
  Stretch 1: layer 0's column mean and variance from the partial sums and sums of squares, and its `gamma` and
  `beta` rows.  What later stretches and regions read is left as it was.
  Every equation is for an arbitrary assignment `W` of contents to the buffers the stretch finds.
-/
import proofs.«122304_j8787503088149_2_alg».proof.Proof.KHostDefs
import proofs.«122304_j8787503088149_2_alg».proof.Proof.KStats

noncomputable section

namespace Cert.KernelIdeal.KHost

open Cert.KernelIdeal Cert.KernelIdeal.Gen Idealize.ShloMosaic Idealize.ShloMosaic.TcCoe Idealize.SL.Sem Idealize.ShloMosaic.StableHlo

variable (W : Valuation τ sig (Elt Ideal))

/-! ## What the stretch computes -/

section
variable [Facts]

/-- The column means. -/
theorem ops1_v32 : StableHlo.after (hostOps1 (F := Ideal)) W (Proc.devRef .tc main_v32)
    = KStats.muV (W (Proc.devRef .tc main_v29_1)) := by
  after_results_simp
  rfl

/-- The column variances. -/
theorem ops1_v39 : StableHlo.after (hostOps1 (F := Ideal)) W (Proc.devRef .tc main_v39)
    = KStats.varV (W (Proc.devRef .tc main_v29_1)) (W (Proc.devRef .tc main_v29_2)) := by
  after_results_simp
  rfl

/-- Layer 0's gamma. -/
theorem ops1_v41 : StableHlo.after (hostOps1 (F := Ideal)) W (Proc.devRef .tc main_v41)
    = KStats.sliceB0 (W (Proc.devRef .tc main_arg5)) := by
  after_results_simp
  rfl

/-- Layer 0's beta. -/
theorem ops1_v43 : StableHlo.after (hostOps1 (F := Ideal)) W (Proc.devRef .tc main_v43)
    = KStats.sliceB0 (W (Proc.devRef .tc main_arg6)) := by
  after_results_simp
  rfl

end

/-! ## What the stretch leaves as it was -/

theorem keep1_main_v29_0 : StableHlo.after (hostOps1 (F := Ideal)) W (Proc.devRef .tc main_v29_0) = W (Proc.devRef .tc main_v29_0) := by
  after_results_simp

theorem keep1_main_v1 : StableHlo.after (hostOps1 (F := Ideal)) W (Proc.devRef .tc main_v1) = W (Proc.devRef .tc main_v1) := by
  after_results_simp

theorem keep1_main_v3 : StableHlo.after (hostOps1 (F := Ideal)) W (Proc.devRef .tc main_v3) = W (Proc.devRef .tc main_v3) := by
  after_results_simp

theorem keep1_main_v12 : StableHlo.after (hostOps1 (F := Ideal)) W (Proc.devRef .tc main_v12) = W (Proc.devRef .tc main_v12) := by
  after_results_simp

theorem keep1_main_arg2 : StableHlo.after (hostOps1 (F := Ideal)) W (Proc.devRef .tc main_arg2) = W (Proc.devRef .tc main_arg2) := by
  after_results_simp

theorem keep1_main_arg3 : StableHlo.after (hostOps1 (F := Ideal)) W (Proc.devRef .tc main_arg3) = W (Proc.devRef .tc main_arg3) := by
  after_results_simp

theorem keep1_main_arg4 : StableHlo.after (hostOps1 (F := Ideal)) W (Proc.devRef .tc main_arg4) = W (Proc.devRef .tc main_arg4) := by
  after_results_simp

theorem keep1_main_arg5 : StableHlo.after (hostOps1 (F := Ideal)) W (Proc.devRef .tc main_arg5) = W (Proc.devRef .tc main_arg5) := by
  after_results_simp

theorem keep1_main_arg6 : StableHlo.after (hostOps1 (F := Ideal)) W (Proc.devRef .tc main_arg6) = W (Proc.devRef .tc main_arg6) := by
  after_results_simp

theorem keep1_main_arg7 : StableHlo.after (hostOps1 (F := Ideal)) W (Proc.devRef .tc main_arg7) = W (Proc.devRef .tc main_arg7) := by
  after_results_simp

theorem keep1_main_arg8 : StableHlo.after (hostOps1 (F := Ideal)) W (Proc.devRef .tc main_arg8) = W (Proc.devRef .tc main_arg8) := by
  after_results_simp

end Cert.KernelIdeal.KHost

end
-- ==== Proof.KSage0.lean ====
/-
  What the affine kernel of layer 1 leaves in its three output arrays, read at an index, at the ideal values, from
  whatever contents `V` the region finds in its six input arrays.

  The grid has ten points; point `t` reads rows `5000 t … 5000 t + 4999` of the neighbour sums, the features and the
  reciprocal degrees and the whole of the two weight matrices and the bias, and writes the same rows of the affine
  values `(agg · inv) · Wn + h · Ws + b` and block `t` (rows `8 t … 8 t + 7`) of the two statistics arrays: row
  `8 t` holds the column sums (of the values, of their squares) over the point's 5000 rows, the other seven rows the
  zero word.  Every row of every output lies in exactly the block of one point, so the arrays end holding these
  values everywhere.
-/
import proofs.«122304_j8787503088149_2_alg».proof.Proof.Gen.KernelIdeal.Frame
import proofs.«122304_j8787503088149_2_alg».proof.Proof.KSageLib
import Idealize.ShloMosaic.Lib.Pipeline.Value
import Idealize.ShloMosaic.Lib.Tactic

set_option maxRecDepth 16384

noncomputable section

namespace Cert.KernelIdeal.RegionVal

open Cert.KernelIdeal Cert.KernelIdeal.Gen Idealize.ShloMosaic Idealize.ShloMosaic.ValueIdx Idealize.ShloMosaic.TcCoe
open Idealize.SL.Sem Cert.Sage
open Idealize.ShloMosaic.Pipeline (Dat)

/-! ## What one run of the body leaves in each output block -/

section Pieces

variable {F : FTy → Type} [FloatOps F]

/-- The block of affine values: the one store's payload over the six loaded blocks. -/
theorem out0_6_eq (c : Dev nD) (i : grid0.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out0_A_6 c i a1 h1 a2 h2 a3 h3 a4 h4 a5 h5 a6 h6 a7 h7 a8 h8 a9 h9 x0 x1 x2 x3 x4 x5 = k0_pay2 x0 x2 x1 x3 x4 x5 := by
  unfold out0_A_6
  rw [View.read_writes_eq_canon _ _ _ (cover0_A_6 c i a1 h1 a2 h2 a3 h3 a4 h4 a5 h5 a6 h6 a7 h7 a8 h8 a9 h9 x0 x1 x2 x3 x4 x5)]
  unfold kernelRun0_A
  dsimp only
  sl_unfold_words
  rw [View.canon_unit_zero hz2]
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

/-- The block of column sums: two stores, the zero block and then the sums over row 0. -/
theorem out0_7_eq (c : Dev nD) (i : grid0.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out0_A_7 c i a1 h1 a2 h2 a3 h3 a4 h4 a5 h5 a6 h6 a7 h7 a8 h8 a9 h9 x0 x1 x2 x3 x4 x5
      = View.canon [(⟨Rect.unit (s := S8x96) ![0, 0] S1x96.size inb_S8x96_S1x96_0_0, k0_pay3 x0 x2 x1 x3 x4 x5⟩ : View.Piece (Elt F) S8x96 .f32),
          ⟨Rect.unit (s := S8x96) ![0, 0] S8x96.size inb_S8x96_S8x96_0_0, k0_pay5⟩] := by
  unfold out0_A_7
  rw [View.read_writes_eq_canon _ _ _ (cover0_A_7 c i a1 h1 a2 h2 a3 h3 a4 h4 a5 h5 a6 h6 a7 h7 a8 h8 a9 h9 x0 x1 x2 x3 x4 x5)]
  unfold kernelRun0_A
  dsimp only
  sl_unfold_words
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

/-- The block of column sums of squares: two stores, the zero block and then the sums over row 0. -/
theorem out0_8_eq (c : Dev nD) (i : grid0.Coords) (a1 : Memref sig .tc .vmem S5000x96 .f32) (h1 : a1.IsWhole) (a2 : Memref sig .tc .vmem S5000x96 .f32) (h2 : a2.IsWhole) (a3 : Memref sig .tc .vmem S5000x1 .f32) (h3 : a3.IsWhole) (a4 : Memref sig .tc .vmem S96x96 .f32) (h4 : a4.IsWhole) (a5 : Memref sig .tc .vmem S96x96 .f32) (h5 : a5.IsWhole) (a6 : Memref sig .tc .vmem S96 .f32) (h6 : a6.IsWhole) (a7 : Memref sig .tc .vmem S5000x96 .f32) (h7 : a7.IsWhole) (a8 : Memref sig .tc .vmem S8x96 .f32) (h8 : a8.IsWhole) (a9 : Memref sig .tc .vmem S8x96 .f32) (h9 : a9.IsWhole)
    (x0 : Vec F S5000x96 .f32) (x1 : Vec F S5000x96 .f32) (x2 : Vec F S5000x1 .f32) (x3 : Vec F S96x96 .f32) (x4 : Vec F S96x96 .f32) (x5 : Vec F S96 .f32) :
    out0_A_8 c i a1 h1 a2 h2 a3 h3 a4 h4 a5 h5 a6 h6 a7 h7 a8 h8 a9 h9 x0 x1 x2 x3 x4 x5
      = View.canon [(⟨Rect.unit (s := S8x96) ![0, 0] S1x96.size inb_S8x96_S1x96_0_0, k0_pay4 x0 x2 x1 x3 x4 x5⟩ : View.Piece (Elt F) S8x96 .f32),
          ⟨Rect.unit (s := S8x96) ![0, 0] S8x96.size inb_S8x96_S8x96_0_0, k0_pay1 (FloatOps.ofBits .f32 0x00000000#32)⟩] := by
  unfold out0_A_8
  rw [View.read_writes_eq_canon _ _ _ (cover0_A_8 c i a1 h1 a2 h2 a3 h3 a4 h4 a5 h5 a6 h6 a7 h7 a8 h8 a9 h9 x0 x1 x2 x3 x4 x5)]
  unfold kernelRun0_A
  dsimp only
  sl_unfold_words
  simp only [View.readAt_eq_ld, h1.read_unread, h2.read_unread, h3.read_unread, h4.read_unread, h5.read_unread, h6.read_unread,
    View.ld_unit_zero (S := S5000x96) hz2, View.ld_unit_zero (S := S5000x1) hz2, View.ld_unit_zero (S := S96x96) hz2,
    View.ld_unit_zero (S := S96) hz1]

end Pieces

/-! ## The blocks the points read -/

variable (V : (c : Dev nD) → (b : Ref sig .tc) → Buf (Elt Ideal) ((c : Thread nD τ).loc b)) (c : Dev nD)

/-- The region's affine values as a function of its six input arrays, read as plain index functions. -/
abbrev X0 : Mat 50000 96 := Sage.pre (fun i k => V c (Pipeline.arrRef spec0 0) (ix2 i k)) (fun i k => V c (Pipeline.arrRef spec0 1) (ix2 i k))
    (fun i => V c (Pipeline.arrRef spec0 2) (ix2 i (0 : Fin 1))) (fun k j => V c (Pipeline.arrRef spec0 3) (ix2 k j))
    (fun k j => V c (Pipeline.arrRef spec0 4) (ix2 k j)) (fun j => V c (Pipeline.arrRef spec0 5) (ix1 j))

/-- The printed index maps over the grid: the row-tiled windows sit at block `t`, the weights and the bias at block 0. -/
theorem widx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem iblk0_0_apply (t : Fin cfg0.N) (r : Fin 5000) (k : Fin 96) (P : Fin 50000) (hP : P.val = 5000 * t.val + r.val) :
    iblk0 V c 0 t (ix2 r k) = V c (Pipeline.arrRef spec0 0) (ix2 P k) := by
  obtain ⟨e00, e01, e10, e11, e20, e21, e30, e31, e40, e41, e50, e60, e61, e70, e71, e80, e81⟩ := widx0 t
  unfold iblk0
  rw [View.read_apply]
  refine congrArg (V c (Pipeline.arrRef spec0 0)) ?_
  funext a; apply Fin.ext
  match a with
  | ⟨0, _⟩ => show win0_0.index t (0 : Fin 2) * 5000 + 1 * r.val = P.val; rw [e00, hP]; omega
  | ⟨1, _⟩ => show win0_0.index t (1 : Fin 2) * 96 + 1 * k.val = k.val; rw [e01]; omega

theorem iblk0_1_apply (t : Fin cfg0.N) (r : Fin 5000) (k : Fin 96) (P : Fin 50000) (hP : P.val = 5000 * t.val + r.val) :
    iblk0 V c 1 t (ix2 r k) = V c (Pipeline.arrRef spec0 1) (ix2 P k) := by
  obtain ⟨e00, e01, e10, e11, e20, e21, e30, e31, e40, e41, e50, e60, e61, e70, e71, e80, e81⟩ := widx0 t
  unfold iblk0
  rw [View.read_apply]
  refine congrArg (V c (Pipeline.arrRef spec0 1)) ?_
  funext a; apply Fin.ext
  match a with
  | ⟨0, _⟩ => show win0_1.index t (0 : Fin 2) * 5000 + 1 * r.val = P.val; rw [e10, hP]; omega
  | ⟨1, _⟩ => show win0_1.index t (1 : Fin 2) * 96 + 1 * k.val = k.val; rw [e11]; omega

theorem iblk0_2_apply (t : Fin cfg0.N) (r : Fin 5000) (P : Fin 50000) (hP : P.val = 5000 * t.val + r.val) :
    iblk0 V c 2 t (ix2 r (0 : Fin 1)) = V c (Pipeline.arrRef spec0 2) (ix2 P (0 : Fin 1)) := by
  obtain ⟨e00, e01, e10, e11, e20, e21, e30, e31, e40, e41, e50, e60, e61, e70, e71, e80, e81⟩ := widx0 t
  unfold iblk0
  rw [View.read_apply]
  refine congrArg (V c (Pipeline.arrRef spec0 2)) ?_
  funext a; apply Fin.ext
  match a with
  | ⟨0, _⟩ => show win0_2.index t (0 : Fin 2) * 5000 + 1 * r.val = P.val; rw [e20, hP]; omega
  | ⟨1, _⟩ => show win0_2.index t (1 : Fin 2) * 1 + 1 * 0 = 0; rw [e21]

theorem iblk0_3_apply (t : Fin cfg0.N) (k : Fin 96) (q : Fin 96) :
    iblk0 V c 3 t (ix2 k q) = V c (Pipeline.arrRef spec0 3) (ix2 k q) := by
  obtain ⟨e00, e01, e10, e11, e20, e21, e30, e31, e40, e41, e50, e60, e61, e70, e71, e80, e81⟩ := widx0 t
  unfold iblk0
  rw [View.read_apply]
  refine congrArg (V c (Pipeline.arrRef spec0 3)) ?_
  funext a; apply Fin.ext
  match a with
  | ⟨0, _⟩ => show win0_3.index t (0 : Fin 2) * 96 + 1 * k.val = k.val; rw [e30]; omega
  | ⟨1, _⟩ => show win0_3.index t (1 : Fin 2) * 96 + 1 * q.val = q.val; rw [e31]; omega

theorem iblk0_4_apply (t : Fin cfg0.N) (k : Fin 96) (q : Fin 96) :
    iblk0 V c 4 t (ix2 k q) = V c (Pipeline.arrRef spec0 4) (ix2 k q) := by
  obtain ⟨e00, e01, e10, e11, e20, e21, e30, e31, e40, e41, e50, e60, e61, e70, e71, e80, e81⟩ := widx0 t
  unfold iblk0
  rw [View.read_apply]
  refine congrArg (V c (Pipeline.arrRef spec0 4)) ?_
  funext a; apply Fin.ext
  match a with
  | ⟨0, _⟩ => show win0_4.index t (0 : Fin 2) * 96 + 1 * k.val = k.val; rw [e40]; omega
  | ⟨1, _⟩ => show win0_4.index t (1 : Fin 2) * 96 + 1 * q.val = q.val; rw [e41]; omega

theorem iblk0_5_apply (t : Fin cfg0.N) (q : Fin 96) :
    iblk0 V c 5 t (ix1 q) = V c (Pipeline.arrRef spec0 5) (ix1 q) := by
  obtain ⟨e00, e01, e10, e11, e20, e21, e30, e31, e40, e41, e50, e60, e61, e70, e71, e80, e81⟩ := widx0 t
  unfold iblk0
  rw [View.read_apply]
  refine congrArg (V c (Pipeline.arrRef spec0 5)) ?_
  funext a; apply Fin.ext
  match a with
  | ⟨0, _⟩ => show win0_5.index t (0 : Fin 1) * 96 + 1 * q.val = q.val; rw [e50]; omega

/-- The affine values of point `t`'s blocks are the array's at the rows the point reads. -/
theorem lin_blk0 (t : Fin cfg0.N) (r : Fin 5000) (q : Fin 96) (P : Fin 50000) (Q : Fin 96)
    (hP : P.val = 5000 * t.val + r.val) (hQ : Q.val = q.val) :
    lin (iblk0 V c 0 t) (iblk0 V c 1 t) (iblk0 V c 2 t) (iblk0 V c 3 t) (iblk0 V c 4 t) (iblk0 V c 5 t) r q = X0 V c P Q := by
  obtain rfl : Q = q := Fin.ext hQ
  unfold lin
  show _ = Sage.pre _ _ _ _ _ _ P Q
  unfold Sage.pre
  refine congrArg₂ (· + ·) (congrArg₂ (· + ·) (Finset.sum_congr rfl fun k _ => ?_) (Finset.sum_congr rfl fun k _ => ?_)) ?_
  · rw [iblk0_0_apply V c t r k P hP, iblk0_2_apply V c t r P hP, iblk0_3_apply V c t k Q]
  · rw [iblk0_1_apply V c t r k P hP, iblk0_4_apply V c t k Q]
  · exact iblk0_5_apply V c t Q

/-! ## The affine values: output window 6 -/

/-- What the array of affine values ends holding. -/
abbrev G0_6 : S50000x96.Idx → EReal := fun i => X0 V c ⟨(i 0).val, idx2_lt0 i⟩ ⟨(i 1).val, idx2_lt1 i⟩

/-- What point `t` writes back is block `t` of it. -/
theorem flushed0_6 (t : Fin cfg0.N) :
    (dat0 V c).flushed 6 t = ((cfg0.win 6).blk t).view.read (Elt Ideal) (G0_6 V c) := by
  obtain ⟨e00, e01, e10, e11, e20, e21, e30, e31, e40, e41, e50, e60, e61, e70, e71, e80, e81⟩ := widx0 t
  show (cfg0.win 6).cut (grid0.coords t) ((dat0 V c).after 6 t) = _
  rw [after0_6]
  unfold outsAt0
  dsimp only
  rw [out0_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t)]
  funext y
  rw [View.read_apply]
  have h0 : (y 0).val < 5000 := (y 0).isLt
  have h1 : (y 1).val < 96 := (y 1).isLt
  have hxy : (cfg0.win 6).xinj (grid0.coords t) y = ix2 (⟨(y 0).val, h0⟩ : Fin 5000) (⟨(y 1).val, h1⟩ : Fin 96) :=
    funext fun a => by match a with | ⟨0, _⟩ => rfl | ⟨1, _⟩ => rfl
  show k0_pay2 (F := Ideal) (iblk0 V c 0 t) (iblk0 V c 2 t) (iblk0 V c 1 t) (iblk0 V c 3 t) (iblk0 V c 4 t) (iblk0 V c 5 t) ((cfg0.win 6).xinj (grid0.coords t) y) = G0_6 V c (((cfg0.win 6).blk t).view.emb y)
  rw [hxy]
  refine (k0_pay2_apply (iblk0 V c 0 t) (iblk0 V c 2 t) (iblk0 V c 1 t) (iblk0 V c 3 t) (iblk0 V c 4 t) (iblk0 V c 5 t) ⟨(y 0).val, h0⟩ ⟨(y 1).val, h1⟩).trans ?_
  refine lin_blk0 V c t ⟨(y 0).val, h0⟩ ⟨(y 1).val, h1⟩ _ _ ?_ ?_
  · show win0_6.index t (0 : Fin 2) * 5000 + 1 * (y 0).val = 5000 * t.val + (y 0).val
    rw [e60]; omega
  · show win0_6.index t (1 : Fin 2) * 96 + 1 * (y 1).val = (y 1).val
    rw [e61]; omega

/-- An index of the array is in point `t`'s block iff each coordinate is in the block's range on its axis. -/
theorem mem_blk0_6 (t : Fin cfg0.N) (i : S50000x96.Idx) :
    i ∈ ((cfg0.win 6).blk t).view.set ↔ ∀ a : Fin 2, win0_6.index t a * S5000x96.size a ≤ (i a).val ∧ (i a).val < win0_6.index t a * S5000x96.size a + S5000x96.size a := by
  show i ∈ ((View.whole main_v29_0).slice (win0_6.rect t)).set ↔ _
  rw [View.set_slice_whole, Rect.mem_set_unit]
  exact Iff.rfl

/-- Row `p` lies in the block of point `p / 5000`. -/
theorem cover0_6 (i : S50000x96.Idx) : ∃ t : Fin cfg0.N, (cfg0.win 6).flush t = true ∧ i ∈ ((cfg0.win 6).blk t).view.set := by
  have hi0 : (i 0).val < 50000 := (i 0).isLt
  have hi1 : (i 1).val < 96 := (i 1).isLt
  have hN : cfg0.N = 10 := N_0
  have ht : (i 0).val / 5000 < cfg0.N := by rw [hN]; omega
  obtain ⟨e00, e01, e10, e11, e20, e21, e30, e31, e40, e41, e50, e60, e61, e70, e71, e80, e81⟩ := widx0 ⟨(i 0).val / 5000, ht⟩
  refine ⟨⟨(i 0).val / 5000, ht⟩, flush0_6 _, ?_⟩
  rw [mem_blk0_6]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e60]; dsimp only; omega
  | ⟨1, _⟩ =>
    show win0_6.index ⟨(i 0).val / 5000, ht⟩ (1 : Fin 2) * 96 ≤ (i 1).val ∧ (i 1).val < win0_6.index ⟨(i 0).val / 5000, ht⟩ (1 : Fin 2) * 96 + 96
    rw [e61]; omega

/-- So the array ends holding it everywhere. -/
theorem final0_6 : (dat0 V c).arrAt 6 cfg0.N = G0_6 V c :=
  (dat0 V c).arrAt_eq_of_cover 6 (G0_6 V c) (fun t _ => flushed0_6 V c t) (cover0_6)

/-- THE AFFINE VALUES: entry `(p, q)` of the first output array. -/
theorem out0_pre (p : Fin 50000) (q : Fin 96) : (dat0 (F := Ideal) V c).arrAt 6 cfg0.N (ix2 p q) = X0 V c p q :=
  congrFun (final0_6 V c) (ix2 p q)

/-! ## The column sums: output window 7 -/

/-- What the array ends holding: row `8 t` the sums over rows `5000 t …` of the affine values, the other rows zero. -/
abbrev G0_7 : S80x96.Idx → EReal := fun i =>
  if (i 0).val % 8 = 0 then
    w0 + ∑ j : Fin 5000, X0 V c ⟨5000 * ((i 0).val / 8) + j.val, by have := idx2_lt0 i; omega⟩ ⟨(i 1).val, idx2_lt1 i⟩
  else w0

/-- Inside point `t`'s block it is the point's sums in row 0 and zero below. -/
theorem G0_7_blk (t : Fin cfg0.N) (i : S80x96.Idx) (r : Fin 8) (q : Fin 96) (h0 : (i 0).val = 8 * t.val + r.val) (h1 : (i 1).val = q.val) :
    G0_7 V c i = if r.val = 0 then ∑ j : Fin 5000, lin (iblk0 V c 0 t) (iblk0 V c 1 t) (iblk0 V c 2 t) (iblk0 V c 3 t) (iblk0 V c 4 t) (iblk0 V c 5 t) j q else w0 := by
  show (if (i 0).val % 8 = 0 then _ else _) = _
  by_cases hr : r.val = 0
  · rw [if_pos hr, if_pos (by omega), show (w0 : EReal) = 0 from Ideal.ofBits_zero_f32, zero_add]
    refine Finset.sum_congr rfl fun j _ => ?_
    rw [lin_blk0 V c t j q ⟨5000 * ((i 0).val / 8) + j.val, by have := idx2_lt0 i; omega⟩ ⟨(i 1).val, idx2_lt1 i⟩ (by show 5000 * ((i 0).val / 8) + j.val = _; omega) h1]
  · rw [if_neg hr, if_neg (by omega)]

/-- What point `t` writes back is block `t` of it. -/
theorem flushed0_7 (t : Fin cfg0.N) :
    (dat0 V c).flushed 7 t = ((cfg0.win 7).blk t).view.read (Elt Ideal) (G0_7 V c) := by
  obtain ⟨e00, e01, e10, e11, e20, e21, e30, e31, e40, e41, e50, e60, e61, e70, e71, e80, e81⟩ := widx0 t
  show (cfg0.win 7).cut (grid0.coords t) ((dat0 V c).after 7 t) = _
  rw [after0_7]
  unfold outsAt0
  dsimp only
  rw [out0_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t)]
  funext y
  rw [View.read_apply]
  have h0 : (y 0).val < 8 := (y 0).isLt
  have h1 : (y 1).val < 96 := (y 1).isLt
  have hxy : (cfg0.win 7).xinj (grid0.coords t) y = ix2 (⟨(y 0).val, h0⟩ : Fin 8) (⟨(y 1).val, h1⟩ : Fin 96) :=
    funext fun a => by match a with | ⟨0, _⟩ => rfl | ⟨1, _⟩ => rfl
  show View.canon (Val := Elt Ideal) (s := S8x96) (e := .f32) _ ((cfg0.win 7).xinj (grid0.coords t) y) = G0_7 V c (((cfg0.win 7).blk t).view.emb y)
  rw [hxy]
  refine (stat_canon_apply _ _ ⟨(y 0).val, h0⟩ ⟨(y 1).val, h1⟩).trans ?_
  refine Eq.trans ?_ (G0_7_blk V c t _ ⟨(y 0).val, h0⟩ ⟨(y 1).val, h1⟩ ?_ ?_).symm
  · exact ite_congr rfl (fun _ => k0_pay3_apply (iblk0 V c 0 t) (iblk0 V c 2 t) (iblk0 V c 1 t) (iblk0 V c 3 t) (iblk0 V c 4 t) (iblk0 V c 5 t) (0 : Fin 1) ⟨(y 1).val, h1⟩) (fun _ => k0_pay5_apply ⟨(y 0).val, h0⟩ ⟨(y 1).val, h1⟩)
  · show win0_7.index t (0 : Fin 2) * 8 + 1 * (y 0).val = 8 * t.val + (y 0).val
    rw [e70]; omega
  · show win0_7.index t (1 : Fin 2) * 96 + 1 * (y 1).val = (y 1).val
    rw [e71]; omega

/-- An index of the array is in point `t`'s block iff each coordinate is in the block's range on its axis. -/
theorem mem_blk0_7 (t : Fin cfg0.N) (i : S80x96.Idx) :
    i ∈ ((cfg0.win 7).blk t).view.set ↔ ∀ a : Fin 2, win0_7.index t a * S8x96.size a ≤ (i a).val ∧ (i a).val < win0_7.index t a * S8x96.size a + S8x96.size a := by
  show i ∈ ((View.whole main_v29_1).slice (win0_7.rect t)).set ↔ _
  rw [View.set_slice_whole, Rect.mem_set_unit]
  exact Iff.rfl

/-- Row `p` lies in the block of point `p / 8`. -/
theorem cover0_7 (i : S80x96.Idx) : ∃ t : Fin cfg0.N, (cfg0.win 7).flush t = true ∧ i ∈ ((cfg0.win 7).blk t).view.set := by
  have hi0 : (i 0).val < 80 := (i 0).isLt
  have hi1 : (i 1).val < 96 := (i 1).isLt
  have hN : cfg0.N = 10 := N_0
  have ht : (i 0).val / 8 < cfg0.N := by rw [hN]; omega
  obtain ⟨e00, e01, e10, e11, e20, e21, e30, e31, e40, e41, e50, e60, e61, e70, e71, e80, e81⟩ := widx0 ⟨(i 0).val / 8, ht⟩
  refine ⟨⟨(i 0).val / 8, ht⟩, flush0_7 _, ?_⟩
  rw [mem_blk0_7]
  intro a
  match a with
  | ⟨0, _⟩ =>
    show win0_7.index ⟨(i 0).val / 8, ht⟩ (0 : Fin 2) * 8 ≤ (i 0).val ∧ (i 0).val < win0_7.index ⟨(i 0).val / 8, ht⟩ (0 : Fin 2) * 8 + 8
    rw [e70]; dsimp only; omega
  | ⟨1, _⟩ =>
    show win0_7.index ⟨(i 0).val / 8, ht⟩ (1 : Fin 2) * 96 ≤ (i 1).val ∧ (i 1).val < win0_7.index ⟨(i 0).val / 8, ht⟩ (1 : Fin 2) * 96 + 96
    rw [e71]; omega

/-- So the array ends holding it everywhere. -/
theorem final0_7 : (dat0 V c).arrAt 7 cfg0.N = G0_7 V c :=
  (dat0 V c).arrAt_eq_of_cover 7 (G0_7 V c) (fun t _ => flushed0_7 V c t) (cover0_7)

/-- THE COLUMN SUMS: entry `(r, q)` of the second output array. -/
theorem out0_sum (r : Fin 80) (q : Fin 96) : (dat0 (F := Ideal) V c).arrAt 7 cfg0.N (ix2 r q)
    = if r.val % 8 = 0 then w0 + ∑ i : Fin 5000, X0 V c ⟨5000 * (r.val / 8) + i.val, by omega⟩ q else w0 :=
  congrFun (final0_7 V c) (ix2 r q)

/-! ## The column sums of squares: output window 8 -/

/-- What the array ends holding: row `8 t` the sums over rows `5000 t …` of the affine values' squares, the other rows zero. -/
abbrev G0_8 : S80x96.Idx → EReal := fun i =>
  if (i 0).val % 8 = 0 then
    w0 + ∑ j : Fin 5000, X0 V c ⟨5000 * ((i 0).val / 8) + j.val, by have := idx2_lt0 i; omega⟩ ⟨(i 1).val, idx2_lt1 i⟩ * X0 V c ⟨5000 * ((i 0).val / 8) + j.val, by have := idx2_lt0 i; omega⟩ ⟨(i 1).val, idx2_lt1 i⟩
  else w0

/-- Inside point `t`'s block it is the point's sums in row 0 and zero below. -/
theorem G0_8_blk (t : Fin cfg0.N) (i : S80x96.Idx) (r : Fin 8) (q : Fin 96) (h0 : (i 0).val = 8 * t.val + r.val) (h1 : (i 1).val = q.val) :
    G0_8 V c i = if r.val = 0 then ∑ j : Fin 5000, lin (iblk0 V c 0 t) (iblk0 V c 1 t) (iblk0 V c 2 t) (iblk0 V c 3 t) (iblk0 V c 4 t) (iblk0 V c 5 t) j q * lin (iblk0 V c 0 t) (iblk0 V c 1 t) (iblk0 V c 2 t) (iblk0 V c 3 t) (iblk0 V c 4 t) (iblk0 V c 5 t) j q else w0 := by
  show (if (i 0).val % 8 = 0 then _ else _) = _
  by_cases hr : r.val = 0
  · rw [if_pos hr, if_pos (by omega), show (w0 : EReal) = 0 from Ideal.ofBits_zero_f32, zero_add]
    refine Finset.sum_congr rfl fun j _ => ?_
    rw [lin_blk0 V c t j q ⟨5000 * ((i 0).val / 8) + j.val, by have := idx2_lt0 i; omega⟩ ⟨(i 1).val, idx2_lt1 i⟩ (by show 5000 * ((i 0).val / 8) + j.val = _; omega) h1]
  · rw [if_neg hr, if_neg (by omega)]

/-- What point `t` writes back is block `t` of it. -/
theorem flushed0_8 (t : Fin cfg0.N) :
    (dat0 V c).flushed 8 t = ((cfg0.win 8).blk t).view.read (Elt Ideal) (G0_8 V c) := by
  obtain ⟨e00, e01, e10, e11, e20, e21, e30, e31, e40, e41, e50, e60, e61, e70, e71, e80, e81⟩ := widx0 t
  show (cfg0.win 8).cut (grid0.coords t) ((dat0 V c).after 8 t) = _
  rw [after0_8]
  unfold outsAt0
  dsimp only
  rw [out0_8_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t)]
  funext y
  rw [View.read_apply]
  have h0 : (y 0).val < 8 := (y 0).isLt
  have h1 : (y 1).val < 96 := (y 1).isLt
  have hxy : (cfg0.win 8).xinj (grid0.coords t) y = ix2 (⟨(y 0).val, h0⟩ : Fin 8) (⟨(y 1).val, h1⟩ : Fin 96) :=
    funext fun a => by match a with | ⟨0, _⟩ => rfl | ⟨1, _⟩ => rfl
  show View.canon (Val := Elt Ideal) (s := S8x96) (e := .f32) _ ((cfg0.win 8).xinj (grid0.coords t) y) = G0_8 V c (((cfg0.win 8).blk t).view.emb y)
  rw [hxy]
  refine (stat_canon_apply _ _ ⟨(y 0).val, h0⟩ ⟨(y 1).val, h1⟩).trans ?_
  refine Eq.trans ?_ (G0_8_blk V c t _ ⟨(y 0).val, h0⟩ ⟨(y 1).val, h1⟩ ?_ ?_).symm
  · exact ite_congr rfl (fun _ => k0_pay4_apply (iblk0 V c 0 t) (iblk0 V c 2 t) (iblk0 V c 1 t) (iblk0 V c 3 t) (iblk0 V c 4 t) (iblk0 V c 5 t) (0 : Fin 1) ⟨(y 1).val, h1⟩) (fun _ => k0_pay1_apply ⟨(y 0).val, h0⟩ ⟨(y 1).val, h1⟩)
  · show win0_8.index t (0 : Fin 2) * 8 + 1 * (y 0).val = 8 * t.val + (y 0).val
    rw [e80]; omega
  · show win0_8.index t (1 : Fin 2) * 96 + 1 * (y 1).val = (y 1).val
    rw [e81]; omega

/-- An index of the array is in point `t`'s block iff each coordinate is in the block's range on its axis. -/
theorem mem_blk0_8 (t : Fin cfg0.N) (i : S80x96.Idx) :
    i ∈ ((cfg0.win 8).blk t).view.set ↔ ∀ a : Fin 2, win0_8.index t a * S8x96.size a ≤ (i a).val ∧ (i a).val < win0_8.index t a * S8x96.size a + S8x96.size a := by
  show i ∈ ((View.whole main_v29_2).slice (win0_8.rect t)).set ↔ _
  rw [View.set_slice_whole, Rect.mem_set_unit]
  exact Iff.rfl

/-- Row `p` lies in the block of point `p / 8`. -/
theorem cover0_8 (i : S80x96.Idx) : ∃ t : Fin cfg0.N, (cfg0.win 8).flush t = true ∧ i ∈ ((cfg0.win 8).blk t).view.set := by
  have hi0 : (i 0).val < 80 := (i 0).isLt
  have hi1 : (i 1).val < 96 := (i 1).isLt
  have hN : cfg0.N = 10 := N_0
  have ht : (i 0).val / 8 < cfg0.N := by rw [hN]; omega
  obtain ⟨e00, e01, e10, e11, e20, e21, e30, e31, e40, e41, e50, e60, e61, e70, e71, e80, e81⟩ := widx0 ⟨(i 0).val / 8, ht⟩
  refine ⟨⟨(i 0).val / 8, ht⟩, flush0_8 _, ?_⟩
  rw [mem_blk0_8]
  intro a
  match a with
  | ⟨0, _⟩ =>
    show win0_8.index ⟨(i 0).val / 8, ht⟩ (0 : Fin 2) * 8 ≤ (i 0).val ∧ (i 0).val < win0_8.index ⟨(i 0).val / 8, ht⟩ (0 : Fin 2) * 8 + 8
    rw [e80]; dsimp only; omega
  | ⟨1, _⟩ =>
    show win0_8.index ⟨(i 0).val / 8, ht⟩ (1 : Fin 2) * 96 ≤ (i 1).val ∧ (i 1).val < win0_8.index ⟨(i 0).val / 8, ht⟩ (1 : Fin 2) * 96 + 96
    rw [e81]; omega

/-- So the array ends holding it everywhere. -/
theorem final0_8 : (dat0 V c).arrAt 8 cfg0.N = G0_8 V c :=
  (dat0 V c).arrAt_eq_of_cover 8 (G0_8 V c) (fun t _ => flushed0_8 V c t) (cover0_8)

/-- THE COLUMN SUMS OF SQUARES: entry `(r, q)` of the third output array. -/
theorem out0_sumsq (r : Fin 80) (q : Fin 96) : (dat0 (F := Ideal) V c).arrAt 8 cfg0.N (ix2 r q)
    = if r.val % 8 = 0 then w0 + ∑ i : Fin 5000, X0 V c ⟨5000 * (r.val / 8) + i.val, by omega⟩ q * X0 V c ⟨5000 * (r.val / 8) + i.val, by omega⟩ q else w0 :=
  congrFun (final0_8 V c) (ix2 r q)

end Cert.KernelIdeal.RegionVal

end
-- ==== Proof.KBn1.lean ====
/-
  What the normalise-and-clip kernel after the first affine layer leaves in its output array, entry by entry.

  The kernel walks the 50000 rows in ten blocks of 5000.  At each block it reads the block of the affine layer's
  output `x` and the four rows `mu`, `var`, `gamma`, `beta` (whole, at every block), forms
  `scale = rsqrt (var + eps) * gamma` and `shift = beta - mu * scale`, and stores `max (x * scale + shift) 0`.
  Row `p` of the array lies in block `p / 5000` at inner row `p % 5000`, and every block is written once with
  the same function of the arrays, so the array ends holding that function at every entry.
-/
import proofs.«122304_j8787503088149_2_alg».proof.Proof.Gen.KernelIdeal.Frame
import proofs.«122304_j8787503088149_2_alg».proof.Proof.Spec
import Idealize.ShloMosaic.Lib.Pipeline.Value
import Idealize.ShloMosaic.Lib.ValueIdx
import Idealize.ShloMosaic.Lib.ValueLayout

noncomputable section

namespace Cert.KernelIdeal.RegionVal

open Cert.KernelIdeal Cert.KernelIdeal.Gen Idealize.ShloMosaic Idealize.ShloMosaic.ValueIdx Cert.Sage
open Idealize.ShloMosaic.TcCoe Idealize.SL.Sem
open Idealize.ShloMosaic.Pipeline (Dat)

/-! ## The body's arithmetic at one entry of a block -/

/-- Entry `(r, q)` of what the body stores: the block's entry scaled and shifted by column `q`'s folded scale and
    shift, clipped below at zero. -/
theorem pay1_apply (x0 : Vec Ideal S5000x96 .f32) (va ga be mu : Vec Ideal S96 .f32) (r : Fin 5000) (q : Fin 96) :
    k1_pay1 x0 va ga be mu (ix2 r q)
      = max (x0 (ix2 r q) * (Ideal.rsqrt (va (ix1 q) + wEps) * ga (ix1 q))
          + (be (ix1 q) - mu (ix1 q) * (Ideal.rsqrt (va (ix1 q) + wEps) * ga (ix1 q)))) w0 := by
  unfold k1_pay1
  simp only [shapeCast_self]
  rw [maximumf_apply, addf_apply, mulf_apply, broadcastTo_1b_ab_apply, broadcastTo_1b_ab_apply,
    shapeCast_a_1a_apply, shapeCast_a_1a_apply]
  rfl

/-! ## The blocks the body reads, as entries of the arrays -/

theorem hz2_1 : (![0, 0] : Fin 2 → Nat) = fun _ => 0 := funext fun a => by fin_cases a <;> rfl
theorem hz1_1 : (![0] : Fin 1 → Nat) = fun _ => 0 := funext fun a => by fin_cases a; rfl

/-- The block indices at grid point `t`: the two matrices move down the rows with `t`, the four rows stay. -/
theorem idx1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

variable (V : (c : Dev nD) → (b : Ref sig .tc) → Buf (Elt Ideal) ((c : Thread nD τ).loc b)) (c : Dev nD)

/-- Entry `(r, q)` of the matrix block at point `t` is entry `(5000 t + r, q)` of the matrix. -/
theorem iblk1_0_apply (t : Fin cfg1.N) (r : Fin 5000) (q : Fin 96) (p : Fin 50000) (hp : p.val = t.val * 5000 + r.val) :
    (iblk1 V c 0 t : Vec Ideal S5000x96 .f32) (ix2 r q) = V c (Pipeline.arrRef spec1 0) (ix2 p q) := by
  obtain ⟨e0, e1, -⟩ := idx1 t
  unfold iblk1
  rw [View.read_apply]
  show V c (Pipeline.arrRef spec1 0) _ = V c (Pipeline.arrRef spec1 0) _
  refine congrArg (V c (Pipeline.arrRef spec1 0)) (funext fun a => Fin.ext ?_)
  match a with
  | ⟨0, _⟩ => show win1_0.index t (0 : Fin 2) * 5000 + 1 * r.val = p.val; rw [e0, hp]; omega
  | ⟨1, _⟩ => show win1_0.index t (1 : Fin 2) * 96 + 1 * q.val = q.val; rw [e1]; omega

/-- Each row block is the whole row, at every point. -/
theorem iblk1_1_apply (t : Fin cfg1.N) (q : Fin 96) :
    (iblk1 V c 1 t : Vec Ideal S96 .f32) (ix1 q) = V c (Pipeline.arrRef spec1 1) (ix1 q) := by
  obtain ⟨-, -, -, -, e, -⟩ := idx1 t
  unfold iblk1
  rw [View.read_apply]
  show V c (Pipeline.arrRef spec1 1) _ = V c (Pipeline.arrRef spec1 1) _
  refine congrArg (V c (Pipeline.arrRef spec1 1)) (funext fun a => Fin.ext ?_)
  match a with
  | ⟨0, _⟩ => show win1_1.index t (0 : Fin 1) * 96 + 1 * q.val = q.val; rw [e]; omega
theorem iblk1_2_apply (t : Fin cfg1.N) (q : Fin 96) :
    (iblk1 V c 2 t : Vec Ideal S96 .f32) (ix1 q) = V c (Pipeline.arrRef spec1 2) (ix1 q) := by
  obtain ⟨-, -, -, -, -, e, -⟩ := idx1 t
  unfold iblk1
  rw [View.read_apply]
  show V c (Pipeline.arrRef spec1 2) _ = V c (Pipeline.arrRef spec1 2) _
  refine congrArg (V c (Pipeline.arrRef spec1 2)) (funext fun a => Fin.ext ?_)
  match a with
  | ⟨0, _⟩ => show win1_2.index t (0 : Fin 1) * 96 + 1 * q.val = q.val; rw [e]; omega
theorem iblk1_3_apply (t : Fin cfg1.N) (q : Fin 96) :
    (iblk1 V c 3 t : Vec Ideal S96 .f32) (ix1 q) = V c (Pipeline.arrRef spec1 3) (ix1 q) := by
  obtain ⟨-, -, -, -, -, -, e, -⟩ := idx1 t
  unfold iblk1
  rw [View.read_apply]
  show V c (Pipeline.arrRef spec1 3) _ = V c (Pipeline.arrRef spec1 3) _
  refine congrArg (V c (Pipeline.arrRef spec1 3)) (funext fun a => Fin.ext ?_)
  match a with
  | ⟨0, _⟩ => show win1_3.index t (0 : Fin 1) * 96 + 1 * q.val = q.val; rw [e]; omega
theorem iblk1_4_apply (t : Fin cfg1.N) (q : Fin 96) :
    (iblk1 V c 4 t : Vec Ideal S96 .f32) (ix1 q) = V c (Pipeline.arrRef spec1 4) (ix1 q) := by
  obtain ⟨-, -, -, -, -, -, -, e⟩ := idx1 t
  unfold iblk1
  rw [View.read_apply]
  show V c (Pipeline.arrRef spec1 4) _ = V c (Pipeline.arrRef spec1 4) _
  refine congrArg (V c (Pipeline.arrRef spec1 4)) (funext fun a => Fin.ext ?_)
  match a with
  | ⟨0, _⟩ => show win1_4.index t (0 : Fin 1) * 96 + 1 * q.val = q.val; rw [e]; omega

/-! ## From blocks to the array -/

/-- The function the output array ends holding: the normalised, scaled, shifted and clipped entries. -/
def G1 : S50000x96.Idx → EReal := fun i =>
  Sage.bnK (fun i k => V c (Pipeline.arrRef spec1 0) (ix2 i k)) (fun j => V c (Pipeline.arrRef spec1 1) (ix1 j))
    (fun j => V c (Pipeline.arrRef spec1 2) (ix1 j)) (fun j => V c (Pipeline.arrRef spec1 3) (ix1 j))
    (fun j => V c (Pipeline.arrRef spec1 4) (ix1 j)) (i 0) (i 1)

/-- What the body stores at point `t`, entry `(r, q)`, is that function at row `5000 t + r`. -/
theorem body1_apply (t : Fin cfg1.N) (r : Fin 5000) (q : Fin 96) (p : Fin 50000) (hp : p.val = t.val * 5000 + r.val) :
    k1_pay1 (iblk1 V c 0 t) (iblk1 V c 2 t) (iblk1 V c 3 t) (iblk1 V c 4 t) (iblk1 V c 1 t) (ix2 r q) = G1 V c (ix2 p q) := by
  refine (pay1_apply (iblk1 V c 0 t) (iblk1 V c 2 t) (iblk1 V c 3 t) (iblk1 V c 4 t) (iblk1 V c 1 t) r q).trans ?_
  rw [iblk1_0_apply V c t r q p hp, iblk1_1_apply V c t q, iblk1_2_apply V c t q, iblk1_3_apply V c t q, iblk1_4_apply V c t q]
  rfl

/-- A block of 5000 rows whose entries are a whole-array function's at rows `5000 t + r` is that function read
    through the output window's block at point `t`. -/
theorem cut_eq_read1 (t : Fin cfg1.N) (X : Vec Ideal S5000x96 .f32) (G : S50000x96.Idx → EReal)
    (h : ∀ (r : Fin 5000) (q : Fin 96) (p : Fin 50000), p.val = t.val * 5000 + r.val → X (ix2 r q) = G (ix2 p q)) :
    (cfg1.win 5).cut (grid1.coords t) X = ((cfg1.win 5).blk t).view.read (Elt Ideal) G := by
  obtain ⟨-, -, e0, e1, -⟩ := idx1 t
  have hN : t.val < 10 := Nat.lt_of_lt_of_eq t.isLt N_1
  funext j
  have h0 : (j 0).val < 5000 := (j 0).isLt
  have h1 : (j 1).val < 96 := (j 1).isLt
  have e := h ⟨(j 0).val, h0⟩ ⟨(j 1).val, h1⟩ ⟨t.val * 5000 + (j 0).val, by omega⟩ rfl
  show X _ = G (((cfg1.win 5).blk t).view.emb j)
  refine Eq.trans (congrArg X (funext fun a => ?_)) (e.trans (congrArg G (funext fun a => Fin.ext ?_)))
  · match a with
    | ⟨0, _⟩ => rfl
    | ⟨1, _⟩ => rfl
  · match a with
    | ⟨0, _⟩ => show t.val * 5000 + (j 0).val = win1_5.index t (0 : Fin 2) * 5000 + 1 * (j 0).val; rw [e0]; omega
    | ⟨1, _⟩ => show (j 1).val = win1_5.index t (1 : Fin 2) * 96 + 1 * (j 1).val; rw [e1]; omega

/-- What point `t` writes back is block `t` of that function. -/
theorem flushed1_eq (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero hz2_1]
  simp only [View.ld_unit_zero (S := S5000x96) hz2_1, View.ld_unit_zero (S := S96) hz1_1]
  exact cut_eq_read1 t _ (G1 V c) (body1_apply V c t)

/-- An entry of the array is in point `t`'s block iff each coordinate is in the block's range on its axis. -/
theorem mem_blk1 (t : Fin cfg1.N) (i : S50000x96.Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v44).slice (win1_5.rect t)).set ↔ _
  rw [View.set_slice_whole, Rect.mem_set_unit]
  exact Iff.rfl

/-- Row `p` lies in the block of point `p / 5000`: the ten blocks cover the array. -/
theorem rows_cover1 (i : S50000x96.Idx) :
    ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 10 := N_1
  have ht : (i 0).val / 5000 < cfg1.N := by rw [hN]; omega
  obtain ⟨-, -, e0, e1, -⟩ := idx1 ⟨(i 0).val / 5000, ht⟩
  have e0' : win1_5.index ⟨(i 0).val / 5000, ht⟩ (0 : Fin 2) = (i 0).val / 5000 := e0
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0']; omega
  | ⟨1, _⟩ =>
    show win1_5.index ⟨(i 0).val / 5000, ht⟩ (1 : Fin 2) * 96 ≤ (i 1).val ∧ (i 1).val < win1_5.index ⟨(i 0).val / 5000, ht⟩ (1 : Fin 2) * 96 + 96
    rw [e1]; omega

/-- The output array after the region's run is that function. -/
theorem out1_arr : (dat1 (F := Ideal) V c).arrAt 5 cfg1.N = G1 V c :=
  (dat1 V c).arrAt_eq_of_cover 5 (G1 V c) (fun t _ => flushed1_eq V c t) (rows_cover1)

/-- THE OUTPUT ARRAY OF THE REGION, entry `(p, q)`: the normalised, scaled, shifted and clipped entry of the
    arrays as the region finds them. -/
theorem out1_bn (p : Fin 50000) (q : Fin 96) : (dat1 (F := Ideal) V c).arrAt 5 cfg1.N (ix2 p q)
      = Sage.bnK (fun i k => V c (Pipeline.arrRef spec1 0) (ix2 i k)) (fun j => V c (Pipeline.arrRef spec1 1) (ix1 j)) (fun j => V c (Pipeline.arrRef spec1 2) (ix1 j))
          (fun j => V c (Pipeline.arrRef spec1 3) (ix1 j)) (fun j => V c (Pipeline.arrRef spec1 4) (ix1 j)) p q :=
  congrFun (out1_arr V c) (ix2 p q)

end Cert.KernelIdeal.RegionVal

end
-- ==== Proof.KVal0.lean ====
/-
  Layer 0 of the idealized kernel program: what its two kernel regions and the host code between them leave.

  The first region finds the neighbour sums, the features, the reciprocal in-degrees and the layer's parameters, and
  leaves the affine map's values and, per tile of 5000 rows, the column sums and sums of squares.  The host code
  reduces the partial sums to the columns' means and variances.  The second region normalises, scales, shifts and
  clips.  Together: the layer in the kernel's form, applied to the features the layer was entered with.
-/
import proofs.«122304_j8787503088149_2_alg».proof.Proof.Gen.KernelIdeal.Frame
import proofs.«122304_j8787503088149_2_alg».proof.Proof.Spec
import proofs.«122304_j8787503088149_2_alg».proof.Proof.Reals
import proofs.«122304_j8787503088149_2_alg».proof.Proof.KCarry
import proofs.«122304_j8787503088149_2_alg».proof.Proof.KHost0
import proofs.«122304_j8787503088149_2_alg».proof.Proof.KHost1
import proofs.«122304_j8787503088149_2_alg».proof.Proof.KStats
import proofs.«122304_j8787503088149_2_alg».proof.Proof.KAggReal
import proofs.«122304_j8787503088149_2_alg».proof.Proof.KValDefs
import proofs.«122304_j8787503088149_2_alg».proof.Proof.KSage0
import proofs.«122304_j8787503088149_2_alg».proof.Proof.KBn1

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem Cert.Sage
open Cert.KernelIdeal.KHost Cert.KernelIdeal.KStats Cert.KernelIdeal.RegionVal Cert.KernelIdeal.KCarry

variable (m : (ℓ : Loc nD τ sig) → Buf (Elt Ideal) ℓ) (ρ : Dev nD → PrngReg) (c : Dev nD)

/-! ## What the first region finds -/

/-- The features the layer is entered with. -/
theorem feat0 : toMat (aX m c) = H0 m c := rfl

theorem ent0_0 : V1 m ρ c (Pipeline.arrRef spec0 0) = aggRows (src m c) (dst m c) (aX m c) := ops0_v22 (W0 m ρ c)
theorem ent0_1 : V1 m ρ c (Pipeline.arrRef spec0 1) = aX m c := keep0_main_arg0 (W0 m ρ c)
theorem ent0_2 : V1 m ρ c (Pipeline.arrRef spec0 2) = invV (dst m c) := ops0_v12 (W0 m ρ c)
theorem ent0_3 : V1 m ρ c (Pipeline.arrRef spec0 3) = sliceW0 (aWN m c) := ops0_v24 (W0 m ρ c)
theorem ent0_4 : V1 m ρ c (Pipeline.arrRef spec0 4) = sliceW0 (aWS m c) := ops0_v26 (W0 m ρ c)
theorem ent0_5 : V1 m ρ c (Pipeline.arrRef spec0 5) = sliceB0 (aB m c) := ops0_v28 (W0 m ρ c)

/-- The first region's affine map is the layer's, of the features the layer was entered with. -/
theorem pre0_eq : X0 (V1 m ρ) c = preOf m c 0 (H0 m c) := by
  funext p q
  unfold X0
  rw [ent0_0 m ρ c, ent0_1 m ρ c, ent0_2 m ρ c, ent0_3 m ρ c, ent0_4 m ρ c, ent0_5 m ρ c]
  simp only [sliceW0_apply, sliceB0_apply]
  unfold preOf aggM invM
  rw [← feat0 m c, ofMat_toMat]
  rfl

/-! ## What the first region leaves -/

theorem lay0_pre (p : Fin 50000) (q : Fin 96) :
    W2 m ρ c (Proc.devRef .tc main_v29_0) (ix2 p q) = preOf m c 0 (H0 m c) p q := by
  rw [show W2 m ρ c (Proc.devRef .tc main_v29_0) = (dat0 (V1 m ρ) c).arrAt 6 cfg0.N from W2_arr m ρ c 6,
    out0_pre (V1 m ρ) c p q, pre0_eq m ρ c]

theorem lay0_sum (r : Fin 80) (q : Fin 96) :
    W2 m ρ c (Proc.devRef .tc main_v29_1) (ix2 r q)
      = if r.val % 8 = 0 then w0 + ∑ i : Fin 5000, preOf m c 0 (H0 m c) ⟨5000 * (r.val / 8) + i.val, by omega⟩ q else w0 := by
  rw [show W2 m ρ c (Proc.devRef .tc main_v29_1) = (dat0 (V1 m ρ) c).arrAt 7 cfg0.N from W2_arr m ρ c 7,
    out0_sum (V1 m ρ) c r q, pre0_eq m ρ c]

theorem lay0_sumsq (r : Fin 80) (q : Fin 96) :
    W2 m ρ c (Proc.devRef .tc main_v29_2) (ix2 r q)
      = if r.val % 8 = 0 then w0 + ∑ i : Fin 5000, preOf m c 0 (H0 m c) ⟨5000 * (r.val / 8) + i.val, by omega⟩ q
          * preOf m c 0 (H0 m c) ⟨5000 * (r.val / 8) + i.val, by omega⟩ q else w0 := by
  rw [show W2 m ρ c (Proc.devRef .tc main_v29_2) = (dat0 (V1 m ρ) c).arrAt 8 cfg0.N from W2_arr m ρ c 8,
    out0_sumsq (V1 m ρ) c r q, pre0_eq m ρ c]

/-! ## What the second region finds -/

/-- The mean the host code computes from the partial sums is the columns' mean. -/
theorem mu0_eq (q : Fin 96) : muV (W2 m ρ c (Proc.devRef .tc main_v29_1)) (ix1 q) = mean (preOf m c 0 (H0 m c)) q := by
  rw [muV_apply]
  refine Eq.trans ?_ (mean_of_tiles (preOf m c 0 (H0 m c)) q)
  refine congrArg (fun s => Ideal.div (w0 + s) wN) ?_
  exact Finset.sum_congr rfl fun r _ => lay0_sum m ρ c r q

/-- The variance the host code computes from the partial sums is the kernel's form of the columns' variance. -/
theorem var0_eq (q : Fin 96) :
    varV (W2 m ρ c (Proc.devRef .tc main_v29_1)) (W2 m ρ c (Proc.devRef .tc main_v29_2)) (ix1 q) = varK (preOf m c 0 (H0 m c)) q := by
  rw [varV_apply, mu0_eq m ρ c q]
  unfold varK
  refine congrArg (fun s => max (s - mean (preOf m c 0 (H0 m c)) q * mean (preOf m c 0 (H0 m c)) q) w0) ?_
  refine Eq.trans ?_ (meansq_of_tiles (preOf m c 0 (H0 m c)) q)
  refine congrArg (fun s => Ideal.div (w0 + s) wN) ?_
  exact Finset.sum_congr rfl fun r _ => lay0_sumsq m ρ c r q

theorem bn0_0 : V3 m ρ c (Pipeline.arrRef spec1 0) = W2 m ρ c (Proc.devRef .tc main_v29_0) :=
  keep1_main_v29_0 (W2 m ρ c)
theorem bn0_1 : V3 m ρ c (Pipeline.arrRef spec1 1) = muV (W2 m ρ c (Proc.devRef .tc main_v29_1)) :=
  ops1_v32 (W2 m ρ c)
theorem bn0_2 : V3 m ρ c (Pipeline.arrRef spec1 2)
    = varV (W2 m ρ c (Proc.devRef .tc main_v29_1)) (W2 m ρ c (Proc.devRef .tc main_v29_2)) :=
  ops1_v39 (W2 m ρ c)
theorem bn0_3 : V3 m ρ c (Pipeline.arrRef spec1 3) = sliceB0 (aG m c) :=
  (ops1_v41 (W2 m ρ c)).trans (congrArg sliceB0 (arg5_at2 m ρ c))
theorem bn0_4 : V3 m ρ c (Pipeline.arrRef spec1 4) = sliceB0 (aBE m c) :=
  (ops1_v43 (W2 m ρ c)).trans (congrArg sliceB0 (arg6_at2 m ρ c))

/-! ## What the second region leaves -/

/-- Layer 0's output array holds the layer, in the kernel's form, of the input features. -/
theorem layer0_out (p : Fin 50000) (q : Fin 96) : W4 m ρ c (Proc.devRef .tc main_v44) (ix2 p q) = H1 m c p q := by
  rw [show W4 m ρ c (Proc.devRef .tc main_v44) = (dat1 (V3 m ρ) c).arrAt 5 cfg1.N from W4_arr m ρ c 5, out1_bn (V3 m ρ) c p q,
    bn0_0 m ρ c, bn0_1 m ρ c, bn0_2 m ρ c, bn0_3 m ρ c, bn0_4 m ρ c]
  have e0 : (fun i k => W2 m ρ c (Proc.devRef .tc main_v29_0) (ix2 i k)) = preOf m c 0 (H0 m c) :=
    funext fun i => funext fun k => lay0_pre m ρ c i k
  have e1 : (fun j => muV (W2 m ρ c (Proc.devRef .tc main_v29_1)) (ix1 j)) = mean (preOf m c 0 (H0 m c)) := funext (mu0_eq m ρ c)
  have e2 : (fun j => varV (W2 m ρ c (Proc.devRef .tc main_v29_1)) (W2 m ρ c (Proc.devRef .tc main_v29_2)) (ix1 j))
      = varK (preOf m c 0 (H0 m c)) := funext (var0_eq m ρ c)
  have e3 : (fun j => sliceB0 (aG m c) (ix1 j)) = pG m c 0 := funext fun j => sliceB0_apply _ j
  have e4 : (fun j => sliceB0 (aBE m c) (ix1 j)) = pBE m c 0 := funext fun j => sliceB0_apply _ j
  rw [e0, e1, e2, e3, e4]
  rfl

/-- The features the next layer is entered with. -/
theorem feat1 : toMat (W4 m ρ c (Proc.devRef .tc main_v44)) = H1 m c :=
  funext fun p => funext fun q => layer0_out m ρ c p q

end Cert.KernelIdeal.KVal

end
-- ==== Proof.KVal1.lean ====
/-
  Layer 1 of the idealized kernel program: what its two kernel regions and the host code between them leave.

  The first region finds the neighbour sums, the features, the reciprocal in-degrees and the layer's parameters, and
  leaves the affine map's values and, per tile of 5000 rows, the column sums and sums of squares.  The host code
  reduces the partial sums to the columns' means and variances.  The second region normalises, scales, shifts and
  clips.  Together: the layer in the kernel's form, applied to the features the layer was entered with.
-/
import proofs.«122304_j8787503088149_2_alg».proof.Proof.Gen.KernelIdeal.Frame
import proofs.«122304_j8787503088149_2_alg».proof.Proof.Spec
import proofs.«122304_j8787503088149_2_alg».proof.Proof.Reals
import proofs.«122304_j8787503088149_2_alg».proof.Proof.KCarry
import proofs.«122304_j8787503088149_2_alg».proof.Proof.KHost2
import proofs.«122304_j8787503088149_2_alg».proof.Proof.KHost3
import proofs.«122304_j8787503088149_2_alg».proof.Proof.KStats
import proofs.«122304_j8787503088149_2_alg».proof.Proof.KAggReal
import proofs.«122304_j8787503088149_2_alg».proof.Proof.KValDefs
import proofs.«122304_j8787503088149_2_alg».proof.Proof.KSage2
import proofs.«122304_j8787503088149_2_alg».proof.Proof.KBn3
import proofs.«122304_j8787503088149_2_alg».proof.Proof.KHost0
import proofs.«122304_j8787503088149_2_alg».proof.Proof.KVal0

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem Cert.Sage
open Cert.KernelIdeal.KHost Cert.KernelIdeal.KStats Cert.KernelIdeal.RegionVal Cert.KernelIdeal.KCarry

variable (m : (ℓ : Loc nD τ sig) → Buf (Elt Ideal) ℓ) (ρ : Dev nD → PrngReg) (c : Dev nD)

/-! ## What the first region finds -/

/-- The edge rows, the reciprocal in-degrees and the parameters are found as the first stretch left them. -/
theorem v1_is4 : W4 m ρ c (Proc.devRef .tc main_v1) = src m c := (v1_at4 m ρ c).trans (ops0_v1 (W0 m ρ c))
theorem v3_is4 : W4 m ρ c (Proc.devRef .tc main_v3) = dst m c := (v3_at4 m ρ c).trans (ops0_v3 (W0 m ρ c))

theorem ent1_0 : V5 m ρ c (Pipeline.arrRef spec2 0) = aggRows (src m c) (dst m c) (W4 m ρ c (Proc.devRef .tc main_v44)) :=
  (ops2_v54 (W4 m ρ c)).trans (by rw [v1_is4 m ρ c, v3_is4 m ρ c])
theorem ent1_1 : V5 m ρ c (Pipeline.arrRef spec2 1) = W4 m ρ c (Proc.devRef .tc main_v44) := keep2_main_v44 (W4 m ρ c)
theorem ent1_2 : V5 m ρ c (Pipeline.arrRef spec2 2) = invV (dst m c) := (v12_at5 m ρ c).trans (ops0_v12 (W0 m ρ c))
theorem ent1_3 : V5 m ρ c (Pipeline.arrRef spec2 3) = sliceW1 (aWN m c) :=
  (ops2_v56 (W4 m ρ c)).trans (congrArg sliceW1 (arg2_at4 m ρ c))
theorem ent1_4 : V5 m ρ c (Pipeline.arrRef spec2 4) = sliceW1 (aWS m c) :=
  (ops2_v58 (W4 m ρ c)).trans (congrArg sliceW1 (arg3_at4 m ρ c))
theorem ent1_5 : V5 m ρ c (Pipeline.arrRef spec2 5) = sliceB1 (aB m c) :=
  (ops2_v60 (W4 m ρ c)).trans (congrArg sliceB1 (arg4_at4 m ρ c))

/-- The first region's affine map is the layer's, of the features the layer was entered with. -/
theorem pre1_eq : X2 (V5 m ρ) c = preOf m c 1 (H1 m c) := by
  funext p q
  unfold X2
  rw [ent1_0 m ρ c, ent1_1 m ρ c, ent1_2 m ρ c, ent1_3 m ρ c, ent1_4 m ρ c, ent1_5 m ρ c]
  simp only [sliceW1_apply, sliceB1_apply]
  unfold preOf aggM invM
  rw [← feat1 m ρ c, ofMat_toMat]
  rfl

/-! ## What the first region leaves -/

theorem lay1_pre (p : Fin 50000) (q : Fin 96) :
    W6 m ρ c (Proc.devRef .tc main_v61_0) (ix2 p q) = preOf m c 1 (H1 m c) p q := by
  rw [show W6 m ρ c (Proc.devRef .tc main_v61_0) = (dat2 (V5 m ρ) c).arrAt 6 cfg2.N from W6_arr m ρ c 6,
    out2_pre (V5 m ρ) c p q, pre1_eq m ρ c]

theorem lay1_sum (r : Fin 80) (q : Fin 96) :
    W6 m ρ c (Proc.devRef .tc main_v61_1) (ix2 r q)
      = if r.val % 8 = 0 then w0 + ∑ i : Fin 5000, preOf m c 1 (H1 m c) ⟨5000 * (r.val / 8) + i.val, by omega⟩ q else w0 := by
  rw [show W6 m ρ c (Proc.devRef .tc main_v61_1) = (dat2 (V5 m ρ) c).arrAt 7 cfg2.N from W6_arr m ρ c 7,
    out2_sum (V5 m ρ) c r q, pre1_eq m ρ c]

theorem lay1_sumsq (r : Fin 80) (q : Fin 96) :
    W6 m ρ c (Proc.devRef .tc main_v61_2) (ix2 r q)
      = if r.val % 8 = 0 then w0 + ∑ i : Fin 5000, preOf m c 1 (H1 m c) ⟨5000 * (r.val / 8) + i.val, by omega⟩ q
          * preOf m c 1 (H1 m c) ⟨5000 * (r.val / 8) + i.val, by omega⟩ q else w0 := by
  rw [show W6 m ρ c (Proc.devRef .tc main_v61_2) = (dat2 (V5 m ρ) c).arrAt 8 cfg2.N from W6_arr m ρ c 8,
    out2_sumsq (V5 m ρ) c r q, pre1_eq m ρ c]

/-! ## What the second region finds -/

/-- The mean the host code computes from the partial sums is the columns' mean. -/
theorem mu1_eq (q : Fin 96) : muV (W6 m ρ c (Proc.devRef .tc main_v61_1)) (ix1 q) = mean (preOf m c 1 (H1 m c)) q := by
  rw [muV_apply]
  refine Eq.trans ?_ (mean_of_tiles (preOf m c 1 (H1 m c)) q)
  refine congrArg (fun s => Ideal.div (w0 + s) wN) ?_
  exact Finset.sum_congr rfl fun r _ => lay1_sum m ρ c r q

/-- The variance the host code computes from the partial sums is the kernel's form of the columns' variance. -/
theorem var1_eq (q : Fin 96) :
    varV (W6 m ρ c (Proc.devRef .tc main_v61_1)) (W6 m ρ c (Proc.devRef .tc main_v61_2)) (ix1 q) = varK (preOf m c 1 (H1 m c)) q := by
  rw [varV_apply, mu1_eq m ρ c q]
  unfold varK
  refine congrArg (fun s => max (s - mean (preOf m c 1 (H1 m c)) q * mean (preOf m c 1 (H1 m c)) q) w0) ?_
  refine Eq.trans ?_ (meansq_of_tiles (preOf m c 1 (H1 m c)) q)
  refine congrArg (fun s => Ideal.div (w0 + s) wN) ?_
  exact Finset.sum_congr rfl fun r _ => lay1_sumsq m ρ c r q

theorem bn1_0 : V7 m ρ c (Pipeline.arrRef spec3 0) = W6 m ρ c (Proc.devRef .tc main_v61_0) :=
  keep3_main_v61_0 (W6 m ρ c)
theorem bn1_1 : V7 m ρ c (Pipeline.arrRef spec3 1) = muV (W6 m ρ c (Proc.devRef .tc main_v61_1)) :=
  ops3_v64 (W6 m ρ c)
theorem bn1_2 : V7 m ρ c (Pipeline.arrRef spec3 2)
    = varV (W6 m ρ c (Proc.devRef .tc main_v61_1)) (W6 m ρ c (Proc.devRef .tc main_v61_2)) :=
  ops3_v71 (W6 m ρ c)
theorem bn1_3 : V7 m ρ c (Pipeline.arrRef spec3 3) = sliceB1 (aG m c) :=
  (ops3_v73 (W6 m ρ c)).trans (congrArg sliceB1 ((arg5_at6 m ρ c).trans (arg5_at2 m ρ c)))
theorem bn1_4 : V7 m ρ c (Pipeline.arrRef spec3 4) = sliceB1 (aBE m c) :=
  (ops3_v75 (W6 m ρ c)).trans (congrArg sliceB1 ((arg6_at6 m ρ c).trans (arg6_at2 m ρ c)))

/-! ## What the second region leaves -/

/-- Layer 1's output array holds the layer, in the kernel's form, of the input features. -/
theorem layer1_out (p : Fin 50000) (q : Fin 96) : W8 m ρ c (Proc.devRef .tc main_v76) (ix2 p q) = H2 m c p q := by
  rw [show W8 m ρ c (Proc.devRef .tc main_v76) = (dat3 (V7 m ρ) c).arrAt 5 cfg3.N from W8_arr m ρ c 5, out3_bn (V7 m ρ) c p q,
    bn1_0 m ρ c, bn1_1 m ρ c, bn1_2 m ρ c, bn1_3 m ρ c, bn1_4 m ρ c]
  have e0 : (fun i k => W6 m ρ c (Proc.devRef .tc main_v61_0) (ix2 i k)) = preOf m c 1 (H1 m c) :=
    funext fun i => funext fun k => lay1_pre m ρ c i k
  have e1 : (fun j => muV (W6 m ρ c (Proc.devRef .tc main_v61_1)) (ix1 j)) = mean (preOf m c 1 (H1 m c)) := funext (mu1_eq m ρ c)
  have e2 : (fun j => varV (W6 m ρ c (Proc.devRef .tc main_v61_1)) (W6 m ρ c (Proc.devRef .tc main_v61_2)) (ix1 j))
      = varK (preOf m c 1 (H1 m c)) := funext (var1_eq m ρ c)
  have e3 : (fun j => sliceB1 (aG m c) (ix1 j)) = pG m c 1 := funext fun j => sliceB1_apply _ j
  have e4 : (fun j => sliceB1 (aBE m c) (ix1 j)) = pBE m c 1 := funext fun j => sliceB1_apply _ j
  rw [e0, e1, e2, e3, e4]
  rfl

/-- The features the next layer is entered with. -/
theorem feat2 : toMat (W8 m ρ c (Proc.devRef .tc main_v76)) = H2 m c :=
  funext fun p => funext fun q => layer1_out m ρ c p q

end Cert.KernelIdeal.KVal

end
-- ==== Proof.KValFinal.lean ====
/-
  Layer 2 of the idealized kernel program: what its two kernel regions and the host code between them leave.

  The first region finds the neighbour sums, the features, the reciprocal in-degrees and the layer's parameters, and
  leaves the affine map's values and, per tile of 5000 rows, the column sums and sums of squares.  The host code
  reduces the partial sums to the columns' means and variances.  The second region normalises, scales, shifts and
  clips.  Together: the layer in the kernel's form, applied to the features the layer was entered with.
-/
import proofs.«122304_j8787503088149_2_alg».proof.Proof.Gen.KernelIdeal.Frame
import proofs.«122304_j8787503088149_2_alg».proof.Proof.Spec
import proofs.«122304_j8787503088149_2_alg».proof.Proof.Reals
import proofs.«122304_j8787503088149_2_alg».proof.Proof.KCarry
import proofs.«122304_j8787503088149_2_alg».proof.Proof.KHost4
import proofs.«122304_j8787503088149_2_alg».proof.Proof.KHost5
import proofs.«122304_j8787503088149_2_alg».proof.Proof.KStats
import proofs.«122304_j8787503088149_2_alg».proof.Proof.KAggReal
import proofs.«122304_j8787503088149_2_alg».proof.Proof.KValDefs
import proofs.«122304_j8787503088149_2_alg».proof.Proof.KSage4
import proofs.«122304_j8787503088149_2_alg».proof.Proof.KBn5
import proofs.«122304_j8787503088149_2_alg».proof.Proof.KHost0
import proofs.«122304_j8787503088149_2_alg».proof.Proof.KVal1

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem Cert.Sage
open Cert.KernelIdeal.KHost Cert.KernelIdeal.KStats Cert.KernelIdeal.RegionVal Cert.KernelIdeal.KCarry

variable (m : (ℓ : Loc nD τ sig) → Buf (Elt Ideal) ℓ) (ρ : Dev nD → PrngReg) (c : Dev nD)

/-! ## What the first region finds -/

/-- The edge rows, the reciprocal in-degrees and the parameters are found as the first stretch left them. -/
theorem v1_is8 : W8 m ρ c (Proc.devRef .tc main_v1) = src m c := (v1_at8 m ρ c).trans (v1_is4 m ρ c)
theorem v3_is8 : W8 m ρ c (Proc.devRef .tc main_v3) = dst m c := (v3_at8 m ρ c).trans (v3_is4 m ρ c)

theorem ent2_0 : V9 m ρ c (Pipeline.arrRef spec4 0) = aggRows (src m c) (dst m c) (W8 m ρ c (Proc.devRef .tc main_v76)) :=
  (ops4_v86 (W8 m ρ c)).trans (by rw [v1_is8 m ρ c, v3_is8 m ρ c])
theorem ent2_1 : V9 m ρ c (Pipeline.arrRef spec4 1) = W8 m ρ c (Proc.devRef .tc main_v76) := keep4_main_v76 (W8 m ρ c)
theorem ent2_2 : V9 m ρ c (Pipeline.arrRef spec4 2) = invV (dst m c) :=
  (v12_at9 m ρ c).trans ((v12_at5 m ρ c).trans (ops0_v12 (W0 m ρ c)))
theorem ent2_3 : V9 m ρ c (Pipeline.arrRef spec4 3) = sliceW2 (aWN m c) :=
  (ops4_v88 (W8 m ρ c)).trans (congrArg sliceW2 ((arg2_at8 m ρ c).trans (arg2_at4 m ρ c)))
theorem ent2_4 : V9 m ρ c (Pipeline.arrRef spec4 4) = sliceW2 (aWS m c) :=
  (ops4_v90 (W8 m ρ c)).trans (congrArg sliceW2 ((arg3_at8 m ρ c).trans (arg3_at4 m ρ c)))
theorem ent2_5 : V9 m ρ c (Pipeline.arrRef spec4 5) = sliceB2 (aB m c) :=
  (ops4_v92 (W8 m ρ c)).trans (congrArg sliceB2 ((arg4_at8 m ρ c).trans (arg4_at4 m ρ c)))

/-- The first region's affine map is the layer's, of the features the layer was entered with. -/
theorem pre2_eq : X4 (V9 m ρ) c = preOf m c 2 (H2 m c) := by
  funext p q
  unfold X4
  rw [ent2_0 m ρ c, ent2_1 m ρ c, ent2_2 m ρ c, ent2_3 m ρ c, ent2_4 m ρ c, ent2_5 m ρ c]
  simp only [sliceW2_apply, sliceB2_apply]
  unfold preOf aggM invM
  rw [← feat2 m ρ c, ofMat_toMat]
  rfl

/-! ## What the first region leaves -/

theorem lay2_pre (p : Fin 50000) (q : Fin 96) :
    W10 m ρ c (Proc.devRef .tc main_v93_0) (ix2 p q) = preOf m c 2 (H2 m c) p q := by
  rw [show W10 m ρ c (Proc.devRef .tc main_v93_0) = (dat4 (V9 m ρ) c).arrAt 6 cfg4.N from W10_arr m ρ c 6,
    out4_pre (V9 m ρ) c p q, pre2_eq m ρ c]

theorem lay2_sum (r : Fin 80) (q : Fin 96) :
    W10 m ρ c (Proc.devRef .tc main_v93_1) (ix2 r q)
      = if r.val % 8 = 0 then w0 + ∑ i : Fin 5000, preOf m c 2 (H2 m c) ⟨5000 * (r.val / 8) + i.val, by omega⟩ q else w0 := by
  rw [show W10 m ρ c (Proc.devRef .tc main_v93_1) = (dat4 (V9 m ρ) c).arrAt 7 cfg4.N from W10_arr m ρ c 7,
    out4_sum (V9 m ρ) c r q, pre2_eq m ρ c]

theorem lay2_sumsq (r : Fin 80) (q : Fin 96) :
    W10 m ρ c (Proc.devRef .tc main_v93_2) (ix2 r q)
      = if r.val % 8 = 0 then w0 + ∑ i : Fin 5000, preOf m c 2 (H2 m c) ⟨5000 * (r.val / 8) + i.val, by omega⟩ q
          * preOf m c 2 (H2 m c) ⟨5000 * (r.val / 8) + i.val, by omega⟩ q else w0 := by
  rw [show W10 m ρ c (Proc.devRef .tc main_v93_2) = (dat4 (V9 m ρ) c).arrAt 8 cfg4.N from W10_arr m ρ c 8,
    out4_sumsq (V9 m ρ) c r q, pre2_eq m ρ c]

/-! ## What the second region finds -/

/-- The mean the host code computes from the partial sums is the columns' mean. -/
theorem mu2_eq (q : Fin 96) : muV (W10 m ρ c (Proc.devRef .tc main_v93_1)) (ix1 q) = mean (preOf m c 2 (H2 m c)) q := by
  rw [muV_apply]
  refine Eq.trans ?_ (mean_of_tiles (preOf m c 2 (H2 m c)) q)
  refine congrArg (fun s => Ideal.div (w0 + s) wN) ?_
  exact Finset.sum_congr rfl fun r _ => lay2_sum m ρ c r q

/-- The variance the host code computes from the partial sums is the kernel's form of the columns' variance. -/
theorem var2_eq (q : Fin 96) :
    varV (W10 m ρ c (Proc.devRef .tc main_v93_1)) (W10 m ρ c (Proc.devRef .tc main_v93_2)) (ix1 q) = varK (preOf m c 2 (H2 m c)) q := by
  rw [varV_apply, mu2_eq m ρ c q]
  unfold varK
  refine congrArg (fun s => max (s - mean (preOf m c 2 (H2 m c)) q * mean (preOf m c 2 (H2 m c)) q) w0) ?_
  refine Eq.trans ?_ (meansq_of_tiles (preOf m c 2 (H2 m c)) q)
  refine congrArg (fun s => Ideal.div (w0 + s) wN) ?_
  exact Finset.sum_congr rfl fun r _ => lay2_sumsq m ρ c r q

theorem bn2_0 : V11 m ρ c (Pipeline.arrRef spec5 0) = W10 m ρ c (Proc.devRef .tc main_v93_0) :=
  keep5_main_v93_0 (W10 m ρ c)
theorem bn2_1 : V11 m ρ c (Pipeline.arrRef spec5 1) = muV (W10 m ρ c (Proc.devRef .tc main_v93_1)) :=
  ops5_v96 (W10 m ρ c)
theorem bn2_2 : V11 m ρ c (Pipeline.arrRef spec5 2)
    = varV (W10 m ρ c (Proc.devRef .tc main_v93_1)) (W10 m ρ c (Proc.devRef .tc main_v93_2)) :=
  ops5_v103 (W10 m ρ c)
theorem bn2_3 : V11 m ρ c (Pipeline.arrRef spec5 3) = sliceB2 (aG m c) :=
  (ops5_v105 (W10 m ρ c)).trans (congrArg sliceB2 ((arg5_at10 m ρ c).trans ((arg5_at6 m ρ c).trans (arg5_at2 m ρ c))))
theorem bn2_4 : V11 m ρ c (Pipeline.arrRef spec5 4) = sliceB2 (aBE m c) :=
  (ops5_v107 (W10 m ρ c)).trans (congrArg sliceB2 ((arg6_at10 m ρ c).trans ((arg6_at6 m ρ c).trans (arg6_at2 m ρ c))))

/-! ## What the second region leaves -/

theorem clf_5 : V11 m ρ c (Pipeline.arrRef spec5 5) = aCW m c := arg7_at11 m ρ c
theorem clf_6 : V11 m ρ c (Pipeline.arrRef spec5 6) = aCB m c := arg8_at11 m ρ c

/-- The result array holds the whole network, in the kernel's form, of the input features: the last region
    normalises, clips and applies the classifier in one pass. -/
theorem kernel_value (p : Fin 50000) (k : Fin 10) :
    W12 m ρ c (Proc.devRef .tc main_v108) (ix2 p k)
      = netK (aggM (src m c) (dst m c)) (invM (dst m c)) (pWN m c) (pWS m c) (pB m c) (pG m c) (pBE m c) (pCW m c) (pCB m c) (H0 m c) p k := by
  rw [show W12 m ρ c (Proc.devRef .tc main_v108) = (dat5 (V11 m ρ) c).arrAt 7 cfg5.N from W12_arr m ρ c 7, out5_clf (V11 m ρ) c p k,
    bn2_0 m ρ c, bn2_1 m ρ c, bn2_2 m ρ c, bn2_3 m ρ c, bn2_4 m ρ c, clf_5 m ρ c, clf_6 m ρ c]
  have e0 : (fun i k => W10 m ρ c (Proc.devRef .tc main_v93_0) (ix2 i k)) = preOf m c 2 (H2 m c) :=
    funext fun i => funext fun k => lay2_pre m ρ c i k
  have e1 : (fun j => muV (W10 m ρ c (Proc.devRef .tc main_v93_1)) (ix1 j)) = mean (preOf m c 2 (H2 m c)) := funext (mu2_eq m ρ c)
  have e2 : (fun j => varV (W10 m ρ c (Proc.devRef .tc main_v93_1)) (W10 m ρ c (Proc.devRef .tc main_v93_2)) (ix1 j))
      = varK (preOf m c 2 (H2 m c)) := funext (var2_eq m ρ c)
  have e3 : (fun j => sliceB2 (aG m c) (ix1 j)) = pG m c 2 := funext fun j => sliceB2_apply _ j
  have e4 : (fun j => sliceB2 (aBE m c) (ix1 j)) = pBE m c 2 := funext fun j => sliceB2_apply _ j
  rw [e0, e1, e2, e3, e4]
  rfl

end Cert.KernelIdeal.KVal

end
-- ==== Proof.RefRead.lean ====
/-
  The reference program's host operations composed as functions of whole arrays, and those functions read at an index.

  The edge list's two rows give the source and target columns (a negative source wrapped by the node count); the
  reciprocal in-degrees are one over the larger of one and the count of edges arriving at a node; the neighbour sums
  gather the source rows of the features and add them into the target rows.  A layer then multiplies the neighbour sums
  by the reciprocal degrees, applies the two weight matrices and the bias, takes every column's mean and its variance
  (the mean of the squared deviations), normalises, scales, shifts and clips below at zero; the last step is one more
  affine map.  Each definition below is the composition of the program's operations in the program's order; the
  theorems after them read a composition at an index as the specification's function of the entries.
-/
import proofs.«122304_j8787503088149_2_alg».proof.ReferenceIdeal
import proofs.«122304_j8787503088149_2_alg».proof.Proof.Spec
import proofs.«122304_j8787503088149_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Idealize.ShloMosaic Idealize.ShloMosaic.ValueIdx Cert.Sage

variable [Facts]
open Facts₀ Facts

/-! ## The compositions -/

/-- Rows 0 and 1 of the edge list, each as a vector of 800000 entries: the slice of the row, its unit axis dropped. -/
def srcRow (e : IVec S2x800000 32) : IVec S800000 32 :=
  shapeCast S800000 (extractStridedSlice S1x800000 ![0, 0] e slices_S2x800000_S1x800000_0_0) shapeCasts_S1x800000_S800000
def dstRow (e : IVec S2x800000 32) : IVec S800000 32 :=
  shapeCast S800000 (extractStridedSlice S1x800000 ![1, 0] e slices_S2x800000_S1x800000_1_0) shapeCasts_S1x800000_S800000

/-- The source column: row 0 of the edge list, an entry below zero moved up by the node count, as an 800000 × 1 column. -/
def srcIdx (e : IVec S2x800000 32) : IVec S800000x1 32 :=
  broadcastInDim S800000x1 ![0] bcast_S800000_S800000x1_0
    (select (cmpi .slt (srcRow e) (broadcastInDim S800000 ![] bcast_S_S800000 (constantI S_ 32 0#32)))
      (addi (srcRow e) (broadcastInDim S800000 ![] bcast_S_S800000 (constantI S_ 32 50000#32)))
      (srcRow e))

/-- The target column: row 1 of the edge list as an 800000 × 1 column. -/
def dstIdx (e : IVec S2x800000 32) : IVec S800000x1 32 :=
  broadcastInDim S800000x1 ![0] bcast_S800000_S800000x1_0 (dstRow e)

/-- The reciprocal in-degrees as a column: ones added into zeros at the targets, kept at least one, and one over that. -/
def invV (e : IVec S2x800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf
        (Host.scatterAdd scatter_S50000_S800000x1_S800000_n_0_0_1
          (broadcastInDim S50000 ![] bcast_S_S50000 (constant (F := Ideal) S_ .f32 0x00000000#32))
          (dstIdx e)
          (broadcastInDim S800000 ![] bcast_S_S800000 (constant (F := Ideal) S_ .f32 0x3F800000#32)))
        (broadcastInDim S50000 ![] bcast_S_S50000 (constant (F := Ideal) S_ .f32 0x3F800000#32))))

/-- The neighbour sums: the features' rows at the sources, added into zeros at the targets. -/
def aggV (e : IVec S2x800000 32) (h : FVec Ideal S50000x96 .f32) : FVec Ideal S50000x96 .f32 :=
  Host.scatterAdd scatter_S50000x96_S800000x1_S800000x96_1_0_0_1
    (broadcastInDim S50000x96 ![] bcast_S_S50000x96 (constant (F := Ideal) S_ .f32 0x00000000#32))
    (dstIdx e)
    (Host.gather gather_S50000x96_S800000x1_S800000x96_1_0_n_n_0_1_196 h (srcIdx e))

/-- A vector of 96 entries repeated along the 50000 rows: first as a 1 × 96 row, then along the rows. -/
def rowsV (v : FVec Ideal S96 .f32) : FVec Ideal S50000x96 .f32 :=
  broadcastInDim S50000x96 ![0, 1] bcast_S1x96_S50000x96_0_1 (broadcastInDim S1x96 ![1] bcast_S96_S1x96_1 v)

/-- The affine part of a layer from its own weight matrices and bias. -/
def preV (e : IVec S2x800000 32) (wnl wsl : FVec Ideal S96x96 .f32) (bl : FVec Ideal S96 .f32)
    (h : FVec Ideal S50000x96 .f32) : FVec Ideal S50000x96 .f32 :=
  addf
    (addf
      (Host.dotGeneral dot_S50000x96_S96x96_S50000x96_1_0_0_1_n_n none
        (mulf (aggV e h) (broadcastInDim S50000x96 ![0, 1] bcast_S50000x1_S50000x96_0_1 (invV e))) wnl)
      (Host.dotGeneral dot_S50000x96_S96x96_S50000x96_1_0_0_1_n_n none h wsl))
    (rowsV bl)

/-- The columns' sums over the nodes from the zero word. -/
def colsumV (x : FVec Ideal S50000x96 .f32) : FVec Ideal S96 .f32 :=
  Host.reduceAdd x (constant (F := Ideal) S_ .f32 0x00000000#32) reducesTo_S50000x96_S96_d0 h_S_

/-- The columns' means: the sums over the node count. -/
def meanV (x : FVec Ideal S50000x96 .f32) : FVec Ideal S96 .f32 :=
  Host.divf (colsumV x) (broadcastInDim S96 ![] bcast_S_S96 (constant (F := Ideal) S_ .f32 0x47435000#32))

/-- The node count less the correction `c` read as a float: the variance's divisor. -/
def cntV (c : IVec S_ 32) : FVec Ideal S_ .f32 :=
  subf (constant (F := Ideal) S_ .f32 0x47435000#32) (sitofp .f32 c)

/-- The squared deviations from the columns' means, the means taken as a 1 × 96 row. -/
def devsqV (x : FVec Ideal S50000x96 .f32) : FVec Ideal S50000x96 .f32 :=
  mulf
    (subf x (broadcastInDim S50000x96 ![0, 1] bcast_S1x96_S50000x96_0_1
      (Host.divf (broadcastInDim S1x96 ![1] bcast_S96_S1x96_1 (colsumV x))
        (broadcastInDim S1x96 ![] bcast_S_S1x96 (constant (F := Ideal) S_ .f32 0x47435000#32)))))
    (subf x (broadcastInDim S50000x96 ![0, 1] bcast_S1x96_S50000x96_0_1
      (Host.divf (broadcastInDim S1x96 ![1] bcast_S96_S1x96_1 (colsumV x))
        (broadcastInDim S1x96 ![] bcast_S_S1x96 (constant (F := Ideal) S_ .f32 0x47435000#32)))))

/-- The columns' variances: the sums of the squared deviations over the divisor, where the divisor is above zero (and a
    fixed word elsewhere). -/
def varV (x : FVec Ideal S50000x96 .f32) (c : IVec S_ 32) : FVec Ideal S96 .f32 :=
  select (broadcastInDim S96 ![] bcast_S_S96 (cmpf .ogt (cntV c) (constant (F := Ideal) S_ .f32 0x00000000#32)))
    (Host.divf (colsumV (devsqV x)) (broadcastInDim S96 ![] bcast_S_S96 (cntV c)))
    (broadcastInDim S96 ![] bcast_S_S96 (id (constant (F := Ideal) S_ .f32 0x7FC00000#32)))

/-- Clip below at zero. -/
def reluV (x : FVec Ideal S50000x96 .f32) : FVec Ideal S50000x96 .f32 :=
  maximumf x (broadcastInDim S50000x96 ![] bcast_S_S50000x96 (constant (F := Ideal) S_ .f32 0x00000000#32))

/-- Normalise every column by its mean and variance, scale, shift and clip. -/
def bnV (x : FVec Ideal S50000x96 .f32) (gl bel : FVec Ideal S96 .f32) : FVec Ideal S50000x96 .f32 :=
  reluV
    (addf
      (mulf
        (mulf (subf x (rowsV (meanV x)))
          (rowsV (Host.rsqrt (addf (varV x (constantI S_ 32 0#32))
            (broadcastInDim S96 ![] bcast_S_S96 (constant (F := Ideal) S_ .f32 0x3727C5AC#32))))))
        (rowsV gl))
      (rowsV bel))

/-- Matrix `l` of a stack of three 96 × 96 matrices, and row `l` of a 3 × 96 table: a slice, its unit axis dropped. -/
def mat0 (w : FVec Ideal S3x96x96 .f32) : FVec Ideal S96x96 .f32 :=
  shapeCast S96x96 (extractStridedSlice S1x96x96 ![0, 0, 0] w slices_S3x96x96_S1x96x96_0_0_0) shapeCasts_S1x96x96_S96x96
def mat1 (w : FVec Ideal S3x96x96 .f32) : FVec Ideal S96x96 .f32 :=
  shapeCast S96x96 (extractStridedSlice S1x96x96 ![1, 0, 0] w slices_S3x96x96_S1x96x96_1_0_0) shapeCasts_S1x96x96_S96x96
def mat2 (w : FVec Ideal S3x96x96 .f32) : FVec Ideal S96x96 .f32 :=
  shapeCast S96x96 (extractStridedSlice S1x96x96 ![2, 0, 0] w slices_S3x96x96_S1x96x96_2_0_0) shapeCasts_S1x96x96_S96x96
def row0 (b : FVec Ideal S3x96 .f32) : FVec Ideal S96 .f32 :=
  shapeCast S96 (extractStridedSlice S1x96 ![0, 0] b slices_S3x96_S1x96_0_0) shapeCasts_S1x96_S96
def row1 (b : FVec Ideal S3x96 .f32) : FVec Ideal S96 .f32 :=
  shapeCast S96 (extractStridedSlice S1x96 ![1, 0] b slices_S3x96_S1x96_1_0) shapeCasts_S1x96_S96
def row2 (b : FVec Ideal S3x96 .f32) : FVec Ideal S96 .f32 :=
  shapeCast S96 (extractStridedSlice S1x96 ![2, 0] b slices_S3x96_S1x96_2_0) shapeCasts_S1x96_S96

/-- The three layers, each with its own slice of the stacked parameters. -/
def layerV0 (e : IVec S2x800000 32) (wn ws : FVec Ideal S3x96x96 .f32) (b g be : FVec Ideal S3x96 .f32)
    (h : FVec Ideal S50000x96 .f32) : FVec Ideal S50000x96 .f32 :=
  bnV (preV e (mat0 wn) (mat0 ws) (row0 b) h) (row0 g) (row0 be)
def layerV1 (e : IVec S2x800000 32) (wn ws : FVec Ideal S3x96x96 .f32) (b g be : FVec Ideal S3x96 .f32)
    (h : FVec Ideal S50000x96 .f32) : FVec Ideal S50000x96 .f32 :=
  bnV (preV e (mat1 wn) (mat1 ws) (row1 b) h) (row1 g) (row1 be)
def layerV2 (e : IVec S2x800000 32) (wn ws : FVec Ideal S3x96x96 .f32) (b g be : FVec Ideal S3x96 .f32)
    (h : FVec Ideal S50000x96 .f32) : FVec Ideal S50000x96 .f32 :=
  bnV (preV e (mat2 wn) (mat2 ws) (row2 b) h) (row2 g) (row2 be)

/-- The last affine map: ten scores per node. -/
def scoresV (cw : FVec Ideal S96x10 .f32) (cb : FVec Ideal S10 .f32) (h : FVec Ideal S50000x96 .f32) :
    FVec Ideal S50000x10 .f32 :=
  addf (Host.dotGeneral dot_S50000x96_S96x10_S50000x10_1_0_0_1_n_n none h cw)
    (broadcastInDim S50000x10 ![0, 1] bcast_S1x10_S50000x10_0_1 (broadcastInDim S1x10 ![1] bcast_S10_S1x10_1 cb))

/-- An array of 50000 × 96 entries as a matrix of its entries, and back. -/
def toMat (v : FVec Ideal S50000x96 .f32) : Mat 50000 96 := fun i k => v (ix2 i k)
def ofMat (x : Mat 50000 96) : FVec Ideal S50000x96 .f32 := fun j => x (j 0) (j 1)

/-- The neighbour sums and the reciprocal degrees over matrices of entries. -/
def aggM (e : IVec S2x800000 32) : Mat 50000 96 → Mat 50000 96 := fun h => toMat (aggV e (ofMat h))
def invM (e : IVec S2x800000 32) : Fin 50000 → EReal := fun p => invV e (ix2 p (0 : Fin 1))

end Cert.ReferenceIdeal.RefRead

end
-- ==== Proof.RefRunF.lean ====
/-
  What the reference's host operations compute, as functions of vectors: the two index vectors of the edge list and
  the reciprocal in-degrees; a layer before normalisation; batch normalisation with the clamp at zero; the
  classifier; and the three layers and the whole network composed of them. Each is the composition of the operations'
  own functions in the order @main applies them, so that the fold of the operations at a buffer is one of these
  applied to the contents of the buffers it reads.
-/
import proofs.«122304_j8787503088149_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Row 0 of the edge list as a vector: the source node of each edge. -/
def srcV (e : (⟨S2x800000, .i32⟩ : BufTy).Contents (Elt F)) :
    (⟨S800000, .i32⟩ : BufTy).Contents (Elt F) :=
  shapeCast _ (extractStridedSlice S1x800000 ![0, 0] (e) slices_S2x800000_S1x800000_0_0) shapeCasts_S1x800000_S800000

/-- Row 1 of the edge list as a vector: the destination node of each edge. -/
def dstV (e : (⟨S2x800000, .i32⟩ : BufTy).Contents (Elt F)) :
    (⟨S800000, .i32⟩ : BufTy).Contents (Elt F) :=
  shapeCast _ (extractStridedSlice S1x800000 ![1, 0] (e) slices_S2x800000_S1x800000_1_0) shapeCasts_S1x800000_S800000

/-- The reciprocal in-degrees as a column: ones scatter-added at the destinations, clamped below at one, inverted. -/
def invDegV (dst : (⟨S800000, .i32⟩ : BufTy).Contents (Elt F)) :
    (⟨S50000x1, .f32⟩ : BufTy).Contents (Elt F) :=
  broadcastInDim S50000x1 ![0] bcast_S50000_S50000x1_0 (Host.divf (broadcastInDim S50000 ![] bcast_S_S50000 (constant (F := F) S_ .f32 0x3F800000#32)) (maximumf (Host.scatterAdd scatter_S50000_S800000x1_S800000_n_0_0_1 (broadcastInDim S50000 ![] bcast_S_S50000 (constant (F := F) S_ .f32 0x00000000#32)) (broadcastInDim S800000x1 ![0] bcast_S800000_S800000x1_0 (dst)) (broadcastInDim S800000 ![] bcast_S_S800000 (constant (F := F) S_ .f32 0x3F800000#32))) (broadcastInDim S50000 ![] bcast_S_S50000 (constant (F := F) S_ .f32 0x3F800000#32))))

/-- Matrix 0 of a stack of three. -/
def matV0 (w : (⟨S3x96x96, .f32⟩ : BufTy).Contents (Elt F)) :
    (⟨S96x96, .f32⟩ : BufTy).Contents (Elt F) :=
  shapeCast _ (extractStridedSlice S1x96x96 ![0, 0, 0] (w) slices_S3x96x96_S1x96x96_0_0_0) shapeCasts_S1x96x96_S96x96

/-- Matrix 1 of a stack of three. -/
def matV1 (w : (⟨S3x96x96, .f32⟩ : BufTy).Contents (Elt F)) :
    (⟨S96x96, .f32⟩ : BufTy).Contents (Elt F) :=
  shapeCast _ (extractStridedSlice S1x96x96 ![1, 0, 0] (w) slices_S3x96x96_S1x96x96_1_0_0) shapeCasts_S1x96x96_S96x96

/-- Matrix 2 of a stack of three. -/
def matV2 (w : (⟨S3x96x96, .f32⟩ : BufTy).Contents (Elt F)) :
    (⟨S96x96, .f32⟩ : BufTy).Contents (Elt F) :=
  shapeCast _ (extractStridedSlice S1x96x96 ![2, 0, 0] (w) slices_S3x96x96_S1x96x96_2_0_0) shapeCasts_S1x96x96_S96x96

/-- Row 0 of a stack of three. -/
def rowV0 (w : (⟨S3x96, .f32⟩ : BufTy).Contents (Elt F)) :
    (⟨S96, .f32⟩ : BufTy).Contents (Elt F) :=
  shapeCast _ (extractStridedSlice S1x96 ![0, 0] (w) slices_S3x96_S1x96_0_0) shapeCasts_S1x96_S96

/-- Row 1 of a stack of three. -/
def rowV1 (w : (⟨S3x96, .f32⟩ : BufTy).Contents (Elt F)) :
    (⟨S96, .f32⟩ : BufTy).Contents (Elt F) :=
  shapeCast _ (extractStridedSlice S1x96 ![1, 0] (w) slices_S3x96_S1x96_1_0) shapeCasts_S1x96_S96

/-- Row 2 of a stack of three. -/
def rowV2 (w : (⟨S3x96, .f32⟩ : BufTy).Contents (Elt F)) :
    (⟨S96, .f32⟩ : BufTy).Contents (Elt F) :=
  shapeCast _ (extractStridedSlice S1x96 ![2, 0] (w) slices_S3x96_S1x96_2_0) shapeCasts_S1x96_S96

/-- A layer before normalisation: the rows of `h` gathered at the sources (a negative index wrapped) and
    scatter-added at the destinations, scaled by the reciprocal degree, times `Wn`; plus `h` times `Ws`; plus the bias row. -/
def preV (h : (⟨S50000x96, .f32⟩ : BufTy).Contents (Elt F)) (src : (⟨S800000, .i32⟩ : BufTy).Contents (Elt F)) (dst : (⟨S800000, .i32⟩ : BufTy).Contents (Elt F)) (invdeg : (⟨S50000x1, .f32⟩ : BufTy).Contents (Elt F)) (Wn : (⟨S96x96, .f32⟩ : BufTy).Contents (Elt F)) (Ws : (⟨S96x96, .f32⟩ : BufTy).Contents (Elt F)) (b : (⟨S96, .f32⟩ : BufTy).Contents (Elt F)) :
    (⟨S50000x96, .f32⟩ : BufTy).Contents (Elt F) :=
  addf (addf (Host.dotGeneral dot_S50000x96_S96x96_S50000x96_1_0_0_1_n_n none (mulf (Host.scatterAdd scatter_S50000x96_S800000x1_S800000x96_1_0_0_1 (broadcastInDim S50000x96 ![] bcast_S_S50000x96 (constant (F := F) S_ .f32 0x00000000#32)) (broadcastInDim S800000x1 ![0] bcast_S800000_S800000x1_0 (dst)) (Host.gather gather_S50000x96_S800000x1_S800000x96_1_0_n_n_0_1_196 (h) (broadcastInDim S800000x1 ![0] bcast_S800000_S800000x1_0 (select (cmpi .slt (src) (broadcastInDim S800000 ![] bcast_S_S800000 (constantI S_ 32 0#32))) (addi (src) (broadcastInDim S800000 ![] bcast_S_S800000 (constantI S_ 32 50000#32))) (src))))) (broadcastInDim S50000x96 ![0, 1] bcast_S50000x1_S50000x96_0_1 (invdeg))) (Wn)) (Host.dotGeneral dot_S50000x96_S96x96_S50000x96_1_0_0_1_n_n none (h) (Ws))) (broadcastInDim S50000x96 ![0, 1] bcast_S1x96_S50000x96_0_1 (broadcastInDim S1x96 ![1] bcast_S96_S1x96_1 (b)))

/-- Batch normalisation over the rows and the clamp at zero: with `mu` the column mean and `var` the two-pass column
    variance (the mean of the squared deviations, its divisor `50000 - 0` guarded by a select that is never taken the other way),
    `(pre - mu) * rsqrt (var + eps) * g + be`, then the maximum with zero. -/
def normV (pre : (⟨S50000x96, .f32⟩ : BufTy).Contents (Elt F)) (g : (⟨S96, .f32⟩ : BufTy).Contents (Elt F)) (be : (⟨S96, .f32⟩ : BufTy).Contents (Elt F)) :
    (⟨S50000x96, .f32⟩ : BufTy).Contents (Elt F) :=
  maximumf (addf (mulf (mulf (subf (pre) (broadcastInDim S50000x96 ![0, 1] bcast_S1x96_S50000x96_0_1 (broadcastInDim S1x96 ![1] bcast_S96_S1x96_1 (Host.divf (Host.reduceAdd (pre) (constant (F := F) S_ .f32 0x00000000#32) reducesTo_S50000x96_S96_d0 h_S_) (broadcastInDim S96 ![] bcast_S_S96 (constant (F := F) S_ .f32 0x47435000#32)))))) (broadcastInDim S50000x96 ![0, 1] bcast_S1x96_S50000x96_0_1 (broadcastInDim S1x96 ![1] bcast_S96_S1x96_1 (Host.rsqrt (addf (select (broadcastInDim S96 ![] bcast_S_S96 (cmpf .ogt (subf (constant (F := F) S_ .f32 0x47435000#32) (sitofp (F := F) .f32 (constantI S_ 32 0#32))) (constant (F := F) S_ .f32 0x00000000#32))) (Host.divf (Host.reduceAdd (mulf (subf (pre) (broadcastInDim S50000x96 ![0, 1] bcast_S1x96_S50000x96_0_1 (Host.divf (broadcastInDim S1x96 ![1] bcast_S96_S1x96_1 (Host.reduceAdd (pre) (constant (F := F) S_ .f32 0x00000000#32) reducesTo_S50000x96_S96_d0 h_S_)) (broadcastInDim S1x96 ![] bcast_S_S1x96 (constant (F := F) S_ .f32 0x47435000#32))))) (subf (pre) (broadcastInDim S50000x96 ![0, 1] bcast_S1x96_S50000x96_0_1 (Host.divf (broadcastInDim S1x96 ![1] bcast_S96_S1x96_1 (Host.reduceAdd (pre) (constant (F := F) S_ .f32 0x00000000#32) reducesTo_S50000x96_S96_d0 h_S_)) (broadcastInDim S1x96 ![] bcast_S_S1x96 (constant (F := F) S_ .f32 0x47435000#32)))))) (constant (F := F) S_ .f32 0x00000000#32) reducesTo_S50000x96_S96_d0 h_S_) (broadcastInDim S96 ![] bcast_S_S96 (subf (constant (F := F) S_ .f32 0x47435000#32) (sitofp (F := F) .f32 (constantI S_ 32 0#32))))) (broadcastInDim S96 ![] bcast_S_S96 (id (constant (F := F) S_ .f32 0x7FC00000#32)))) (broadcastInDim S96 ![] bcast_S_S96 (constant (F := F) S_ .f32 0x3727C5AC#32))))))) (broadcastInDim S50000x96 ![0, 1] bcast_S1x96_S50000x96_0_1 (broadcastInDim S1x96 ![1] bcast_S96_S1x96_1 (g)))) (broadcastInDim S50000x96 ![0, 1] bcast_S1x96_S50000x96_0_1 (broadcastInDim S1x96 ![1] bcast_S96_S1x96_1 (be)))) (broadcastInDim S50000x96 ![] bcast_S_S50000x96 (constant (F := F) S_ .f32 0x00000000#32))

/-- The classifier: `h` times the weights plus the bias row. -/
def scoresV (h : (⟨S50000x96, .f32⟩ : BufTy).Contents (Elt F)) (W : (⟨S96x10, .f32⟩ : BufTy).Contents (Elt F)) (b : (⟨S10, .f32⟩ : BufTy).Contents (Elt F)) :
    (⟨S50000x10, .f32⟩ : BufTy).Contents (Elt F) :=
  addf (Host.dotGeneral dot_S50000x96_S96x10_S50000x10_1_0_0_1_n_n none (h) (W)) (broadcastInDim S50000x10 ![0, 1] bcast_S1x10_S50000x10_0_1 (broadcastInDim S1x10 ![1] bcast_S10_S1x10_1 (b)))

/-- Layer 0: the normalised and clamped rows from the layer's input rows, the edge list and the layer's slices of the five parameter stacks. -/
def layerV0 (h : (⟨S50000x96, .f32⟩ : BufTy).Contents (Elt F)) (e : (⟨S2x800000, .i32⟩ : BufTy).Contents (Elt F)) (wn ws : (⟨S3x96x96, .f32⟩ : BufTy).Contents (Elt F))
    (b g be : (⟨S3x96, .f32⟩ : BufTy).Contents (Elt F)) : (⟨S50000x96, .f32⟩ : BufTy).Contents (Elt F) :=
  normV (preV h (srcV e) (dstV e) (invDegV (dstV e)) (matV0 wn) (matV0 ws) (rowV0 b)) (rowV0 g) (rowV0 be)

/-- Layer 1: the normalised and clamped rows from the layer's input rows, the edge list and the layer's slices of the five parameter stacks. -/
def layerV1 (h : (⟨S50000x96, .f32⟩ : BufTy).Contents (Elt F)) (e : (⟨S2x800000, .i32⟩ : BufTy).Contents (Elt F)) (wn ws : (⟨S3x96x96, .f32⟩ : BufTy).Contents (Elt F))
    (b g be : (⟨S3x96, .f32⟩ : BufTy).Contents (Elt F)) : (⟨S50000x96, .f32⟩ : BufTy).Contents (Elt F) :=
  normV (preV h (srcV e) (dstV e) (invDegV (dstV e)) (matV1 wn) (matV1 ws) (rowV1 b)) (rowV1 g) (rowV1 be)

/-- Layer 2: the normalised and clamped rows from the layer's input rows, the edge list and the layer's slices of the five parameter stacks. -/
def layerV2 (h : (⟨S50000x96, .f32⟩ : BufTy).Contents (Elt F)) (e : (⟨S2x800000, .i32⟩ : BufTy).Contents (Elt F)) (wn ws : (⟨S3x96x96, .f32⟩ : BufTy).Contents (Elt F))
    (b g be : (⟨S3x96, .f32⟩ : BufTy).Contents (Elt F)) : (⟨S50000x96, .f32⟩ : BufTy).Contents (Elt F) :=
  normV (preV h (srcV e) (dstV e) (invDegV (dstV e)) (matV2 wn) (matV2 ws) (rowV2 b)) (rowV2 g) (rowV2 be)

/-- The network: three layers and the classifier. -/
def netV (h : (⟨S50000x96, .f32⟩ : BufTy).Contents (Elt F)) (e : (⟨S2x800000, .i32⟩ : BufTy).Contents (Elt F)) (wn ws : (⟨S3x96x96, .f32⟩ : BufTy).Contents (Elt F))
    (b g be : (⟨S3x96, .f32⟩ : BufTy).Contents (Elt F)) (W : (⟨S96x10, .f32⟩ : BufTy).Contents (Elt F)) (cb : (⟨S10, .f32⟩ : BufTy).Contents (Elt F)) : (⟨S50000x10, .f32⟩ : BufTy).Contents (Elt F) :=
  scoresV (layerV2 (layerV1 (layerV0 h e wn ws b g be) e wn ws b g be) e wn ws b g be) W cb

end Cert.ReferenceIdeal.RefRun

end
-- ==== Proof.RefRunB.lean ====
/-
  Layer 0's stretches read at their result buffers, from any contents `W` of the device's buffers: the index
  vectors and the reciprocal degrees, the layer before normalisation, and the normalised, clamped rows — each the
  corresponding vector function of the contents the stretch starts from.
-/
import proofs.«122304_j8787503088149_2_alg».proof.Proof.RefRunA
import proofs.«122304_j8787503088149_2_alg».proof.Proof.RefRunF

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The source indices. -/
theorem c0_v1 (W : Valuation τ sig (Elt F)) :
    after c0 W (Proc.devRef .tc main_v1)
      = srcV (W (Proc.devRef .tc main_arg1)) := by
  after_results_simp
  rfl

/-- The destination indices. -/
theorem c0_v3 (W : Valuation τ sig (Elt F)) :
    after c0 W (Proc.devRef .tc main_v3)
      = dstV (W (Proc.devRef .tc main_arg1)) := by
  after_results_simp
  rfl

/-- The reciprocal degrees. -/
theorem c0_v12 (W : Valuation τ sig (Elt F)) :
    after c0 W (Proc.devRef .tc main_v12)
      = invDegV (dstV (W (Proc.devRef .tc main_arg1))) := by
  after_results_simp
  rfl

set_option maxHeartbeats 1000000 in
/-- Layer 0 before normalisation. -/
theorem c1_v36 (W : Valuation τ sig (Elt F)) :
    after c1 W (Proc.devRef .tc main_v36)
      = preV (W (Proc.devRef .tc main_arg0)) (W (Proc.devRef .tc main_v1)) (W (Proc.devRef .tc main_v3)) (W (Proc.devRef .tc main_v12)) (matV0 (W (Proc.devRef .tc main_arg2))) (matV0 (W (Proc.devRef .tc main_arg3))) (rowV0 (W (Proc.devRef .tc main_arg4))) := by
  after_results_simp
  rfl

set_option maxHeartbeats 4000000 in
/-- Layer 0's normalised, clamped rows. -/
theorem n0_v60 (W : Valuation τ sig (Elt F)) :
    after c3 (after c2 W) (Proc.devRef .tc main_v60)
      = normV (W (Proc.devRef .tc main_v36)) (rowV0 (W (Proc.devRef .tc main_arg5))) (rowV0 (W (Proc.devRef .tc main_arg6))) := by
  after_results_simp
  rfl

end Cert.ReferenceIdeal.RefRun

end
-- ==== Proof.RefRunC.lean ====
/-
  Layer 1's stretches read at their result buffers, from any contents `W` of the device's buffers.
-/
import proofs.«122304_j8787503088149_2_alg».proof.Proof.RefRunA
import proofs.«122304_j8787503088149_2_alg».proof.Proof.RefRunF

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
/-- Layer 1 before normalisation. -/
theorem c4_v84 (W : Valuation τ sig (Elt F)) :
    after c4 W (Proc.devRef .tc main_v84)
      = preV (W (Proc.devRef .tc main_v60)) (W (Proc.devRef .tc main_v1)) (W (Proc.devRef .tc main_v3)) (W (Proc.devRef .tc main_v12)) (matV1 (W (Proc.devRef .tc main_arg2))) (matV1 (W (Proc.devRef .tc main_arg3))) (rowV1 (W (Proc.devRef .tc main_arg4))) := by
  after_results_simp
  rfl

set_option maxHeartbeats 4000000 in
/-- Layer 1's normalised, clamped rows. -/
theorem n1_v108 (W : Valuation τ sig (Elt F)) :
    after c6 (after c5 W) (Proc.devRef .tc main_v108)
      = normV (W (Proc.devRef .tc main_v84)) (rowV1 (W (Proc.devRef .tc main_arg5))) (rowV1 (W (Proc.devRef .tc main_arg6))) := by
  after_results_simp
  rfl

end Cert.ReferenceIdeal.RefRun

end
-- ==== Proof.RefRunD.lean ====
/-
  Layer 2's stretches and the classifier read at their result buffers, from any contents `W` of the device's buffers.
-/
import proofs.«122304_j8787503088149_2_alg».proof.Proof.RefRunA
import proofs.«122304_j8787503088149_2_alg».proof.Proof.RefRunF

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
/-- Layer 2 before normalisation. -/
theorem c7_v132 (W : Valuation τ sig (Elt F)) :
    after c7 W (Proc.devRef .tc main_v132)
      = preV (W (Proc.devRef .tc main_v108)) (W (Proc.devRef .tc main_v1)) (W (Proc.devRef .tc main_v3)) (W (Proc.devRef .tc main_v12)) (matV2 (W (Proc.devRef .tc main_arg2))) (matV2 (W (Proc.devRef .tc main_arg3))) (rowV2 (W (Proc.devRef .tc main_arg4))) := by
  after_results_simp
  rfl

set_option maxHeartbeats 4000000 in
/-- Layer 2's normalised, clamped rows. -/
theorem n2_v156 (W : Valuation τ sig (Elt F)) :
    after c9 (after c8 W) (Proc.devRef .tc main_v156)
      = normV (W (Proc.devRef .tc main_v132)) (rowV2 (W (Proc.devRef .tc main_arg5))) (rowV2 (W (Proc.devRef .tc main_arg6))) := by
  after_results_simp
  rfl

/-- The classifier's scores, from layer 2's rows as the last stretch leaves them. -/
theorem c9_v160 (W : Valuation τ sig (Elt F)) :
    after c9 W (Proc.devRef .tc main_v160)
      = scoresV (after c9 W (Proc.devRef .tc main_v156)) (W (Proc.devRef .tc main_arg7)) (W (Proc.devRef .tc main_arg8)) := by
  after_results_simp
  rfl

end Cert.ReferenceIdeal.RefRun

end
-- ==== Proof.RefRunS.lean ====
/-
  The fold of @main's operations at the result buffer is the network of the reference's vector functions applied to
  the nine arguments. The line is read stretch by stretch from its end: the scores from layer 2's rows, each layer's
  rows from the layer before normalisation, that from the previous layer's rows; a buffer read further down than where
  it is written (the edge indices and reciprocal degrees, every argument) is followed through the stretches that do
  not write it. The functions the stretches were read as are, composition for composition, the ones the index-level
  reading of the reference is stated for.
-/
import proofs.«122304_j8787503088149_2_alg».proof.Proof.RefRun
import proofs.«122304_j8787503088149_2_alg».proof.Proof.RefRunB
import proofs.«122304_j8787503088149_2_alg».proof.Proof.RefRunC
import proofs.«122304_j8787503088149_2_alg».proof.Proof.RefRunD
import proofs.«122304_j8787503088149_2_alg».proof.Proof.RefRead

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The two spellings of the vector functions agree -/

theorem layerV0_eq (h : (⟨S50000x96, .f32⟩ : BufTy).Contents (Elt Ideal)) (e : (⟨S2x800000, .i32⟩ : BufTy).Contents (Elt Ideal)) (wn ws : (⟨S3x96x96, .f32⟩ : BufTy).Contents (Elt Ideal)) (b g be : (⟨S3x96, .f32⟩ : BufTy).Contents (Elt Ideal)) :
    layerV0 (F := Ideal) h e wn ws b g be = RefRead.layerV0 e wn ws b g be h := rfl
theorem layerV1_eq (h : (⟨S50000x96, .f32⟩ : BufTy).Contents (Elt Ideal)) (e : (⟨S2x800000, .i32⟩ : BufTy).Contents (Elt Ideal)) (wn ws : (⟨S3x96x96, .f32⟩ : BufTy).Contents (Elt Ideal)) (b g be : (⟨S3x96, .f32⟩ : BufTy).Contents (Elt Ideal)) :
    layerV1 (F := Ideal) h e wn ws b g be = RefRead.layerV1 e wn ws b g be h := rfl
theorem layerV2_eq (h : (⟨S50000x96, .f32⟩ : BufTy).Contents (Elt Ideal)) (e : (⟨S2x800000, .i32⟩ : BufTy).Contents (Elt Ideal)) (wn ws : (⟨S3x96x96, .f32⟩ : BufTy).Contents (Elt Ideal)) (b g be : (⟨S3x96, .f32⟩ : BufTy).Contents (Elt Ideal)) :
    layerV2 (F := Ideal) h e wn ws b g be = RefRead.layerV2 e wn ws b g be h := rfl
theorem scoresV_eq (h : (⟨S50000x96, .f32⟩ : BufTy).Contents (Elt Ideal)) (W : (⟨S96x10, .f32⟩ : BufTy).Contents (Elt Ideal)) (cb : (⟨S10, .f32⟩ : BufTy).Contents (Elt Ideal)) :
    scoresV (F := Ideal) h W cb = RefRead.scoresV W cb h := rfl

/-- The network in the other spelling. -/
theorem netV_eq (h : (⟨S50000x96, .f32⟩ : BufTy).Contents (Elt Ideal)) (e : (⟨S2x800000, .i32⟩ : BufTy).Contents (Elt Ideal)) (wn ws : (⟨S3x96x96, .f32⟩ : BufTy).Contents (Elt Ideal)) (b g be : (⟨S3x96, .f32⟩ : BufTy).Contents (Elt Ideal))
    (W : (⟨S96x10, .f32⟩ : BufTy).Contents (Elt Ideal)) (cb : (⟨S10, .f32⟩ : BufTy).Contents (Elt Ideal)) :
    netV (F := Ideal) h e wn ws b g be W cb
      = RefRead.scoresV W cb (RefRead.layerV2 e wn ws b g be (RefRead.layerV1 e wn ws b g be (RefRead.layerV0 e wn ws b g be h))) := by
  unfold netV
  rw [layerV0_eq, layerV1_eq, layerV2_eq, scoresV_eq]

/-! ## The fold at the result buffer -/

section Keep

variable {F : FTy → Type} [FloatOps F]

theorem keep0' (V : Valuation τ sig (Elt F)) {r : Ref sig .tc} (h : r ∉ c0_W) :
    after c0 V (no_index (Proc.devRef .tc r)) = V (Proc.devRef .tc r) := keep0 V r h
theorem keep1' (V : Valuation τ sig (Elt F)) {r : Ref sig .tc} (h : r ∉ c1_W) :
    after c1 V (no_index (Proc.devRef .tc r)) = V (Proc.devRef .tc r) := keep1 V r h
theorem keep2' (V : Valuation τ sig (Elt F)) {r : Ref sig .tc} (h : r ∉ c2_W) :
    after c2 V (no_index (Proc.devRef .tc r)) = V (Proc.devRef .tc r) := keep2 V r h
theorem keep3' (V : Valuation τ sig (Elt F)) {r : Ref sig .tc} (h : r ∉ c3_W) :
    after c3 V (no_index (Proc.devRef .tc r)) = V (Proc.devRef .tc r) := keep3 V r h
theorem keep4' (V : Valuation τ sig (Elt F)) {r : Ref sig .tc} (h : r ∉ c4_W) :
    after c4 V (no_index (Proc.devRef .tc r)) = V (Proc.devRef .tc r) := keep4 V r h
theorem keep5' (V : Valuation τ sig (Elt F)) {r : Ref sig .tc} (h : r ∉ c5_W) :
    after c5 V (no_index (Proc.devRef .tc r)) = V (Proc.devRef .tc r) := keep5 V r h
theorem keep6' (V : Valuation τ sig (Elt F)) {r : Ref sig .tc} (h : r ∉ c6_W) :
    after c6 V (no_index (Proc.devRef .tc r)) = V (Proc.devRef .tc r) := keep6 V r h
theorem keep7' (V : Valuation τ sig (Elt F)) {r : Ref sig .tc} (h : r ∉ c7_W) :
    after c7 V (no_index (Proc.devRef .tc r)) = V (Proc.devRef .tc r) := keep7 V r h
theorem keep8' (V : Valuation τ sig (Elt F)) {r : Ref sig .tc} (h : r ∉ c8_W) :
    after c8 V (no_index (Proc.devRef .tc r)) = V (Proc.devRef .tc r) := keep8 V r h
theorem keep9' (V : Valuation τ sig (Elt F)) {r : Ref sig .tc} (h : r ∉ c9_W) :
    after c9 V (no_index (Proc.devRef .tc r)) = V (Proc.devRef .tc r) := keep9 V r h

/-- The fold of the whole line at the result buffer, from any contents: the network applied to the arguments' contents. -/
theorem fold_out (V : Valuation τ sig (Elt F)) :
    after ops V (Proc.devRef .tc main_v160)
      = netV (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  simp only [ops, after_append]
  rw [c9_v160, n2_v156, c7_v132, n1_v108, c4_v84, n0_v60, c1_v36]
  simp (disch := decide) only [keep0', keep1', keep2', keep3', keep4', keep5', keep6', keep7', keep8', keep9']
  rw [c0_v1, c0_v3, c0_v12]
  rfl

end Keep

/-- The result buffer after @main, in the index-level reading's functions: the scores of three layers from the arguments. -/
theorem val_result (m : (ℓ : Loc nD τ sig) → Buf (Elt Ideal) ℓ) (c : Dev nD) :
    after (ops (F := Ideal)) (launchContents m c) (Proc.devRef .tc main_v160)
      = RefRead.scoresV (m ((c.tc : Thread nD τ).loc main_arg7)) (m ((c.tc : Thread nD τ).loc main_arg8))
          (RefRead.layerV2 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
            (RefRead.layerV1 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
              (RefRead.layerV0 (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
                (m ((c.tc : Thread nD τ).loc main_arg0))))) :=
  (fold_out (launchContents m c)).trans (netV_eq _ _ _ _ _ _ _ _ _)

end Cert.ReferenceIdeal.RefRun

end
-- ==== Proof.RefRead0.lean ====
/-
  The reference program's compositions read at an index.

  One lemma per operation that is not pointwise — a column's sum over the nodes, a broadcast of a vector along the rows,
  a product over the shared axis, a slice of the stacked parameters — and the words of the variance's divisor (the node
  count less the integer zero is the node count, which is above zero, so the variance is the quotient and never the
  fixed word); then each layer and the scores as the specification's functions of the entries, and the whole network.
-/
import proofs.«122304_j8787503088149_2_alg».proof.Proof.RefRead

noncomputable section

namespace Cert.ReferenceIdeal.RefRead

open Cert.ReferenceIdeal Idealize.ShloMosaic Idealize.ShloMosaic.ValueIdx Cert.Sage

variable [Facts]
open Facts₀ Facts

/-! ## The pieces read at an index -/

/-- The index a column reduction lifts `(q)` and the position `p` to is `(p, q)`. -/
theorem lift_col {a b : ℕ} (h : (⟨2, ![a, b]⟩ : Shape).Reduces [0] ⟨1, ![b]⟩) (q : Fin b) (p : Fin a) :
    h.lift (ix1 q) p = ix2 p q := by
  funext c
  apply Fin.ext
  show h.liftVal (ix1 q) p.val c = (ix2 p q c).val
  match c with
  | ⟨0, _⟩ => simp [Shape.Reduces.liftVal]
  | ⟨1, _⟩ => simp [Shape.Reduces.liftVal]

/-- The columns' sums at column `q`: the zero word plus the sum of the column's entries. -/
theorem colsumV_apply (x : FVec Ideal S50000x96 .f32) (q : Fin 96) :
    colsumV x (ix1 q) = w0 + ∑ p : Fin 50000, x (ix2 p q) := by
  have h : S50000x96.Reduces [0] S96 := by decide
  show Ideal.hostReduceAdd reducesTo_S50000x96_S96_d0 x (Ideal.ofBits .f32 0x00000000#32) (ix1 q) = _
  exact (Ideal.hostReduceAdd_single reducesTo_S50000x96_S96_d0 h x _ (ix1 q)).trans
    (congrArg (w0 + ·) (Finset.sum_congr rfl fun p _ => congrArg x (lift_col h q p)))

/-- The columns' means at column `q`. -/
theorem meanV_apply (x : FVec Ideal S50000x96 .f32) (q : Fin 96) :
    meanV x (ix1 q) = Ideal.div (colsumV x (ix1 q)) wN := by
  show Ideal.div (colsumV x (ix1 q))
    (broadcastInDim S96 ![] bcast_S_S96 (constant (F := Ideal) S_ .f32 0x47435000#32) (ix1 q)) = _
  rw [Cert.LibRowOps.broadcastInDim_scalar_apply]
  rfl

/-- A vector repeated along the rows reads, at `(p, q)`, its entry `q`. -/
theorem rowsV_apply (v : FVec Ideal S96 .f32) (p : Fin 50000) (q : Fin 96) : rowsV v (ix2 p q) = v (ix1 q) :=
  (Cert.LibRowOps.broadcastInDim_1b_ab_apply bcast_S1x96_S50000x96_0_1 _ p q).trans
    (Cert.LibRowOps.broadcastInDim_b_1b_apply bcast_S96_S1x96_1 v (0 : Fin 1) q)

/-- The squared deviation from the column's mean at `(p, q)`. -/
theorem devsqV_apply (x : FVec Ideal S50000x96 .f32) (p : Fin 50000) (q : Fin 96) :
    devsqV x (ix2 p q)
      = (x (ix2 p q) - Ideal.div (colsumV x (ix1 q)) wN) * (x (ix2 p q) - Ideal.div (colsumV x (ix1 q)) wN) := by
  have hm : broadcastInDim S50000x96 ![0, 1] bcast_S1x96_S50000x96_0_1
      (Host.divf (broadcastInDim S1x96 ![1] bcast_S96_S1x96_1 (colsumV x))
        (broadcastInDim S1x96 ![] bcast_S_S1x96 (constant (F := Ideal) S_ .f32 0x47435000#32))) (ix2 p q)
      = Ideal.div (colsumV x (ix1 q)) wN := by
    rw [Cert.LibRowOps.broadcastInDim_1b_ab_apply]
    show Ideal.div (broadcastInDim S1x96 ![1] bcast_S96_S1x96_1 (colsumV x) (ix2 (0 : Fin 1) q))
      (broadcastInDim S1x96 ![] bcast_S_S1x96 (constant (F := Ideal) S_ .f32 0x47435000#32) (ix2 (0 : Fin 1) q)) = _
    rw [Cert.LibRowOps.broadcastInDim_b_1b_apply, Cert.LibRowOps.broadcastInDim_scalar_apply]
    rfl
  unfold devsqV
  rw [mulf_apply, subf_apply, hm]

/-! ## The words of the variance's divisor -/

/-- The node count's word is the real number 50000. -/
theorem wN_real : wN = ((50000 : ℝ) : EReal) := by
  show Ideal.ofBits .f32 0x47435000#32 = _
  simp [Ideal.ofBits, Ideal.ieee, -EReal.coe_mul]; norm_num

/-- The divisor with the correction zero: the node count less the integer zero read as a float is the node count. -/
theorem cntV_zero : cntV (constantI S_ 32 0#32) ix0 = wN := by
  show wN - (((0#32 : BitVec 32).toInt : ℝ) : EReal) = wN
  simp

/-- The node count is above zero, as the comparison computes it. -/
theorem cmp_wN_w0 : FloatOps.cmpf (F := Ideal) (φ := .f32) .ogt wN w0 = 1#1 := by
  have h : (0 : EReal) < wN := by
    rw [wN_real]
    exact_mod_cast (by norm_num : (0 : ℝ) < 50000)
  rw [Ideal.cmpf_def]
  show BitVec.ofBool (decide (w0 < wN)) = 1#1
  rw [show w0 = (0 : EReal) from Ideal.ofBits_zero_f32, decide_eq_true h]
  rfl

/-- The columns' variances at column `q`, the correction zero: the sum of the squared deviations over the node count. -/
theorem varV_apply (x : FVec Ideal S50000x96 .f32) (q : Fin 96) :
    varV x (constantI S_ 32 0#32) (ix1 q) = Ideal.div (colsumV (devsqV x) (ix1 q)) wN := by
  have hc : broadcastInDim S96 ![] bcast_S_S96
      (cmpf .ogt (cntV (constantI S_ 32 0#32)) (constant (F := Ideal) S_ .f32 0x00000000#32)) (ix1 q) = 1#1 := by
    rw [Cert.LibRowOps.broadcastInDim_scalar_apply]
    show FloatOps.cmpf .ogt (cntV (constantI S_ 32 0#32) ix0) w0 = 1#1
    rw [cntV_zero]
    exact cmp_wN_w0
  have hd : broadcastInDim S96 ![] bcast_S_S96 (cntV (constantI S_ 32 0#32)) (ix1 q) = wN := by
    rw [Cert.LibRowOps.broadcastInDim_scalar_apply]
    exact cntV_zero
  show Scalar.select
      (broadcastInDim S96 ![] bcast_S_S96
        (cmpf .ogt (cntV (constantI S_ 32 0#32)) (constant (F := Ideal) S_ .f32 0x00000000#32)) (ix1 q))
      (Ideal.div (colsumV (devsqV x) (ix1 q)) (broadcastInDim S96 ![] bcast_S_S96 (cntV (constantI S_ 32 0#32)) (ix1 q)))
      _ = _
  rw [hc, hd, select_one]

/-- A normalised, scaled, shifted and clipped entry. -/
theorem bnV_apply (x : FVec Ideal S50000x96 .f32) (gl bel : FVec Ideal S96 .f32) (p : Fin 50000) (q : Fin 96) :
    bnV x gl bel (ix2 p q)
      = max ((x (ix2 p q) - meanV x (ix1 q)) * Ideal.rsqrt (varV x (constantI S_ 32 0#32) (ix1 q) + wEps) * gl (ix1 q)
          + bel (ix1 q)) w0 := by
  show max ((x (ix2 p q) - rowsV (meanV x) (ix2 p q))
        * rowsV (Host.rsqrt (addf (varV x (constantI S_ 32 0#32))
            (broadcastInDim S96 ![] bcast_S_S96 (constant (F := Ideal) S_ .f32 0x3727C5AC#32)))) (ix2 p q)
        * rowsV gl (ix2 p q) + rowsV bel (ix2 p q))
      (broadcastInDim S50000x96 ![] bcast_S_S50000x96 (constant (F := Ideal) S_ .f32 0x00000000#32) (ix2 p q)) = _
  rw [rowsV_apply, rowsV_apply, rowsV_apply, rowsV_apply, Cert.LibRowOps.broadcastInDim_scalar_apply]
  show max ((x (ix2 p q) - meanV x (ix1 q))
        * Ideal.rsqrt (varV x (constantI S_ 32 0#32) (ix1 q)
            + broadcastInDim S96 ![] bcast_S_S96 (constant (F := Ideal) S_ .f32 0x3727C5AC#32) (ix1 q))
        * gl (ix1 q) + bel (ix1 q)) w0 = _
  rw [Cert.LibRowOps.broadcastInDim_scalar_apply]
  rfl

/-! ## The two products and the parameters' slices -/

/-- A product of an `a × b` by a `b × c` array over the one shared axis, as the host computes it, at `(p, n)`: the
    sum over `k` of the products of the entries `(p, k)` and `(k, n)`. -/
theorem hostDot_apply {a b c : ℕ} {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    Host.dotGeneral d none A B (ix2 p n) = ∑ k : Fin b, A (ix2 p k) * B (ix2 k n) := by
  obtain ⟨lc, rc, ln, rn, lb, rb, wf⟩ := d
  dsimp only at hlc hrc hln hrn hlb hrb
  subst hlc hrc hln hrn hlb hrb
  refine (Ideal.dotGeneral_apply _ none .single A B (ix2 p n)).trans ?_
  refine Cert.LibRowOps.sum_contr _ rfl rfl ?_ ?_ ?_ ?_ A B p n
  · intro j k
    unfold DotDims.lhsIdx
    rw [dif_neg List.not_mem_nil, dif_pos (List.mem_singleton.mpr rfl)]
    rfl
  · intro j k
    exact DotDims.lhsIdx_val_of_single _ rfl j k
  · intro j k
    exact DotDims.rhsIdx_val_of_single _ rfl j k
  · intro j k
    unfold DotDims.rhsIdx
    rw [dif_neg List.not_mem_nil, dif_pos (List.mem_singleton.mpr rfl)]
    rfl

theorem dot96_apply (l : FVec Ideal S50000x96 .f32) (r : FVec Ideal S96x96 .f32) (p : Fin 50000) (q : Fin 96) :
    Host.dotGeneral dot_S50000x96_S96x96_S50000x96_1_0_0_1_n_n none l r (ix2 p q)
      = ∑ k : Fin 96, l (ix2 p k) * r (ix2 k q) :=
  hostDot_apply dot_S50000x96_S96x96_S50000x96_1_0_0_1_n_n rfl rfl rfl rfl rfl rfl l r p q

theorem dot10_apply (l : FVec Ideal S50000x96 .f32) (r : FVec Ideal S96x10 .f32) (p : Fin 50000) (c : Fin 10) :
    Host.dotGeneral dot_S50000x96_S96x10_S50000x10_1_0_0_1_n_n none l r (ix2 p c)
      = ∑ k : Fin 96, l (ix2 p k) * r (ix2 k c) :=
  hostDot_apply dot_S50000x96_S96x10_S50000x10_1_0_0_1_n_n rfl rfl rfl rfl rfl rfl l r p c

/-- Matrix `l` of the stack at `(k, j)` is the stack at `(l, k, j)`. -/
theorem mat0_apply (w : FVec Ideal S3x96x96 .f32) (k j : Fin 96) : mat0 w (ix2 k j) = w (ix3 (0 : Fin 3) k j) :=
  (shapeCast_1ab_ab_apply _ shapeCasts_S1x96x96_S96x96 k j).trans
    (extractStridedSlice_apply _ w slices_S3x96x96_S1x96x96_0_0_0 (ix3 (0 : Fin 1) k j) (ix3 (0 : Fin 3) k j) (fun ax => by
      match ax with
      | ⟨0, _⟩ => rfl
      | ⟨1, _⟩ => exact (Nat.zero_add _).symm
      | ⟨2, _⟩ => exact (Nat.zero_add _).symm))
theorem mat1_apply (w : FVec Ideal S3x96x96 .f32) (k j : Fin 96) : mat1 w (ix2 k j) = w (ix3 (1 : Fin 3) k j) :=
  (shapeCast_1ab_ab_apply _ shapeCasts_S1x96x96_S96x96 k j).trans
    (extractStridedSlice_apply _ w slices_S3x96x96_S1x96x96_1_0_0 (ix3 (0 : Fin 1) k j) (ix3 (1 : Fin 3) k j) (fun ax => by
      match ax with
      | ⟨0, _⟩ => rfl
      | ⟨1, _⟩ => exact (Nat.zero_add _).symm
      | ⟨2, _⟩ => exact (Nat.zero_add _).symm))
theorem mat2_apply (w : FVec Ideal S3x96x96 .f32) (k j : Fin 96) : mat2 w (ix2 k j) = w (ix3 (2 : Fin 3) k j) :=
  (shapeCast_1ab_ab_apply _ shapeCasts_S1x96x96_S96x96 k j).trans
    (extractStridedSlice_apply _ w slices_S3x96x96_S1x96x96_2_0_0 (ix3 (0 : Fin 1) k j) (ix3 (2 : Fin 3) k j) (fun ax => by
      match ax with
      | ⟨0, _⟩ => rfl
      | ⟨1, _⟩ => exact (Nat.zero_add _).symm
      | ⟨2, _⟩ => exact (Nat.zero_add _).symm))

/-- Row `l` of the table at `j` is the table at `(l, j)`. -/
theorem row0_apply (b : FVec Ideal S3x96 .f32) (j : Fin 96) : row0 b (ix1 j) = b (ix2 (0 : Fin 3) j) :=
  (shapeCast_1a_a_apply _ shapeCasts_S1x96_S96 j).trans
    (slice2_axis0_apply 0 b slices_S3x96_S1x96_0_0 (0 : Fin 1) j (0 : Fin 3) rfl)
theorem row1_apply (b : FVec Ideal S3x96 .f32) (j : Fin 96) : row1 b (ix1 j) = b (ix2 (1 : Fin 3) j) :=
  (shapeCast_1a_a_apply _ shapeCasts_S1x96_S96 j).trans
    (slice2_axis0_apply 1 b slices_S3x96_S1x96_1_0 (0 : Fin 1) j (1 : Fin 3) rfl)
theorem row2_apply (b : FVec Ideal S3x96 .f32) (j : Fin 96) : row2 b (ix1 j) = b (ix2 (2 : Fin 3) j) :=
  (shapeCast_1a_a_apply _ shapeCasts_S1x96_S96 j).trans
    (slice2_axis0_apply 2 b slices_S3x96_S1x96_2_0 (0 : Fin 1) j (2 : Fin 3) rfl)

/-- The affine part of a layer at `(p, q)`. -/
theorem preV_apply (e : IVec S2x800000 32) (wnl wsl : FVec Ideal S96x96 .f32) (bl : FVec Ideal S96 .f32)
    (h : FVec Ideal S50000x96 .f32) (p : Fin 50000) (q : Fin 96) :
    preV e wnl wsl bl h (ix2 p q)
      = (∑ k : Fin 96, (aggV e h (ix2 p k) * invV e (ix2 p (0 : Fin 1))) * wnl (ix2 k q))
        + (∑ k : Fin 96, h (ix2 p k) * wsl (ix2 k q)) + bl (ix1 q) := by
  unfold preV
  rw [addf_apply, addf_apply, dot96_apply, dot96_apply, rowsV_apply]
  refine congrArg (fun s => s + (∑ k : Fin 96, h (ix2 p k) * wsl (ix2 k q)) + bl (ix1 q)) ?_
  refine Finset.sum_congr rfl fun k _ => ?_
  rw [mulf_apply, Cert.LibRowOps.broadcastInDim_a1_ab_apply]

/-- The last affine map at `(p, k)`. -/
theorem scoresV_apply (cw : FVec Ideal S96x10 .f32) (cb : FVec Ideal S10 .f32) (h : FVec Ideal S50000x96 .f32)
    (p : Fin 50000) (k : Fin 10) :
    scoresV cw cb h (ix2 p k) = Sage.clf (toMat h) (fun j k => cw (ix2 j k)) (fun k => cb (ix1 k)) p k := by
  unfold scoresV
  rw [addf_apply, dot10_apply, Cert.LibRowOps.broadcastInDim_1b_ab_apply, Cert.LibRowOps.broadcastInDim_b_1b_apply]
  rfl

/-! ## The layers over matrices of entries -/

/-- An array is the array of its matrix of entries. -/
theorem ofMat_toMat (h : FVec Ideal S50000x96 .f32) : ofMat (toMat h) = h :=
  funext fun j => (congrArg h (eq_ix2 j)).symm

/-- The affine part of a layer is the specification's, over the neighbour sums and reciprocal degrees of the entries. -/
theorem toMat_preV (e : IVec S2x800000 32) (wnl wsl : FVec Ideal S96x96 .f32) (bl : FVec Ideal S96 .f32)
    (h : FVec Ideal S50000x96 .f32) :
    toMat (preV e wnl wsl bl h)
      = Sage.pre (aggM e (toMat h)) (toMat h) (invM e) (fun k j => wnl (ix2 k j)) (fun k j => wsl (ix2 k j))
          (fun j => bl (ix1 j)) := by
  funext p q
  have ha : aggM e (toMat h) = toMat (aggV e h) := congrArg (fun v => toMat (aggV e v)) (ofMat_toMat h)
  rw [ha]
  exact preV_apply e wnl wsl bl h p q

/-- Normalising by the columns' means and variances is the specification's textbook form. -/
theorem toMat_bnV (x : FVec Ideal S50000x96 .f32) (gl bel : FVec Ideal S96 .f32) :
    toMat (bnV x gl bel)
      = Sage.bnR (toMat x) (Sage.mean (toMat x)) (Sage.varR (toMat x)) (fun j => gl (ix1 j)) (fun j => bel (ix1 j)) := by
  funext p q
  have hmean : ∀ q : Fin 96, meanV x (ix1 q) = Sage.mean (toMat x) q := fun q => by
    rw [meanV_apply, colsumV_apply]
    rfl
  have hvar : varV x (constantI S_ 32 0#32) (ix1 q) = Sage.varR (toMat x) q := by
    rw [varV_apply, colsumV_apply]
    refine congrArg (fun s => Ideal.div (w0 + s) wN) (Finset.sum_congr rfl fun p' _ => ?_)
    rw [devsqV_apply, ← meanV_apply, hmean]
    rfl
  show bnV x gl bel (ix2 p q) = _
  rw [bnV_apply, hvar, hmean]
  rfl

/-- Each layer is the specification's, with its own slice of the stacked parameters. -/
theorem toMat_layerV0 (e : IVec S2x800000 32) (wn ws : FVec Ideal S3x96x96 .f32) (b g be : FVec Ideal S3x96 .f32)
    (h : FVec Ideal S50000x96 .f32) :
    toMat (layerV0 e wn ws b g be h)
      = Sage.layerR (aggM e) (invM e) (fun k j => wn (ix3 (0 : Fin 3) k j)) (fun k j => ws (ix3 (0 : Fin 3) k j))
          (fun j => b (ix2 (0 : Fin 3) j)) (fun j => g (ix2 (0 : Fin 3) j)) (fun j => be (ix2 (0 : Fin 3) j)) (toMat h) := by
  unfold layerV0 Sage.layerR
  rw [toMat_bnV, toMat_preV]
  simp only [mat0_apply, row0_apply]
theorem toMat_layerV1 (e : IVec S2x800000 32) (wn ws : FVec Ideal S3x96x96 .f32) (b g be : FVec Ideal S3x96 .f32)
    (h : FVec Ideal S50000x96 .f32) :
    toMat (layerV1 e wn ws b g be h)
      = Sage.layerR (aggM e) (invM e) (fun k j => wn (ix3 (1 : Fin 3) k j)) (fun k j => ws (ix3 (1 : Fin 3) k j))
          (fun j => b (ix2 (1 : Fin 3) j)) (fun j => g (ix2 (1 : Fin 3) j)) (fun j => be (ix2 (1 : Fin 3) j)) (toMat h) := by
  unfold layerV1 Sage.layerR
  rw [toMat_bnV, toMat_preV]
  simp only [mat1_apply, row1_apply]
theorem toMat_layerV2 (e : IVec S2x800000 32) (wn ws : FVec Ideal S3x96x96 .f32) (b g be : FVec Ideal S3x96 .f32)
    (h : FVec Ideal S50000x96 .f32) :
    toMat (layerV2 e wn ws b g be h)
      = Sage.layerR (aggM e) (invM e) (fun k j => wn (ix3 (2 : Fin 3) k j)) (fun k j => ws (ix3 (2 : Fin 3) k j))
          (fun j => b (ix2 (2 : Fin 3) j)) (fun j => g (ix2 (2 : Fin 3) j)) (fun j => be (ix2 (2 : Fin 3) j)) (toMat h) := by
  unfold layerV2 Sage.layerR
  rw [toMat_bnV, toMat_preV]
  simp only [mat2_apply, row2_apply]

theorem layerV0_apply (e : IVec S2x800000 32) (wn ws : FVec Ideal S3x96x96 .f32) (b g be : FVec Ideal S3x96 .f32)
    (h : FVec Ideal S50000x96 .f32) (p : Fin 50000) (q : Fin 96) :
    layerV0 e wn ws b g be h (ix2 p q)
      = Sage.layerR (aggM e) (invM e) (fun k j => wn (ix3 (0 : Fin 3) k j)) (fun k j => ws (ix3 (0 : Fin 3) k j))
          (fun j => b (ix2 (0 : Fin 3) j)) (fun j => g (ix2 (0 : Fin 3) j)) (fun j => be (ix2 (0 : Fin 3) j)) (toMat h) p q :=
  congrFun (congrFun (toMat_layerV0 e wn ws b g be h) p) q
theorem layerV1_apply (e : IVec S2x800000 32) (wn ws : FVec Ideal S3x96x96 .f32) (b g be : FVec Ideal S3x96 .f32)
    (h : FVec Ideal S50000x96 .f32) (p : Fin 50000) (q : Fin 96) :
    layerV1 e wn ws b g be h (ix2 p q)
      = Sage.layerR (aggM e) (invM e) (fun k j => wn (ix3 (1 : Fin 3) k j)) (fun k j => ws (ix3 (1 : Fin 3) k j))
          (fun j => b (ix2 (1 : Fin 3) j)) (fun j => g (ix2 (1 : Fin 3) j)) (fun j => be (ix2 (1 : Fin 3) j)) (toMat h) p q :=
  congrFun (congrFun (toMat_layerV1 e wn ws b g be h) p) q
theorem layerV2_apply (e : IVec S2x800000 32) (wn ws : FVec Ideal S3x96x96 .f32) (b g be : FVec Ideal S3x96 .f32)
    (h : FVec Ideal S50000x96 .f32) (p : Fin 50000) (q : Fin 96) :
    layerV2 e wn ws b g be h (ix2 p q)
      = Sage.layerR (aggM e) (invM e) (fun k j => wn (ix3 (2 : Fin 3) k j)) (fun k j => ws (ix3 (2 : Fin 3) k j))
          (fun j => b (ix2 (2 : Fin 3) j)) (fun j => g (ix2 (2 : Fin 3) j)) (fun j => be (ix2 (2 : Fin 3) j)) (toMat h) p q :=
  congrFun (congrFun (toMat_layerV2 e wn ws b g be h) p) q

/-- The whole reference: three layers and the scores, as the specification's network over the entries. -/
theorem result_apply (e : IVec S2x800000 32) (wn ws : FVec Ideal S3x96x96 .f32) (b g be : FVec Ideal S3x96 .f32)
    (cw : FVec Ideal S96x10 .f32) (cb : FVec Ideal S10 .f32) (x : FVec Ideal S50000x96 .f32) (p : Fin 50000) (k : Fin 10) :
    scoresV cw cb (layerV2 e wn ws b g be (layerV1 e wn ws b g be (layerV0 e wn ws b g be x))) (ix2 p k)
      = Sage.netR (aggM e) (invM e) (fun l k j => wn (ix3 l k j)) (fun l k j => ws (ix3 l k j)) (fun l j => b (ix2 l j))
          (fun l j => g (ix2 l j)) (fun l j => be (ix2 l j)) (fun j k => cw (ix2 j k)) (fun k => cb (ix1 k)) (toMat x) p k := by
  rw [scoresV_apply, toMat_layerV2, toMat_layerV1, toMat_layerV0]
  rfl

end Cert.ReferenceIdeal.RefRead

end
-- ==== Proof.PreReal.lean ====
/-
  Finiteness of the float inputs, read out of the predicate on the inputs.

  The predicate computes, for each of the eight float arguments `x`, the conjunction over all entries of
  `|x| < +∞` (the absolute value, a comparison against the word of +∞, and an `and`-reduction over every axis),
  and then the conjunction of the eight bits.  On the extended reals `|a| = max a (-a)` is below `⊤` exactly when
  `a` is neither `⊤` nor `⊥`, that is, when `a` is a real number.  So the predicate being true makes every entry of
  every float argument a real number.
-/
import proofs.«122304_j8787503088149_2_alg».proof.Pre_finite_inputs
import proofs.«122304_j8787503088149_2_alg».proof.Proof.Gen.Pre_finite_inputs
import proofs.«122304_j8787503088149_2_alg».proof.Proof.Spec
import Idealize.ShloMosaic.Lib.ReduceAll
import Idealize.ShloMosaic.Lib.ValueIdx

noncomputable section

namespace Cert.PreReal

open Cert.Pre_finite_inputs Idealize.ShloMosaic Cert.Sage

/-- The rank-0 shape has one index. -/
instance : Subsingleton S_.Idx := ⟨fun a b => funext fun d => d.elim0⟩

/-- An extended real whose absolute value `max a (-a)` is below `⊤` is a real number. -/
theorem isR_of_abs_lt_top (a : EReal) (h : max a (-a) < ⊤) : IsR a := by
  induction a using EReal.rec with
  | bot => simp at h
  | coe r => exact ⟨r, rfl⟩
  | top => simp at h

/-- The word `0x7F800000` is +∞. -/
theorem ofBits_inf : Ideal.ofBits .f32 0x7F800000#32 = (⊤ : EReal) := by simp [Ideal.ofBits, Ideal.ieee]

/-- One entry of the comparison `|x| < +∞` (against the broadcast word of +∞) being true makes that entry of `x`
    a real number; over an arbitrary shape. -/
theorem isR_of_cmp {s : Shape} (hb : S_.BroadcastsInDim s (![] : Fin 0 → Fin s.rank)) (x : FVec Ideal s .f32) (j : s.Idx)
    (h : cmpf .olt (Host.absf x) (broadcastInDim s ![] hb (constant (F := Ideal) S_ .f32 0x7F800000#32)) j = 1#1) :
    IsR (x j) := by
  have h' : Ideal.cmp .olt (max (x j : EReal) (-(x j : EReal))) (Ideal.ofBits .f32 0x7F800000#32) = 1#1 := h
  rw [ofBits_inf] at h'
  unfold Ideal.cmp at h'
  refine isR_of_abs_lt_top (x j) ?_
  by_contra hn
  simp [hn] at h'

/-- Both conjuncts of an `and` of two bits that is 1, read at an index. -/
theorem andi_split {s : Shape} (x y : IVec s 1) (j : s.Idx) (h : andi x y j = 1#1) : x j = 1#1 ∧ y j = 1#1 :=
  IntOp.andi_eq_one.1 h

/-- `jnp.all(|x| < +∞)` being true makes every entry of `x` a real number; over an arbitrary shape and axis list. -/
theorem isR_of_all {s : Shape} {axes : List (Fin s.rank)} (hb : S_.BroadcastsInDim s (![] : Fin 0 → Fin s.rank))
    (hr : s.ReducesTo axes S_) (hu : 0 < S_.numel) (x : FVec Ideal s .f32)
    (h : Host.reduce IntOp.andi
          (cmpf .olt (Host.absf x) (broadcastInDim s ![] hb (constant (F := Ideal) S_ .f32 0x7F800000#32)))
          (constantI S_ 1 1#1) hr hu ValueIdx.ix0 = 1#1) (j : s.Idx) : IsR (x j) :=
  isR_of_cmp hb x j (Host.reduce_andi_all _ _ hr hu ValueIdx.ix0 h j)

theorem real_of_pre [Cert.Pre_finite_inputs.Facts]
    (a0 : FVec Ideal S50000x96 .f32) (a1 : IVec S2x800000 32) (a2 a3 : FVec Ideal S3x96x96 .f32) (a4 a5 a6 : FVec Ideal S3x96 .f32)
    (a7 : FVec Ideal S96x10 .f32) (a8 : FVec Ideal S10 .f32)
    (h : Cert.Pre_finite_inputs.fn (F := Ideal) a0 a1 a2 a3 a4 a5 a6 a7 a8 = (fun _ => 1#1)) :
    (∀ j, IsR (a0 j)) ∧ (∀ j, IsR (a2 j)) ∧ (∀ j, IsR (a3 j)) ∧ (∀ j, IsR (a4 j)) ∧ (∀ j, IsR (a5 j)) ∧ (∀ j, IsR (a6 j)) ∧ (∀ j, IsR (a7 j)) ∧ (∀ j, IsR (a8 j)) := by
  have h0 := congrFun h ValueIdx.ix0
  dsimp only [fn, fn_part1, fn_part2] at h0
  obtain ⟨h07, h8⟩ := andi_split _ _ _ h0
  obtain ⟨h06, h7⟩ := andi_split _ _ _ h07
  obtain ⟨h05, h6⟩ := andi_split _ _ _ h06
  obtain ⟨h04, h5⟩ := andi_split _ _ _ h05
  obtain ⟨h03, h4⟩ := andi_split _ _ _ h04
  obtain ⟨h02, h3⟩ := andi_split _ _ _ h03
  obtain ⟨h00, h2⟩ := andi_split _ _ _ h02
  exact ⟨isR_of_all _ _ _ a0 h00, isR_of_all _ _ _ a2 h2, isR_of_all _ _ _ a3 h3, isR_of_all _ _ _ a4 h4,
    isR_of_all _ _ _ a5 h5, isR_of_all _ _ _ a6 h6, isR_of_all _ _ _ a7 h7, isR_of_all _ _ _ a8 h8⟩

end Cert.PreReal

end
-- ==== Proof.AggEq.lean ====
/-
  The neighbour sums and the reciprocal in-degrees of the two programs are the same functions.

  Both programs read the edge list's two rows, wrap a negative source by the node count, gather the features' rows at
  the sources and add them into a zero matrix at the targets; and both count the edges arriving at a node by adding
  ones into zeros at the targets, keep the count at least one and divide one by it.  The operations, their shapes and
  their dimension numbers are the same literals on both sides, so each pair of compositions is one term.
-/
import proofs.«122304_j8787503088149_2_alg».proof.Proof.KHostDefs
import proofs.«122304_j8787503088149_2_alg».proof.Proof.RefRead
import proofs.«122304_j8787503088149_2_alg».proof.Proof.KAggReal

noncomputable section

namespace Cert.Bridge

open Idealize.ShloMosaic

variable [Cert.ReferenceIdeal.Facts]

/-- The edge list's source row is the same slice on both sides. -/
theorem srcRow_eq (e : IVec Cert.KernelIdeal.S2x800000 32) :
    Cert.KernelIdeal.KHost.srcRow e = Cert.ReferenceIdeal.RefRead.srcRow e := rfl

/-- The edge list's target row is the same slice on both sides. -/
theorem dstRow_eq (e : IVec Cert.KernelIdeal.S2x800000 32) :
    Cert.KernelIdeal.KHost.dstRow e = Cert.ReferenceIdeal.RefRead.dstRow e := rfl

/-- The neighbour sums: the same gather of the source rows added into zeros at the targets. -/
theorem aggRows_eq (e : IVec Cert.KernelIdeal.S2x800000 32) (h : FVec Ideal Cert.KernelIdeal.S50000x96 .f32) :
    Cert.KernelIdeal.KHost.aggRows (Cert.KernelIdeal.KHost.srcRow e) (Cert.KernelIdeal.KHost.dstRow e) h
      = Cert.ReferenceIdeal.RefRead.aggV e h := by
  unfold Cert.KernelIdeal.KHost.aggRows Cert.ReferenceIdeal.RefRead.aggV Cert.ReferenceIdeal.RefRead.dstIdx
    Cert.ReferenceIdeal.RefRead.srcIdx
  rw [srcRow_eq, dstRow_eq]
  rfl

/-- The reciprocal in-degrees: the same count of arriving edges, kept at least one, under one. -/
theorem invV_eq (e : IVec Cert.KernelIdeal.S2x800000 32) :
    Cert.KernelIdeal.KHost.invV (Cert.KernelIdeal.KHost.dstRow e) = Cert.ReferenceIdeal.RefRead.invV e := by
  unfold Cert.KernelIdeal.KHost.invV Cert.ReferenceIdeal.RefRead.invV Cert.ReferenceIdeal.RefRead.dstIdx
  rw [dstRow_eq]
  rfl

/-- The neighbour sums over matrices of entries. -/
theorem aggM_eq (e : IVec Cert.KernelIdeal.S2x800000 32) :
    Cert.KernelIdeal.KHost.aggM (Cert.KernelIdeal.KHost.srcRow e) (Cert.KernelIdeal.KHost.dstRow e)
      = Cert.ReferenceIdeal.RefRead.aggM e := by
  funext h
  show Cert.KernelIdeal.KHost.toMat (Cert.KernelIdeal.KHost.aggRows (Cert.KernelIdeal.KHost.srcRow e)
      (Cert.KernelIdeal.KHost.dstRow e) (Cert.KernelIdeal.KHost.ofMat h))
    = Cert.ReferenceIdeal.RefRead.toMat (Cert.ReferenceIdeal.RefRead.aggV e (Cert.ReferenceIdeal.RefRead.ofMat h))
  rw [aggRows_eq]
  rfl

/-- The reciprocal in-degrees as a function of the node. -/
theorem invM_eq (e : IVec Cert.KernelIdeal.S2x800000 32) :
    Cert.KernelIdeal.KHost.invM (Cert.KernelIdeal.KHost.dstRow e) = Cert.ReferenceIdeal.RefRead.invM e := by
  funext p
  show Cert.KernelIdeal.KHost.invV (Cert.KernelIdeal.KHost.dstRow e) (ValueIdx.ix2 p (0 : Fin 1))
    = Cert.ReferenceIdeal.RefRead.invV e (ValueIdx.ix2 p (0 : Fin 1))
  rw [invV_eq]

end Cert.Bridge

end
-- ==== Proof.Bridge.lean ====
/-
  The two programs compute the same scores.

  The kernel program's result array is the network in the folded form over its arguments (the neighbour sum and
  the reciprocal in-degrees as the host computes them); the reference's is the network in the textbook form over
  its arguments.  The arguments agree and every float argument is a real number, so the parameters and the
  features are real, the neighbour sum keeps real matrices real, and the two forms of the network agree entry
  by entry.  Both programs run to the end from any memory; the results are equal and the arguments unchanged.
-/
import proofs.«122304_j8787503088149_2_alg».proof.Defs
import proofs.«122304_j8787503088149_2_alg».proof.Proof.KRun
import proofs.«122304_j8787503088149_2_alg».proof.Proof.KValFinal
import proofs.«122304_j8787503088149_2_alg».proof.Proof.KAggReal
import proofs.«122304_j8787503088149_2_alg».proof.Proof.RefRun
import proofs.«122304_j8787503088149_2_alg».proof.Proof.RefRead
import proofs.«122304_j8787503088149_2_alg».proof.Proof.RefRunS
import proofs.«122304_j8787503088149_2_alg».proof.Proof.RefRead0
import proofs.«122304_j8787503088149_2_alg».proof.Proof.PreReal
import proofs.«122304_j8787503088149_2_alg».proof.Proof.Reals
import proofs.«122304_j8787503088149_2_alg».proof.Proof.AggEq

noncomputable section

namespace Cert.Bridge

open Idealize.ShloMosaic Idealize.ShloMosaic.TcCoe Idealize.ShloMosaic.ValueIdx Idealize.SL.Sem Cert.Sage

/-- Over nine arrays of real numbers the folded network, with the kernel program's neighbour sum and reciprocal
    in-degrees, is the textbook network with the reference's, once those two pairs are identified. -/
theorem net_agree
    (hagg : ∀ e : IVec Cert.KernelIdeal.S2x800000 32, Cert.KernelIdeal.KHost.aggM (Cert.KernelIdeal.KHost.srcRow e) (Cert.KernelIdeal.KHost.dstRow e) = Cert.ReferenceIdeal.RefRead.aggM e)
    (hinv : ∀ e : IVec Cert.KernelIdeal.S2x800000 32, Cert.KernelIdeal.KHost.invM (Cert.KernelIdeal.KHost.dstRow e) = Cert.ReferenceIdeal.RefRead.invM e)
    (x : FVec Ideal Cert.KernelIdeal.S50000x96 .f32) (e : IVec Cert.KernelIdeal.S2x800000 32)
    (wn ws : FVec Ideal Cert.KernelIdeal.S3x96x96 .f32) (b g be : FVec Ideal Cert.KernelIdeal.S3x96 .f32)
    (cw : FVec Ideal Cert.KernelIdeal.S96x10 .f32) (cb : FVec Ideal Cert.KernelIdeal.S10 .f32)
    (hx : ∀ j, IsR (x j)) (hwn : ∀ j, IsR (wn j)) (hws : ∀ j, IsR (ws j)) (hb : ∀ j, IsR (b j))
    (hg : ∀ j, IsR (g j)) (hbe : ∀ j, IsR (be j)) :
    netK (Cert.KernelIdeal.KHost.aggM (Cert.KernelIdeal.KHost.srcRow e) (Cert.KernelIdeal.KHost.dstRow e)) (Cert.KernelIdeal.KHost.invM (Cert.KernelIdeal.KHost.dstRow e))
        (fun l k j => wn (ix3 l k j)) (fun l k j => ws (ix3 l k j)) (fun l j => b (ix2 l j))
        (fun l j => g (ix2 l j)) (fun l j => be (ix2 l j)) (fun j k => cw (ix2 j k)) (fun k => cb (ix1 k)) (Cert.KernelIdeal.KHost.toMat x)
      = netR (Cert.ReferenceIdeal.RefRead.aggM e) (Cert.ReferenceIdeal.RefRead.invM e)
        (fun l k j => wn (ix3 l k j)) (fun l k j => ws (ix3 l k j)) (fun l j => b (ix2 l j))
        (fun l j => g (ix2 l j)) (fun l j => be (ix2 l j)) (fun j k => cw (ix2 j k)) (fun k => cb (ix1 k)) (Cert.ReferenceIdeal.RefRead.toMat x) := by
  rw [← hagg e, ← hinv e]
  exact net_eq _ _ (fun h hh => Cert.KernelIdeal.KHost.aggM_real _ _ h hh) (Cert.KernelIdeal.KHost.invM_real _)
    (fun _ _ _ => hwn _) (fun _ _ _ => hws _) (fun _ _ => hb _) (fun _ _ => hg _) (fun _ _ => hbe _) (fun _ _ => hx _)

/-- The reference's network of equal arguments is equal. -/
theorem ref_congr {x x' : FVec Ideal Cert.ReferenceIdeal.S50000x96 .f32} {e e' : IVec Cert.ReferenceIdeal.S2x800000 32}
    {wn wn' ws ws' : FVec Ideal Cert.ReferenceIdeal.S3x96x96 .f32} {b b' g g' be be' : FVec Ideal Cert.ReferenceIdeal.S3x96 .f32}
    {cw cw' : FVec Ideal Cert.ReferenceIdeal.S96x10 .f32} {cb cb' : FVec Ideal Cert.ReferenceIdeal.S10 .f32}
    (h0 : x' = x) (h1 : e' = e) (h2 : wn' = wn) (h3 : ws' = ws) (h4 : b' = b) (h5 : g' = g) (h6 : be' = be)
    (h7 : cw' = cw) (h8 : cb' = cb) :
    Cert.ReferenceIdeal.RefRead.scoresV cw' cb' (Cert.ReferenceIdeal.RefRead.layerV2 e' wn' ws' b' g' be' (Cert.ReferenceIdeal.RefRead.layerV1 e' wn' ws' b' g' be'
      (Cert.ReferenceIdeal.RefRead.layerV0 e' wn' ws' b' g' be' x')))
    = Cert.ReferenceIdeal.RefRead.scoresV cw cb (Cert.ReferenceIdeal.RefRead.layerV2 e wn ws b g be (Cert.ReferenceIdeal.RefRead.layerV1 e wn ws b g be
      (Cert.ReferenceIdeal.RefRead.layerV0 e wn ws b g be x))) := by
  subst h0 h1 h2 h3 h4 h5 h6 h7 h8; rfl

/-- On each core the reference's result array is the kernel program's. -/
theorem value_eq
    (hagg : ∀ e : IVec Cert.KernelIdeal.S2x800000 32, Cert.KernelIdeal.KHost.aggM (Cert.KernelIdeal.KHost.srcRow e) (Cert.KernelIdeal.KHost.dstRow e) = Cert.ReferenceIdeal.RefRead.aggM e)
    (hinv : ∀ e : IVec Cert.KernelIdeal.S2x800000 32, Cert.KernelIdeal.KHost.invM (Cert.KernelIdeal.KHost.dstRow e) = Cert.ReferenceIdeal.RefRead.invM e)
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (StableHlo.after (Cert.ReferenceIdeal.RefRun.ops (F := Ideal)) (StableHlo.launchContents m' c) (Proc.devRef .tc Cert.ReferenceIdeal.main_v160)
        : FVec Ideal Cert.ReferenceIdeal.S50000x10 .f32)
      = (Cert.KernelIdeal.Gen.W12 m ρ c (Proc.devRef .tc Cert.KernelIdeal.main_v108) : FVec Ideal Cert.KernelIdeal.S50000x10 .f32) := by
  obtain ⟨r0, r2, r3, r4, r5, r6, _, _⟩ := Cert.PreReal.real_of_pre _ _ _ _ _ _ _ _ _ (hpre c)
  refine (Cert.ReferenceIdeal.RefRun.val_result m' c).trans ((ref_congr h0 h1 h2 h3 h4 h5 h6 h7 h8).trans ?_)
  funext j
  obtain ⟨p, k, rfl⟩ : ∃ (p : Fin 50000) (k : Fin 10), j = ix2 p k := ⟨j 0, j 1, eq_ix2 j⟩
  refine (Cert.ReferenceIdeal.RefRead.result_apply _ _ _ _ _ _ _ _ _ p k).trans ?_
  refine Eq.trans ?_ (Cert.KernelIdeal.KVal.kernel_value m ρ c p k).symm
  exact (congrFun (congrFun (net_agree hagg hinv _ _ _ _ _ _ _ _ _ r0 r2 r3 r4 r5 r6) p) k).symm

/-- The claim, from the identification of the two programs' neighbour sums and reciprocal in-degrees. -/
theorem algebraic_of
    (hagg : ∀ e : IVec Cert.KernelIdeal.S2x800000 32, Cert.KernelIdeal.KHost.aggM (Cert.KernelIdeal.KHost.srcRow e) (Cert.KernelIdeal.KHost.dstRow e) = Cert.ReferenceIdeal.RefRead.aggM e)
    (hinv : ∀ e : IVec Cert.KernelIdeal.S2x800000 32, Cert.KernelIdeal.KHost.invM (Cert.KernelIdeal.KHost.dstRow e) = Cert.ReferenceIdeal.RefRead.invM e) :
    @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W12 m ρ c (Proc.devRef .tc Cert.KernelIdeal.main_v108), Cert.KernelIdeal.KRun.run_result m ρ, ?_⟩
  refine (θ_run Cert.ReferenceIdeal.defs _ _).mono (fun _ h c => ⟨(h c).1.trans ?_, (h c).2⟩) (Cert.ReferenceIdeal.RefRun.run (F := Ideal) m' ρ')
  exact value_eq hagg hinv m ρ m' hpre c (hagree c).1 (hagree c).2.1 (hagree c).2.2.1 (hagree c).2.2.2.1
    (hagree c).2.2.2.2.1 (hagree c).2.2.2.2.2.1 (hagree c).2.2.2.2.2.2.1 (hagree c).2.2.2.2.2.2.2.1
    (hagree c).2.2.2.2.2.2.2.2

/-- At the ideal values the two programs, from memories that agree on the arguments, both run to the end, leave
    equal result arrays and leave the arguments unchanged. -/
theorem algebraic :
    @Cert.algebraic_KernelIdeal_ReferenceIdeal Cert.KernelIdeal.Gen.facts Cert.ReferenceIdeal.Gen.facts Cert.Pre_finite_inputs.Gen.facts :=
  algebraic_of aggM_eq invM_eq

end Cert.Bridge

end
-- ==== Proof.lean ====
/-
  A three-layer GraphSAGE forward pass against its jnp reference, at the exact instance.

  Per layer the kernel program gathers the features along the edges' sources and sums them into the targets on
  the host, forms the affine map `(agg · inv) · Wn + h · Ws + b` and its per-tile column sums and sums of squares in
  one tiled kernel, reduces those to the columns' mean and variance on the host, and normalises, scales, shifts and
  clips in a second kernel (in the last layer fused with the classifier).  The reference computes mean and variance
  from the affine map directly and normalises in the textbook order.

  The three frames: the two kernel programs by their generated frame proofs; the reference by its run with the
  result dropped.  The idealization rewrote nothing, so `preserves` is trivial.  `algebraic` is Proof/Bridge.lean:
  the kernel program's result array holds the network in the kernel's form (Proof/KValFinal.lean), the reference's
  the network in the textbook form (Proof/RefRunS.lean, Proof/RefRead0.lean), and the two forms agree wherever every
  input is a real number (Proof/Reals.lean), which the precondition gives (Proof/PreReal.lean).
-/
import proofs.«122304_j8787503088149_2_alg».proof.Defs
import proofs.«122304_j8787503088149_2_alg».proof.Proof.Gen.Kernel
import proofs.«122304_j8787503088149_2_alg».proof.Proof.Gen.Kernel.Frame
import proofs.«122304_j8787503088149_2_alg».proof.Proof.Gen.KernelIdeal
import proofs.«122304_j8787503088149_2_alg».proof.Proof.Gen.KernelIdeal.Frame
import proofs.«122304_j8787503088149_2_alg».proof.Proof.Gen.ReferenceIdeal
import proofs.«122304_j8787503088149_2_alg».proof.Proof.Gen.Pre_finite_inputs
import proofs.«122304_j8787503088149_2_alg».proof.Proof.RefRun
import proofs.«122304_j8787503088149_2_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference runs, and its arguments end unchanged: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Bridge.algebraic⟩

end Cert.Proof

end
